-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S2x128 .f32) (main_arg9 : FVec F S2x128 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S3x128 .f32) (main_arg8 : FVec F S2x128 .f32) (main_arg9 : FVec F S2x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) (main_arg6 : FVec F S3x128x128 .f32) (main_arg7 : FVec F S3x128 .f32) (main_arg8 : FVec F S2x128 .f32) (main_arg9 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000 : Shape := ⟨1, ![5000]⟩
abbrev S5000x1 : Shape := ⟨2, ![5000, 1]⟩

abbrev nBuf : Space → Nat
  | .hbm => 175
  | .vmem => 106
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128x128, .f32⟩
  | 7 => ⟨S3x128, .f32⟩
  | 8 => ⟨S2x128, .f32⟩
  | 9 => ⟨S2x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S1x128, .f32⟩
  | 33 => ⟨S128, .f32⟩
  | 34 => ⟨S1x128, .f32⟩
  | 35 => ⟨S1x128, .f32⟩
  | 36 => ⟨S128, .f32⟩
  | 37 => ⟨S1x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S50000x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S1x128, .f32⟩
  | 54 => ⟨S50000x128, .f32⟩
  | 55 => ⟨S50000x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S50000x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S50000x128, .f32⟩
  | 114 => ⟨S50000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128, .f32⟩
  | 23 => ⟨S128, .f32⟩
  | 24 => ⟨S1x128, .f32⟩
  | 25 => ⟨S1x128, .f32⟩
  | 26 => ⟨S128, .f32⟩
  | 27 => ⟨S1x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S50000x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S1x128, .f32⟩
  | 44 => ⟨S50000x128, .f32⟩
  | 45 => ⟨S50000x128, .f32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S128x128, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_c_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78_0 : Ref sig .tc := ⟨.hbm, 102, rfl⟩
abbrev main_v78_1 : Ref sig .tc := ⟨.hbm, 103, rfl⟩
abbrev main_v78_2 : Ref sig .tc := ⟨.hbm, 104, rfl⟩
abbrev main_cst_8 : Ref sig .tc := ⟨.hbm, 105, rfl⟩
abbrev main_v79 : Ref sig .tc := ⟨.hbm, 106, rfl⟩
abbrev main_v80 : Ref sig .tc := ⟨.hbm, 107, rfl⟩
abbrev main_cst_9 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86_0 : Ref sig .tc := ⟨.hbm, 114, rfl⟩
abbrev main_v86_1 : Ref sig .tc := ⟨.hbm, 115, rfl⟩
abbrev main_v86_2 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_12 : Ref sig .tc := ⟨.hbm, 132, rfl⟩
abbrev main_v100 : Ref sig .tc := ⟨.hbm, 133, rfl⟩
abbrev main_v101 : Ref sig .tc := ⟨.hbm, 134, rfl⟩
abbrev main_c_13 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_14 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126_0 : Ref sig .tc := ⟨.hbm, 161, rfl⟩
abbrev main_v126_1 : Ref sig .tc := ⟨.hbm, 162, rfl⟩
abbrev main_v126_2 : Ref sig .tc := ⟨.hbm, 163, rfl⟩
abbrev main_cst_15 : Ref sig .tc := ⟨.hbm, 164, rfl⟩
abbrev main_v127 : Ref sig .tc := ⟨.hbm, 165, rfl⟩
abbrev main_v128 : Ref sig .tc := ⟨.hbm, 166, rfl⟩
abbrev main_cst_16 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg6_0 : Ref sig .tc := ⟨.vmem, 47, rfl⟩
abbrev cc4_scratch0 : Ref sig .tc := ⟨.vmem, 48, rfl⟩
abbrev cc4_scratch1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg3_1 : Ref sig .tc := ⟨.vmem, 63, rfl⟩
abbrev cc6_stg4_0 : Ref sig .tc := ⟨.vmem, 64, rfl⟩
abbrev cc6_stg5_0 : Ref sig .tc := ⟨.vmem, 65, rfl⟩
abbrev cc6_scratch0 : Ref sig .tc := ⟨.vmem, 66, rfl⟩
abbrev cc6_scratch1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg4_1 : Ref sig .tc := ⟨.vmem, 83, rfl⟩
abbrev cc8_stg5_0 : Ref sig .tc := ⟨.vmem, 84, rfl⟩
abbrev cc8_stg6_0 : Ref sig .tc := ⟨.vmem, 85, rfl⟩
abbrev cc8_scratch0 : Ref sig .tc := ⟨.vmem, 86, rfl⟩
abbrev cc8_scratch1 : Ref sig .tc := ⟨.vmem, 87, rfl⟩
abbrev cc9_stg0_0 : Ref sig .tc := ⟨.vmem, 88, rfl⟩
abbrev cc9_stg0_1 : Ref sig .tc := ⟨.vmem, 89, rfl⟩
abbrev cc9_stg1_0 : Ref sig .tc := ⟨.vmem, 90, rfl⟩
abbrev cc9_stg2_0 : Ref sig .tc := ⟨.vmem, 91, rfl⟩
abbrev cc9_stg3_0 : Ref sig .tc := ⟨.vmem, 92, rfl⟩
abbrev cc9_stg4_0 : Ref sig .tc := ⟨.vmem, 93, rfl⟩
abbrev cc9_stg5_0 : Ref sig .tc := ⟨.vmem, 94, rfl⟩
abbrev cc9_stg5_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg3_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc6_sem4_0 : DmaSem sig := 58
abbrev cc6_sem5_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem4_1 : DmaSem sig := 75
abbrev cc8_sem5_0 : DmaSem sig := 76
abbrev cc8_sem6_0 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem4_0 : DmaSem sig := 83
abbrev cc9_sem5_0 : DmaSem sig := 84
abbrev cc9_sem5_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem3_1 : DmaSem sig := 91
abbrev cc11_sem0_0 : DmaSem sig := 92
abbrev cc11_sem0_1 : DmaSem sig := 93
abbrev cc11_sem1_0 : DmaSem sig := 94
abbrev cc11_sem1_1 : DmaSem sig := 95

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S50000x128.size a
  hwx10_3 : ∀ i : grid10.Coords, EltTy.bits .f32 = 32 ∨ (Rect.block (s := S50000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .f32 = 32 ∨ (Rect.block (s := S50000x128) S5000x128.size (cc11_transform_1 i) (hinb11_1 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v30_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v38_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v78_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v78_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v86_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v86_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v86_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v98) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v99) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v99) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v109) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v111) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126_0) S5000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v126_1) S1x128.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v126_2) S1x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun i => !(k8_cond2 i == 1#1) | 6 => fun i => !(k8_cond2 i == 1#1) | ⟨_ + 7, h⟩ => absurd h (Nat.not_lt.2 (Nat.le_add_left _ _))

abbrev win9_0 : Pipeline.Window sig grid9 :=
  Pipeline.Window.ofSpec (Memref.whole main_v126_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v132) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v117) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v120) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v133) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v133) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v122) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v125) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v134) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v134) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v135) S5000x128.size cc11_transform_1 reads11_1 true false 2 stage11_1 sem11_1
    hrank11 hreads11_1 hinb11_1 nbuf11_1 (Memref.isWhole_whole _) hwx11_1 hstage11_1

abbrev win11 : Fin 2 → Pipeline.Window sig grid11 := fun | 0 => win11_0 | 1 => win11_1 | ⟨_ + 2, h⟩ => absurd h (Nat.not_lt.2 (Nat.le_add_left _ _))
abbrev spec11 : Fin 2 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000 : Shape := ⟨1, ![50000]⟩
abbrev S50000x1 : Shape := ⟨2, ![50000, 1]⟩

abbrev nBuf : Space → Nat
  | .hbm => 369
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128x128, .f32⟩
  | 7 => ⟨S3x128, .f32⟩
  | 8 => ⟨S2x128, .f32⟩
  | 9 => ⟨S2x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000x128, .f32⟩
  | 28 => ⟨S1x128x128, .f32⟩
  | 29 => ⟨S128x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S50000, .f32⟩
  | 106 => ⟨S50000x1, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call1_cst : Ref sig .tc := ⟨.hbm, 84, rfl⟩
abbrev main_call1_v0 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_5 : Ref sig .tc := ⟨.hbm, 99, rfl⟩
abbrev main_v59 : Ref sig .tc := ⟨.hbm, 100, rfl⟩
abbrev main_cst_6 : Ref sig .tc := ⟨.hbm, 101, rfl⟩
abbrev main_v60 : Ref sig .tc := ⟨.hbm, 102, rfl⟩
abbrev main_v61 : Ref sig .tc := ⟨.hbm, 103, rfl⟩
abbrev main_c_7 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_cst_8 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call3_cst : Ref sig .tc := ⟨.hbm, 143, rfl⟩
abbrev main_call3_v0 : Ref sig .tc := ⟨.hbm, 144, rfl⟩
abbrev main_v78 : Ref sig .tc := ⟨.hbm, 145, rfl⟩
abbrev main_c_9 : Ref sig .tc := ⟨.hbm, 146, rfl⟩
abbrev main_v79 : Ref sig .tc := ⟨.hbm, 147, rfl⟩
abbrev main_v80 : Ref sig .tc := ⟨.hbm, 148, rfl⟩
abbrev main_c_10 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_cst_11 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_12 : Ref sig .tc := ⟨.hbm, 172, rfl⟩
abbrev main_v102 : Ref sig .tc := ⟨.hbm, 173, rfl⟩
abbrev main_cst_13 : Ref sig .tc := ⟨.hbm, 174, rfl⟩
abbrev main_v103 : Ref sig .tc := ⟨.hbm, 175, rfl⟩
abbrev main_v104 : Ref sig .tc := ⟨.hbm, 176, rfl⟩
abbrev main_c_14 : Ref sig .tc := ⟨.hbm, 177, rfl⟩
abbrev main_call4_cst : Ref sig .tc := ⟨.hbm, 178, rfl⟩
abbrev main_call4_v0 : Ref sig .tc := ⟨.hbm, 179, rfl⟩
abbrev main_call4_v1 : Ref sig .tc := ⟨.hbm, 180, rfl⟩
abbrev main_call4_cst_0 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_call4_v5 : Ref sig .tc := ⟨.hbm, 185, rfl⟩
abbrev main_call4_v6 : Ref sig .tc := ⟨.hbm, 186, rfl⟩
abbrev main_call4_v7 : Ref sig .tc := ⟨.hbm, 187, rfl⟩
abbrev main_call4_cst_1 : Ref sig .tc := ⟨.hbm, 188, rfl⟩
abbrev main_call4_v8 : Ref sig .tc := ⟨.hbm, 189, rfl⟩
abbrev main_call4_cst_2 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_cst_3 : Ref sig .tc := ⟨.hbm, 194, rfl⟩
abbrev main_call4_v12 : Ref sig .tc := ⟨.hbm, 195, rfl⟩
abbrev main_call4_cst_4 : Ref sig .tc := ⟨.hbm, 196, rfl⟩
abbrev main_call4_call0_v0 : Ref sig .tc := ⟨.hbm, 197, rfl⟩
abbrev main_call4_call0_v1 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_15 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_call5_cst : Ref sig .tc := ⟨.hbm, 216, rfl⟩
abbrev main_call5_v0 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_cst_16 : Ref sig .tc := ⟨.hbm, 231, rfl⟩
abbrev main_v134 : Ref sig .tc := ⟨.hbm, 232, rfl⟩
abbrev main_cst_17 : Ref sig .tc := ⟨.hbm, 233, rfl⟩
abbrev main_v135 : Ref sig .tc := ⟨.hbm, 234, rfl⟩
abbrev main_v136 : Ref sig .tc := ⟨.hbm, 235, rfl⟩
abbrev main_c_18 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_cst_1 : Ref sig .tc := ⟨.hbm, 247, rfl⟩
abbrev main_call6_v8 : Ref sig .tc := ⟨.hbm, 248, rfl⟩
abbrev main_call6_cst_2 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_cst_3 : Ref sig .tc := ⟨.hbm, 253, rfl⟩
abbrev main_call6_v12 : Ref sig .tc := ⟨.hbm, 254, rfl⟩
abbrev main_call6_cst_4 : Ref sig .tc := ⟨.hbm, 255, rfl⟩
abbrev main_call6_call0_v0 : Ref sig .tc := ⟨.hbm, 256, rfl⟩
abbrev main_call6_call0_v1 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_cst_19 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_call7_cst : Ref sig .tc := ⟨.hbm, 275, rfl⟩
abbrev main_call7_v0 : Ref sig .tc := ⟨.hbm, 276, rfl⟩
abbrev main_v153 : Ref sig .tc := ⟨.hbm, 277, rfl⟩
abbrev main_c_20 : Ref sig .tc := ⟨.hbm, 278, rfl⟩
abbrev main_v154 : Ref sig .tc := ⟨.hbm, 279, rfl⟩
abbrev main_v155 : Ref sig .tc := ⟨.hbm, 280, rfl⟩
abbrev main_c_21 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_cst_22 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_cst_23 : Ref sig .tc := ⟨.hbm, 304, rfl⟩
abbrev main_v177 : Ref sig .tc := ⟨.hbm, 305, rfl⟩
abbrev main_cst_24 : Ref sig .tc := ⟨.hbm, 306, rfl⟩
abbrev main_v178 : Ref sig .tc := ⟨.hbm, 307, rfl⟩
abbrev main_v179 : Ref sig .tc := ⟨.hbm, 308, rfl⟩
abbrev main_c_25 : Ref sig .tc := ⟨.hbm, 309, rfl⟩
abbrev main_call8_cst : Ref sig .tc := ⟨.hbm, 310, rfl⟩
abbrev main_call8_v0 : Ref sig .tc := ⟨.hbm, 311, rfl⟩
abbrev main_call8_v1 : Ref sig .tc := ⟨.hbm, 312, rfl⟩
abbrev main_call8_cst_0 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_v5 : Ref sig .tc := ⟨.hbm, 317, rfl⟩
abbrev main_call8_v6 : Ref sig .tc := ⟨.hbm, 318, rfl⟩
abbrev main_call8_v7 : Ref sig .tc := ⟨.hbm, 319, rfl⟩
abbrev main_call8_cst_1 : Ref sig .tc := ⟨.hbm, 320, rfl⟩
abbrev main_call8_v8 : Ref sig .tc := ⟨.hbm, 321, rfl⟩
abbrev main_call8_cst_2 : Ref sig .tc := ⟨.hbm, 322, rfl⟩
abbrev main_call8_v9 : Ref sig .tc := ⟨.hbm, 323, rfl⟩
abbrev main_call8_v10 : Ref sig .tc := ⟨.hbm, 324, rfl⟩
abbrev main_call8_v11 : Ref sig .tc := ⟨.hbm, 325, rfl⟩
abbrev main_call8_cst_3 : Ref sig .tc := ⟨.hbm, 326, rfl⟩
abbrev main_call8_v12 : Ref sig .tc := ⟨.hbm, 327, rfl⟩
abbrev main_call8_cst_4 : Ref sig .tc := ⟨.hbm, 328, rfl⟩
abbrev main_call8_call0_v0 : Ref sig .tc := ⟨.hbm, 329, rfl⟩
abbrev main_call8_call0_v1 : Ref sig .tc := ⟨.hbm, 330, rfl⟩
abbrev main_v180 : Ref sig .tc := ⟨.hbm, 331, rfl⟩
abbrev main_v181 : Ref sig .tc := ⟨.hbm, 332, rfl⟩
abbrev main_v182 : Ref sig .tc := ⟨.hbm, 333, rfl⟩
abbrev main_v183 : Ref sig .tc := ⟨.hbm, 334, rfl⟩
abbrev main_v184 : Ref sig .tc := ⟨.hbm, 335, rfl⟩
abbrev main_v185 : Ref sig .tc := ⟨.hbm, 336, rfl⟩
abbrev main_v186 : Ref sig .tc := ⟨.hbm, 337, rfl⟩
abbrev main_cst_26 : Ref sig .tc := ⟨.hbm, 338, rfl⟩
abbrev main_v187 : Ref sig .tc := ⟨.hbm, 339, rfl⟩
abbrev main_v188 : Ref sig .tc := ⟨.hbm, 340, rfl⟩
abbrev main_v189 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_v193 : Ref sig .tc := ⟨.hbm, 345, rfl⟩
abbrev main_v194 : Ref sig .tc := ⟨.hbm, 346, rfl⟩
abbrev main_v195 : Ref sig .tc := ⟨.hbm, 347, rfl⟩
abbrev main_call9_cst : Ref sig .tc := ⟨.hbm, 348, rfl⟩
abbrev main_call9_v0 : Ref sig .tc := ⟨.hbm, 349, rfl⟩
abbrev main_v196 : Ref sig .tc := ⟨.hbm, 350, rfl⟩
abbrev main_v197 : Ref sig .tc := ⟨.hbm, 351, rfl⟩
abbrev main_v198 : Ref sig .tc := ⟨.hbm, 352, rfl⟩
abbrev main_v199 : Ref sig .tc := ⟨.hbm, 353, rfl⟩
abbrev main_v200 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev main_call10_v0 : Ref sig .tc := ⟨.hbm, 359, rfl⟩
abbrev main_call10_cst : Ref sig .tc := ⟨.hbm, 360, rfl⟩
abbrev main_call10_v1 : Ref sig .tc := ⟨.hbm, 361, rfl⟩
abbrev main_call10_v2 : Ref sig .tc := ⟨.hbm, 362, rfl⟩
abbrev main_v205 : Ref sig .tc := ⟨.hbm, 363, rfl⟩
abbrev main_cst_27 : Ref sig .tc := ⟨.hbm, 364, rfl⟩
abbrev main_v206 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.LinearStats1.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 0.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LinearStats1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its staging buffer holds tile `t` of its array when the body runs at `t`, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid0.Coords) : Prop := (Scalar.cmpi .ne (Scalar.extui (Scalar.cmpi .eq (BitVec.ofNat 32 (i 0).val) 0#32)) 0#32) = 1#1
abbrev isLast (i : grid0.Coords) : Prop := k0_cond2 i = 1#1
theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 9 :=
  (by decide +kernel : ∀ t : Fin grid0.N, isLast (grid0.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid0.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) s0 fullShare (k0_pay4 x0 x1 x2 x3 xs) ∗ owns (c : Thread nD τ) s1 fullShare (k0_pay5 x0 x1 x2 x3 xq)) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid0.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) s0 fullShare (k0_pay4 x0 x1 x2 x3 (k0_pay1 (F := F))) ∗ owns (c : Thread nD τ) s1 fullShare (k0_pay5 x0 x1 x2 x3 (k0_pay2 (F := F)))) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid0.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) a5 fullShare (k0_pay4 x0 x1 x2 x3 xs) ∗ owns (c : Thread nD τ) a6 fullShare (k0_pay5 x0 x1 x2 x3 xq)
            ∗ owns (c : Thread nD τ) s0 fullShare (k0_pay4 x0 x1 x2 x3 xs) ∗ owns (c : Thread nD τ) s1 fullShare (k0_pay5 x0 x1 x2 x3 xq)) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc0_scratch0
abbrev scM1 : Memref sig .tc .vmem S1x128 .f32 := Memref.whole cc0_scratch1

/-- The two accumulators after tile `n`: the column sums, and the column sums of squares, of the output tiles
    `0 … n`, accumulated tile by tile from zero. -/
def acc (c : Dev nD) : (n : ℕ) → n < cfg0.N → Vec F S1x128 .f32 × Vec F S1x128 .f32
  | 0, hn => (k0_pay4 (tile V c 0 ⟨0, hn⟩) (tile V c 1 ⟨0, hn⟩) (tile V c 2 ⟨0, hn⟩) (tile V c 3 ⟨0, hn⟩) (k0_pay1 (F := F)),
      k0_pay5 (tile V c 0 ⟨0, hn⟩) (tile V c 1 ⟨0, hn⟩) (tile V c 2 ⟨0, hn⟩) (tile V c 3 ⟨0, hn⟩) (k0_pay2 (F := F)))
  | n + 1, hn => (k0_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k0_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg0.N) (h : t.val = 0) :
    acc V c t.val t.isLt = (k0_pay4 (tile V c 0 t) (tile V c 1 t) (tile V c 2 t) (tile V c 3 t) (k0_pay1 (F := F)), k0_pay5 (tile V c 0 t) (tile V c 1 t) (tile V c 2 t) (tile V c 3 t) (k0_pay2 (F := F))) := by
  obtain ⟨n, hn⟩ := t
  cases n with
  | zero => rfl
  | succ n => exact absurd h (Nat.succ_ne_zero _)

theorem acc_later (c : Dev nD) (t : Fin cfg0.N) (h : t.val ≠ 0) :
    acc V c t.val t.isLt = (k0_pay4 (tile V c 0 t) (tile V c 1 t) (tile V c 2 t) (tile V c 3 t) (acc V c (t.val - 1) (Nat.lt_of_le_of_lt (Nat.sub_le _ _) t.isLt)).1,
      k0_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg0.N → sProp 𝕄
  | 0, _ => Pipeline.ΦA spec0 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec0 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => k0_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) : (dat V c).after 4 t = k0_pay3 (tile V c 0 t) (tile V c 1 t) (tile V c 2 t) (tile V c 3 t) := by dsimp only [dat]
theorem after_5 (c : Dev nD) (t : Fin cfg0.N) : (dat V c).after 5 t = (acc V c t.val t.isLt).1 := by dsimp only [dat]
theorem after_6 (c : Dev nD) (t : Fin cfg0.N) : (dat V c).after 6 t = (acc V c t.val t.isLt).2 := by dsimp only [dat]
theorem before_0 (c : Dev nD) (t : Fin cfg0.N) (d) : (dat V c).before 0 t d = tile V c 0 t :=
  before_of_0 V (dat V c) (A_eq V c 0) (after_0 V c) t d
theorem before_1 (c : Dev nD) (t : Fin cfg0.N) (d) : (dat V c).before 1 t d = tile V c 1 t :=
  before_of_1 V (dat V c) (A_eq V c 1) (after_1 V c) t d
theorem before_2 (c : Dev nD) (t : Fin cfg0.N) (d) : (dat V c).before 2 t d = tile V c 2 t :=
  before_of_2 V (dat V c) (A_eq V c 2) (after_2 V c) t d
theorem before_3 (c : Dev nD) (t : Fin cfg0.N) (d) : (dat V c).before 3 t d = tile V c 3 t :=
  before_of_3 V (dat V c) (A_eq V c 3) (after_3 V c) t d

/-! ## Where the two small outputs are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem idle_5 : ∀ t : Fin cfg0.N, ¬isLast (grid0.coords t) → cfg0.idle 5 (grid0.coords t) = true := by decide +kernel
theorem unflushed_5 : ∀ t : Fin cfg0.N, ¬isLast (grid0.coords t) → (cfg0.win 5).flush t = false := by decide +kernel
theorem live_5 : ∀ t : Fin cfg0.N, isLast (grid0.coords t) → cfg0.idle 5 (grid0.coords t) = false := by decide +kernel
theorem idle_6 : ∀ t : Fin cfg0.N, ¬isLast (grid0.coords t) → cfg0.idle 6 (grid0.coords t) = true := by decide +kernel
theorem unflushed_6 : ∀ t : Fin cfg0.N, ¬isLast (grid0.coords t) → (cfg0.win 6).flush t = false := by decide +kernel
theorem live_6 : ∀ t : Fin cfg0.N, isLast (grid0.coords t) → cfg0.idle 6 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg0.N = 10 from N_0)
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).leavesExact 3 t = owns (c : Thread nD τ) (st0_3 t) fullShare ((dat V c).after 3 t) from by
    unfold Dat.leavesExact; rw [live_3 t], after_3]
  rw [show (dat V c).leavesExact 4 t = owns (c : Thread nD τ) (st0_4 t) fullShare ((dat V c).after 4 t) from by
    unfold Dat.leavesExact; rw [live_4 t], after_4]
  by_cases h0 : t.val = 0
  · have hF : isFirst (grid0.coords t) := (first_iff t).mpr h0
    have hL : ¬isLast (grid0.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid0.coords t) := fun h => h0 ((first_iff t).mp h)
    by_cases h9 : t.val = 9
    · have hL : isLast (grid0.coords t) := (last_iff t).mpr h9
      rw [show (dat V c).leavesExact 5 t = owns (c : Thread nD τ) (st0_5 t) fullShare ((dat V c).after 5 t) from by
        unfold Dat.leavesExact; rw [live_5 t hL], after_5]
      rw [show (dat V c).leavesExact 6 t = owns (c : Thread nD τ) (st0_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid0.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W0, bigSep_W0]
  exact body_at V c t

/-- What the region is handed is the invariant before the first tile; -/
theorem inv_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.Kernel.LinearStats1

end
-- ==== Proof.Kernel.Normalize1.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 1.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows): its staging buffer holds tile `t` of its array when the body runs at `t`, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc1_bn_relu_kernel i arg0 harg0 arg1 harg1 arg2 harg2 arg3 harg3 arg4 harg4 arg5 harg5) K := by
  simp only [cc1_bn_relu_kernel_eq_skeleton]; unfold cc1_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = tile V c 2 t := by dsimp only [dat]
theorem after_3 (c : Dev nD) (t : Fin cfg1.N) : (dat V c).after 3 t = tile V c 3 t := by dsimp only [dat]
theorem after_4 (c : Dev nD) (t : Fin cfg1.N) : (dat V c).after 4 t = tile V c 4 t := by dsimp only [dat]
theorem after_5 (c : Dev nD) (t : Fin cfg1.N) : (dat V c).after 5 t = normalised (tile V c 0 t) (tile V c 1 t) (tile V c 2 t) (tile V c 3 t) (tile V c 4 t) := by dsimp only [dat]
theorem before_0 (c : Dev nD) (t : Fin cfg1.N) (d) : (dat V c).before 0 t d = tile V c 0 t :=
  before_of_0 V (dat V c) (A_eq V c 0) (after_0 V c) t d
theorem before_1 (c : Dev nD) (t : Fin cfg1.N) (d) : (dat V c).before 1 t d = tile V c 1 t :=
  before_of_1 V (dat V c) (A_eq V c 1) (after_1 V c) t d
theorem before_2 (c : Dev nD) (t : Fin cfg1.N) (d) : (dat V c).before 2 t d = tile V c 2 t :=
  before_of_2 V (dat V c) (A_eq V c 2) (after_2 V c) t d
theorem before_3 (c : Dev nD) (t : Fin cfg1.N) (d) : (dat V c).before 3 t d = tile V c 3 t :=
  before_of_3 V (dat V c) (A_eq V c 3) (after_3 V c) t d
theorem before_4 (c : Dev nD) (t : Fin cfg1.N) (d) : (dat V c).before 4 t d = tile V c 4 t :=
  before_of_4 V (dat V c) (A_eq V c 4) (after_4 V c) t d

/-- What the body is called with at tile `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W1, bigSep_W1]
  exact body_at V c t

end Cert.Kernel.Normalize1

end
-- ==== Proof.Kernel.LinearStats2.lean ====
/-
  A linear layer with running column statistics, row tile by row tile (ten tiles of 5000 rows of a 50000 x 128
  array): the rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 2.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LinearStats2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its staging buffer holds tile `t` of its array when the body runs at `t`, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid2.Coords) : Prop := (Scalar.cmpi .ne (Scalar.extui (Scalar.cmpi .eq (BitVec.ofNat 32 (i 0).val) 0#32)) 0#32) = 1#1
abbrev isLast (i : grid2.Coords) : Prop := k2_cond2 i = 1#1
theorem first_iff : ∀ t : Fin cfg2.N, isFirst (grid2.coords t) ↔ t.val = 0 :=
  (by decide +kernel : ∀ t : Fin grid2.N, isFirst (grid2.coords t) ↔ t.val = 0)
theorem last_iff : ∀ t : Fin cfg2.N, isLast (grid2.coords t) ↔ t.val = 9 :=
  (by decide +kernel : ∀ t : Fin grid2.N, isLast (grid2.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid2.Coords) (hc0 : ¬isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) s0 fullShare (k2_pay4 x0 x1 x2 xs) ∗ owns (c : Thread nD τ) s1 fullShare (k2_pay5 x0 x1 x2 xq)) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid2.Coords) (hc0 : isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) s0 fullShare (k2_pay4 x0 x1 x2 (k2_pay1 (F := F))) ∗ owns (c : Thread nD τ) s1 fullShare (k2_pay5 x0 x1 x2 (k2_pay2 (F := F)))) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%ds, %fs, -, Hs⟩, ⟨%dq, %fq, -, Hq⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid2.Coords) (hc0 : ¬isFirst i) (hc1 : isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) a4 fullShare (k2_pay4 x0 x1 x2 xs) ∗ owns (c : Thread nD τ) a5 fullShare (k2_pay5 x0 x1 x2 xq)
            ∗ owns (c : Thread nD τ) s0 fullShare (k2_pay4 x0 x1 x2 xs) ∗ owns (c : Thread nD τ) s1 fullShare (k2_pay5 x0 x1 x2 xq)) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc2_scratch0
abbrev scM1 : Memref sig .tc .vmem S1x128 .f32 := Memref.whole cc2_scratch1

/-- The two accumulators after tile `n`: the column sums, and the column sums of squares, of the output tiles
    `0 … n`, accumulated tile by tile from zero. -/
def acc (c : Dev nD) : (n : ℕ) → n < cfg2.N → Vec F S1x128 .f32 × Vec F S1x128 .f32
  | 0, hn => (k2_pay4 (tile V c 0 ⟨0, hn⟩) (tile V c 1 ⟨0, hn⟩) (tile V c 2 ⟨0, hn⟩) (k2_pay1 (F := F)),
      k2_pay5 (tile V c 0 ⟨0, hn⟩) (tile V c 1 ⟨0, hn⟩) (tile V c 2 ⟨0, hn⟩) (k2_pay2 (F := F)))
  | n + 1, hn => (k2_pay4 (tile V c 0 ⟨n + 1, hn⟩) (tile V c 1 ⟨n + 1, hn⟩) (tile V c 2 ⟨n + 1, hn⟩) (acc c n (Nat.lt_of_succ_lt hn)).1,
      k2_pay5 (tile V c 0 ⟨n + 1, hn⟩) (tile V c 1 ⟨n + 1, hn⟩) (tile V c 2 ⟨n + 1, hn⟩) (acc c n (Nat.lt_of_succ_lt hn)).2)

theorem acc_first (c : Dev nD) (t : Fin cfg2.N) (h : t.val = 0) :
    acc V c t.val t.isLt = (k2_pay4 (tile V c 0 t) (tile V c 1 t) (tile V c 2 t) (k2_pay1 (F := F)), k2_pay5 (tile V c 0 t) (tile V c 1 t) (tile V c 2 t) (k2_pay2 (F := F))) := by
  obtain ⟨n, hn⟩ := t
  cases n with
  | zero => rfl
  | succ n => exact absurd h (Nat.succ_ne_zero _)

theorem acc_later (c : Dev nD) (t : Fin cfg2.N) (h : t.val ≠ 0) :
    acc V c t.val t.isLt = (k2_pay4 (tile V c 0 t) (tile V c 1 t) (tile V c 2 t) (acc V c (t.val - 1) (Nat.lt_of_le_of_lt (Nat.sub_le _ _) t.isLt)).1,
      k2_pay5 (tile V c 0 t) (tile V c 1 t) (tile V c 2 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg2.N → sProp 𝕄
  | 0, _ => Pipeline.ΦA spec2 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec2 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => k2_pay3 (tile V c 0 t) (tile V c 1 t) (tile V c 2 t)
    | ⟨4, _⟩ => (acc V c t.val t.isLt).1
    | ⟨5, _⟩ => (acc V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = tile V c 0 t := by dsimp only [dat]
theorem after_1 (c : Dev nD) (t : Fin cfg2.N) : (dat V c).after 1 t = tile V c 1 t := by dsimp only [dat]
theorem after_2 (c : Dev nD) (t : Fin cfg2.N) : (dat V c).after 2 t = tile V c 2 t := by dsimp only [dat]
theorem after_3 (c : Dev nD) (t : Fin cfg2.N) : (dat V c).after 3 t = k2_pay3 (tile V c 0 t) (tile V c 1 t) (tile V c 2 t) := by dsimp only [dat]
theorem after_4 (c : Dev nD) (t : Fin cfg2.N) : (dat V c).after 4 t = (acc V c t.val t.isLt).1 := by dsimp only [dat]
theorem after_5 (c : Dev nD) (t : Fin cfg2.N) : (dat V c).after 5 t = (acc V c t.val t.isLt).2 := by dsimp only [dat]
theorem before_0 (c : Dev nD) (t : Fin cfg2.N) (d) : (dat V c).before 0 t d = tile V c 0 t :=
  before_of_0 V (dat V c) (A_eq V c 0) (after_0 V c) t d
theorem before_1 (c : Dev nD) (t : Fin cfg2.N) (d) : (dat V c).before 1 t d = tile V c 1 t :=
  before_of_1 V (dat V c) (A_eq V c 1) (after_1 V c) t d
theorem before_2 (c : Dev nD) (t : Fin cfg2.N) (d) : (dat V c).before 2 t d = tile V c 2 t :=
  before_of_2 V (dat V c) (A_eq V c 2) (after_2 V c) t d

/-! ## Where the two small outputs are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_4 : ∀ t : Fin cfg2.N, ¬isLast (grid2.coords t) → cfg2.idle 4 (grid2.coords t) = true := by decide +kernel
theorem unflushed_4 : ∀ t : Fin cfg2.N, ¬isLast (grid2.coords t) → (cfg2.win 4).flush t = false := by decide +kernel
theorem live_4 : ∀ t : Fin cfg2.N, isLast (grid2.coords t) → cfg2.idle 4 (grid2.coords t) = false := by decide +kernel
theorem idle_5 : ∀ t : Fin cfg2.N, ¬isLast (grid2.coords t) → cfg2.idle 5 (grid2.coords t) = true := by decide +kernel
theorem unflushed_5 : ∀ t : Fin cfg2.N, ¬isLast (grid2.coords t) → (cfg2.win 5).flush t = false := by decide +kernel
theorem live_5 : ∀ t : Fin cfg2.N, isLast (grid2.coords t) → cfg2.idle 5 (grid2.coords t) = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg2.N = 10 from N_2)
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  rw [show (dat V c).leavesExact 3 t = owns (c : Thread nD τ) (st2_3 t) fullShare ((dat V c).after 3 t) from by
    unfold Dat.leavesExact; rw [live_3 t], after_3]
  by_cases h0 : t.val = 0
  · have hF : isFirst (grid2.coords t) := (first_iff t).mpr h0
    have hL : ¬isLast (grid2.coords t) := fun h => by have := (last_iff t).mp h; omega
    rw [Dat.leavesExact_idle (dat V c) 4 t (idle_4 t hL) (unflushed_4 t hL), Dat.leavesExact_idle (dat V c) 5 t (idle_5 t hL) (unflushed_5 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
    iapply (body_first c Set.univ _ hF hL _ _ _ _ _ _ _ _ _ _ _ _ _ _ _ _ (tile V c 0 t) (tile V c 1 t) (tile V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hF : ¬isFirst (grid2.coords t) := fun h => h0 ((first_iff t).mp h)
    by_cases h9 : t.val = 9
    · have hL : isLast (grid2.coords t) := (last_iff t).mpr h9
      rw [show (dat V c).leavesExact 4 t = owns (c : Thread nD τ) (st2_4 t) fullShare ((dat V c).after 4 t) from by
        unfold Dat.leavesExact; rw [live_4 t hL], after_4]
      rw [show (dat V c).leavesExact 5 t = owns (c : Thread nD τ) (st2_5 t) fullShare ((dat V c).after 5 t) from by
        unfold Dat.leavesExact; rw [live_5 t hL], after_5]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_last c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬isLast (grid2.coords t) := fun h => h9 ((last_iff t).mp h)
      rw [Dat.leavesExact_idle (dat V c) 4 t (idle_4 t hL) (unflushed_4 t hL), Dat.leavesExact_idle (dat V c) 5 t (idle_5 t hL) (unflushed_5 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_middle c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the pipeline library, at every tile. -/
theorem body_obligation (c : Dev nD) : BodyObligation (dat (F := F) V c) (defs₀ (F := F)) Variants.none () Set.univ := fun t => by
  rw [bigSep_W2, bigSep_W2]
  exact body_at V c t

/-- What the region is handed is the invariant before the first tile; -/
theorem inv_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 10 := N_2; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.Kernel.LinearStats2

end
-- ==== Proof.Kernel.Normalize2.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 3.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the rows): its staging buffer holds tile `t` of its array when the body runs at `t`, fetched there or not. -/
theorem before_of_0 {c : Dev nD} (dat : Dat τ (Elt F) Unit ℕ (UR sig nD τ) ℕ cfg3 c) (hA : dat.A 0 = V c (Pipeline.arrRef spec3 0))
    (hafter : ∀ t, dat.after 0 t = tile V c 0 t) (t : Fin cfg3.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg3 c) (hA : dat.A 1 = V c (Pipeline.arrRef spec3 1))
    (hafter : ∀ t, dat.after 1 t = tile V c 1 t) (t : Fin cfg3.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg3 c) (hA : dat.A 2 = V c (Pipeline.arrRef spec3 2))
    (hafter : ∀ t, dat.after 2 t = tile V c 2 t) (t : Fin cfg3.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg3 c) (hA : dat.A 3 = V c (Pipeline.arrRef spec3 3))
    (hafter : ∀ t, dat.after 3 t = tile V c 3 t) (t : Fin cfg3.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg3 c) (hA : dat.A 4 = V c (Pipeline.arrRef spec3 4))
    (hafter : ∀ t, dat.after 4 t = tile V c 4 t) (t : Fin cfg3.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc3_bn_relu_kernel i arg0 harg0 arg1 harg1 arg2 harg2 arg3 harg3 arg4 harg4 arg5 harg5) K := by
  simp only [cc3_bn_relu_kernel_eq_skeleton]; unfold cc3_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg3 c where
  A w := V c (Pipeline.arrRef spec3 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec3 c
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = tile V c 0 t := by dsimp only [dat]
theorem after_1 (c : Dev nD) (t : Fin cfg3.N) : (dat V c).after 1 t = tile V c 1 t := by dsimp only [dat]
theorem after_2 (c : Dev nD) (t : Fin cfg3.N) : (dat V c).after 2 t = tile V c 2 t := by dsimp only [dat]
theorem after_3 (c : Dev nD) (t : Fin cfg3.N) : (dat V c).after 3 t = tile V c 3 t := by dsimp only [dat]
theorem after_4 (c : Dev nD) (t : Fin cfg3.N) : (dat V c).after 4 t = tile V c 4 t := by dsimp only [dat]
theorem after_5 (c : Dev nD) (t : Fin cfg3.N) : (dat V c).after 5 t = normalised (tile V c 0 t) (tile V c 1 t) (tile V c 2 t) (tile V c 3 t) (tile V c 4 t) := by dsimp only [dat]
theorem before_0 (c : Dev nD) (t : Fin cfg3.N) (d) : (dat V c).before 0 t d = tile V c 0 t :=
  before_of_0 V (dat V c) (A_eq V c 0) (after_0 V c) t d
theorem before_1 (c : Dev nD) (t : Fin cfg3.N) (d) : (dat V c).before 1 t d = tile V c 1 t :=
  before_of_1 V (dat V c) (A_eq V c 1) (after_1 V c) t d
theorem before_2 (c : Dev nD) (t : Fin cfg3.N) (d) : (dat V c).before 2 t d = tile V c 2 t :=
  before_of_2 V (dat V c) (A_eq V c 2) (after_2 V c) t d
theorem before_3 (c : Dev nD) (t : Fin cfg3.N) (d) : (dat V c).before 3 t d = tile V c 3 t :=
  before_of_3 V (dat V c) (A_eq V c 3) (after_3 V c) t d
theorem before_4 (c : Dev nD) (t : Fin cfg3.N) (d) : (dat V c).before 4 t d = tile V c 4 t :=
  before_of_4 V (dat V c) (A_eq V c 4) (after_4 V c) t d

/-- What the body is called with at tile `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W3, bigSep_W3]
  exact body_at V c t

end Cert.Kernel.Normalize2

end
-- ==== Proof.Kernel.LinearStats3.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 4.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LinearStats3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its staging buffer holds tile `t` of its array when the body runs at `t`, fetched there or not. -/
theorem before_of_0 {c : Dev nD} (dat : Dat τ (Elt F) Unit ℕ (UR sig nD τ) ℕ cfg4 c) (hA : dat.A 0 = V c (Pipeline.arrRef spec4 0))
    (hafter : ∀ t, dat.after 0 t = tile V c 0 t) (t : Fin cfg4.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg4 c) (hA : dat.A 1 = V c (Pipeline.arrRef spec4 1))
    (hafter : ∀ t, dat.after 1 t = tile V c 1 t) (t : Fin cfg4.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg4 c) (hA : dat.A 2 = V c (Pipeline.arrRef spec4 2))
    (hafter : ∀ t, dat.after 2 t = tile V c 2 t) (t : Fin cfg4.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg4 c) (hA : dat.A 3 = V c (Pipeline.arrRef spec4 3))
    (hafter : ∀ t, dat.after 3 t = tile V c 3 t) (t : Fin cfg4.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid4.Coords) : Prop := (Scalar.cmpi .ne (Scalar.extui (Scalar.cmpi .eq (BitVec.ofNat 32 (i 0).val) 0#32)) 0#32) = 1#1
abbrev isLast (i : grid4.Coords) : Prop := k4_cond2 i = 1#1
theorem first_iff : ∀ t : Fin cfg4.N, isFirst (grid4.coords t) ↔ t.val = 0 :=
  (by decide +kernel : ∀ t : Fin grid4.N, isFirst (grid4.coords t) ↔ t.val = 0)
theorem last_iff : ∀ t : Fin cfg4.N, isLast (grid4.coords t) ↔ t.val = 9 :=
  (by decide +kernel : ∀ t : Fin grid4.N, isLast (grid4.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid4.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) s0 fullShare (k4_pay4 x0 x1 x2 x3 xs) ∗ owns (c : Thread nD τ) s1 fullShare (k4_pay5 x0 x1 x2 x3 xq)) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid4.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) s0 fullShare (k4_pay4 x0 x1 x2 x3 (k4_pay1 (F := F))) ∗ owns (c : Thread nD τ) s1 fullShare (k4_pay5 x0 x1 x2 x3 (k4_pay2 (F := F)))) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid4.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) a5 fullShare (k4_pay4 x0 x1 x2 x3 xs) ∗ owns (c : Thread nD τ) a6 fullShare (k4_pay5 x0 x1 x2 x3 xq)
            ∗ owns (c : Thread nD τ) s0 fullShare (k4_pay4 x0 x1 x2 x3 xs) ∗ owns (c : Thread nD τ) s1 fullShare (k4_pay5 x0 x1 x2 x3 xq)) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc4_scratch0
abbrev scM1 : Memref sig .tc .vmem S1x128 .f32 := Memref.whole cc4_scratch1

/-- The two accumulators after tile `n`: the column sums, and the column sums of squares, of the output tiles
    `0 … n`, accumulated tile by tile from zero. -/
def acc (c : Dev nD) : (n : ℕ) → n < cfg4.N → Vec F S1x128 .f32 × Vec F S1x128 .f32
  | 0, hn => (k4_pay4 (tile V c 0 ⟨0, hn⟩) (tile V c 1 ⟨0, hn⟩) (tile V c 2 ⟨0, hn⟩) (tile V c 3 ⟨0, hn⟩) (k4_pay1 (F := F)),
      k4_pay5 (tile V c 0 ⟨0, hn⟩) (tile V c 1 ⟨0, hn⟩) (tile V c 2 ⟨0, hn⟩) (tile V c 3 ⟨0, hn⟩) (k4_pay2 (F := F)))
  | n + 1, hn => (k4_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k4_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg4.N) (h : t.val = 0) :
    acc V c t.val t.isLt = (k4_pay4 (tile V c 0 t) (tile V c 1 t) (tile V c 2 t) (tile V c 3 t) (k4_pay1 (F := F)), k4_pay5 (tile V c 0 t) (tile V c 1 t) (tile V c 2 t) (tile V c 3 t) (k4_pay2 (F := F))) := by
  obtain ⟨n, hn⟩ := t
  cases n with
  | zero => rfl
  | succ n => exact absurd h (Nat.succ_ne_zero _)

theorem acc_later (c : Dev nD) (t : Fin cfg4.N) (h : t.val ≠ 0) :
    acc V c t.val t.isLt = (k4_pay4 (tile V c 0 t) (tile V c 1 t) (tile V c 2 t) (tile V c 3 t) (acc V c (t.val - 1) (Nat.lt_of_le_of_lt (Nat.sub_le _ _) t.isLt)).1,
      k4_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg4.N → sProp 𝕄
  | 0, _ => Pipeline.ΦA spec4 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec4 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg4 c where
  A w := V c (Pipeline.arrRef spec4 w)
  after w t := match w with
    | ⟨0, _⟩ => tile V c 0 t
    | ⟨1, _⟩ => tile V c 1 t
    | ⟨2, _⟩ => tile V c 2 t
    | ⟨3, _⟩ => tile V c 3 t
    | ⟨4, _⟩ => k4_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem PhiS_castSucc (c : Dev nD) (t : Fin cfg4.N) :
    (dat V c).Φ t.castSucc = PhiS V c t.val (Nat.le_of_lt t.isLt) := by
  dsimp only [dat]; simp only [Fin.coe_castSucc]
theorem after_0 (c : Dev nD) (t : Fin cfg4.N) : (dat V c).after 0 t = tile V c 0 t := by dsimp only [dat]
theorem after_1 (c : Dev nD) (t : Fin cfg4.N) : (dat V c).after 1 t = tile V c 1 t := by dsimp only [dat]
theorem after_2 (c : Dev nD) (t : Fin cfg4.N) : (dat V c).after 2 t = tile V c 2 t := by dsimp only [dat]
theorem after_3 (c : Dev nD) (t : Fin cfg4.N) : (dat V c).after 3 t = tile V c 3 t := by dsimp only [dat]
theorem after_4 (c : Dev nD) (t : Fin cfg4.N) : (dat V c).after 4 t = k4_pay3 (tile V c 0 t) (tile V c 1 t) (tile V c 2 t) (tile V c 3 t) := by dsimp only [dat]
theorem after_5 (c : Dev nD) (t : Fin cfg4.N) : (dat V c).after 5 t = (acc V c t.val t.isLt).1 := by dsimp only [dat]
theorem after_6 (c : Dev nD) (t : Fin cfg4.N) : (dat V c).after 6 t = (acc V c t.val t.isLt).2 := by dsimp only [dat]
theorem before_0 (c : Dev nD) (t : Fin cfg4.N) (d) : (dat V c).before 0 t d = tile V c 0 t :=
  before_of_0 V (dat V c) (A_eq V c 0) (after_0 V c) t d
theorem before_1 (c : Dev nD) (t : Fin cfg4.N) (d) : (dat V c).before 1 t d = tile V c 1 t :=
  before_of_1 V (dat V c) (A_eq V c 1) (after_1 V c) t d
theorem before_2 (c : Dev nD) (t : Fin cfg4.N) (d) : (dat V c).before 2 t d = tile V c 2 t :=
  before_of_2 V (dat V c) (A_eq V c 2) (after_2 V c) t d
theorem before_3 (c : Dev nD) (t : Fin cfg4.N) (d) : (dat V c).before 3 t d = tile V c 3 t :=
  before_of_3 V (dat V c) (A_eq V c 3) (after_3 V c) t d

/-! ## Where the two small outputs are idle -/

theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel
theorem live_3 : ∀ t : Fin cfg4.N, cfg4.idle 3 (grid4.coords t) = false := by decide +kernel
theorem live_4 : ∀ t : Fin cfg4.N, cfg4.idle 4 (grid4.coords t) = false := by decide +kernel
theorem idle_5 : ∀ t : Fin cfg4.N, ¬isLast (grid4.coords t) → cfg4.idle 5 (grid4.coords t) = true := by decide +kernel
theorem unflushed_5 : ∀ t : Fin cfg4.N, ¬isLast (grid4.coords t) → (cfg4.win 5).flush t = false := by decide +kernel
theorem live_5 : ∀ t : Fin cfg4.N, isLast (grid4.coords t) → cfg4.idle 5 (grid4.coords t) = false := by decide +kernel
theorem idle_6 : ∀ t : Fin cfg4.N, ¬isLast (grid4.coords t) → cfg4.idle 6 (grid4.coords t) = true := by decide +kernel
theorem unflushed_6 : ∀ t : Fin cfg4.N, ¬isLast (grid4.coords t) → (cfg4.win 6).flush t = false := by decide +kernel
theorem live_6 : ∀ t : Fin cfg4.N, isLast (grid4.coords t) → cfg4.idle 6 (grid4.coords t) = false := by decide +kernel

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg4.N = 10 from N_4)
  rw [show (dat V c).leavesExact 0 t = owns (c : Thread nD τ) (st4_0 t) fullShare ((dat V c).after 0 t) from by
    unfold Dat.leavesExact; rw [live_0 t], after_0]
  rw [show (dat V c).leavesExact 1 t = owns (c : Thread nD τ) (st4_1 t) fullShare ((dat V c).after 1 t) from by
    unfold Dat.leavesExact; rw [live_1 t], after_1]
  rw [show (dat V c).leavesExact 2 t = owns (c : Thread nD τ) (st4_2 t) fullShare ((dat V c).after 2 t) from by
    unfold Dat.leavesExact; rw [live_2 t], after_2]
  rw [show (dat V c).leavesExact 3 t = owns (c : Thread nD τ) (st4_3 t) fullShare ((dat V c).after 3 t) from by
    unfold Dat.leavesExact; rw [live_3 t], after_3]
  rw [show (dat V c).leavesExact 4 t = owns (c : Thread nD τ) (st4_4 t) fullShare ((dat V c).after 4 t) from by
    unfold Dat.leavesExact; rw [live_4 t], after_4]
  by_cases h0 : t.val = 0
  · have hF : isFirst (grid4.coords t) := (first_iff t).mpr h0
    have hL : ¬isLast (grid4.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid4.coords t) := fun h => h0 ((first_iff t).mp h)
    by_cases h9 : t.val = 9
    · have hL : isLast (grid4.coords t) := (last_iff t).mpr h9
      rw [show (dat V c).leavesExact 5 t = owns (c : Thread nD τ) (st4_5 t) fullShare ((dat V c).after 5 t) from by
        unfold Dat.leavesExact; rw [live_5 t hL], after_5]
      rw [show (dat V c).leavesExact 6 t = owns (c : Thread nD τ) (st4_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid4.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W4, bigSep_W4]
  exact body_at V c t

/-- What the region is handed is the invariant before the first tile; -/
theorem inv_in (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg4.N) ⊢ Pipeline.ΦA spec4 c := by
  rw [show (dat V c).Φ (Fin.last cfg4.N) = PhiS V c (Fin.last cfg4.N).val (Nat.le_of_lt_succ (Fin.last cfg4.N).isLt) from rfl,
    PhiS_pos V c _ _ (by rw [Fin.val_last]; have : cfg4.N = 10 := N_4; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.Kernel.LinearStats3

end
-- ==== Proof.Kernel.Normalize3.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 5.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the rows): its staging buffer holds tile `t` of its array when the body runs at `t`, fetched there or not. -/
theorem before_of_0 {c : Dev nD} (dat : Dat τ (Elt F) Unit ℕ (UR sig nD τ) ℕ cfg5 c) (hA : dat.A 0 = V c (Pipeline.arrRef spec5 0))
    (hafter : ∀ t, dat.after 0 t = tile V c 0 t) (t : Fin cfg5.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg5 c) (hA : dat.A 1 = V c (Pipeline.arrRef spec5 1))
    (hafter : ∀ t, dat.after 1 t = tile V c 1 t) (t : Fin cfg5.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg5 c) (hA : dat.A 2 = V c (Pipeline.arrRef spec5 2))
    (hafter : ∀ t, dat.after 2 t = tile V c 2 t) (t : Fin cfg5.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg5 c) (hA : dat.A 3 = V c (Pipeline.arrRef spec5 3))
    (hafter : ∀ t, dat.after 3 t = tile V c 3 t) (t : Fin cfg5.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg5 c) (hA : dat.A 4 = V c (Pipeline.arrRef spec5 4))
    (hafter : ∀ t, dat.after 4 t = tile V c 4 t) (t : Fin cfg5.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc5_bn_relu_kernel i arg0 harg0 arg1 harg1 arg2 harg2 arg3 harg3 arg4 harg4 arg5 harg5) K := by
  simp only [cc5_bn_relu_kernel_eq_skeleton]; unfold cc5_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg5 c where
  A w := V c (Pipeline.arrRef spec5 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec5 c
  q _ := fullShare
  owed _ := 0

theorem A_eq (c : Dev nD) (w : Fin cfg5.W) : (dat V c).A w = V c (Pipeline.arrRef spec5 w) := by
  dsimp only [dat]
theorem after_0 (c : Dev nD) (t : Fin cfg5.N) : (dat V c).after 0 t = tile V c 0 t := by dsimp only [dat]
theorem after_1 (c : Dev nD) (t : Fin cfg5.N) : (dat V c).after 1 t = tile V c 1 t := by dsimp only [dat]
theorem after_2 (c : Dev nD) (t : Fin cfg5.N) : (dat V c).after 2 t = tile V c 2 t := by dsimp only [dat]
theorem after_3 (c : Dev nD) (t : Fin cfg5.N) : (dat V c).after 3 t = tile V c 3 t := by dsimp only [dat]
theorem after_4 (c : Dev nD) (t : Fin cfg5.N) : (dat V c).after 4 t = tile V c 4 t := by dsimp only [dat]
theorem after_5 (c : Dev nD) (t : Fin cfg5.N) : (dat V c).after 5 t = normalised (tile V c 0 t) (tile V c 1 t) (tile V c 2 t) (tile V c 3 t) (tile V c 4 t) := by dsimp only [dat]
theorem before_0 (c : Dev nD) (t : Fin cfg5.N) (d) : (dat V c).before 0 t d = tile V c 0 t :=
  before_of_0 V (dat V c) (A_eq V c 0) (after_0 V c) t d
theorem before_1 (c : Dev nD) (t : Fin cfg5.N) (d) : (dat V c).before 1 t d = tile V c 1 t :=
  before_of_1 V (dat V c) (A_eq V c 1) (after_1 V c) t d
theorem before_2 (c : Dev nD) (t : Fin cfg5.N) (d) : (dat V c).before 2 t d = tile V c 2 t :=
  before_of_2 V (dat V c) (A_eq V c 2) (after_2 V c) t d
theorem before_3 (c : Dev nD) (t : Fin cfg5.N) (d) : (dat V c).before 3 t d = tile V c 3 t :=
  before_of_3 V (dat V c) (A_eq V c 3) (after_3 V c) t d
theorem before_4 (c : Dev nD) (t : Fin cfg5.N) (d) : (dat V c).before 4 t d = tile V c 4 t :=
  before_of_4 V (dat V c) (A_eq V c 4) (after_4 V c) t d

/-- What the body is called with at tile `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W5, bigSep_W5]
  exact body_at V c t

end Cert.Kernel.Normalize3

end
-- ==== Proof.Kernel.LinearStats4.lean ====
/-
  A linear layer with running column statistics, row tile by row tile (ten tiles of 5000 rows of a 50000 x 128
  array): the rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 6.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LinearStats4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its staging buffer holds tile `t` of its array when the body runs at `t`, fetched there or not. -/
theorem before_of_0 {c : Dev nD} (dat : Dat τ (Elt F) Unit ℕ (UR sig nD τ) ℕ cfg6 c) (hA : dat.A 0 = V c (Pipeline.arrRef spec6 0))
    (hafter : ∀ t, dat.after 0 t = tile V c 0 t) (t : Fin cfg6.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg6 c) (hA : dat.A 1 = V c (Pipeline.arrRef spec6 1))
    (hafter : ∀ t, dat.after 1 t = tile V c 1 t) (t : Fin cfg6.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg6 c) (hA : dat.A 2 = V c (Pipeline.arrRef spec6 2))
    (hafter : ∀ t, dat.after 2 t = tile V c 2 t) (t : Fin cfg6.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid6.Coords) : Prop := (Scalar.cmpi .ne (Scalar.extui (Scalar.cmpi .eq (BitVec.ofNat 32 (i 0).val) 0#32)) 0#32) = 1#1
abbrev isLast (i : grid6.Coords) : Prop := k6_cond2 i = 1#1
theorem first_iff : ∀ t : Fin cfg6.N, isFirst (grid6.coords t) ↔ t.val = 0 :=
  (by decide +kernel : ∀ t : Fin grid6.N, isFirst (grid6.coords t) ↔ t.val = 0)
theorem last_iff : ∀ t : Fin cfg6.N, isLast (grid6.coords t) ↔ t.val = 9 :=
  (by decide +kernel : ∀ t : Fin grid6.N, isLast (grid6.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid6.Coords) (hc0 : ¬isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) s0 fullShare (k6_pay4 x0 x1 x2 xs) ∗ owns (c : Thread nD τ) s1 fullShare (k6_pay5 x0 x1 x2 xq)) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid6.Coords) (hc0 : isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) s0 fullShare (k6_pay4 x0 x1 x2 (k6_pay1 (F := F))) ∗ owns (c : Thread nD τ) s1 fullShare (k6_pay5 x0 x1 x2 (k6_pay2 (F := F)))) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%ds, %fs, -, Hs⟩, ⟨%dq, %fq, -, Hq⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid6.Coords) (hc0 : ¬isFirst i) (hc1 : isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) a4 fullShare (k6_pay4 x0 x1 x2 xs) ∗ owns (c : Thread nD τ) a5 fullShare (k6_pay5 x0 x1 x2 xq)
            ∗ owns (c : Thread nD τ) s0 fullShare (k6_pay4 x0 x1 x2 xs) ∗ owns (c : Thread nD τ) s1 fullShare (k6_pay5 x0 x1 x2 xq)) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc6_scratch0
abbrev scM1 : Memref sig .tc .vmem S1x128 .f32 := Memref.whole cc6_scratch1

/-- The two accumulators after tile `n`: the column sums, and the column sums of squares, of the output tiles
    `0 … n`, accumulated tile by tile from zero. -/
def acc (c : Dev nD) : (n : ℕ) → n < cfg6.N → Vec F S1x128 .f32 × Vec F S1x128 .f32
  | 0, hn => (k6_pay4 (tile V c 0 ⟨0, hn⟩) (tile V c 1 ⟨0, hn⟩) (tile V c 2 ⟨0, hn⟩) (k6_pay1 (F := F)),
      k6_pay5 (tile V c 0 ⟨0, hn⟩) (tile V c 1 ⟨0, hn⟩) (tile V c 2 ⟨0, hn⟩) (k6_pay2 (F := F)))
  | n + 1, hn => (k6_pay4 (tile V c 0 ⟨n + 1, hn⟩) (tile V c 1 ⟨n + 1, hn⟩) (tile V c 2 ⟨n + 1, hn⟩) (acc c n (Nat.lt_of_succ_lt hn)).1,
      k6_pay5 (tile V c 0 ⟨n + 1, hn⟩) (tile V c 1 ⟨n + 1, hn⟩) (tile V c 2 ⟨n + 1, hn⟩) (acc c n (Nat.lt_of_succ_lt hn)).2)

theorem acc_first (c : Dev nD) (t : Fin cfg6.N) (h : t.val = 0) :
    acc V c t.val t.isLt = (k6_pay4 (tile V c 0 t) (tile V c 1 t) (tile V c 2 t) (k6_pay1 (F := F)), k6_pay5 (tile V c 0 t) (tile V c 1 t) (tile V c 2 t) (k6_pay2 (F := F))) := by
  obtain ⟨n, hn⟩ := t
  cases n with
  | zero => rfl
  | succ n => exact absurd h (Nat.succ_ne_zero _)

theorem acc_later (c : Dev nD) (t : Fin cfg6.N) (h : t.val ≠ 0) :
    acc V c t.val t.isLt = (k6_pay4 (tile V c 0 t) (tile V c 1 t) (tile V c 2 t) (acc V c (t.val - 1) (Nat.lt_of_le_of_lt (Nat.sub_le _ _) t.isLt)).1,
      k6_pay5 (tile V c 0 t) (tile V c 1 t) (tile V c 2 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg6.N → sProp 𝕄
  | 0, _ => Pipeline.ΦA spec6 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS_zero (c : Dev nD) (n : ℕ) (h : n ≤ cfg6.N) (hz : n = 0) : PhiS V c n h = Pipeline.ΦA spec6 c := by
  subst hz; rfl

theorem PhiS_succ (c : Dev nD) (n : ℕ) (hn : n < cfg6.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS_pos (c : Dev nD) (n : ℕ) (h : n ≤ cfg6.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec6 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => tile V c 2 t
    | ⟨3, _⟩ => k6_pay3 (tile V c 0 t) (tile V c 1 t) (tile V c 2 t)
    | ⟨4, _⟩ => (acc V c t.val t.isLt).1
    | ⟨5, _⟩ => (acc V c t.val t.isLt).2
  Φ t := PhiS V c t.val (Nat.le_of_lt_succ t.isLt)
  q _ := fullShare
  owed _ := 0

theorem A_eq (c : Dev nD) (w : Fin cfg6.W) : (dat V c).A w = V c (Pipeline.arrRef spec6 w) := by
  dsimp only [dat]
theorem PhiS_castSucc (c : Dev nD) (t : Fin cfg6.N) :
    (dat V c).Φ t.castSucc = PhiS V c t.val (Nat.le_of_lt t.isLt) := by
  dsimp only [dat]; simp only [Fin.coe_castSucc]
theorem after_0 (c : Dev nD) (t : Fin cfg6.N) : (dat V c).after 0 t = tile V c 0 t := by dsimp only [dat]
theorem after_1 (c : Dev nD) (t : Fin cfg6.N) : (dat V c).after 1 t = tile V c 1 t := by dsimp only [dat]
theorem after_2 (c : Dev nD) (t : Fin cfg6.N) : (dat V c).after 2 t = tile V c 2 t := by dsimp only [dat]
theorem after_3 (c : Dev nD) (t : Fin cfg6.N) : (dat V c).after 3 t = k6_pay3 (tile V c 0 t) (tile V c 1 t) (tile V c 2 t) := by dsimp only [dat]
theorem after_4 (c : Dev nD) (t : Fin cfg6.N) : (dat V c).after 4 t = (acc V c t.val t.isLt).1 := by dsimp only [dat]
theorem after_5 (c : Dev nD) (t : Fin cfg6.N) : (dat V c).after 5 t = (acc V c t.val t.isLt).2 := by dsimp only [dat]
theorem before_0 (c : Dev nD) (t : Fin cfg6.N) (d) : (dat V c).before 0 t d = tile V c 0 t :=
  before_of_0 V (dat V c) (A_eq V c 0) (after_0 V c) t d
theorem before_1 (c : Dev nD) (t : Fin cfg6.N) (d) : (dat V c).before 1 t d = tile V c 1 t :=
  before_of_1 V (dat V c) (A_eq V c 1) (after_1 V c) t d
theorem before_2 (c : Dev nD) (t : Fin cfg6.N) (d) : (dat V c).before 2 t d = tile V c 2 t :=
  before_of_2 V (dat V c) (A_eq V c 2) (after_2 V c) t d

/-! ## Where the two small outputs are idle -/

theorem live_0 : ∀ t : Fin cfg6.N, cfg6.idle 0 (grid6.coords t) = false := by decide +kernel
theorem live_1 : ∀ t : Fin cfg6.N, cfg6.idle 1 (grid6.coords t) = false := by decide +kernel
theorem live_2 : ∀ t : Fin cfg6.N, cfg6.idle 2 (grid6.coords t) = false := by decide +kernel
theorem live_3 : ∀ t : Fin cfg6.N, cfg6.idle 3 (grid6.coords t) = false := by decide +kernel
theorem idle_4 : ∀ t : Fin cfg6.N, ¬isLast (grid6.coords t) → cfg6.idle 4 (grid6.coords t) = true := by decide +kernel
theorem unflushed_4 : ∀ t : Fin cfg6.N, ¬isLast (grid6.coords t) → (cfg6.win 4).flush t = false := by decide +kernel
theorem live_4 : ∀ t : Fin cfg6.N, isLast (grid6.coords t) → cfg6.idle 4 (grid6.coords t) = false := by decide +kernel
theorem idle_5 : ∀ t : Fin cfg6.N, ¬isLast (grid6.coords t) → cfg6.idle 5 (grid6.coords t) = true := by decide +kernel
theorem unflushed_5 : ∀ t : Fin cfg6.N, ¬isLast (grid6.coords t) → (cfg6.win 5).flush t = false := by decide +kernel
theorem live_5 : ∀ t : Fin cfg6.N, isLast (grid6.coords t) → cfg6.idle 5 (grid6.coords t) = false := by decide +kernel

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg6.N = 10 from N_6)
  rw [show (dat V c).leavesExact 0 t = owns (c : Thread nD τ) (st6_0 t) fullShare ((dat V c).after 0 t) from by
    unfold Dat.leavesExact; rw [live_0 t], after_0]
  rw [show (dat V c).leavesExact 1 t = owns (c : Thread nD τ) (st6_1 t) fullShare ((dat V c).after 1 t) from by
    unfold Dat.leavesExact; rw [live_1 t], after_1]
  rw [show (dat V c).leavesExact 2 t = owns (c : Thread nD τ) (st6_2 t) fullShare ((dat V c).after 2 t) from by
    unfold Dat.leavesExact; rw [live_2 t], after_2]
  rw [show (dat V c).leavesExact 3 t = owns (c : Thread nD τ) (st6_3 t) fullShare ((dat V c).after 3 t) from by
    unfold Dat.leavesExact; rw [live_3 t], after_3]
  by_cases h0 : t.val = 0
  · have hF : isFirst (grid6.coords t) := (first_iff t).mpr h0
    have hL : ¬isLast (grid6.coords t) := fun h => by have := (last_iff t).mp h; omega
    rw [Dat.leavesExact_idle (dat V c) 4 t (idle_4 t hL) (unflushed_4 t hL), Dat.leavesExact_idle (dat V c) 5 t (idle_5 t hL) (unflushed_5 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
    iapply (body_first c Set.univ _ hF hL _ _ _ _ _ _ _ _ _ _ _ _ _ _ _ _ (tile V c 0 t) (tile V c 1 t) (tile V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hF : ¬isFirst (grid6.coords t) := fun h => h0 ((first_iff t).mp h)
    by_cases h9 : t.val = 9
    · have hL : isLast (grid6.coords t) := (last_iff t).mpr h9
      rw [show (dat V c).leavesExact 4 t = owns (c : Thread nD τ) (st6_4 t) fullShare ((dat V c).after 4 t) from by
        unfold Dat.leavesExact; rw [live_4 t hL], after_4]
      rw [show (dat V c).leavesExact 5 t = owns (c : Thread nD τ) (st6_5 t) fullShare ((dat V c).after 5 t) from by
        unfold Dat.leavesExact; rw [live_5 t hL], after_5]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_last c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬isLast (grid6.coords t) := fun h => h9 ((last_iff t).mp h)
      rw [Dat.leavesExact_idle (dat V c) 4 t (idle_4 t hL) (unflushed_4 t hL), Dat.leavesExact_idle (dat V c) 5 t (idle_5 t hL) (unflushed_5 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_middle c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the pipeline library, at every tile. -/
theorem body_obligation (c : Dev nD) : BodyObligation (dat (F := F) V c) (defs₀ (F := F)) Variants.none () Set.univ := fun t => by
  rw [bigSep_W6, bigSep_W6]
  exact body_at V c t

/-- What the region is handed is the invariant before the first tile; -/
theorem inv_in (c : Dev nD) : Pipeline.ΦA spec6 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg6.N) ⊢ Pipeline.ΦA spec6 c := by
  rw [show (dat V c).Φ (Fin.last cfg6.N) = PhiS V c (Fin.last cfg6.N).val (Nat.le_of_lt_succ (Fin.last cfg6.N).isLt) from rfl,
    PhiS_pos V c _ _ (by rw [Fin.val_last]; have : cfg6.N = 10 := N_6; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.Kernel.LinearStats4

end
-- ==== Proof.Kernel.Normalize4.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 7.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the rows): its staging buffer holds tile `t` of its array when the body runs at `t`, fetched there or not. -/
theorem before_of_0 {c : Dev nD} (dat : Dat τ (Elt F) Unit ℕ (UR sig nD τ) ℕ cfg7 c) (hA : dat.A 0 = V c (Pipeline.arrRef spec7 0))
    (hafter : ∀ t, dat.after 0 t = tile V c 0 t) (t : Fin cfg7.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg7 c) (hA : dat.A 1 = V c (Pipeline.arrRef spec7 1))
    (hafter : ∀ t, dat.after 1 t = tile V c 1 t) (t : Fin cfg7.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg7 c) (hA : dat.A 2 = V c (Pipeline.arrRef spec7 2))
    (hafter : ∀ t, dat.after 2 t = tile V c 2 t) (t : Fin cfg7.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg7 c) (hA : dat.A 3 = V c (Pipeline.arrRef spec7 3))
    (hafter : ∀ t, dat.after 3 t = tile V c 3 t) (t : Fin cfg7.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg7 c) (hA : dat.A 4 = V c (Pipeline.arrRef spec7 4))
    (hafter : ∀ t, dat.after 4 t = tile V c 4 t) (t : Fin cfg7.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k7_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid7.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc7_bn_relu_kernel i arg0 harg0 arg1 harg1 arg2 harg2 arg3 harg3 arg4 harg4 arg5 harg5) K := by
  simp only [cc7_bn_relu_kernel_eq_skeleton]; unfold cc7_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg7 c where
  A w := V c (Pipeline.arrRef spec7 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec7 c
  q _ := fullShare
  owed _ := 0

theorem A_eq (c : Dev nD) (w : Fin cfg7.W) : (dat V c).A w = V c (Pipeline.arrRef spec7 w) := by
  dsimp only [dat]
theorem after_0 (c : Dev nD) (t : Fin cfg7.N) : (dat V c).after 0 t = tile V c 0 t := by dsimp only [dat]
theorem after_1 (c : Dev nD) (t : Fin cfg7.N) : (dat V c).after 1 t = tile V c 1 t := by dsimp only [dat]
theorem after_2 (c : Dev nD) (t : Fin cfg7.N) : (dat V c).after 2 t = tile V c 2 t := by dsimp only [dat]
theorem after_3 (c : Dev nD) (t : Fin cfg7.N) : (dat V c).after 3 t = tile V c 3 t := by dsimp only [dat]
theorem after_4 (c : Dev nD) (t : Fin cfg7.N) : (dat V c).after 4 t = tile V c 4 t := by dsimp only [dat]
theorem after_5 (c : Dev nD) (t : Fin cfg7.N) : (dat V c).after 5 t = normalised (tile V c 0 t) (tile V c 1 t) (tile V c 2 t) (tile V c 3 t) (tile V c 4 t) := by dsimp only [dat]
theorem before_0 (c : Dev nD) (t : Fin cfg7.N) (d) : (dat V c).before 0 t d = tile V c 0 t :=
  before_of_0 V (dat V c) (A_eq V c 0) (after_0 V c) t d
theorem before_1 (c : Dev nD) (t : Fin cfg7.N) (d) : (dat V c).before 1 t d = tile V c 1 t :=
  before_of_1 V (dat V c) (A_eq V c 1) (after_1 V c) t d
theorem before_2 (c : Dev nD) (t : Fin cfg7.N) (d) : (dat V c).before 2 t d = tile V c 2 t :=
  before_of_2 V (dat V c) (A_eq V c 2) (after_2 V c) t d
theorem before_3 (c : Dev nD) (t : Fin cfg7.N) (d) : (dat V c).before 3 t d = tile V c 3 t :=
  before_of_3 V (dat V c) (A_eq V c 3) (after_3 V c) t d
theorem before_4 (c : Dev nD) (t : Fin cfg7.N) (d) : (dat V c).before 4 t d = tile V c 4 t :=
  before_of_4 V (dat V c) (A_eq V c 4) (after_4 V c) t d

/-- What the body is called with at tile `t`, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

/-- and what it returns. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

theorem body_at (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W7, bigSep_W7]
  exact body_at V c t

end Cert.Kernel.Normalize4

end
-- ==== Proof.Kernel.LinearStats5.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 8.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LinearStats5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: its staging buffer holds tile `t` of its array when the body runs at `t`, fetched there or not. -/
theorem before_of_0 {c : Dev nD} (dat : Dat τ (Elt F) Unit ℕ (UR sig nD τ) ℕ cfg8 c) (hA : dat.A 0 = V c (Pipeline.arrRef spec8 0))
    (hafter : ∀ t, dat.after 0 t = tile V c 0 t) (t : Fin cfg8.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg8 c) (hA : dat.A 1 = V c (Pipeline.arrRef spec8 1))
    (hafter : ∀ t, dat.after 1 t = tile V c 1 t) (t : Fin cfg8.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg8 c) (hA : dat.A 2 = V c (Pipeline.arrRef spec8 2))
    (hafter : ∀ t, dat.after 2 t = tile V c 2 t) (t : Fin cfg8.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg8 c) (hA : dat.A 3 = V c (Pipeline.arrRef spec8 3))
    (hafter : ∀ t, dat.after 3 t = tile V c 3 t) (t : Fin cfg8.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid8.Coords) : Prop := (Scalar.cmpi .ne (Scalar.extui (Scalar.cmpi .eq (BitVec.ofNat 32 (i 0).val) 0#32)) 0#32) = 1#1
abbrev isLast (i : grid8.Coords) : Prop := k8_cond2 i = 1#1
theorem first_iff : ∀ t : Fin cfg8.N, isFirst (grid8.coords t) ↔ t.val = 0 :=
  (by decide +kernel : ∀ t : Fin grid8.N, isFirst (grid8.coords t) ↔ t.val = 0)
theorem last_iff : ∀ t : Fin cfg8.N, isLast (grid8.coords t) ↔ t.val = 9 :=
  (by decide +kernel : ∀ t : Fin grid8.N, isLast (grid8.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid8.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) s0 fullShare (k8_pay4 x0 x1 x2 x3 xs) ∗ owns (c : Thread nD τ) s1 fullShare (k8_pay5 x0 x1 x2 x3 xq)) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid8.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) s0 fullShare (k8_pay4 x0 x1 x2 x3 (k8_pay1 (F := F))) ∗ owns (c : Thread nD τ) s1 fullShare (k8_pay5 x0 x1 x2 x3 (k8_pay2 (F := F)))) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid8.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) a5 fullShare (k8_pay4 x0 x1 x2 x3 xs) ∗ owns (c : Thread nD τ) a6 fullShare (k8_pay5 x0 x1 x2 x3 xq)
            ∗ owns (c : Thread nD τ) s0 fullShare (k8_pay4 x0 x1 x2 x3 xs) ∗ owns (c : Thread nD τ) s1 fullShare (k8_pay5 x0 x1 x2 x3 xq)) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc8_scratch0
abbrev scM1 : Memref sig .tc .vmem S1x128 .f32 := Memref.whole cc8_scratch1

/-- The two accumulators after tile `n`: the column sums, and the column sums of squares, of the output tiles
    `0 … n`, accumulated tile by tile from zero. -/
def acc (c : Dev nD) : (n : ℕ) → n < cfg8.N → Vec F S1x128 .f32 × Vec F S1x128 .f32
  | 0, hn => (k8_pay4 (tile V c 0 ⟨0, hn⟩) (tile V c 1 ⟨0, hn⟩) (tile V c 2 ⟨0, hn⟩) (tile V c 3 ⟨0, hn⟩) (k8_pay1 (F := F)),
      k8_pay5 (tile V c 0 ⟨0, hn⟩) (tile V c 1 ⟨0, hn⟩) (tile V c 2 ⟨0, hn⟩) (tile V c 3 ⟨0, hn⟩) (k8_pay2 (F := F)))
  | n + 1, hn => (k8_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k8_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg8.N) (h : t.val = 0) :
    acc V c t.val t.isLt = (k8_pay4 (tile V c 0 t) (tile V c 1 t) (tile V c 2 t) (tile V c 3 t) (k8_pay1 (F := F)), k8_pay5 (tile V c 0 t) (tile V c 1 t) (tile V c 2 t) (tile V c 3 t) (k8_pay2 (F := F))) := by
  obtain ⟨n, hn⟩ := t
  cases n with
  | zero => rfl
  | succ n => exact absurd h (Nat.succ_ne_zero _)

theorem acc_later (c : Dev nD) (t : Fin cfg8.N) (h : t.val ≠ 0) :
    acc V c t.val t.isLt = (k8_pay4 (tile V c 0 t) (tile V c 1 t) (tile V c 2 t) (tile V c 3 t) (acc V c (t.val - 1) (Nat.lt_of_le_of_lt (Nat.sub_le _ _) t.isLt)).1,
      k8_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg8.N → sProp 𝕄
  | 0, _ => Pipeline.ΦA spec8 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec8 c [cc8_scratch0, cc8_scratch1]) ∗ (∃ r, prngReg c r))

theorem PhiS_zero (c : Dev nD) (n : ℕ) (h : n ≤ cfg8.N) (hz : n = 0) : PhiS V c n h = Pipeline.ΦA spec8 c := by
  subst hz; rfl

theorem PhiS_succ (c : Dev nD) (n : ℕ) (hn : n < cfg8.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem PhiS_pos (c : Dev nD) (n : ℕ) (h : n ≤ cfg8.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec8 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg8 c where
  A w := V c (Pipeline.arrRef spec8 w)
  after w t := match w with
    | ⟨0, _⟩ => tile V c 0 t
    | ⟨1, _⟩ => tile V c 1 t
    | ⟨2, _⟩ => tile V c 2 t
    | ⟨3, _⟩ => tile V c 3 t
    | ⟨4, _⟩ => k8_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg8.W) : (dat V c).A w = V c (Pipeline.arrRef spec8 w) := by
  dsimp only [dat]
theorem PhiS_castSucc (c : Dev nD) (t : Fin cfg8.N) :
    (dat V c).Φ t.castSucc = PhiS V c t.val (Nat.le_of_lt t.isLt) := by
  dsimp only [dat]; simp only [Fin.coe_castSucc]
theorem after_0 (c : Dev nD) (t : Fin cfg8.N) : (dat V c).after 0 t = tile V c 0 t := by dsimp only [dat]
theorem after_1 (c : Dev nD) (t : Fin cfg8.N) : (dat V c).after 1 t = tile V c 1 t := by dsimp only [dat]
theorem after_2 (c : Dev nD) (t : Fin cfg8.N) : (dat V c).after 2 t = tile V c 2 t := by dsimp only [dat]
theorem after_3 (c : Dev nD) (t : Fin cfg8.N) : (dat V c).after 3 t = tile V c 3 t := by dsimp only [dat]
theorem after_4 (c : Dev nD) (t : Fin cfg8.N) : (dat V c).after 4 t = k8_pay3 (tile V c 0 t) (tile V c 1 t) (tile V c 2 t) (tile V c 3 t) := by dsimp only [dat]
theorem after_5 (c : Dev nD) (t : Fin cfg8.N) : (dat V c).after 5 t = (acc V c t.val t.isLt).1 := by dsimp only [dat]
theorem after_6 (c : Dev nD) (t : Fin cfg8.N) : (dat V c).after 6 t = (acc V c t.val t.isLt).2 := by dsimp only [dat]
theorem before_0 (c : Dev nD) (t : Fin cfg8.N) (d) : (dat V c).before 0 t d = tile V c 0 t :=
  before_of_0 V (dat V c) (A_eq V c 0) (after_0 V c) t d
theorem before_1 (c : Dev nD) (t : Fin cfg8.N) (d) : (dat V c).before 1 t d = tile V c 1 t :=
  before_of_1 V (dat V c) (A_eq V c 1) (after_1 V c) t d
theorem before_2 (c : Dev nD) (t : Fin cfg8.N) (d) : (dat V c).before 2 t d = tile V c 2 t :=
  before_of_2 V (dat V c) (A_eq V c 2) (after_2 V c) t d
theorem before_3 (c : Dev nD) (t : Fin cfg8.N) (d) : (dat V c).before 3 t d = tile V c 3 t :=
  before_of_3 V (dat V c) (A_eq V c 3) (after_3 V c) t d

/-! ## Where the two small outputs are idle -/

theorem live_0 : ∀ t : Fin cfg8.N, cfg8.idle 0 (grid8.coords t) = false := by decide +kernel
theorem live_1 : ∀ t : Fin cfg8.N, cfg8.idle 1 (grid8.coords t) = false := by decide +kernel
theorem live_2 : ∀ t : Fin cfg8.N, cfg8.idle 2 (grid8.coords t) = false := by decide +kernel
theorem live_3 : ∀ t : Fin cfg8.N, cfg8.idle 3 (grid8.coords t) = false := by decide +kernel
theorem live_4 : ∀ t : Fin cfg8.N, cfg8.idle 4 (grid8.coords t) = false := by decide +kernel
theorem idle_5 : ∀ t : Fin cfg8.N, ¬isLast (grid8.coords t) → cfg8.idle 5 (grid8.coords t) = true := by decide +kernel
theorem unflushed_5 : ∀ t : Fin cfg8.N, ¬isLast (grid8.coords t) → (cfg8.win 5).flush t = false := by decide +kernel
theorem live_5 : ∀ t : Fin cfg8.N, isLast (grid8.coords t) → cfg8.idle 5 (grid8.coords t) = false := by decide +kernel
theorem idle_6 : ∀ t : Fin cfg8.N, ¬isLast (grid8.coords t) → cfg8.idle 6 (grid8.coords t) = true := by decide +kernel
theorem unflushed_6 : ∀ t : Fin cfg8.N, ¬isLast (grid8.coords t) → (cfg8.win 6).flush t = false := by decide +kernel
theorem live_6 : ∀ t : Fin cfg8.N, isLast (grid8.coords t) → cfg8.idle 6 (grid8.coords t) = false := by decide +kernel

/-! ## The body obligation -/

def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

def bodyPost (c : Dev nD) (t : Fin cfg8.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg8.N = 10 from N_8)
  rw [show (dat V c).leavesExact 0 t = owns (c : Thread nD τ) (st8_0 t) fullShare ((dat V c).after 0 t) from by
    unfold Dat.leavesExact; rw [live_0 t], after_0]
  rw [show (dat V c).leavesExact 1 t = owns (c : Thread nD τ) (st8_1 t) fullShare ((dat V c).after 1 t) from by
    unfold Dat.leavesExact; rw [live_1 t], after_1]
  rw [show (dat V c).leavesExact 2 t = owns (c : Thread nD τ) (st8_2 t) fullShare ((dat V c).after 2 t) from by
    unfold Dat.leavesExact; rw [live_2 t], after_2]
  rw [show (dat V c).leavesExact 3 t = owns (c : Thread nD τ) (st8_3 t) fullShare ((dat V c).after 3 t) from by
    unfold Dat.leavesExact; rw [live_3 t], after_3]
  rw [show (dat V c).leavesExact 4 t = owns (c : Thread nD τ) (st8_4 t) fullShare ((dat V c).after 4 t) from by
    unfold Dat.leavesExact; rw [live_4 t], after_4]
  by_cases h0 : t.val = 0
  · have hF : isFirst (grid8.coords t) := (first_iff t).mpr h0
    have hL : ¬isLast (grid8.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid8.coords t) := fun h => h0 ((first_iff t).mp h)
    by_cases h9 : t.val = 9
    · have hL : isLast (grid8.coords t) := (last_iff t).mpr h9
      rw [show (dat V c).leavesExact 5 t = owns (c : Thread nD τ) (st8_5 t) fullShare ((dat V c).after 5 t) from by
        unfold Dat.leavesExact; rw [live_5 t hL], after_5]
      rw [show (dat V c).leavesExact 6 t = owns (c : Thread nD τ) (st8_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid8.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W8, bigSep_W8]
  exact body_at V c t

/-- What the region is handed is the invariant before the first tile; -/
theorem inv_in (c : Dev nD) : Pipeline.ΦA spec8 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg8.N) ⊢ Pipeline.ΦA spec8 c := by
  rw [show (dat V c).Φ (Fin.last cfg8.N) = PhiS V c (Fin.last cfg8.N).val (Nat.le_of_lt_succ (Fin.last cfg8.N).isLt) from rfl,
    PhiS_pos V c _ _ (by rw [Fin.val_last]; have : cfg8.N = 10 := N_8; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.Kernel.LinearStats5

end
-- ==== Proof.Kernel.Normalize5.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 9.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalize5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the rows): its staging buffer holds tile `t` of its array when the body runs at `t`, fetched there or not. -/
theorem before_of_0 {c : Dev nD} (dat : Dat τ (Elt F) Unit ℕ (UR sig nD τ) ℕ cfg9 c) (hA : dat.A 0 = V c (Pipeline.arrRef spec9 0))
    (hafter : ∀ t, dat.after 0 t = tile V c 0 t) (t : Fin cfg9.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg9 c) (hA : dat.A 1 = V c (Pipeline.arrRef spec9 1))
    (hafter : ∀ t, dat.after 1 t = tile V c 1 t) (t : Fin cfg9.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg9 c) (hA : dat.A 2 = V c (Pipeline.arrRef spec9 2))
    (hafter : ∀ t, dat.after 2 t = tile V c 2 t) (t : Fin cfg9.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg9 c) (hA : dat.A 3 = V c (Pipeline.arrRef spec9 3))
    (hafter : ∀ t, dat.after 3 t = tile V c 3 t) (t : Fin cfg9.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg9 c) (hA : dat.A 4 = V c (Pipeline.arrRef spec9 4))
    (hafter : ∀ t, dat.after 4 t = tile V c 4 t) (t : Fin cfg9.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k9_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid9.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc9_bn_relu_kernel i arg0 harg0 arg1 harg1 arg2 harg2 arg3 harg3 arg4 harg4 arg5 harg5) K := by
  simp only [cc9_bn_relu_kernel_eq_skeleton]; unfold cc9_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg9 c where
  A w := V c (Pipeline.arrRef spec9 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec9 c
  q _ := fullShare
  owed _ := 0

theorem A_eq (c : Dev nD) (w : Fin cfg9.W) : (dat V c).A w = V c (Pipeline.arrRef spec9 w) := by
  dsimp only [dat]
theorem after_0 (c : Dev nD) (t : Fin cfg9.N) : (dat V c).after 0 t = tile V c 0 t := by dsimp only [dat]
theorem after_1 (c : Dev nD) (t : Fin cfg9.N) : (dat V c).after 1 t = tile V c 1 t := by dsimp only [dat]
theorem after_2 (c : Dev nD) (t : Fin cfg9.N) : (dat V c).after 2 t = tile V c 2 t := by dsimp only [dat]
theorem after_3 (c : Dev nD) (t : Fin cfg9.N) : (dat V c).after 3 t = tile V c 3 t := by dsimp only [dat]
theorem after_4 (c : Dev nD) (t : Fin cfg9.N) : (dat V c).after 4 t = tile V c 4 t := by dsimp only [dat]
theorem after_5 (c : Dev nD) (t : Fin cfg9.N) : (dat V c).after 5 t = normalised (tile V c 0 t) (tile V c 1 t) (tile V c 2 t) (tile V c 3 t) (tile V c 4 t) := by dsimp only [dat]
theorem before_0 (c : Dev nD) (t : Fin cfg9.N) (d) : (dat V c).before 0 t d = tile V c 0 t :=
  before_of_0 V (dat V c) (A_eq V c 0) (after_0 V c) t d
theorem before_1 (c : Dev nD) (t : Fin cfg9.N) (d) : (dat V c).before 1 t d = tile V c 1 t :=
  before_of_1 V (dat V c) (A_eq V c 1) (after_1 V c) t d
theorem before_2 (c : Dev nD) (t : Fin cfg9.N) (d) : (dat V c).before 2 t d = tile V c 2 t :=
  before_of_2 V (dat V c) (A_eq V c 2) (after_2 V c) t d
theorem before_3 (c : Dev nD) (t : Fin cfg9.N) (d) : (dat V c).before 3 t d = tile V c 3 t :=
  before_of_3 V (dat V c) (A_eq V c 3) (after_3 V c) t d
theorem before_4 (c : Dev nD) (t : Fin cfg9.N) (d) : (dat V c).before 4 t d = tile V c 4 t :=
  before_of_4 V (dat V c) (A_eq V c 4) (after_4 V c) t d

/-- What the body is called with at tile `t`, -/
def bodyPre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d))
    ∗ (∃ d, owns (c : Thread nD τ) (st9_3 t) fullShare ((dat V c).before 3 t d))
    ∗ (∃ d, owns (c : Thread nD τ) (st9_4 t) fullShare ((dat V c).before 4 t d))
    ∗ (∃ d, owns (c : Thread nD τ) (st9_5 t) fullShare ((dat V c).before 5 t d)))

/-- and what it returns. -/
def bodyPost (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t)
    ∗ owns (c : Thread nD τ) (st9_3 t) fullShare ((dat V c).after 3 t)
    ∗ owns (c : Thread nD τ) (st9_4 t) fullShare ((dat V c).after 4 t)
    ∗ owns (c : Thread nD τ) (st9_5 t) fullShare ((dat V c).after 5 t))

theorem body_at (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W9, bigSep_W9]
  exact body_at V c t

end Cert.Kernel.Normalize5

end
-- ==== Proof.Kernel.LastLinear.lean ====
/-
  The last linear layer, row tile by row tile (ten tiles of 5000 rows): the 5000 x 128 tile times the 128 x 128
  weight matrix plus the bias row.  The weight and bias windows never move; the rows and the output are tiled by
  rows.  Stated at any contents `V` of the TensorCore's buffers at the region's entry.  (Kernel region 10.)
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LastLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the rows): its staging buffer holds tile `t` of its array when the body runs at `t`, fetched there or not. -/
theorem before_of_0 {c : Dev nD} (dat : Dat τ (Elt F) Unit ℕ (UR sig nD τ) ℕ cfg10 c) (hA : dat.A 0 = V c (Pipeline.arrRef spec10 0))
    (hafter : ∀ t, dat.after 0 t = tile V c 0 t) (t : Fin cfg10.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the weights): its staging buffer holds tile `t` of its array when the body runs at `t`, fetched there or not. -/
theorem before_of_1 {c : Dev nD} (dat : Dat τ (Elt F) Unit ℕ (UR sig nD τ) ℕ cfg10 c) (hA : dat.A 1 = V c (Pipeline.arrRef spec10 1))
    (hafter : ∀ t, dat.after 1 t = tile V c 1 t) (t : Fin cfg10.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the bias): its staging buffer holds tile `t` of its array when the body runs at `t`, fetched there or not. -/
theorem before_of_2 {c : Dev nD} (dat : Dat τ (Elt F) Unit ℕ (UR sig nD τ) ℕ cfg10 c) (hA : dat.A 2 = V c (Pipeline.arrRef spec10 2))
    (hafter : ∀ t, dat.after 2 t = tile V c 2 t) (t : Fin cfg10.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the input tile times the weights, plus the bias. -/
def affine (x0 : Vec F S5000x128 .f32) (x1 : Vec F S128x128 .f32) (x2 : Vec F S1x128 .f32) : Vec F S5000x128 .f32 :=
  View.canon [⟨(Rect.unit (s := S5000x128) ![0, 0] S5000x128.size inb_S5000x128_S5000x128_0_0), k10_pay1 (View.ld x0 (Rect.unit (s := S5000x128) ![0, 0] S5000x128.size inb_S5000x128_S5000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `affine` of the inputs. -/
theorem body_triple (c : Dev nD) (E : Set ℕ) (i : grid10.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (affine x0 x1 x2)) -∗ K ⟨⟩))
      ⊢ wp frame (wpE (defs₀ (F := F)) Variants.none c none) E (cc10_linear_plain_kernel i arg0 harg0 arg1 harg1 arg2 harg2 arg3 harg3) K := by
  simp only [cc10_linear_plain_kernel_eq_skeleton]; unfold cc10_linear_plain_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-- The region's proof data on core `c`: the arrays as found; after the body at tile `t` every input's buffer at
    its tile and the output's at `affine` of the input tiles; the invariant is the scoped rest and the generator register. -/
def dat (c : Dev nD) : Dat τ (Elt F) Unit ℕ (UR sig nD τ) ℕ cfg10 c where
  A w := V c (Pipeline.arrRef spec10 w)
  after w t := match w with
    | ⟨0, _⟩ => tile V c 0 t
    | ⟨1, _⟩ => tile V c 1 t
    | ⟨2, _⟩ => tile V c 2 t
    | ⟨3, _⟩ => affine (tile V c 0 t) (tile V c 1 t) (tile V c 2 t)
  Φ _ := Pipeline.ΦA spec10 c
  q _ := fullShare
  owed _ := 0

theorem A_eq (c : Dev nD) (w : Fin cfg10.W) : (dat V c).A w = V c (Pipeline.arrRef spec10 w) := by
  dsimp only [dat]
theorem after_0 (c : Dev nD) (t : Fin cfg10.N) : (dat V c).after 0 t = tile V c 0 t := by dsimp only [dat]
theorem after_1 (c : Dev nD) (t : Fin cfg10.N) : (dat V c).after 1 t = tile V c 1 t := by dsimp only [dat]
theorem after_2 (c : Dev nD) (t : Fin cfg10.N) : (dat V c).after 2 t = tile V c 2 t := by dsimp only [dat]
theorem after_3 (c : Dev nD) (t : Fin cfg10.N) : (dat V c).after 3 t = affine (tile V c 0 t) (tile V c 1 t) (tile V c 2 t) := by dsimp only [dat]
theorem before_0 (c : Dev nD) (t : Fin cfg10.N) (d) : (dat V c).before 0 t d = tile V c 0 t :=
  before_of_0 V (dat V c) (A_eq V c 0) (after_0 V c) t d
theorem before_1 (c : Dev nD) (t : Fin cfg10.N) (d) : (dat V c).before 1 t d = tile V c 1 t :=
  before_of_1 V (dat V c) (A_eq V c 1) (after_1 V c) t d
theorem before_2 (c : Dev nD) (t : Fin cfg10.N) (d) : (dat V c).before 2 t d = tile V c 2 t :=
  before_of_2 V (dat V c) (A_eq V c 2) (after_2 V c) t d

/-- What the body is called with at tile `t`, -/
def bodyPre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d)))

/-- and what it returns. -/
def bodyPost (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t))

theorem body_at (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every tile. -/
theorem body_obligation (c : Dev nD) : BodyObligation (dat (F := F) V c) (defs₀ (F := F)) Variants.none () Set.univ := fun t => by
  rw [bigSep_W10, bigSep_W10]
  exact body_at V c t

end Cert.Kernel.LastLinear

end
-- ==== Proof.Kernel.RowNormalize.lean ====
/-
  The last kernel region: every row of a 50000 x 128 array divided by the larger of its Euclidean norm and 1e-12,
  ten tiles of 5000 rows.  One input window and one output window, both tiled by rows; the body reads the input tile
  whole and overwrites the output tile whole with the normalised rows.  Stated at any contents `V` of the
  TensorCore's buffers at the region's entry.
-/
import proofs.«176586_j29291676959176_1_alg».proof.Proof.Gen.Kernel.Launch
import proofs.«176586_j29291676959176_1_alg».proof.Proof.Gen.Kernel.Skeleton
import proofs.«176586_j29291676959176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowNormalize

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The input window's staging buffer holds tile `t` of the input when the body runs at `t`. -/
theorem before_in_of {c : Dev nD} (dat : Dat τ (Elt F) Unit ℕ (UR sig nD τ) ℕ cfg11 c) (hA : dat.A 0 = V c (Pipeline.arrRef spec11 0))
    (hafter : ∀ t, dat.after 0 t = tile V c 0 t) (t : Fin cfg11.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The whole 5000 x 128 tile as a rectangle. -/
abbrev whole : Rect S5000x128 := Rect.unit (s := S5000x128) ![0, 0] S5000x128.size inb_S5000x128_S5000x128_0_0

/-- What the body leaves in the output tile: the normalised rows of the input tile. -/
def normalised (x0 : Vec F S5000x128 .f32) : Vec F S5000x128 .f32 :=
  View.canon [⟨whole, k11_pay1 (View.ld x0 whole)⟩]

/-- The one store covers the tile. -/
theorem store_covers (p0 : Vec F S5000x128 .f32) (y : S5000x128.Idx) :
    ∃ pc ∈ ([⟨whole, p0⟩] : List (View.Piece (Elt F) S5000x128 .f32)), y ∈ pc.1.set :=
  View.cover_of_tiled [⟨whole, p0⟩] S5000x128.size (by rfl) y

set_option maxHeartbeats 1000000 in
/-- The body on whole staging buffers: the input tile is kept, the output tile ends at the normalised rows. -/
theorem body_triple (c : Dev nD) (E : Set ℕ) (i : grid11.Coords) (arg0 : Memref sig .tc .vmem S5000x128 .f32) (harg0 : arg0.IsWhole) (arg1 : Memref sig .tc .vmem S5000x128 .f32) (harg1 : arg1.IsWhole)
    (x0 : Vec F S5000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (normalised x0)) -∗ K ⟨⟩))
      ⊢ wp frame (wpE (defs₀ (F := F)) Variants.none c none) E (cc11_l2norm_kernel i arg0 harg0 arg1 harg1) K := by
  simp only [cc11_l2norm_kernel_eq_skeleton]; unfold cc11_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-- The region's proof data on core `c`: the arrays as found; after the body at tile `t` the input's buffer at
    its tile and the output's at the normalised tile; the invariant is the scoped rest and the generator register. -/
def dat (c : Dev nD) : Dat τ (Elt F) Unit ℕ (UR sig nD τ) ℕ cfg11 c where
  A w := V c (Pipeline.arrRef spec11 w)
  after w t := match w with
    | ⟨0, _⟩ => tile V c 0 t
    | ⟨1, _⟩ => normalised (tile V c 0 t)
  Φ _ := Pipeline.ΦA spec11 c
  q _ := fullShare
  owed _ := 0

theorem A_eq (c : Dev nD) (w : Fin cfg11.W) : (dat V c).A w = V c (Pipeline.arrRef spec11 w) := by
  dsimp only [dat]
theorem after_in (c : Dev nD) (t : Fin cfg11.N) : (dat V c).after 0 t = tile V c 0 t := by dsimp only [dat]
theorem after_out (c : Dev nD) (t : Fin cfg11.N) : (dat V c).after 1 t = normalised (tile V c 0 t) := by dsimp only [dat]
theorem before_in (c : Dev nD) (t : Fin cfg11.N) (d) : (dat V c).before 0 t d = tile V c 0 t :=
  before_in_of V (dat V c) (A_eq V c 0) (after_in V c) t d

/-- What the body is called with at tile `t`, -/
def bodyPre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d)))

/-- and what it returns. -/
def bodyPost (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t))

theorem body_at (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (body_triple c Set.univ _ _ _ _ _ (tile V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every tile. -/
theorem body_obligation (c : Dev nD) : BodyObligation (dat (F := F) V c) (defs₀ (F := F)) Variants.none () Set.univ := fun t => by
  rw [bigSep_W11, bigSep_W11]
  exact body_at V c t

end Cert.Kernel.RowNormalize

end
-- ==== Proof.Kernel.Run.lean ====
/-
  The whole program as a chain of twenty items — eight stretches of host operations and the twelve kernel regions —
  from the launch to the return: the contents of the TensorCore's unscoped buffers at every boundary (a stretch
  applies its operations; a region leaves its windows' arrays at what its tiles wrote back and everything else as it
  was), each region entered from the boundary before it and left at the one after it, and the run: every weakly fair
  execution terminates, nothing faults, and at the end every unscoped buffer holds the last boundary's contents.  No
  item writes an argument array.
-/
import proofs.«176586_j29291676959176_1_alg».proof.Proof.Kernel.LinearStats1
import proofs.«176586_j29291676959176_1_alg».proof.Proof.Kernel.Normalize1
import proofs.«176586_j29291676959176_1_alg».proof.Proof.Kernel.LinearStats2
import proofs.«176586_j29291676959176_1_alg».proof.Proof.Kernel.Normalize2
import proofs.«176586_j29291676959176_1_alg».proof.Proof.Kernel.LinearStats3
import proofs.«176586_j29291676959176_1_alg».proof.Proof.Kernel.Normalize3
import proofs.«176586_j29291676959176_1_alg».proof.Proof.Kernel.LinearStats4
import proofs.«176586_j29291676959176_1_alg».proof.Proof.Kernel.Normalize4
import proofs.«176586_j29291676959176_1_alg».proof.Proof.Kernel.LinearStats5
import proofs.«176586_j29291676959176_1_alg».proof.Proof.Kernel.Normalize5
import proofs.«176586_j29291676959176_1_alg».proof.Proof.Kernel.LastLinear
import proofs.«176586_j29291676959176_1_alg».proof.Proof.Kernel.RowNormalize
import proofs.«176586_j29291676959176_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After item 1, kernel region 0: its windows' arrays at what the tiles wrote back, everything else as entered. -/
def W2 (c : Dev nD) : Valuation τ sig (Elt F) :=
  Pipeline.withArrays spec0 c (W1 m ρ c) fun w => (Cert.Kernel.LinearStats1.dat (V1 m ρ) c).arrAt w cfg0.N
theorem W2_arr (c : Dev nD) (w : Fin cfg0.W) :
    W2 m ρ c (Proc.devRef .tc (Pipeline.arrRef spec0 w)) = (Cert.Kernel.LinearStats1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit_arr0 (c : Dev nD) (w : Fin cfg0.W) : (Cert.Kernel.LinearStats1.dat (V1 m ρ) c).arrAt w cfg0.N = V2 m ρ c (Pipeline.arrRef spec0 w) :=
  (W2_arr m ρ c w).symm
theorem exit_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After item 3, kernel region 1: its windows' arrays at what the tiles wrote back, everything else as entered. -/
def W4 (c : Dev nD) : Valuation τ sig (Elt F) :=
  Pipeline.withArrays spec1 c (W3 m ρ c) fun w => (Cert.Kernel.Normalize1.dat (V3 m ρ) c).arrAt w cfg1.N
theorem W4_arr (c : Dev nD) (w : Fin cfg1.W) :
    W4 m ρ c (Proc.devRef .tc (Pipeline.arrRef spec1 w)) = (Cert.Kernel.Normalize1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit_arr1 (c : Dev nD) (w : Fin cfg1.W) : (Cert.Kernel.Normalize1.dat (V3 m ρ) c).arrAt w cfg1.N = V4 m ρ c (Pipeline.arrRef spec1 w) :=
  (W4_arr m ρ c w).symm
theorem exit_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After item 4, kernel region 2: its windows' arrays at what the tiles wrote back, everything else as entered. -/
def W5 (c : Dev nD) : Valuation τ sig (Elt F) :=
  Pipeline.withArrays spec2 c (W4 m ρ c) fun w => (Cert.Kernel.LinearStats2.dat (V4 m ρ) c).arrAt w cfg2.N
theorem W5_arr (c : Dev nD) (w : Fin cfg2.W) :
    W5 m ρ c (Proc.devRef .tc (Pipeline.arrRef spec2 w)) = (Cert.Kernel.LinearStats2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem exit_arr2 (c : Dev nD) (w : Fin cfg2.W) : (Cert.Kernel.LinearStats2.dat (V4 m ρ) c).arrAt w cfg2.N = V5 m ρ c (Pipeline.arrRef spec2 w) :=
  (W5_arr m ρ c w).symm
theorem exit_rest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After item 5, the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After item 6, kernel region 3: its windows' arrays at what the tiles wrote back, everything else as entered. -/
def W7 (c : Dev nD) : Valuation τ sig (Elt F) :=
  Pipeline.withArrays spec3 c (W6 m ρ c) fun w => (Cert.Kernel.Normalize2.dat (V6 m ρ) c).arrAt w cfg3.N
theorem W7_arr (c : Dev nD) (w : Fin cfg3.W) :
    W7 m ρ c (Proc.devRef .tc (Pipeline.arrRef spec3 w)) = (Cert.Kernel.Normalize2.dat (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem exit_arr3 (c : Dev nD) (w : Fin cfg3.W) : (Cert.Kernel.Normalize2.dat (V6 m ρ) c).arrAt w cfg3.N = V7 m ρ c (Pipeline.arrRef spec3 w) :=
  (W7_arr m ρ c w).symm
theorem exit_rest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After item 7, the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
/-- After item 8, kernel region 4: its windows' arrays at what the tiles wrote back, everything else as entered. -/
def W9 (c : Dev nD) : Valuation τ sig (Elt F) :=
  Pipeline.withArrays spec4 c (W8 m ρ c) fun w => (Cert.Kernel.LinearStats3.dat (V8 m ρ) c).arrAt w cfg4.N
theorem W9_arr (c : Dev nD) (w : Fin cfg4.W) :
    W9 m ρ c (Proc.devRef .tc (Pipeline.arrRef spec4 w)) = (Cert.Kernel.LinearStats3.dat (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem exit_arr4 (c : Dev nD) (w : Fin cfg4.W) : (Cert.Kernel.LinearStats3.dat (V8 m ρ) c).arrAt w cfg4.N = V9 m ρ c (Pipeline.arrRef spec4 w) :=
  (W9_arr m ρ c w).symm
theorem exit_rest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- After item 9, the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
/-- After item 10, kernel region 5: its windows' arrays at what the tiles wrote back, everything else as entered. -/
def W11 (c : Dev nD) : Valuation τ sig (Elt F) :=
  Pipeline.withArrays spec5 c (W10 m ρ c) fun w => (Cert.Kernel.Normalize3.dat (V10 m ρ) c).arrAt w cfg5.N
theorem W11_arr (c : Dev nD) (w : Fin cfg5.W) :
    W11 m ρ c (Proc.devRef .tc (Pipeline.arrRef spec5 w)) = (Cert.Kernel.Normalize3.dat (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem exit_arr5 (c : Dev nD) (w : Fin cfg5.W) : (Cert.Kernel.Normalize3.dat (V10 m ρ) c).arrAt w cfg5.N = V11 m ρ c (Pipeline.arrRef spec5 w) :=
  (W11_arr m ρ c w).symm
theorem exit_rest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- After item 11, kernel region 6: its windows' arrays at what the tiles wrote back, everything else as entered. -/
def W12 (c : Dev nD) : Valuation τ sig (Elt F) :=
  Pipeline.withArrays spec6 c (W11 m ρ c) fun w => (Cert.Kernel.LinearStats4.dat (V11 m ρ) c).arrAt w cfg6.N
theorem W12_arr (c : Dev nD) (w : Fin cfg6.W) :
    W12 m ρ c (Proc.devRef .tc (Pipeline.arrRef spec6 w)) = (Cert.Kernel.LinearStats4.dat (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem exit_arr6 (c : Dev nD) (w : Fin cfg6.W) : (Cert.Kernel.LinearStats4.dat (V11 m ρ) c).arrAt w cfg6.N = V12 m ρ c (Pipeline.arrRef spec6 w) :=
  (W12_arr m ρ c w).symm
theorem exit_rest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- After item 12, the host stretch `hostOps7`. -/
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
/-- After item 13, kernel region 7: its windows' arrays at what the tiles wrote back, everything else as entered. -/
def W14 (c : Dev nD) : Valuation τ sig (Elt F) :=
  Pipeline.withArrays spec7 c (W13 m ρ c) fun w => (Cert.Kernel.Normalize4.dat (V13 m ρ) c).arrAt w cfg7.N
theorem W14_arr (c : Dev nD) (w : Fin cfg7.W) :
    W14 m ρ c (Proc.devRef .tc (Pipeline.arrRef spec7 w)) = (Cert.Kernel.Normalize4.dat (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem exit_arr7 (c : Dev nD) (w : Fin cfg7.W) : (Cert.Kernel.Normalize4.dat (V13 m ρ) c).arrAt w cfg7.N = V14 m ρ c (Pipeline.arrRef spec7 w) :=
  (W14_arr m ρ c w).symm
theorem exit_rest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- After item 14, the host stretch `hostOps8`. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
/-- After item 15, kernel region 8: its windows' arrays at what the tiles wrote back, everything else as entered. -/
def W16 (c : Dev nD) : Valuation τ sig (Elt F) :=
  Pipeline.withArrays spec8 c (W15 m ρ c) fun w => (Cert.Kernel.LinearStats5.dat (V15 m ρ) c).arrAt w cfg8.N
theorem W16_arr (c : Dev nD) (w : Fin cfg8.W) :
    W16 m ρ c (Proc.devRef .tc (Pipeline.arrRef spec8 w)) = (Cert.Kernel.LinearStats5.dat (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem exit_arr8 (c : Dev nD) (w : Fin cfg8.W) : (Cert.Kernel.LinearStats5.dat (V15 m ρ) c).arrAt w cfg8.N = V16 m ρ c (Pipeline.arrRef spec8 w) :=
  (W16_arr m ρ c w).symm
theorem exit_rest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- After item 16, the host stretch `hostOps9`. -/
abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
/-- After item 17, kernel region 9: its windows' arrays at what the tiles wrote back, everything else as entered. -/
def W18 (c : Dev nD) : Valuation τ sig (Elt F) :=
  Pipeline.withArrays spec9 c (W17 m ρ c) fun w => (Cert.Kernel.Normalize5.dat (V17 m ρ) c).arrAt w cfg9.N
theorem W18_arr (c : Dev nD) (w : Fin cfg9.W) :
    W18 m ρ c (Proc.devRef .tc (Pipeline.arrRef spec9 w)) = (Cert.Kernel.Normalize5.dat (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
abbrev V18 : (c : Dev nD) → (b : Ref sig .tc) → Buf (Elt F) ((c : Thread nD τ).loc b) := fun c b => W18 m ρ c b
theorem exit_arr9 (c : Dev nD) (w : Fin cfg9.W) : (Cert.Kernel.Normalize5.dat (V17 m ρ) c).arrAt w cfg9.N = V18 m ρ c (Pipeline.arrRef spec9 w) :=
  (W18_arr m ρ c w).symm
theorem exit_rest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)
/-- After item 18, kernel region 10: its windows' arrays at what the tiles wrote back, everything else as entered. -/
def W19 (c : Dev nD) : Valuation τ sig (Elt F) :=
  Pipeline.withArrays spec10 c (W18 m ρ c) fun w => (Cert.Kernel.LastLinear.dat (V18 m ρ) c).arrAt w cfg10.N
theorem W19_arr (c : Dev nD) (w : Fin cfg10.W) :
    W19 m ρ c (Proc.devRef .tc (Pipeline.arrRef spec10 w)) = (Cert.Kernel.LastLinear.dat (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem exit_arr10 (c : Dev nD) (w : Fin cfg10.W) : (Cert.Kernel.LastLinear.dat (V18 m ρ) c).arrAt w cfg10.N = V19 m ρ c (Pipeline.arrRef spec10 w) :=
  (W19_arr m ρ c w).symm
theorem exit_rest10 (c : Dev nD) : ∀ b, b ∉ Finset.univ.image (Pipeline.arrRef spec10) → V19 m ρ c b = V18 m ρ c b :=
  fun b hb => W19_of_ne m ρ c b fun w e => hb (Finset.mem_image.mpr ⟨w, Finset.mem_univ _, e⟩)
/-- After item 19, kernel region 11: its windows' arrays at what the tiles wrote back, everything else as entered. -/
def W20 (c : Dev nD) : Valuation τ sig (Elt F) :=
  Pipeline.withArrays spec11 c (W19 m ρ c) fun w => (Cert.Kernel.RowNormalize.dat (V19 m ρ) c).arrAt w cfg11.N
theorem W20_arr (c : Dev nD) (w : Fin cfg11.W) :
    W20 m ρ c (Proc.devRef .tc (Pipeline.arrRef spec11 w)) = (Cert.Kernel.RowNormalize.dat (V19 m ρ) c).arrAt w cfg11.N := by
  unfold W20; exact Pipeline.withArrays_arr spec11 launch11.win.arr_inj c _ _ w
theorem W20_of_ne (c : Dev nD) (b : Ref sig .tc) (hb : ∀ w, Pipeline.arrRef spec11 w ≠ b) :
    W20 m ρ c (Proc.devRef .tc b) = W19 m ρ c (Proc.devRef .tc b) := by
  unfold W20; exact Pipeline.withArrays_of_ne spec11 c _ _ b hb
abbrev V20 : (c : Dev nD) → (b : Ref sig .tc) → Buf (Elt F) ((c : Thread nD τ).loc b) := fun c b => W20 m ρ c b
theorem exit_arr11 (c : Dev nD) (w : Fin cfg11.W) : (Cert.Kernel.RowNormalize.dat (V19 m ρ) c).arrAt w cfg11.N = V20 m ρ c (Pipeline.arrRef spec11 w) :=
  (W20_arr m ρ c w).symm
theorem exit_rest11 (c : Dev nD) : ∀ b, b ∉ Finset.univ.image (Pipeline.arrRef spec11) → V20 m ρ c b = V19 m ρ c b :=
  fun b hb => W20_of_ne m ρ c b fun w e => hb (Finset.mem_image.mpr ⟨w, Finset.mem_univ _, e⟩)

/-! ## The proof data of every region, and what rides along between items -/

abbrev adm : (p : Fin 12) → (pcfgs (F := F) p).Adm := fun p => (cfgs p).toPCfg_adm
/-- Every region's proof data, each at the contents its region is entered from. -/
def pdats : (p : Fin 12) → (c : Dev nD) → Dat τ (Elt F) Unit ℕ (UR sig nD τ) ℕ (Pipeline.pin (pcfgs (F := F)) adm p) c
  | ⟨0, _⟩ => fun c => Cert.Kernel.LinearStats1.dat (V1 m ρ) c
  | ⟨1, _⟩ => fun c => Cert.Kernel.Normalize1.dat (V3 m ρ) c
  | ⟨2, _⟩ => fun c => Cert.Kernel.LinearStats2.dat (V4 m ρ) c
  | ⟨3, _⟩ => fun c => Cert.Kernel.Normalize2.dat (V6 m ρ) c
  | ⟨4, _⟩ => fun c => Cert.Kernel.LinearStats3.dat (V8 m ρ) c
  | ⟨5, _⟩ => fun c => Cert.Kernel.Normalize3.dat (V10 m ρ) c
  | ⟨6, _⟩ => fun c => Cert.Kernel.LinearStats4.dat (V11 m ρ) c
  | ⟨7, _⟩ => fun c => Cert.Kernel.Normalize4.dat (V13 m ρ) c
  | ⟨8, _⟩ => fun c => Cert.Kernel.LinearStats5.dat (V15 m ρ) c
  | ⟨9, _⟩ => fun c => Cert.Kernel.Normalize5.dat (V17 m ρ) c
  | ⟨10, _⟩ => fun c => Cert.Kernel.LastLinear.dat (V18 m ρ) c
  | ⟨11, _⟩ => fun c => Cert.Kernel.RowNormalize.dat (V19 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0: entered from every unscoped buffer at the contents before it, left at those after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.Kernel.LinearStats1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.Kernel.LinearStats1.inv_in (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.Kernel.LinearStats1.inv_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit_arr0 m ρ c) (exit_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at those after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.Kernel.Normalize1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit_arr1 m ρ c) (exit_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at those after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Cert.Kernel.LinearStats2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.Kernel.LinearStats2.inv_in (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.Kernel.LinearStats2.inv_out (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (exit_arr2 m ρ c) (exit_rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at those after it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Cert.Kernel.Normalize2.body_obligation (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (exit_arr3 m ρ c) (exit_rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at those after it. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Cert.Kernel.LinearStats3.body_obligation (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.Kernel.LinearStats3.inv_in (V8 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.Kernel.LinearStats3.inv_out (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (exit_arr4 m ρ c) (exit_rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at those after it. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (Cert.Kernel.Normalize3.body_obligation (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (exit_arr5 m ρ c) (exit_rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at those after it. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Cert.Kernel.LinearStats4.body_obligation (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.Kernel.LinearStats4.inv_in (V11 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.Kernel.LinearStats4.inv_out (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (exit_arr6 m ρ c) (exit_rest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at those after it. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (Cert.Kernel.Normalize4.body_obligation (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (exit_arr7 m ρ c) (exit_rest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents before it, left at those after it. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (Cert.Kernel.LinearStats5.body_obligation (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.Kernel.LinearStats5.inv_in (V15 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.Kernel.LinearStats5.inv_out (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (exit_arr8 m ρ c) (exit_rest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents before it, left at those after it. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (Cert.Kernel.Normalize5.body_obligation (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V17 m ρ c) (V18 m ρ c) ((pdats m ρ 9 c).arrAt · cfg9.N) (exit_arr9 m ρ c) (exit_rest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at the contents before it, left at those after it. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (Cert.Kernel.LastLinear.body_obligation (V18 m ρ) c).loose
  hwaits := Pipeline.hwaits_of_owed_zero _ _ _ _ L lv 10 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec10 c (V18 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V18 m ρ c) (V19 m ρ c) ((pdats m ρ 10 c).arrAt · cfg10.N) (exit_arr10 m ρ c) (exit_rest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at the contents before it, left at those after it. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (Cert.Kernel.RowNormalize.body_obligation (V19 m ρ) c).loose
  hwaits := Pipeline.hwaits_of_owed_zero _ _ _ _ L lv 11 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V19 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V19 m ρ c) (V20 m ρ c) ((pdats m ρ 11 c).arrAt · cfg11.N) (exit_arr11 m ρ c) (exit_rest11 m ρ c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .region (reg9 m ρ),
    .region (reg10 m ρ),
    .region (reg11 m ρ) ]

theorem main_run (c : Dev nD) : main (F := F) c = Pipeline.Seg.run (segs m ρ) := (main_chain c).trans (by chain_rfl)

set_option backward.isDefEq.respectTransparency.types false in
/-- From any memory with zero counters: every weakly fair execution of the program on the TensorCores terminates,
    nothing faulting, and at the end every unscoped buffer of core `c` holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-! ## No item writes an argument -/
theorem kept_arg0 (c : Dev nD) : W20 m ρ c (Proc.devRef .tc main_arg0) = m ((c : Thread nD τ).loc main_arg0) :=
  (W20_of_ne m ρ c main_arg0 (by decide)).trans <|
  (W19_of_ne m ρ c main_arg0 (by decide)).trans <|
  (W18_of_ne m ρ c main_arg0 (by decide)).trans <|
  (StableHlo.after_of_writes_sub hostOps9 _ hostOps9_writes (by decide : main_arg0 ∉ hostOps9_W)).trans <|
  (W16_of_ne m ρ c main_arg0 (by decide)).trans <|
  (StableHlo.after_of_writes_sub hostOps8 _ hostOps8_writes (by decide : main_arg0 ∉ hostOps8_W)).trans <|
  (W14_of_ne m ρ c main_arg0 (by decide)).trans <|
  (StableHlo.after_of_writes_sub hostOps7 _ hostOps7_writes (by decide : main_arg0 ∉ hostOps7_W)).trans <|
  (W12_of_ne m ρ c main_arg0 (by decide)).trans <|
  (W11_of_ne m ρ c main_arg0 (by decide)).trans <|
  (StableHlo.after_of_writes_sub hostOps5 _ hostOps5_writes (by decide : main_arg0 ∉ hostOps5_W)).trans <|
  (W9_of_ne m ρ c main_arg0 (by decide)).trans <|
  (StableHlo.after_of_writes_sub hostOps4 _ hostOps4_writes (by decide : main_arg0 ∉ hostOps4_W)).trans <|
  (W7_of_ne m ρ c main_arg0 (by decide)).trans <|
  (StableHlo.after_of_writes_sub hostOps3 _ hostOps3_writes (by decide : main_arg0 ∉ hostOps3_W)).trans <|
  (W5_of_ne m ρ c main_arg0 (by decide)).trans <|
  (W4_of_ne m ρ c main_arg0 (by decide)).trans <|
  (StableHlo.after_of_writes_sub hostOps1 _ hostOps1_writes (by decide : main_arg0 ∉ hostOps1_W)).trans <|
  ((W2_arr m ρ c 0).trans (((Cert.Kernel.LinearStats1.dat (V1 m ρ) c).arrAt_in 0 rfl _).trans (Cert.Kernel.LinearStats1.A_eq (V1 m ρ) c 0))).trans <|
  (StableHlo.after_of_writes_sub hostOps0 _ hostOps0_writes (by decide : main_arg0 ∉ hostOps0_W)).trans <| rfl
theorem kept_arg1 (c : Dev nD) : W20 m ρ c (Proc.devRef .tc main_arg1) = m ((c : Thread nD τ).loc main_arg1) :=
  (W20_of_ne m ρ c main_arg1 (by decide)).trans <|
  (W19_of_ne m ρ c main_arg1 (by decide)).trans <|
  (W18_of_ne m ρ c main_arg1 (by decide)).trans <|
  (StableHlo.after_of_writes_sub hostOps9 _ hostOps9_writes (by decide : main_arg1 ∉ hostOps9_W)).trans <|
  (W16_of_ne m ρ c main_arg1 (by decide)).trans <|
  (StableHlo.after_of_writes_sub hostOps8 _ hostOps8_writes (by decide : main_arg1 ∉ hostOps8_W)).trans <|
  (W14_of_ne m ρ c main_arg1 (by decide)).trans <|
  (StableHlo.after_of_writes_sub hostOps7 _ hostOps7_writes (by decide : main_arg1 ∉ hostOps7_W)).trans <|
  (W12_of_ne m ρ c main_arg1 (by decide)).trans <|
  (W11_of_ne m ρ c main_arg1 (by decide)).trans <|
  (StableHlo.after_of_writes_sub hostOps5 _ hostOps5_writes (by decide : main_arg1 ∉ hostOps5_W)).trans <|
  (W9_of_ne m ρ c main_arg1 (by decide)).trans <|
  (StableHlo.after_of_writes_sub hostOps4 _ hostOps4_writes (by decide : main_arg1 ∉ hostOps4_W)).trans <|
  (W7_of_ne m ρ c main_arg1 (by decide)).trans <|
  (StableHlo.after_of_writes_sub hostOps3 _ hostOps3_writes (by decide : main_arg1 ∉ hostOps3_W)).trans <|
  (W5_of_ne m ρ c main_arg1 (by decide)).trans <|
  (W4_of_ne m ρ c main_arg1 (by decide)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans <| rfl
theorem kept_arg2 (c : Dev nD) : W20 m ρ c (Proc.devRef .tc main_arg2) = m ((c : Thread nD τ).loc main_arg2) :=
  (W20_of_ne m ρ c main_arg2 (by decide)).trans <|
  (W19_of_ne m ρ c main_arg2 (by decide)).trans <|
  (W18_of_ne m ρ c main_arg2 (by decide)).trans <|
  (StableHlo.after_of_writes_sub hostOps9 _ hostOps9_writes (by decide : main_arg2 ∉ hostOps9_W)).trans <|
  (W16_of_ne m ρ c main_arg2 (by decide)).trans <|
  (StableHlo.after_of_writes_sub hostOps8 _ hostOps8_writes (by decide : main_arg2 ∉ hostOps8_W)).trans <|
  (W14_of_ne m ρ c main_arg2 (by decide)).trans <|
  (StableHlo.after_of_writes_sub hostOps7 _ hostOps7_writes (by decide : main_arg2 ∉ hostOps7_W)).trans <|
  (W12_of_ne m ρ c main_arg2 (by decide)).trans <|
  (W11_of_ne m ρ c main_arg2 (by decide)).trans <|
  (StableHlo.after_of_writes_sub hostOps5 _ hostOps5_writes (by decide : main_arg2 ∉ hostOps5_W)).trans <|
  (W9_of_ne m ρ c main_arg2 (by decide)).trans <|
  (StableHlo.after_of_writes_sub hostOps4 _ hostOps4_writes (by decide : main_arg2 ∉ hostOps4_W)).trans <|
  (W7_of_ne m ρ c main_arg2 (by decide)).trans <|
  (StableHlo.after_of_writes_sub hostOps3 _ hostOps3_writes (by decide : main_arg2 ∉ hostOps3_W)).trans <|
  (W5_of_ne m ρ c main_arg2 (by decide)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans <| rfl
theorem kept_arg3 (c : Dev nD) : W20 m ρ c (Proc.devRef .tc main_arg3) = m ((c : Thread nD τ).loc main_arg3) :=
  (W20_of_ne m ρ c main_arg3 (by decide)).trans <|
  (W19_of_ne m ρ c main_arg3 (by decide)).trans <|
  (W18_of_ne m ρ c main_arg3 (by decide)).trans <|
  (StableHlo.after_of_writes_sub hostOps9 _ hostOps9_writes (by decide : main_arg3 ∉ hostOps9_W)).trans <|
  (W16_of_ne m ρ c main_arg3 (by decide)).trans <|
  (StableHlo.after_of_writes_sub hostOps8 _ hostOps8_writes (by decide : main_arg3 ∉ hostOps8_W)).trans <|
  (W14_of_ne m ρ c main_arg3 (by decide)).trans <|
  (StableHlo.after_of_writes_sub hostOps7 _ hostOps7_writes (by decide : main_arg3 ∉ hostOps7_W)).trans <|
  (W12_of_ne m ρ c main_arg3 (by decide)).trans <|
  (W11_of_ne m ρ c main_arg3 (by decide)).trans <|
  (StableHlo.after_of_writes_sub hostOps5 _ hostOps5_writes (by decide : main_arg3 ∉ hostOps5_W)).trans <|
  (W9_of_ne m ρ c main_arg3 (by decide)).trans <|
  (StableHlo.after_of_writes_sub hostOps4 _ hostOps4_writes (by decide : main_arg3 ∉ hostOps4_W)).trans <|
  (W7_of_ne m ρ c main_arg3 (by decide)).trans <|
  (StableHlo.after_of_writes_sub hostOps3 _ hostOps3_writes (by decide : main_arg3 ∉ hostOps3_W)).trans <|
  (W5_of_ne m ρ c main_arg3 (by decide)).trans <|
  (W4_of_ne m ρ c main_arg3 (by decide)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans <| rfl
theorem kept_arg4 (c : Dev nD) : W20 m ρ c (Proc.devRef .tc main_arg4) = m ((c : Thread nD τ).loc main_arg4) :=
  (W20_of_ne m ρ c main_arg4 (by decide)).trans <|
  (W19_of_ne m ρ c main_arg4 (by decide)).trans <|
  (W18_of_ne m ρ c main_arg4 (by decide)).trans <|
  (StableHlo.after_of_writes_sub hostOps9 _ hostOps9_writes (by decide : main_arg4 ∉ hostOps9_W)).trans <|
  (W16_of_ne m ρ c main_arg4 (by decide)).trans <|
  (StableHlo.after_of_writes_sub hostOps8 _ hostOps8_writes (by decide : main_arg4 ∉ hostOps8_W)).trans <|
  (W14_of_ne m ρ c main_arg4 (by decide)).trans <|
  (StableHlo.after_of_writes_sub hostOps7 _ hostOps7_writes (by decide : main_arg4 ∉ hostOps7_W)).trans <|
  (W12_of_ne m ρ c main_arg4 (by decide)).trans <|
  (W11_of_ne m ρ c main_arg4 (by decide)).trans <|
  (StableHlo.after_of_writes_sub hostOps5 _ hostOps5_writes (by decide : main_arg4 ∉ hostOps5_W)).trans <|
  (W9_of_ne m ρ c main_arg4 (by decide)).trans <|
  (StableHlo.after_of_writes_sub hostOps4 _ hostOps4_writes (by decide : main_arg4 ∉ hostOps4_W)).trans <|
  (W7_of_ne m ρ c main_arg4 (by decide)).trans <|
  (StableHlo.after_of_writes_sub hostOps3 _ hostOps3_writes (by decide : main_arg4 ∉ hostOps3_W)).trans <|
  (W5_of_ne m ρ c main_arg4 (by decide)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans <| rfl
theorem kept_arg5 (c : Dev nD) : W20 m ρ c (Proc.devRef .tc main_arg5) = m ((c : Thread nD τ).loc main_arg5) :=
  (W20_of_ne m ρ c main_arg5 (by decide)).trans <|
  (W19_of_ne m ρ c main_arg5 (by decide)).trans <|
  (W18_of_ne m ρ c main_arg5 (by decide)).trans <|
  (StableHlo.after_of_writes_sub hostOps9 _ hostOps9_writes (by decide : main_arg5 ∉ hostOps9_W)).trans <|
  (W16_of_ne m ρ c main_arg5 (by decide)).trans <|
  (StableHlo.after_of_writes_sub hostOps8 _ hostOps8_writes (by decide : main_arg5 ∉ hostOps8_W)).trans <|
  (W14_of_ne m ρ c main_arg5 (by decide)).trans <|
  (StableHlo.after_of_writes_sub hostOps7 _ hostOps7_writes (by decide : main_arg5 ∉ hostOps7_W)).trans <|
  (W12_of_ne m ρ c main_arg5 (by decide)).trans <|
  (W11_of_ne m ρ c main_arg5 (by decide)).trans <|
  (StableHlo.after_of_writes_sub hostOps5 _ hostOps5_writes (by decide : main_arg5 ∉ hostOps5_W)).trans <|
  (W9_of_ne m ρ c main_arg5 (by decide)).trans <|
  (StableHlo.after_of_writes_sub hostOps4 _ hostOps4_writes (by decide : main_arg5 ∉ hostOps4_W)).trans <|
  (W7_of_ne m ρ c main_arg5 (by decide)).trans <|
  (StableHlo.after_of_writes_sub hostOps3 _ hostOps3_writes (by decide : main_arg5 ∉ hostOps3_W)).trans <|
  (W5_of_ne m ρ c main_arg5 (by decide)).trans <|
  (W4_of_ne m ρ c main_arg5 (by decide)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans <| rfl
theorem kept_arg6 (c : Dev nD) : W20 m ρ c (Proc.devRef .tc main_arg6) = m ((c : Thread nD τ).loc main_arg6) :=
  (W20_of_ne m ρ c main_arg6 (by decide)).trans <|
  (W19_of_ne m ρ c main_arg6 (by decide)).trans <|
  (W18_of_ne m ρ c main_arg6 (by decide)).trans <|
  (StableHlo.after_of_writes_sub hostOps9 _ hostOps9_writes (by decide : main_arg6 ∉ hostOps9_W)).trans <|
  (W16_of_ne m ρ c main_arg6 (by decide)).trans <|
  (StableHlo.after_of_writes_sub hostOps8 _ hostOps8_writes (by decide : main_arg6 ∉ hostOps8_W)).trans <|
  (W14_of_ne m ρ c main_arg6 (by decide)).trans <|
  (StableHlo.after_of_writes_sub hostOps7 _ hostOps7_writes (by decide : main_arg6 ∉ hostOps7_W)).trans <|
  (W12_of_ne m ρ c main_arg6 (by decide)).trans <|
  (W11_of_ne m ρ c main_arg6 (by decide)).trans <|
  (StableHlo.after_of_writes_sub hostOps5 _ hostOps5_writes (by decide : main_arg6 ∉ hostOps5_W)).trans <|
  (W9_of_ne m ρ c main_arg6 (by decide)).trans <|
  (StableHlo.after_of_writes_sub hostOps4 _ hostOps4_writes (by decide : main_arg6 ∉ hostOps4_W)).trans <|
  (W7_of_ne m ρ c main_arg6 (by decide)).trans <|
  (StableHlo.after_of_writes_sub hostOps3 _ hostOps3_writes (by decide : main_arg6 ∉ hostOps3_W)).trans <|
  (W5_of_ne m ρ c main_arg6 (by decide)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans <| rfl
theorem kept_arg7 (c : Dev nD) : W20 m ρ c (Proc.devRef .tc main_arg7) = m ((c : Thread nD τ).loc main_arg7) :=
  (W20_of_ne m ρ c main_arg7 (by decide)).trans <|
  (W19_of_ne m ρ c main_arg7 (by decide)).trans <|
  (W18_of_ne m ρ c main_arg7 (by decide)).trans <|
  (StableHlo.after_of_writes_sub hostOps9 _ hostOps9_writes (by decide : main_arg7 ∉ hostOps9_W)).trans <|
  (W16_of_ne m ρ c main_arg7 (by decide)).trans <|
  (StableHlo.after_of_writes_sub hostOps8 _ hostOps8_writes (by decide : main_arg7 ∉ hostOps8_W)).trans <|
  (W14_of_ne m ρ c main_arg7 (by decide)).trans <|
  (StableHlo.after_of_writes_sub hostOps7 _ hostOps7_writes (by decide : main_arg7 ∉ hostOps7_W)).trans <|
  (W12_of_ne m ρ c main_arg7 (by decide)).trans <|
  (W11_of_ne m ρ c main_arg7 (by decide)).trans <|
  (StableHlo.after_of_writes_sub hostOps5 _ hostOps5_writes (by decide : main_arg7 ∉ hostOps5_W)).trans <|
  (W9_of_ne m ρ c main_arg7 (by decide)).trans <|
  (StableHlo.after_of_writes_sub hostOps4 _ hostOps4_writes (by decide : main_arg7 ∉ hostOps4_W)).trans <|
  (W7_of_ne m ρ c main_arg7 (by decide)).trans <|
  (StableHlo.after_of_writes_sub hostOps3 _ hostOps3_writes (by decide : main_arg7 ∉ hostOps3_W)).trans <|
  (W5_of_ne m ρ c main_arg7 (by decide)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans <| rfl
theorem kept_arg8 (c : Dev nD) : W20 m ρ c (Proc.devRef .tc main_arg8) = m ((c : Thread nD τ).loc main_arg8) :=
  (W20_of_ne m ρ c main_arg8 (by decide)).trans <|
  (W19_of_ne m ρ c main_arg8 (by decide)).trans <|
  (W18_of_ne m ρ c main_arg8 (by decide)).trans <|
  (StableHlo.after_of_writes_sub hostOps9 _ hostOps9_writes (by decide : main_arg8 ∉ hostOps9_W)).trans <|
  (W16_of_ne m ρ c main_arg8 (by decide)).trans <|
  (StableHlo.after_of_writes_sub hostOps8 _ hostOps8_writes (by decide : main_arg8 ∉ hostOps8_W)).trans <|
  (W14_of_ne m ρ c main_arg8 (by decide)).trans <|
  (StableHlo.after_of_writes_sub hostOps7 _ hostOps7_writes (by decide : main_arg8 ∉ hostOps7_W)).trans <|
  (W12_of_ne m ρ c main_arg8 (by decide)).trans <|
  (W11_of_ne m ρ c main_arg8 (by decide)).trans <|
  (StableHlo.after_of_writes_sub hostOps5 _ hostOps5_writes (by decide : main_arg8 ∉ hostOps5_W)).trans <|
  (W9_of_ne m ρ c main_arg8 (by decide)).trans <|
  (StableHlo.after_of_writes_sub hostOps4 _ hostOps4_writes (by decide : main_arg8 ∉ hostOps4_W)).trans <|
  (W7_of_ne m ρ c main_arg8 (by decide)).trans <|
  (StableHlo.after_of_writes_sub hostOps3 _ hostOps3_writes (by decide : main_arg8 ∉ hostOps3_W)).trans <|
  (W5_of_ne m ρ c main_arg8 (by decide)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans <| rfl
theorem kept_arg9 (c : Dev nD) : W20 m ρ c (Proc.devRef .tc main_arg9) = m ((c : Thread nD τ).loc main_arg9) :=
  (W20_of_ne m ρ c main_arg9 (by decide)).trans <|
  (W19_of_ne m ρ c main_arg9 (by decide)).trans <|
  (W18_of_ne m ρ c main_arg9 (by decide)).trans <|
  (StableHlo.after_of_writes_sub hostOps9 _ hostOps9_writes (by decide : main_arg9 ∉ hostOps9_W)).trans <|
  (W16_of_ne m ρ c main_arg9 (by decide)).trans <|
  (StableHlo.after_of_writes_sub hostOps8 _ hostOps8_writes (by decide : main_arg9 ∉ hostOps8_W)).trans <|
  (W14_of_ne m ρ c main_arg9 (by decide)).trans <|
  (StableHlo.after_of_writes_sub hostOps7 _ hostOps7_writes (by decide : main_arg9 ∉ hostOps7_W)).trans <|
  (W12_of_ne m ρ c main_arg9 (by decide)).trans <|
  (W11_of_ne m ρ c main_arg9 (by decide)).trans <|
  (StableHlo.after_of_writes_sub hostOps5 _ hostOps5_writes (by decide : main_arg9 ∉ hostOps5_W)).trans <|
  (W9_of_ne m ρ c main_arg9 (by decide)).trans <|
  (StableHlo.after_of_writes_sub hostOps4 _ hostOps4_writes (by decide : main_arg9 ∉ hostOps4_W)).trans <|
  (W7_of_ne m ρ c main_arg9 (by decide)).trans <|
  (StableHlo.after_of_writes_sub hostOps3 _ hostOps3_writes (by decide : main_arg9 ∉ hostOps3_W)).trans <|
  (W5_of_ne m ρ c main_arg9 (by decide)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans <| rfl

/-- The frame: the program runs and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (kept_arg0 m ρ c),
    (h c _ (mem_uc main_arg1 (by decide))).trans (kept_arg1 m ρ c),
    (h c _ (mem_uc main_arg2 (by decide))).trans (kept_arg2 m ρ c),
    (h c _ (mem_uc main_arg3 (by decide))).trans (kept_arg3 m ρ c),
    (h c _ (mem_uc main_arg4 (by decide))).trans (kept_arg4 m ρ c),
    (h c _ (mem_uc main_arg5 (by decide))).trans (kept_arg5 m ρ c),
    (h c _ (mem_uc main_arg6 (by decide))).trans (kept_arg6 m ρ c),
    (h c _ (mem_uc main_arg7 (by decide))).trans (kept_arg7 m ρ c),
    (h c _ (mem_uc main_arg8 (by decide))).trans (kept_arg8 m ρ c),
    (h c _ (mem_uc main_arg9 (by decide))).trans (kept_arg9 m ρ c)⟩) (run m ρ)

end Cert.Kernel.Run

end
-- ==== Proof.KernelIdeal.LinearStats1.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 0.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LinearStats1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its staging buffer holds tile `t` of its array when the body runs at `t`, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid0.Coords) : Prop := (Scalar.cmpi .ne (Scalar.extui (Scalar.cmpi .eq (BitVec.ofNat 32 (i 0).val) 0#32)) 0#32) = 1#1
abbrev isLast (i : grid0.Coords) : Prop := k0_cond2 i = 1#1
theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 9 :=
  (by decide +kernel : ∀ t : Fin grid0.N, isLast (grid0.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid0.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) s0 fullShare (k0_pay4 x0 x1 x2 x3 xs) ∗ owns (c : Thread nD τ) s1 fullShare (k0_pay5 x0 x1 x2 x3 xq)) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid0.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) s0 fullShare (k0_pay4 x0 x1 x2 x3 (k0_pay1 (F := F))) ∗ owns (c : Thread nD τ) s1 fullShare (k0_pay5 x0 x1 x2 x3 (k0_pay2 (F := F)))) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid0.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k0_pay3 x0 x1 x2 x3) ∗ owns (c : Thread nD τ) a5 fullShare (k0_pay4 x0 x1 x2 x3 xs) ∗ owns (c : Thread nD τ) a6 fullShare (k0_pay5 x0 x1 x2 x3 xq)
            ∗ owns (c : Thread nD τ) s0 fullShare (k0_pay4 x0 x1 x2 x3 xs) ∗ owns (c : Thread nD τ) s1 fullShare (k0_pay5 x0 x1 x2 x3 xq)) -∗ K ⟨⟩))
      ⊢ wp frame (wpE (defs₀ (F := F)) Variants.none c none) E (cc0_linear_add_stats_kernel i a0 ha0 a1 ha1 a2 ha2 a3 ha3 a4 ha4 a5 ha5 a6 ha6 s0 hs0 s1 hs1) K := by
  simp only [cc0_linear_add_stats_kernel_eq_skeleton]; unfold cc0_linear_add_stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc0_scratch0
abbrev scM1 : Memref sig .tc .vmem S1x128 .f32 := Memref.whole cc0_scratch1

/-- The two accumulators after tile `n`: the column sums, and the column sums of squares, of the output tiles
    `0 … n`, accumulated tile by tile from zero. -/
def acc (c : Dev nD) : (n : ℕ) → n < cfg0.N → Vec F S1x128 .f32 × Vec F S1x128 .f32
  | 0, hn => (k0_pay4 (tile V c 0 ⟨0, hn⟩) (tile V c 1 ⟨0, hn⟩) (tile V c 2 ⟨0, hn⟩) (tile V c 3 ⟨0, hn⟩) (k0_pay1 (F := F)),
      k0_pay5 (tile V c 0 ⟨0, hn⟩) (tile V c 1 ⟨0, hn⟩) (tile V c 2 ⟨0, hn⟩) (tile V c 3 ⟨0, hn⟩) (k0_pay2 (F := F)))
  | n + 1, hn => (k0_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k0_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg0.N) (h : t.val = 0) :
    acc V c t.val t.isLt = (k0_pay4 (tile V c 0 t) (tile V c 1 t) (tile V c 2 t) (tile V c 3 t) (k0_pay1 (F := F)), k0_pay5 (tile V c 0 t) (tile V c 1 t) (tile V c 2 t) (tile V c 3 t) (k0_pay2 (F := F))) := by
  obtain ⟨n, hn⟩ := t
  cases n with
  | zero => rfl
  | succ n => exact absurd h (Nat.succ_ne_zero _)

theorem acc_later (c : Dev nD) (t : Fin cfg0.N) (h : t.val ≠ 0) :
    acc V c t.val t.isLt = (k0_pay4 (tile V c 0 t) (tile V c 1 t) (tile V c 2 t) (tile V c 3 t) (acc V c (t.val - 1) (Nat.lt_of_le_of_lt (Nat.sub_le _ _) t.isLt)).1,
      k0_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg0.N → sProp 𝕄
  | 0, _ => Pipeline.ΦA spec0 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec0 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => k0_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) : (dat V c).after 4 t = k0_pay3 (tile V c 0 t) (tile V c 1 t) (tile V c 2 t) (tile V c 3 t) := by dsimp only [dat]
theorem after_5 (c : Dev nD) (t : Fin cfg0.N) : (dat V c).after 5 t = (acc V c t.val t.isLt).1 := by dsimp only [dat]
theorem after_6 (c : Dev nD) (t : Fin cfg0.N) : (dat V c).after 6 t = (acc V c t.val t.isLt).2 := by dsimp only [dat]
theorem before_0 (c : Dev nD) (t : Fin cfg0.N) (d) : (dat V c).before 0 t d = tile V c 0 t :=
  before_of_0 V (dat V c) (A_eq V c 0) (after_0 V c) t d
theorem before_1 (c : Dev nD) (t : Fin cfg0.N) (d) : (dat V c).before 1 t d = tile V c 1 t :=
  before_of_1 V (dat V c) (A_eq V c 1) (after_1 V c) t d
theorem before_2 (c : Dev nD) (t : Fin cfg0.N) (d) : (dat V c).before 2 t d = tile V c 2 t :=
  before_of_2 V (dat V c) (A_eq V c 2) (after_2 V c) t d
theorem before_3 (c : Dev nD) (t : Fin cfg0.N) (d) : (dat V c).before 3 t d = tile V c 3 t :=
  before_of_3 V (dat V c) (A_eq V c 3) (after_3 V c) t d

/-! ## Where the two small outputs are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem idle_5 : ∀ t : Fin cfg0.N, ¬isLast (grid0.coords t) → cfg0.idle 5 (grid0.coords t) = true := by decide +kernel
theorem unflushed_5 : ∀ t : Fin cfg0.N, ¬isLast (grid0.coords t) → (cfg0.win 5).flush t = false := by decide +kernel
theorem live_5 : ∀ t : Fin cfg0.N, isLast (grid0.coords t) → cfg0.idle 5 (grid0.coords t) = false := by decide +kernel
theorem idle_6 : ∀ t : Fin cfg0.N, ¬isLast (grid0.coords t) → cfg0.idle 6 (grid0.coords t) = true := by decide +kernel
theorem unflushed_6 : ∀ t : Fin cfg0.N, ¬isLast (grid0.coords t) → (cfg0.win 6).flush t = false := by decide +kernel
theorem live_6 : ∀ t : Fin cfg0.N, isLast (grid0.coords t) → cfg0.idle 6 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg0.N = 10 from N_0)
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).leavesExact 3 t = owns (c : Thread nD τ) (st0_3 t) fullShare ((dat V c).after 3 t) from by
    unfold Dat.leavesExact; rw [live_3 t], after_3]
  rw [show (dat V c).leavesExact 4 t = owns (c : Thread nD τ) (st0_4 t) fullShare ((dat V c).after 4 t) from by
    unfold Dat.leavesExact; rw [live_4 t], after_4]
  by_cases h0 : t.val = 0
  · have hF : isFirst (grid0.coords t) := (first_iff t).mpr h0
    have hL : ¬isLast (grid0.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid0.coords t) := fun h => h0 ((first_iff t).mp h)
    by_cases h9 : t.val = 9
    · have hL : isLast (grid0.coords t) := (last_iff t).mpr h9
      rw [show (dat V c).leavesExact 5 t = owns (c : Thread nD τ) (st0_5 t) fullShare ((dat V c).after 5 t) from by
        unfold Dat.leavesExact; rw [live_5 t hL], after_5]
      rw [show (dat V c).leavesExact 6 t = owns (c : Thread nD τ) (st0_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid0.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W0, bigSep_W0]
  exact body_at V c t

/-- What the region is handed is the invariant before the first tile; -/
theorem inv_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.KernelIdeal.LinearStats1

end
-- ==== Proof.KernelIdeal.Normalize1.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 1.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows): its staging buffer holds tile `t` of its array when the body runs at `t`, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg1 c) (hA : dat.A 3 = V c (Pipeline.arrRef spec1 3))
    (hafter : ∀ t, dat.after 3 t = tile V c 3 t) (t : Fin cfg1.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg1 c) (hA : dat.A 4 = V c (Pipeline.arrRef spec1 4))
    (hafter : ∀ t, dat.after 4 t = tile V c 4 t) (t : Fin cfg1.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc1_bn_relu_kernel i arg0 harg0 arg1 harg1 arg2 harg2 arg3 harg3 arg4 harg4 arg5 harg5) K := by
  simp only [cc1_bn_relu_kernel_eq_skeleton]; unfold cc1_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = tile V c 2 t := by dsimp only [dat]
theorem after_3 (c : Dev nD) (t : Fin cfg1.N) : (dat V c).after 3 t = tile V c 3 t := by dsimp only [dat]
theorem after_4 (c : Dev nD) (t : Fin cfg1.N) : (dat V c).after 4 t = tile V c 4 t := by dsimp only [dat]
theorem after_5 (c : Dev nD) (t : Fin cfg1.N) : (dat V c).after 5 t = normalised (tile V c 0 t) (tile V c 1 t) (tile V c 2 t) (tile V c 3 t) (tile V c 4 t) := by dsimp only [dat]
theorem before_0 (c : Dev nD) (t : Fin cfg1.N) (d) : (dat V c).before 0 t d = tile V c 0 t :=
  before_of_0 V (dat V c) (A_eq V c 0) (after_0 V c) t d
theorem before_1 (c : Dev nD) (t : Fin cfg1.N) (d) : (dat V c).before 1 t d = tile V c 1 t :=
  before_of_1 V (dat V c) (A_eq V c 1) (after_1 V c) t d
theorem before_2 (c : Dev nD) (t : Fin cfg1.N) (d) : (dat V c).before 2 t d = tile V c 2 t :=
  before_of_2 V (dat V c) (A_eq V c 2) (after_2 V c) t d
theorem before_3 (c : Dev nD) (t : Fin cfg1.N) (d) : (dat V c).before 3 t d = tile V c 3 t :=
  before_of_3 V (dat V c) (A_eq V c 3) (after_3 V c) t d
theorem before_4 (c : Dev nD) (t : Fin cfg1.N) (d) : (dat V c).before 4 t d = tile V c 4 t :=
  before_of_4 V (dat V c) (A_eq V c 4) (after_4 V c) t d

/-- What the body is called with at tile `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W1, bigSep_W1]
  exact body_at V c t

end Cert.KernelIdeal.Normalize1

end
-- ==== Proof.KernelIdeal.LinearStats2.lean ====
/-
  A linear layer with running column statistics, row tile by row tile (ten tiles of 5000 rows of a 50000 x 128
  array): the rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 2.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LinearStats2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its staging buffer holds tile `t` of its array when the body runs at `t`, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid2.Coords) : Prop := (Scalar.cmpi .ne (Scalar.extui (Scalar.cmpi .eq (BitVec.ofNat 32 (i 0).val) 0#32)) 0#32) = 1#1
abbrev isLast (i : grid2.Coords) : Prop := k2_cond2 i = 1#1
theorem first_iff : ∀ t : Fin cfg2.N, isFirst (grid2.coords t) ↔ t.val = 0 :=
  (by decide +kernel : ∀ t : Fin grid2.N, isFirst (grid2.coords t) ↔ t.val = 0)
theorem last_iff : ∀ t : Fin cfg2.N, isLast (grid2.coords t) ↔ t.val = 9 :=
  (by decide +kernel : ∀ t : Fin grid2.N, isLast (grid2.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid2.Coords) (hc0 : ¬isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) s0 fullShare (k2_pay4 x0 x1 x2 xs) ∗ owns (c : Thread nD τ) s1 fullShare (k2_pay5 x0 x1 x2 xq)) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid2.Coords) (hc0 : isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) s0 fullShare (k2_pay4 x0 x1 x2 (k2_pay1 (F := F))) ∗ owns (c : Thread nD τ) s1 fullShare (k2_pay5 x0 x1 x2 (k2_pay2 (F := F)))) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%ds, %fs, -, Hs⟩, ⟨%dq, %fq, -, Hq⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid2.Coords) (hc0 : ¬isFirst i) (hc1 : isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k2_pay3 x0 x1 x2) ∗ owns (c : Thread nD τ) a4 fullShare (k2_pay4 x0 x1 x2 xs) ∗ owns (c : Thread nD τ) a5 fullShare (k2_pay5 x0 x1 x2 xq)
            ∗ owns (c : Thread nD τ) s0 fullShare (k2_pay4 x0 x1 x2 xs) ∗ owns (c : Thread nD τ) s1 fullShare (k2_pay5 x0 x1 x2 xq)) -∗ K ⟨⟩))
      ⊢ wp frame (wpE (defs₀ (F := F)) Variants.none c none) E (cc2_linear_stats_kernel i a0 ha0 a1 ha1 a2 ha2 a3 ha3 a4 ha4 a5 ha5 s0 hs0 s1 hs1) K := by
  simp only [cc2_linear_stats_kernel_eq_skeleton]; unfold cc2_linear_stats_kernel_skel
  simp only [k2_part1_eq_skeleton]
  unfold owns
  iintro ⟨⟨%f0, %hf0, H0⟩, ⟨%f1, %hf1, H1⟩, ⟨%f2, %hf2, H2⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc2_scratch0
abbrev scM1 : Memref sig .tc .vmem S1x128 .f32 := Memref.whole cc2_scratch1

/-- The two accumulators after tile `n`: the column sums, and the column sums of squares, of the output tiles
    `0 … n`, accumulated tile by tile from zero. -/
def acc (c : Dev nD) : (n : ℕ) → n < cfg2.N → Vec F S1x128 .f32 × Vec F S1x128 .f32
  | 0, hn => (k2_pay4 (tile V c 0 ⟨0, hn⟩) (tile V c 1 ⟨0, hn⟩) (tile V c 2 ⟨0, hn⟩) (k2_pay1 (F := F)),
      k2_pay5 (tile V c 0 ⟨0, hn⟩) (tile V c 1 ⟨0, hn⟩) (tile V c 2 ⟨0, hn⟩) (k2_pay2 (F := F)))
  | n + 1, hn => (k2_pay4 (tile V c 0 ⟨n + 1, hn⟩) (tile V c 1 ⟨n + 1, hn⟩) (tile V c 2 ⟨n + 1, hn⟩) (acc c n (Nat.lt_of_succ_lt hn)).1,
      k2_pay5 (tile V c 0 ⟨n + 1, hn⟩) (tile V c 1 ⟨n + 1, hn⟩) (tile V c 2 ⟨n + 1, hn⟩) (acc c n (Nat.lt_of_succ_lt hn)).2)

theorem acc_first (c : Dev nD) (t : Fin cfg2.N) (h : t.val = 0) :
    acc V c t.val t.isLt = (k2_pay4 (tile V c 0 t) (tile V c 1 t) (tile V c 2 t) (k2_pay1 (F := F)), k2_pay5 (tile V c 0 t) (tile V c 1 t) (tile V c 2 t) (k2_pay2 (F := F))) := by
  obtain ⟨n, hn⟩ := t
  cases n with
  | zero => rfl
  | succ n => exact absurd h (Nat.succ_ne_zero _)

theorem acc_later (c : Dev nD) (t : Fin cfg2.N) (h : t.val ≠ 0) :
    acc V c t.val t.isLt = (k2_pay4 (tile V c 0 t) (tile V c 1 t) (tile V c 2 t) (acc V c (t.val - 1) (Nat.lt_of_le_of_lt (Nat.sub_le _ _) t.isLt)).1,
      k2_pay5 (tile V c 0 t) (tile V c 1 t) (tile V c 2 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg2.N → sProp 𝕄
  | 0, _ => Pipeline.ΦA spec2 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec2 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => k2_pay3 (tile V c 0 t) (tile V c 1 t) (tile V c 2 t)
    | ⟨4, _⟩ => (acc V c t.val t.isLt).1
    | ⟨5, _⟩ => (acc V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = tile V c 0 t := by dsimp only [dat]
theorem after_1 (c : Dev nD) (t : Fin cfg2.N) : (dat V c).after 1 t = tile V c 1 t := by dsimp only [dat]
theorem after_2 (c : Dev nD) (t : Fin cfg2.N) : (dat V c).after 2 t = tile V c 2 t := by dsimp only [dat]
theorem after_3 (c : Dev nD) (t : Fin cfg2.N) : (dat V c).after 3 t = k2_pay3 (tile V c 0 t) (tile V c 1 t) (tile V c 2 t) := by dsimp only [dat]
theorem after_4 (c : Dev nD) (t : Fin cfg2.N) : (dat V c).after 4 t = (acc V c t.val t.isLt).1 := by dsimp only [dat]
theorem after_5 (c : Dev nD) (t : Fin cfg2.N) : (dat V c).after 5 t = (acc V c t.val t.isLt).2 := by dsimp only [dat]
theorem before_0 (c : Dev nD) (t : Fin cfg2.N) (d) : (dat V c).before 0 t d = tile V c 0 t :=
  before_of_0 V (dat V c) (A_eq V c 0) (after_0 V c) t d
theorem before_1 (c : Dev nD) (t : Fin cfg2.N) (d) : (dat V c).before 1 t d = tile V c 1 t :=
  before_of_1 V (dat V c) (A_eq V c 1) (after_1 V c) t d
theorem before_2 (c : Dev nD) (t : Fin cfg2.N) (d) : (dat V c).before 2 t d = tile V c 2 t :=
  before_of_2 V (dat V c) (A_eq V c 2) (after_2 V c) t d

/-! ## Where the two small outputs are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_4 : ∀ t : Fin cfg2.N, ¬isLast (grid2.coords t) → cfg2.idle 4 (grid2.coords t) = true := by decide +kernel
theorem unflushed_4 : ∀ t : Fin cfg2.N, ¬isLast (grid2.coords t) → (cfg2.win 4).flush t = false := by decide +kernel
theorem live_4 : ∀ t : Fin cfg2.N, isLast (grid2.coords t) → cfg2.idle 4 (grid2.coords t) = false := by decide +kernel
theorem idle_5 : ∀ t : Fin cfg2.N, ¬isLast (grid2.coords t) → cfg2.idle 5 (grid2.coords t) = true := by decide +kernel
theorem unflushed_5 : ∀ t : Fin cfg2.N, ¬isLast (grid2.coords t) → (cfg2.win 5).flush t = false := by decide +kernel
theorem live_5 : ∀ t : Fin cfg2.N, isLast (grid2.coords t) → cfg2.idle 5 (grid2.coords t) = false := by decide +kernel

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg2.N = 10 from N_2)
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  rw [show (dat V c).leavesExact 3 t = owns (c : Thread nD τ) (st2_3 t) fullShare ((dat V c).after 3 t) from by
    unfold Dat.leavesExact; rw [live_3 t], after_3]
  by_cases h0 : t.val = 0
  · have hF : isFirst (grid2.coords t) := (first_iff t).mpr h0
    have hL : ¬isLast (grid2.coords t) := fun h => by have := (last_iff t).mp h; omega
    rw [Dat.leavesExact_idle (dat V c) 4 t (idle_4 t hL) (unflushed_4 t hL), Dat.leavesExact_idle (dat V c) 5 t (idle_5 t hL) (unflushed_5 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
    iapply (body_first c Set.univ _ hF hL _ _ _ _ _ _ _ _ _ _ _ _ _ _ _ _ (tile V c 0 t) (tile V c 1 t) (tile V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hF : ¬isFirst (grid2.coords t) := fun h => h0 ((first_iff t).mp h)
    by_cases h9 : t.val = 9
    · have hL : isLast (grid2.coords t) := (last_iff t).mpr h9
      rw [show (dat V c).leavesExact 4 t = owns (c : Thread nD τ) (st2_4 t) fullShare ((dat V c).after 4 t) from by
        unfold Dat.leavesExact; rw [live_4 t hL], after_4]
      rw [show (dat V c).leavesExact 5 t = owns (c : Thread nD τ) (st2_5 t) fullShare ((dat V c).after 5 t) from by
        unfold Dat.leavesExact; rw [live_5 t hL], after_5]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_last c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬isLast (grid2.coords t) := fun h => h9 ((last_iff t).mp h)
      rw [Dat.leavesExact_idle (dat V c) 4 t (idle_4 t hL) (unflushed_4 t hL), Dat.leavesExact_idle (dat V c) 5 t (idle_5 t hL) (unflushed_5 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_middle c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the pipeline library, at every tile. -/
theorem body_obligation (c : Dev nD) : BodyObligation (dat (F := F) V c) (defs₀ (F := F)) Variants.none () Set.univ := fun t => by
  rw [bigSep_W2, bigSep_W2]
  exact body_at V c t

/-- What the region is handed is the invariant before the first tile; -/
theorem inv_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 10 := N_2; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.KernelIdeal.LinearStats2

end
-- ==== Proof.KernelIdeal.Normalize2.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 3.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the rows): its staging buffer holds tile `t` of its array when the body runs at `t`, fetched there or not. -/
theorem before_of_0 {c : Dev nD} (dat : Dat τ (Elt F) Unit ℕ (UR sig nD τ) ℕ cfg3 c) (hA : dat.A 0 = V c (Pipeline.arrRef spec3 0))
    (hafter : ∀ t, dat.after 0 t = tile V c 0 t) (t : Fin cfg3.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg3 c) (hA : dat.A 1 = V c (Pipeline.arrRef spec3 1))
    (hafter : ∀ t, dat.after 1 t = tile V c 1 t) (t : Fin cfg3.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg3 c) (hA : dat.A 2 = V c (Pipeline.arrRef spec3 2))
    (hafter : ∀ t, dat.after 2 t = tile V c 2 t) (t : Fin cfg3.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg3 c) (hA : dat.A 3 = V c (Pipeline.arrRef spec3 3))
    (hafter : ∀ t, dat.after 3 t = tile V c 3 t) (t : Fin cfg3.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg3 c) (hA : dat.A 4 = V c (Pipeline.arrRef spec3 4))
    (hafter : ∀ t, dat.after 4 t = tile V c 4 t) (t : Fin cfg3.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc3_bn_relu_kernel i arg0 harg0 arg1 harg1 arg2 harg2 arg3 harg3 arg4 harg4 arg5 harg5) K := by
  simp only [cc3_bn_relu_kernel_eq_skeleton]; unfold cc3_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg3 c where
  A w := V c (Pipeline.arrRef spec3 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec3 c
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = tile V c 0 t := by dsimp only [dat]
theorem after_1 (c : Dev nD) (t : Fin cfg3.N) : (dat V c).after 1 t = tile V c 1 t := by dsimp only [dat]
theorem after_2 (c : Dev nD) (t : Fin cfg3.N) : (dat V c).after 2 t = tile V c 2 t := by dsimp only [dat]
theorem after_3 (c : Dev nD) (t : Fin cfg3.N) : (dat V c).after 3 t = tile V c 3 t := by dsimp only [dat]
theorem after_4 (c : Dev nD) (t : Fin cfg3.N) : (dat V c).after 4 t = tile V c 4 t := by dsimp only [dat]
theorem after_5 (c : Dev nD) (t : Fin cfg3.N) : (dat V c).after 5 t = normalised (tile V c 0 t) (tile V c 1 t) (tile V c 2 t) (tile V c 3 t) (tile V c 4 t) := by dsimp only [dat]
theorem before_0 (c : Dev nD) (t : Fin cfg3.N) (d) : (dat V c).before 0 t d = tile V c 0 t :=
  before_of_0 V (dat V c) (A_eq V c 0) (after_0 V c) t d
theorem before_1 (c : Dev nD) (t : Fin cfg3.N) (d) : (dat V c).before 1 t d = tile V c 1 t :=
  before_of_1 V (dat V c) (A_eq V c 1) (after_1 V c) t d
theorem before_2 (c : Dev nD) (t : Fin cfg3.N) (d) : (dat V c).before 2 t d = tile V c 2 t :=
  before_of_2 V (dat V c) (A_eq V c 2) (after_2 V c) t d
theorem before_3 (c : Dev nD) (t : Fin cfg3.N) (d) : (dat V c).before 3 t d = tile V c 3 t :=
  before_of_3 V (dat V c) (A_eq V c 3) (after_3 V c) t d
theorem before_4 (c : Dev nD) (t : Fin cfg3.N) (d) : (dat V c).before 4 t d = tile V c 4 t :=
  before_of_4 V (dat V c) (A_eq V c 4) (after_4 V c) t d

/-- What the body is called with at tile `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W3, bigSep_W3]
  exact body_at V c t

end Cert.KernelIdeal.Normalize2

end
-- ==== Proof.KernelIdeal.LinearStats3.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 4.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LinearStats3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its staging buffer holds tile `t` of its array when the body runs at `t`, fetched there or not. -/
theorem before_of_0 {c : Dev nD} (dat : Dat τ (Elt F) Unit ℕ (UR sig nD τ) ℕ cfg4 c) (hA : dat.A 0 = V c (Pipeline.arrRef spec4 0))
    (hafter : ∀ t, dat.after 0 t = tile V c 0 t) (t : Fin cfg4.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg4 c) (hA : dat.A 1 = V c (Pipeline.arrRef spec4 1))
    (hafter : ∀ t, dat.after 1 t = tile V c 1 t) (t : Fin cfg4.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg4 c) (hA : dat.A 2 = V c (Pipeline.arrRef spec4 2))
    (hafter : ∀ t, dat.after 2 t = tile V c 2 t) (t : Fin cfg4.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg4 c) (hA : dat.A 3 = V c (Pipeline.arrRef spec4 3))
    (hafter : ∀ t, dat.after 3 t = tile V c 3 t) (t : Fin cfg4.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid4.Coords) : Prop := (Scalar.cmpi .ne (Scalar.extui (Scalar.cmpi .eq (BitVec.ofNat 32 (i 0).val) 0#32)) 0#32) = 1#1
abbrev isLast (i : grid4.Coords) : Prop := k4_cond2 i = 1#1
theorem first_iff : ∀ t : Fin cfg4.N, isFirst (grid4.coords t) ↔ t.val = 0 :=
  (by decide +kernel : ∀ t : Fin grid4.N, isFirst (grid4.coords t) ↔ t.val = 0)
theorem last_iff : ∀ t : Fin cfg4.N, isLast (grid4.coords t) ↔ t.val = 9 :=
  (by decide +kernel : ∀ t : Fin grid4.N, isLast (grid4.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid4.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) s0 fullShare (k4_pay4 x0 x1 x2 x3 xs) ∗ owns (c : Thread nD τ) s1 fullShare (k4_pay5 x0 x1 x2 x3 xq)) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid4.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) s0 fullShare (k4_pay4 x0 x1 x2 x3 (k4_pay1 (F := F))) ∗ owns (c : Thread nD τ) s1 fullShare (k4_pay5 x0 x1 x2 x3 (k4_pay2 (F := F)))) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid4.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k4_pay3 x0 x1 x2 x3) ∗ owns (c : Thread nD τ) a5 fullShare (k4_pay4 x0 x1 x2 x3 xs) ∗ owns (c : Thread nD τ) a6 fullShare (k4_pay5 x0 x1 x2 x3 xq)
            ∗ owns (c : Thread nD τ) s0 fullShare (k4_pay4 x0 x1 x2 x3 xs) ∗ owns (c : Thread nD τ) s1 fullShare (k4_pay5 x0 x1 x2 x3 xq)) -∗ K ⟨⟩))
      ⊢ wp frame (wpE (defs₀ (F := F)) Variants.none c none) E (cc4_linear_add_stats_kernel i a0 ha0 a1 ha1 a2 ha2 a3 ha3 a4 ha4 a5 ha5 a6 ha6 s0 hs0 s1 hs1) K := by
  simp only [cc4_linear_add_stats_kernel_eq_skeleton]; unfold cc4_linear_add_stats_kernel_skel
  simp only [k4_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc4_scratch0
abbrev scM1 : Memref sig .tc .vmem S1x128 .f32 := Memref.whole cc4_scratch1

/-- The two accumulators after tile `n`: the column sums, and the column sums of squares, of the output tiles
    `0 … n`, accumulated tile by tile from zero. -/
def acc (c : Dev nD) : (n : ℕ) → n < cfg4.N → Vec F S1x128 .f32 × Vec F S1x128 .f32
  | 0, hn => (k4_pay4 (tile V c 0 ⟨0, hn⟩) (tile V c 1 ⟨0, hn⟩) (tile V c 2 ⟨0, hn⟩) (tile V c 3 ⟨0, hn⟩) (k4_pay1 (F := F)),
      k4_pay5 (tile V c 0 ⟨0, hn⟩) (tile V c 1 ⟨0, hn⟩) (tile V c 2 ⟨0, hn⟩) (tile V c 3 ⟨0, hn⟩) (k4_pay2 (F := F)))
  | n + 1, hn => (k4_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k4_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg4.N) (h : t.val = 0) :
    acc V c t.val t.isLt = (k4_pay4 (tile V c 0 t) (tile V c 1 t) (tile V c 2 t) (tile V c 3 t) (k4_pay1 (F := F)), k4_pay5 (tile V c 0 t) (tile V c 1 t) (tile V c 2 t) (tile V c 3 t) (k4_pay2 (F := F))) := by
  obtain ⟨n, hn⟩ := t
  cases n with
  | zero => rfl
  | succ n => exact absurd h (Nat.succ_ne_zero _)

theorem acc_later (c : Dev nD) (t : Fin cfg4.N) (h : t.val ≠ 0) :
    acc V c t.val t.isLt = (k4_pay4 (tile V c 0 t) (tile V c 1 t) (tile V c 2 t) (tile V c 3 t) (acc V c (t.val - 1) (Nat.lt_of_le_of_lt (Nat.sub_le _ _) t.isLt)).1,
      k4_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg4.N → sProp 𝕄
  | 0, _ => Pipeline.ΦA spec4 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec4 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg4 c where
  A w := V c (Pipeline.arrRef spec4 w)
  after w t := match w with
    | ⟨0, _⟩ => tile V c 0 t
    | ⟨1, _⟩ => tile V c 1 t
    | ⟨2, _⟩ => tile V c 2 t
    | ⟨3, _⟩ => tile V c 3 t
    | ⟨4, _⟩ => k4_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem PhiS_castSucc (c : Dev nD) (t : Fin cfg4.N) :
    (dat V c).Φ t.castSucc = PhiS V c t.val (Nat.le_of_lt t.isLt) := by
  dsimp only [dat]; simp only [Fin.coe_castSucc]
theorem after_0 (c : Dev nD) (t : Fin cfg4.N) : (dat V c).after 0 t = tile V c 0 t := by dsimp only [dat]
theorem after_1 (c : Dev nD) (t : Fin cfg4.N) : (dat V c).after 1 t = tile V c 1 t := by dsimp only [dat]
theorem after_2 (c : Dev nD) (t : Fin cfg4.N) : (dat V c).after 2 t = tile V c 2 t := by dsimp only [dat]
theorem after_3 (c : Dev nD) (t : Fin cfg4.N) : (dat V c).after 3 t = tile V c 3 t := by dsimp only [dat]
theorem after_4 (c : Dev nD) (t : Fin cfg4.N) : (dat V c).after 4 t = k4_pay3 (tile V c 0 t) (tile V c 1 t) (tile V c 2 t) (tile V c 3 t) := by dsimp only [dat]
theorem after_5 (c : Dev nD) (t : Fin cfg4.N) : (dat V c).after 5 t = (acc V c t.val t.isLt).1 := by dsimp only [dat]
theorem after_6 (c : Dev nD) (t : Fin cfg4.N) : (dat V c).after 6 t = (acc V c t.val t.isLt).2 := by dsimp only [dat]
theorem before_0 (c : Dev nD) (t : Fin cfg4.N) (d) : (dat V c).before 0 t d = tile V c 0 t :=
  before_of_0 V (dat V c) (A_eq V c 0) (after_0 V c) t d
theorem before_1 (c : Dev nD) (t : Fin cfg4.N) (d) : (dat V c).before 1 t d = tile V c 1 t :=
  before_of_1 V (dat V c) (A_eq V c 1) (after_1 V c) t d
theorem before_2 (c : Dev nD) (t : Fin cfg4.N) (d) : (dat V c).before 2 t d = tile V c 2 t :=
  before_of_2 V (dat V c) (A_eq V c 2) (after_2 V c) t d
theorem before_3 (c : Dev nD) (t : Fin cfg4.N) (d) : (dat V c).before 3 t d = tile V c 3 t :=
  before_of_3 V (dat V c) (A_eq V c 3) (after_3 V c) t d

/-! ## Where the two small outputs are idle -/

theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel
theorem live_3 : ∀ t : Fin cfg4.N, cfg4.idle 3 (grid4.coords t) = false := by decide +kernel
theorem live_4 : ∀ t : Fin cfg4.N, cfg4.idle 4 (grid4.coords t) = false := by decide +kernel
theorem idle_5 : ∀ t : Fin cfg4.N, ¬isLast (grid4.coords t) → cfg4.idle 5 (grid4.coords t) = true := by decide +kernel
theorem unflushed_5 : ∀ t : Fin cfg4.N, ¬isLast (grid4.coords t) → (cfg4.win 5).flush t = false := by decide +kernel
theorem live_5 : ∀ t : Fin cfg4.N, isLast (grid4.coords t) → cfg4.idle 5 (grid4.coords t) = false := by decide +kernel
theorem idle_6 : ∀ t : Fin cfg4.N, ¬isLast (grid4.coords t) → cfg4.idle 6 (grid4.coords t) = true := by decide +kernel
theorem unflushed_6 : ∀ t : Fin cfg4.N, ¬isLast (grid4.coords t) → (cfg4.win 6).flush t = false := by decide +kernel
theorem live_6 : ∀ t : Fin cfg4.N, isLast (grid4.coords t) → cfg4.idle 6 (grid4.coords t) = false := by decide +kernel

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg4.N = 10 from N_4)
  rw [show (dat V c).leavesExact 0 t = owns (c : Thread nD τ) (st4_0 t) fullShare ((dat V c).after 0 t) from by
    unfold Dat.leavesExact; rw [live_0 t], after_0]
  rw [show (dat V c).leavesExact 1 t = owns (c : Thread nD τ) (st4_1 t) fullShare ((dat V c).after 1 t) from by
    unfold Dat.leavesExact; rw [live_1 t], after_1]
  rw [show (dat V c).leavesExact 2 t = owns (c : Thread nD τ) (st4_2 t) fullShare ((dat V c).after 2 t) from by
    unfold Dat.leavesExact; rw [live_2 t], after_2]
  rw [show (dat V c).leavesExact 3 t = owns (c : Thread nD τ) (st4_3 t) fullShare ((dat V c).after 3 t) from by
    unfold Dat.leavesExact; rw [live_3 t], after_3]
  rw [show (dat V c).leavesExact 4 t = owns (c : Thread nD τ) (st4_4 t) fullShare ((dat V c).after 4 t) from by
    unfold Dat.leavesExact; rw [live_4 t], after_4]
  by_cases h0 : t.val = 0
  · have hF : isFirst (grid4.coords t) := (first_iff t).mpr h0
    have hL : ¬isLast (grid4.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid4.coords t) := fun h => h0 ((first_iff t).mp h)
    by_cases h9 : t.val = 9
    · have hL : isLast (grid4.coords t) := (last_iff t).mpr h9
      rw [show (dat V c).leavesExact 5 t = owns (c : Thread nD τ) (st4_5 t) fullShare ((dat V c).after 5 t) from by
        unfold Dat.leavesExact; rw [live_5 t hL], after_5]
      rw [show (dat V c).leavesExact 6 t = owns (c : Thread nD τ) (st4_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid4.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W4, bigSep_W4]
  exact body_at V c t

/-- What the region is handed is the invariant before the first tile; -/
theorem inv_in (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg4.N) ⊢ Pipeline.ΦA spec4 c := by
  rw [show (dat V c).Φ (Fin.last cfg4.N) = PhiS V c (Fin.last cfg4.N).val (Nat.le_of_lt_succ (Fin.last cfg4.N).isLt) from rfl,
    PhiS_pos V c _ _ (by rw [Fin.val_last]; have : cfg4.N = 10 := N_4; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.KernelIdeal.LinearStats3

end
-- ==== Proof.KernelIdeal.Normalize3.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 5.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the rows): its staging buffer holds tile `t` of its array when the body runs at `t`, fetched there or not. -/
theorem before_of_0 {c : Dev nD} (dat : Dat τ (Elt F) Unit ℕ (UR sig nD τ) ℕ cfg5 c) (hA : dat.A 0 = V c (Pipeline.arrRef spec5 0))
    (hafter : ∀ t, dat.after 0 t = tile V c 0 t) (t : Fin cfg5.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg5 c) (hA : dat.A 1 = V c (Pipeline.arrRef spec5 1))
    (hafter : ∀ t, dat.after 1 t = tile V c 1 t) (t : Fin cfg5.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg5 c) (hA : dat.A 2 = V c (Pipeline.arrRef spec5 2))
    (hafter : ∀ t, dat.after 2 t = tile V c 2 t) (t : Fin cfg5.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg5 c) (hA : dat.A 3 = V c (Pipeline.arrRef spec5 3))
    (hafter : ∀ t, dat.after 3 t = tile V c 3 t) (t : Fin cfg5.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg5 c) (hA : dat.A 4 = V c (Pipeline.arrRef spec5 4))
    (hafter : ∀ t, dat.after 4 t = tile V c 4 t) (t : Fin cfg5.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc5_bn_relu_kernel i arg0 harg0 arg1 harg1 arg2 harg2 arg3 harg3 arg4 harg4 arg5 harg5) K := by
  simp only [cc5_bn_relu_kernel_eq_skeleton]; unfold cc5_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg5 c where
  A w := V c (Pipeline.arrRef spec5 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec5 c
  q _ := fullShare
  owed _ := 0

theorem A_eq (c : Dev nD) (w : Fin cfg5.W) : (dat V c).A w = V c (Pipeline.arrRef spec5 w) := by
  dsimp only [dat]
theorem after_0 (c : Dev nD) (t : Fin cfg5.N) : (dat V c).after 0 t = tile V c 0 t := by dsimp only [dat]
theorem after_1 (c : Dev nD) (t : Fin cfg5.N) : (dat V c).after 1 t = tile V c 1 t := by dsimp only [dat]
theorem after_2 (c : Dev nD) (t : Fin cfg5.N) : (dat V c).after 2 t = tile V c 2 t := by dsimp only [dat]
theorem after_3 (c : Dev nD) (t : Fin cfg5.N) : (dat V c).after 3 t = tile V c 3 t := by dsimp only [dat]
theorem after_4 (c : Dev nD) (t : Fin cfg5.N) : (dat V c).after 4 t = tile V c 4 t := by dsimp only [dat]
theorem after_5 (c : Dev nD) (t : Fin cfg5.N) : (dat V c).after 5 t = normalised (tile V c 0 t) (tile V c 1 t) (tile V c 2 t) (tile V c 3 t) (tile V c 4 t) := by dsimp only [dat]
theorem before_0 (c : Dev nD) (t : Fin cfg5.N) (d) : (dat V c).before 0 t d = tile V c 0 t :=
  before_of_0 V (dat V c) (A_eq V c 0) (after_0 V c) t d
theorem before_1 (c : Dev nD) (t : Fin cfg5.N) (d) : (dat V c).before 1 t d = tile V c 1 t :=
  before_of_1 V (dat V c) (A_eq V c 1) (after_1 V c) t d
theorem before_2 (c : Dev nD) (t : Fin cfg5.N) (d) : (dat V c).before 2 t d = tile V c 2 t :=
  before_of_2 V (dat V c) (A_eq V c 2) (after_2 V c) t d
theorem before_3 (c : Dev nD) (t : Fin cfg5.N) (d) : (dat V c).before 3 t d = tile V c 3 t :=
  before_of_3 V (dat V c) (A_eq V c 3) (after_3 V c) t d
theorem before_4 (c : Dev nD) (t : Fin cfg5.N) (d) : (dat V c).before 4 t d = tile V c 4 t :=
  before_of_4 V (dat V c) (A_eq V c 4) (after_4 V c) t d

/-- What the body is called with at tile `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W5, bigSep_W5]
  exact body_at V c t

end Cert.KernelIdeal.Normalize3

end
-- ==== Proof.KernelIdeal.LinearStats4.lean ====
/-
  A linear layer with running column statistics, row tile by row tile (ten tiles of 5000 rows of a 50000 x 128
  array): the rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 6.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LinearStats4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its staging buffer holds tile `t` of its array when the body runs at `t`, fetched there or not. -/
theorem before_of_0 {c : Dev nD} (dat : Dat τ (Elt F) Unit ℕ (UR sig nD τ) ℕ cfg6 c) (hA : dat.A 0 = V c (Pipeline.arrRef spec6 0))
    (hafter : ∀ t, dat.after 0 t = tile V c 0 t) (t : Fin cfg6.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg6 c) (hA : dat.A 1 = V c (Pipeline.arrRef spec6 1))
    (hafter : ∀ t, dat.after 1 t = tile V c 1 t) (t : Fin cfg6.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg6 c) (hA : dat.A 2 = V c (Pipeline.arrRef spec6 2))
    (hafter : ∀ t, dat.after 2 t = tile V c 2 t) (t : Fin cfg6.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid6.Coords) : Prop := (Scalar.cmpi .ne (Scalar.extui (Scalar.cmpi .eq (BitVec.ofNat 32 (i 0).val) 0#32)) 0#32) = 1#1
abbrev isLast (i : grid6.Coords) : Prop := k6_cond2 i = 1#1
theorem first_iff : ∀ t : Fin cfg6.N, isFirst (grid6.coords t) ↔ t.val = 0 :=
  (by decide +kernel : ∀ t : Fin grid6.N, isFirst (grid6.coords t) ↔ t.val = 0)
theorem last_iff : ∀ t : Fin cfg6.N, isLast (grid6.coords t) ↔ t.val = 9 :=
  (by decide +kernel : ∀ t : Fin grid6.N, isLast (grid6.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid6.Coords) (hc0 : ¬isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) s0 fullShare (k6_pay4 x0 x1 x2 xs) ∗ owns (c : Thread nD τ) s1 fullShare (k6_pay5 x0 x1 x2 xq)) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid6.Coords) (hc0 : isFirst i) (hc1 : ¬isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) s0 fullShare (k6_pay4 x0 x1 x2 (k6_pay1 (F := F))) ∗ owns (c : Thread nD τ) s1 fullShare (k6_pay5 x0 x1 x2 (k6_pay2 (F := F)))) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%ds, %fs, -, Hs⟩, ⟨%dq, %fq, -, Hq⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid6.Coords) (hc0 : ¬isFirst i) (hc1 : isLast i)
    (a0 : Memref sig .tc .vmem S5000x128 .f32) (ha0 : a0.IsWhole) (a1 : Memref sig .tc .vmem S128x128 .f32) (ha1 : a1.IsWhole) (a2 : Memref sig .tc .vmem S1x128 .f32) (ha2 : a2.IsWhole) (a3 : Memref sig .tc .vmem S5000x128 .f32) (ha3 : a3.IsWhole) (a4 : Memref sig .tc .vmem S1x128 .f32) (ha4 : a4.IsWhole) (a5 : Memref sig .tc .vmem S1x128 .f32) (ha5 : a5.IsWhole) (s0 : Memref sig .tc .vmem S1x128 .f32) (hs0 : s0.IsWhole) (s1 : Memref sig .tc .vmem S1x128 .f32) (hs1 : s1.IsWhole)
    (x0 : Vec F S5000x128 .f32) (x1 : Vec F S128x128 .f32) (x2 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2
            ∗ owns (c : Thread nD τ) a3 fullShare (k6_pay3 x0 x1 x2) ∗ owns (c : Thread nD τ) a4 fullShare (k6_pay4 x0 x1 x2 xs) ∗ owns (c : Thread nD τ) a5 fullShare (k6_pay5 x0 x1 x2 xq)
            ∗ owns (c : Thread nD τ) s0 fullShare (k6_pay4 x0 x1 x2 xs) ∗ owns (c : Thread nD τ) s1 fullShare (k6_pay5 x0 x1 x2 xq)) -∗ K ⟨⟩))
      ⊢ wp frame (wpE (defs₀ (F := F)) Variants.none c none) E (cc6_linear_stats_kernel i a0 ha0 a1 ha1 a2 ha2 a3 ha3 a4 ha4 a5 ha5 s0 hs0 s1 hs1) K := by
  simp only [cc6_linear_stats_kernel_eq_skeleton]; unfold cc6_linear_stats_kernel_skel
  simp only [k6_part1_eq_skeleton]
  unfold owns
  iintro ⟨⟨%f0, %hf0, H0⟩, ⟨%f1, %hf1, H1⟩, ⟨%f2, %hf2, H2⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc6_scratch0
abbrev scM1 : Memref sig .tc .vmem S1x128 .f32 := Memref.whole cc6_scratch1

/-- The two accumulators after tile `n`: the column sums, and the column sums of squares, of the output tiles
    `0 … n`, accumulated tile by tile from zero. -/
def acc (c : Dev nD) : (n : ℕ) → n < cfg6.N → Vec F S1x128 .f32 × Vec F S1x128 .f32
  | 0, hn => (k6_pay4 (tile V c 0 ⟨0, hn⟩) (tile V c 1 ⟨0, hn⟩) (tile V c 2 ⟨0, hn⟩) (k6_pay1 (F := F)),
      k6_pay5 (tile V c 0 ⟨0, hn⟩) (tile V c 1 ⟨0, hn⟩) (tile V c 2 ⟨0, hn⟩) (k6_pay2 (F := F)))
  | n + 1, hn => (k6_pay4 (tile V c 0 ⟨n + 1, hn⟩) (tile V c 1 ⟨n + 1, hn⟩) (tile V c 2 ⟨n + 1, hn⟩) (acc c n (Nat.lt_of_succ_lt hn)).1,
      k6_pay5 (tile V c 0 ⟨n + 1, hn⟩) (tile V c 1 ⟨n + 1, hn⟩) (tile V c 2 ⟨n + 1, hn⟩) (acc c n (Nat.lt_of_succ_lt hn)).2)

theorem acc_first (c : Dev nD) (t : Fin cfg6.N) (h : t.val = 0) :
    acc V c t.val t.isLt = (k6_pay4 (tile V c 0 t) (tile V c 1 t) (tile V c 2 t) (k6_pay1 (F := F)), k6_pay5 (tile V c 0 t) (tile V c 1 t) (tile V c 2 t) (k6_pay2 (F := F))) := by
  obtain ⟨n, hn⟩ := t
  cases n with
  | zero => rfl
  | succ n => exact absurd h (Nat.succ_ne_zero _)

theorem acc_later (c : Dev nD) (t : Fin cfg6.N) (h : t.val ≠ 0) :
    acc V c t.val t.isLt = (k6_pay4 (tile V c 0 t) (tile V c 1 t) (tile V c 2 t) (acc V c (t.val - 1) (Nat.lt_of_le_of_lt (Nat.sub_le _ _) t.isLt)).1,
      k6_pay5 (tile V c 0 t) (tile V c 1 t) (tile V c 2 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg6.N → sProp 𝕄
  | 0, _ => Pipeline.ΦA spec6 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS_zero (c : Dev nD) (n : ℕ) (h : n ≤ cfg6.N) (hz : n = 0) : PhiS V c n h = Pipeline.ΦA spec6 c := by
  subst hz; rfl

theorem PhiS_succ (c : Dev nD) (n : ℕ) (hn : n < cfg6.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS_pos (c : Dev nD) (n : ℕ) (h : n ≤ cfg6.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec6 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg6 c where
  A w := V c (Pipeline.arrRef spec6 w)
  after w t := match w with
    | ⟨0, _⟩ => tile V c 0 t
    | ⟨1, _⟩ => tile V c 1 t
    | ⟨2, _⟩ => tile V c 2 t
    | ⟨3, _⟩ => k6_pay3 (tile V c 0 t) (tile V c 1 t) (tile V c 2 t)
    | ⟨4, _⟩ => (acc V c t.val t.isLt).1
    | ⟨5, _⟩ => (acc V c t.val t.isLt).2
  Φ t := PhiS V c t.val (Nat.le_of_lt_succ t.isLt)
  q _ := fullShare
  owed _ := 0

theorem A_eq (c : Dev nD) (w : Fin cfg6.W) : (dat V c).A w = V c (Pipeline.arrRef spec6 w) := by
  dsimp only [dat]
theorem PhiS_castSucc (c : Dev nD) (t : Fin cfg6.N) :
    (dat V c).Φ t.castSucc = PhiS V c t.val (Nat.le_of_lt t.isLt) := by
  dsimp only [dat]; simp only [Fin.coe_castSucc]
theorem after_0 (c : Dev nD) (t : Fin cfg6.N) : (dat V c).after 0 t = tile V c 0 t := by dsimp only [dat]
theorem after_1 (c : Dev nD) (t : Fin cfg6.N) : (dat V c).after 1 t = tile V c 1 t := by dsimp only [dat]
theorem after_2 (c : Dev nD) (t : Fin cfg6.N) : (dat V c).after 2 t = tile V c 2 t := by dsimp only [dat]
theorem after_3 (c : Dev nD) (t : Fin cfg6.N) : (dat V c).after 3 t = k6_pay3 (tile V c 0 t) (tile V c 1 t) (tile V c 2 t) := by dsimp only [dat]
theorem after_4 (c : Dev nD) (t : Fin cfg6.N) : (dat V c).after 4 t = (acc V c t.val t.isLt).1 := by dsimp only [dat]
theorem after_5 (c : Dev nD) (t : Fin cfg6.N) : (dat V c).after 5 t = (acc V c t.val t.isLt).2 := by dsimp only [dat]
theorem before_0 (c : Dev nD) (t : Fin cfg6.N) (d) : (dat V c).before 0 t d = tile V c 0 t :=
  before_of_0 V (dat V c) (A_eq V c 0) (after_0 V c) t d
theorem before_1 (c : Dev nD) (t : Fin cfg6.N) (d) : (dat V c).before 1 t d = tile V c 1 t :=
  before_of_1 V (dat V c) (A_eq V c 1) (after_1 V c) t d
theorem before_2 (c : Dev nD) (t : Fin cfg6.N) (d) : (dat V c).before 2 t d = tile V c 2 t :=
  before_of_2 V (dat V c) (A_eq V c 2) (after_2 V c) t d

/-! ## Where the two small outputs are idle -/

theorem live_0 : ∀ t : Fin cfg6.N, cfg6.idle 0 (grid6.coords t) = false := by decide +kernel
theorem live_1 : ∀ t : Fin cfg6.N, cfg6.idle 1 (grid6.coords t) = false := by decide +kernel
theorem live_2 : ∀ t : Fin cfg6.N, cfg6.idle 2 (grid6.coords t) = false := by decide +kernel
theorem live_3 : ∀ t : Fin cfg6.N, cfg6.idle 3 (grid6.coords t) = false := by decide +kernel
theorem idle_4 : ∀ t : Fin cfg6.N, ¬isLast (grid6.coords t) → cfg6.idle 4 (grid6.coords t) = true := by decide +kernel
theorem unflushed_4 : ∀ t : Fin cfg6.N, ¬isLast (grid6.coords t) → (cfg6.win 4).flush t = false := by decide +kernel
theorem live_4 : ∀ t : Fin cfg6.N, isLast (grid6.coords t) → cfg6.idle 4 (grid6.coords t) = false := by decide +kernel
theorem idle_5 : ∀ t : Fin cfg6.N, ¬isLast (grid6.coords t) → cfg6.idle 5 (grid6.coords t) = true := by decide +kernel
theorem unflushed_5 : ∀ t : Fin cfg6.N, ¬isLast (grid6.coords t) → (cfg6.win 5).flush t = false := by decide +kernel
theorem live_5 : ∀ t : Fin cfg6.N, isLast (grid6.coords t) → cfg6.idle 5 (grid6.coords t) = false := by decide +kernel

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d)))

def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg6.N = 10 from N_6)
  rw [show (dat V c).leavesExact 0 t = owns (c : Thread nD τ) (st6_0 t) fullShare ((dat V c).after 0 t) from by
    unfold Dat.leavesExact; rw [live_0 t], after_0]
  rw [show (dat V c).leavesExact 1 t = owns (c : Thread nD τ) (st6_1 t) fullShare ((dat V c).after 1 t) from by
    unfold Dat.leavesExact; rw [live_1 t], after_1]
  rw [show (dat V c).leavesExact 2 t = owns (c : Thread nD τ) (st6_2 t) fullShare ((dat V c).after 2 t) from by
    unfold Dat.leavesExact; rw [live_2 t], after_2]
  rw [show (dat V c).leavesExact 3 t = owns (c : Thread nD τ) (st6_3 t) fullShare ((dat V c).after 3 t) from by
    unfold Dat.leavesExact; rw [live_3 t], after_3]
  by_cases h0 : t.val = 0
  · have hF : isFirst (grid6.coords t) := (first_iff t).mpr h0
    have hL : ¬isLast (grid6.coords t) := fun h => by have := (last_iff t).mp h; omega
    rw [Dat.leavesExact_idle (dat V c) 4 t (idle_4 t hL) (unflushed_4 t hL), Dat.leavesExact_idle (dat V c) 5 t (idle_5 t hL) (unflushed_5 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
    iapply (body_first c Set.univ _ hF hL _ _ _ _ _ _ _ _ _ _ _ _ _ _ _ _ (tile V c 0 t) (tile V c 1 t) (tile V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hF : ¬isFirst (grid6.coords t) := fun h => h0 ((first_iff t).mp h)
    by_cases h9 : t.val = 9
    · have hL : isLast (grid6.coords t) := (last_iff t).mpr h9
      rw [show (dat V c).leavesExact 4 t = owns (c : Thread nD τ) (st6_4 t) fullShare ((dat V c).after 4 t) from by
        unfold Dat.leavesExact; rw [live_4 t hL], after_4]
      rw [show (dat V c).leavesExact 5 t = owns (c : Thread nD τ) (st6_5 t) fullShare ((dat V c).after 5 t) from by
        unfold Dat.leavesExact; rw [live_5 t hL], after_5]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_last c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL : ¬isLast (grid6.coords t) := fun h => h9 ((last_iff t).mp h)
      rw [Dat.leavesExact_idle (dat V c) 4 t (idle_4 t hL) (unflushed_4 t hL), Dat.leavesExact_idle (dat V c) 5 t (idle_5 t hL) (unflushed_5 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩⟩
      iapply (body_middle c Set.univ _ hF hL _ _ _ _ _ _ _ _ _ _ _ _ _ _ _ _ (tile V c 0 t) (tile V c 1 t) (tile V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the pipeline library, at every tile. -/
theorem body_obligation (c : Dev nD) : BodyObligation (dat (F := F) V c) (defs₀ (F := F)) Variants.none () Set.univ := fun t => by
  rw [bigSep_W6, bigSep_W6]
  exact body_at V c t

/-- What the region is handed is the invariant before the first tile; -/
theorem inv_in (c : Dev nD) : Pipeline.ΦA spec6 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg6.N) ⊢ Pipeline.ΦA spec6 c := by
  rw [show (dat V c).Φ (Fin.last cfg6.N) = PhiS V c (Fin.last cfg6.N).val (Nat.le_of_lt_succ (Fin.last cfg6.N).isLt) from rfl,
    PhiS_pos V c _ _ (by rw [Fin.val_last]; have : cfg6.N = 10 := N_6; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.KernelIdeal.LinearStats4

end
-- ==== Proof.KernelIdeal.Normalize4.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 7.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the rows): its staging buffer holds tile `t` of its array when the body runs at `t`, fetched there or not. -/
theorem before_of_0 {c : Dev nD} (dat : Dat τ (Elt F) Unit ℕ (UR sig nD τ) ℕ cfg7 c) (hA : dat.A 0 = V c (Pipeline.arrRef spec7 0))
    (hafter : ∀ t, dat.after 0 t = tile V c 0 t) (t : Fin cfg7.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg7 c) (hA : dat.A 1 = V c (Pipeline.arrRef spec7 1))
    (hafter : ∀ t, dat.after 1 t = tile V c 1 t) (t : Fin cfg7.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg7 c) (hA : dat.A 2 = V c (Pipeline.arrRef spec7 2))
    (hafter : ∀ t, dat.after 2 t = tile V c 2 t) (t : Fin cfg7.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg7 c) (hA : dat.A 3 = V c (Pipeline.arrRef spec7 3))
    (hafter : ∀ t, dat.after 3 t = tile V c 3 t) (t : Fin cfg7.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg7 c) (hA : dat.A 4 = V c (Pipeline.arrRef spec7 4))
    (hafter : ∀ t, dat.after 4 t = tile V c 4 t) (t : Fin cfg7.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k7_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid7.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc7_bn_relu_kernel i arg0 harg0 arg1 harg1 arg2 harg2 arg3 harg3 arg4 harg4 arg5 harg5) K := by
  simp only [cc7_bn_relu_kernel_eq_skeleton]; unfold cc7_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg7 c where
  A w := V c (Pipeline.arrRef spec7 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec7 c
  q _ := fullShare
  owed _ := 0

theorem A_eq (c : Dev nD) (w : Fin cfg7.W) : (dat V c).A w = V c (Pipeline.arrRef spec7 w) := by
  dsimp only [dat]
theorem after_0 (c : Dev nD) (t : Fin cfg7.N) : (dat V c).after 0 t = tile V c 0 t := by dsimp only [dat]
theorem after_1 (c : Dev nD) (t : Fin cfg7.N) : (dat V c).after 1 t = tile V c 1 t := by dsimp only [dat]
theorem after_2 (c : Dev nD) (t : Fin cfg7.N) : (dat V c).after 2 t = tile V c 2 t := by dsimp only [dat]
theorem after_3 (c : Dev nD) (t : Fin cfg7.N) : (dat V c).after 3 t = tile V c 3 t := by dsimp only [dat]
theorem after_4 (c : Dev nD) (t : Fin cfg7.N) : (dat V c).after 4 t = tile V c 4 t := by dsimp only [dat]
theorem after_5 (c : Dev nD) (t : Fin cfg7.N) : (dat V c).after 5 t = normalised (tile V c 0 t) (tile V c 1 t) (tile V c 2 t) (tile V c 3 t) (tile V c 4 t) := by dsimp only [dat]
theorem before_0 (c : Dev nD) (t : Fin cfg7.N) (d) : (dat V c).before 0 t d = tile V c 0 t :=
  before_of_0 V (dat V c) (A_eq V c 0) (after_0 V c) t d
theorem before_1 (c : Dev nD) (t : Fin cfg7.N) (d) : (dat V c).before 1 t d = tile V c 1 t :=
  before_of_1 V (dat V c) (A_eq V c 1) (after_1 V c) t d
theorem before_2 (c : Dev nD) (t : Fin cfg7.N) (d) : (dat V c).before 2 t d = tile V c 2 t :=
  before_of_2 V (dat V c) (A_eq V c 2) (after_2 V c) t d
theorem before_3 (c : Dev nD) (t : Fin cfg7.N) (d) : (dat V c).before 3 t d = tile V c 3 t :=
  before_of_3 V (dat V c) (A_eq V c 3) (after_3 V c) t d
theorem before_4 (c : Dev nD) (t : Fin cfg7.N) (d) : (dat V c).before 4 t d = tile V c 4 t :=
  before_of_4 V (dat V c) (A_eq V c 4) (after_4 V c) t d

/-- What the body is called with at tile `t`, -/
def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d)))

/-- and what it returns. -/
def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t))

theorem body_at (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W7, bigSep_W7]
  exact body_at V c t

end Cert.KernelIdeal.Normalize4

end
-- ==== Proof.KernelIdeal.LinearStats5.lean ====
/-
  A linear layer with running column statistics, row tile by row tile (ten tiles of 5000 rows of a 50000 x 128
  array): the rows plus their aggregated neighbour rows, times the 128 x 128 weights, plus the bias row, stored as
  the output tile; the tile's column sums and column sums of squares are added into two 1 x 128 accumulators the
  kernel keeps between tiles (cleared at the first tile), and at the last tile the accumulators are copied into two
  1 x 128 outputs that are written back only there.  Stated at any contents `V` of the TensorCore's buffers at the
  region's entry.  (Kernel region 8.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LinearStats5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: its staging buffer holds tile `t` of its array when the body runs at `t`, fetched there or not. -/
theorem before_of_0 {c : Dev nD} (dat : Dat τ (Elt F) Unit ℕ (UR sig nD τ) ℕ cfg8 c) (hA : dat.A 0 = V c (Pipeline.arrRef spec8 0))
    (hafter : ∀ t, dat.after 0 t = tile V c 0 t) (t : Fin cfg8.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1: its staging buffer holds tile `t` of its array when the body runs at `t`, fetched there or not. -/
theorem before_of_1 {c : Dev nD} (dat : Dat τ (Elt F) Unit ℕ (UR sig nD τ) ℕ cfg8 c) (hA : dat.A 1 = V c (Pipeline.arrRef spec8 1))
    (hafter : ∀ t, dat.after 1 t = tile V c 1 t) (t : Fin cfg8.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2: its staging buffer holds tile `t` of its array when the body runs at `t`, fetched there or not. -/
theorem before_of_2 {c : Dev nD} (dat : Dat τ (Elt F) Unit ℕ (UR sig nD τ) ℕ cfg8 c) (hA : dat.A 2 = V c (Pipeline.arrRef spec8 2))
    (hafter : ∀ t, dat.after 2 t = tile V c 2 t) (t : Fin cfg8.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3: its staging buffer holds tile `t` of its array when the body runs at `t`, fetched there or not. -/
theorem before_of_3 {c : Dev nD} (dat : Dat τ (Elt F) Unit ℕ (UR sig nD τ) ℕ cfg8 c) (hA : dat.A 3 = V c (Pipeline.arrRef spec8 3))
    (hafter : ∀ t, dat.after 3 t = tile V c 3 t) (t : Fin cfg8.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-! ## The two conditions of the body: the first tile, the last tile -/

abbrev isFirst (i : grid8.Coords) : Prop := (Scalar.cmpi .ne (Scalar.extui (Scalar.cmpi .eq (BitVec.ofNat 32 (i 0).val) 0#32)) 0#32) = 1#1
abbrev isLast (i : grid8.Coords) : Prop := k8_cond2 i = 1#1
theorem first_iff : ∀ t : Fin cfg8.N, isFirst (grid8.coords t) ↔ t.val = 0 :=
  (by decide +kernel : ∀ t : Fin grid8.N, isFirst (grid8.coords t) ↔ t.val = 0)
theorem last_iff : ∀ t : Fin cfg8.N, isLast (grid8.coords t) ↔ t.val = 9 :=
  (by decide +kernel : ∀ t : Fin grid8.N, isLast (grid8.coords t) ↔ t.val = 9)

/-! ## Whole-buffer stores and loads -/

theorem hz : (![0, 0] : Fin 2 → Nat) = fun _ => 0 := funext fun a => by fin_cases a <;> rfl

/-- A list of stores whose last one overwrites the whole buffer covers the buffer. -/
theorem covers {S : Shape} (off : Fin S.rank → Nat) (h : off = fun _ => 0) (inb : ∀ a, off a + S.size a ≤ S.size a)
    (w : S.Idx → Elt F .f32) (L : List (View.Piece (Elt F) S .f32)) (y : S.Idx) :
    ∃ p ∈ ((⟨Rect.unit off S.size inb, w⟩ : View.Piece (Elt F) S .f32) :: L), y ∈ p.1.set :=
  ⟨_, List.mem_cons.mpr (Or.inl rfl), View.mem_set_unit_zero h inb y⟩

/-! ## The body on whole staging buffers, in its three cases -/

set_option maxHeartbeats 2000000 in
/-- A middle tile: the output tile is overwritten with the affine image of the input tiles, and each accumulator
    with itself plus the tile's column sums (of squares). -/
theorem body_middle (c : Dev nD) (E : Set ℕ) (i : grid8.Coords) (hc0 : ¬isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) s0 fullShare (k8_pay4 x0 x1 x2 x3 xs) ∗ owns (c : Thread nD τ) s1 fullShare (k8_pay5 x0 x1 x2 x3 xq)) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The first tile: the accumulators are cleared before the tile's column sums are added. -/
theorem body_first (c : Dev nD) (E : Set ℕ) (i : grid8.Coords) (hc0 : isFirst i) (hc1 : ¬isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) s0 fullShare d) ∗ (∃ d, owns (c : Thread nD τ) s1 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) s0 fullShare (k8_pay4 x0 x1 x2 x3 (k8_pay1 (F := F))) ∗ owns (c : Thread nD τ) s1 fullShare (k8_pay5 x0 x1 x2 x3 (k8_pay2 (F := F)))) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%ds, %fs, -, Hs⟩, ⟨%dq, %fq, -, Hq⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

set_option maxHeartbeats 2000000 in
/-- The last tile: after the tile's column sums are added, the accumulators are copied into the two small outputs. -/
theorem body_last (c : Dev nD) (E : Set ℕ) (i : grid8.Coords) (hc0 : ¬isFirst i) (hc1 : isLast i)
    (a0 : Memref sig .tc .vmem S5000x128 .f32) (ha0 : a0.IsWhole) (a1 : Memref sig .tc .vmem S5000x128 .f32) (ha1 : a1.IsWhole) (a2 : Memref sig .tc .vmem S128x128 .f32) (ha2 : a2.IsWhole) (a3 : Memref sig .tc .vmem S1x128 .f32) (ha3 : a3.IsWhole) (a4 : Memref sig .tc .vmem S5000x128 .f32) (ha4 : a4.IsWhole) (a5 : Memref sig .tc .vmem S1x128 .f32) (ha5 : a5.IsWhole) (a6 : Memref sig .tc .vmem S1x128 .f32) (ha6 : a6.IsWhole) (s0 : Memref sig .tc .vmem S1x128 .f32) (hs0 : s0.IsWhole) (s1 : Memref sig .tc .vmem S1x128 .f32) (hs1 : s1.IsWhole)
    (x0 : Vec F S5000x128 .f32) (x1 : Vec F S5000x128 .f32) (x2 : Vec F S128x128 .f32) (x3 : Vec F S1x128 .f32) (xs xq : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ owns (c : Thread nD τ) s0 fullShare xs ∗ owns (c : Thread nD τ) s1 fullShare xq
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (k8_pay3 x0 x1 x2 x3) ∗ owns (c : Thread nD τ) a5 fullShare (k8_pay4 x0 x1 x2 x3 xs) ∗ owns (c : Thread nD τ) a6 fullShare (k8_pay5 x0 x1 x2 x3 xq)
            ∗ owns (c : Thread nD τ) s0 fullShare (k8_pay4 x0 x1 x2 x3 xs) ∗ owns (c : Thread nD τ) s1 fullShare (k8_pay5 x0 x1 x2 x3 xq)) -∗ K ⟨⟩))
      ⊢ wp frame (wpE (defs₀ (F := F)) Variants.none c none) E (cc8_linear_add_stats_kernel i a0 ha0 a1 ha1 a2 ha2 a3 ha3 a4 ha4 a5 ha5 a6 ha6 s0 hs0 s1 hs1) K := by
  simp only [cc8_linear_add_stats_kernel_eq_skeleton]; unfold cc8_linear_add_stats_kernel_skel
  simp only [k8_part1_eq_skeleton]
  unfold owns
  iintro ⟨⟨%f0, %hf0, H0⟩, ⟨%f1, %hf1, H1⟩, ⟨%f2, %hf2, H2⟩, ⟨%f3, %hf3, H3⟩, ⟨%dy, %fy, -, Hy⟩, ⟨%d5, %f5, -, H5⟩, ⟨%d6, %f6, -, H6⟩, ⟨%fs, %hfs, Hs⟩, ⟨%fq, %hfq, Hq⟩, Hk⟩
  subst hf0; subst hf1; subst hf2; subst hf3; subst hfs; subst hfq
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hy]
  · iexists _; isplitr
    swap; · iexact Hy
    ipureintro
    try sl_unfold_words
    rw [View.read_writes_eq_canon _ _ _ (covers _ hz _ _ _), View.canon_cons_unit_zero (S := S5000x128) hz]
    simp only [View.readAt_eq_ld, View.ld_unit_zero (S := S5000x128) hz, View.ld_unit_zero (S := S128x128) hz, View.ld_unit_zero (S := S1x128) hz, View.readCov_unit_zero (S := S1x128) _ hz]
  isplitl [H5]
  · iexists _; isplitr
    swap; · iexact H5
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [H6]
  · iexists _; isplitr
    swap; · iexact H6
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  isplitl [Hs]
  · iexists _; isplitr
    swap; · iexact Hs
    ipureintro
    try sl_unfold_words
    rw [View.read_writes_eq_canon _ _ _ (covers _ hz _ _ _), View.canon_cons_unit_zero (S := S1x128) hz]
    simp only [View.readAt_eq_ld, View.ld_unit_zero (S := S5000x128) hz, View.ld_unit_zero (S := S128x128) hz, View.ld_unit_zero (S := S1x128) hz, View.readCov_unit_zero (S := S1x128) _ hz]
  iexists _; isplitr
  swap; · iexact Hq
  ipureintro
  try sl_unfold_words
  rw [View.read_writes_eq_canon _ _ _ (covers _ hz _ _ _), View.canon_cons_unit_zero (S := S1x128) hz]
  simp only [View.readAt_eq_ld, View.ld_unit_zero (S := S5000x128) hz, View.ld_unit_zero (S := S128x128) hz, View.ld_unit_zero (S := S1x128) hz, View.readCov_unit_zero (S := S1x128) _ hz]

/-! ## The accumulators tile after tile, the invariant, the proof data -/

/-- The kernel's two accumulators, whole buffers of its own. -/
abbrev scM0 : Memref sig .tc .vmem S1x128 .f32 := Memref.whole cc8_scratch0
abbrev scM1 : Memref sig .tc .vmem S1x128 .f32 := Memref.whole cc8_scratch1

/-- The two accumulators after tile `n`: the column sums, and the column sums of squares, of the output tiles
    `0 … n`, accumulated tile by tile from zero. -/
def acc (c : Dev nD) : (n : ℕ) → n < cfg8.N → Vec F S1x128 .f32 × Vec F S1x128 .f32
  | 0, hn => (k8_pay4 (tile V c 0 ⟨0, hn⟩) (tile V c 1 ⟨0, hn⟩) (tile V c 2 ⟨0, hn⟩) (tile V c 3 ⟨0, hn⟩) (k8_pay1 (F := F)),
      k8_pay5 (tile V c 0 ⟨0, hn⟩) (tile V c 1 ⟨0, hn⟩) (tile V c 2 ⟨0, hn⟩) (tile V c 3 ⟨0, hn⟩) (k8_pay2 (F := F)))
  | n + 1, hn => (k8_pay4 (tile V c 0 ⟨n + 1, hn⟩) (tile V c 1 ⟨n + 1, hn⟩) (tile V c 2 ⟨n + 1, hn⟩) (tile V c 3 ⟨n + 1, hn⟩) (acc c n (Nat.lt_of_succ_lt hn)).1,
      k8_pay5 (tile V c 0 ⟨n + 1, hn⟩) (tile V c 1 ⟨n + 1, hn⟩) (tile V c 2 ⟨n + 1, hn⟩) (tile V c 3 ⟨n + 1, hn⟩) (acc c n (Nat.lt_of_succ_lt hn)).2)

theorem acc_first (c : Dev nD) (t : Fin cfg8.N) (h : t.val = 0) :
    acc V c t.val t.isLt = (k8_pay4 (tile V c 0 t) (tile V c 1 t) (tile V c 2 t) (tile V c 3 t) (k8_pay1 (F := F)), k8_pay5 (tile V c 0 t) (tile V c 1 t) (tile V c 2 t) (tile V c 3 t) (k8_pay2 (F := F))) := by
  obtain ⟨n, hn⟩ := t
  cases n with
  | zero => rfl
  | succ n => exact absurd h (Nat.succ_ne_zero _)

theorem acc_later (c : Dev nD) (t : Fin cfg8.N) (h : t.val ≠ 0) :
    acc V c t.val t.isLt = (k8_pay4 (tile V c 0 t) (tile V c 1 t) (tile V c 2 t) (tile V c 3 t) (acc V c (t.val - 1) (Nat.lt_of_le_of_lt (Nat.sub_le _ _) t.isLt)).1,
      k8_pay5 (tile V c 0 t) (tile V c 1 t) (tile V c 2 t) (tile V c 3 t) (acc V c (t.val - 1) (Nat.lt_of_le_of_lt (Nat.sub_le _ _) t.isLt)).2) := by
  obtain ⟨n, hn⟩ := t
  cases n with
  | zero => exact absurd rfl h
  | succ n => rfl

/-- The invariant before tile `n`: before the first tile the accumulators hold anything; afterwards they hold the
    sums over the tiles done.  The other scoped buffers and the generator register ride along untouched. -/
def PhiS (c : Dev nD) : (n : ℕ) → n ≤ cfg8.N → sProp 𝕄
  | 0, _ => Pipeline.ΦA spec8 c
  | n + 1, hn => iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec8 c [cc8_scratch0, cc8_scratch1]) ∗ (∃ r, prngReg c r))

theorem PhiS_zero (c : Dev nD) (n : ℕ) (h : n ≤ cfg8.N) (hz : n = 0) : PhiS V c n h = Pipeline.ΦA spec8 c := by
  subst hz; rfl

theorem PhiS_succ (c : Dev nD) (n : ℕ) (hn : n < cfg8.N) :
    PhiS V c (n + 1) hn = iprop(((owns (c : Thread nD τ) scM0 fullShare (acc V c n hn).1 ∗ owns (c : Thread nD τ) scM1 fullShare (acc V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem PhiS_pos (c : Dev nD) (n : ℕ) (h : n ≤ cfg8.N) (hz : n ≠ 0) :
    PhiS V c n h = iprop(((owns (c : Thread nD τ) scM0 fullShare (acc V c (n - 1) (by omega)).1 ∗ owns (c : Thread nD τ) scM1 fullShare (acc V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- The class invariant with the two accumulators split out of the scoped rest, each at some contents. -/
theorem PhiA_eq (c : Dev nD) :
    (Pipeline.ΦA spec8 c : sProp 𝕄)
      = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM0, scM1, owns_whole]; try rfl

/-- The region's proof data on core `c`: the arrays as found; after the body at tile `t` every input's buffer at
    its tile, the output tile at the affine image of the input tiles, the two small outputs at the accumulators
    (consulted at the last tile only); the invariant carries the accumulators. -/
def dat (c : Dev nD) : Dat τ (Elt F) Unit ℕ (UR sig nD τ) ℕ cfg8 c where
  A w := V c (Pipeline.arrRef spec8 w)
  after w t := match w with
    | ⟨0, _⟩ => tile V c 0 t
    | ⟨1, _⟩ => tile V c 1 t
    | ⟨2, _⟩ => tile V c 2 t
    | ⟨3, _⟩ => tile V c 3 t
    | ⟨4, _⟩ => k8_pay3 (tile V c 0 t) (tile V c 1 t) (tile V c 2 t) (tile V c 3 t)
    | ⟨5, _⟩ => (acc V c t.val t.isLt).1
    | ⟨6, _⟩ => (acc V c t.val t.isLt).2
  Φ t := PhiS V c t.val (Nat.le_of_lt_succ t.isLt)
  q _ := fullShare
  owed _ := 0

theorem A_eq (c : Dev nD) (w : Fin cfg8.W) : (dat V c).A w = V c (Pipeline.arrRef spec8 w) := by
  dsimp only [dat]
theorem PhiS_castSucc (c : Dev nD) (t : Fin cfg8.N) :
    (dat V c).Φ t.castSucc = PhiS V c t.val (Nat.le_of_lt t.isLt) := by
  dsimp only [dat]; simp only [Fin.coe_castSucc]
theorem after_0 (c : Dev nD) (t : Fin cfg8.N) : (dat V c).after 0 t = tile V c 0 t := by dsimp only [dat]
theorem after_1 (c : Dev nD) (t : Fin cfg8.N) : (dat V c).after 1 t = tile V c 1 t := by dsimp only [dat]
theorem after_2 (c : Dev nD) (t : Fin cfg8.N) : (dat V c).after 2 t = tile V c 2 t := by dsimp only [dat]
theorem after_3 (c : Dev nD) (t : Fin cfg8.N) : (dat V c).after 3 t = tile V c 3 t := by dsimp only [dat]
theorem after_4 (c : Dev nD) (t : Fin cfg8.N) : (dat V c).after 4 t = k8_pay3 (tile V c 0 t) (tile V c 1 t) (tile V c 2 t) (tile V c 3 t) := by dsimp only [dat]
theorem after_5 (c : Dev nD) (t : Fin cfg8.N) : (dat V c).after 5 t = (acc V c t.val t.isLt).1 := by dsimp only [dat]
theorem after_6 (c : Dev nD) (t : Fin cfg8.N) : (dat V c).after 6 t = (acc V c t.val t.isLt).2 := by dsimp only [dat]
theorem before_0 (c : Dev nD) (t : Fin cfg8.N) (d) : (dat V c).before 0 t d = tile V c 0 t :=
  before_of_0 V (dat V c) (A_eq V c 0) (after_0 V c) t d
theorem before_1 (c : Dev nD) (t : Fin cfg8.N) (d) : (dat V c).before 1 t d = tile V c 1 t :=
  before_of_1 V (dat V c) (A_eq V c 1) (after_1 V c) t d
theorem before_2 (c : Dev nD) (t : Fin cfg8.N) (d) : (dat V c).before 2 t d = tile V c 2 t :=
  before_of_2 V (dat V c) (A_eq V c 2) (after_2 V c) t d
theorem before_3 (c : Dev nD) (t : Fin cfg8.N) (d) : (dat V c).before 3 t d = tile V c 3 t :=
  before_of_3 V (dat V c) (A_eq V c 3) (after_3 V c) t d

/-! ## Where the two small outputs are idle -/

theorem live_0 : ∀ t : Fin cfg8.N, cfg8.idle 0 (grid8.coords t) = false := by decide +kernel
theorem live_1 : ∀ t : Fin cfg8.N, cfg8.idle 1 (grid8.coords t) = false := by decide +kernel
theorem live_2 : ∀ t : Fin cfg8.N, cfg8.idle 2 (grid8.coords t) = false := by decide +kernel
theorem live_3 : ∀ t : Fin cfg8.N, cfg8.idle 3 (grid8.coords t) = false := by decide +kernel
theorem live_4 : ∀ t : Fin cfg8.N, cfg8.idle 4 (grid8.coords t) = false := by decide +kernel
theorem idle_5 : ∀ t : Fin cfg8.N, ¬isLast (grid8.coords t) → cfg8.idle 5 (grid8.coords t) = true := by decide +kernel
theorem unflushed_5 : ∀ t : Fin cfg8.N, ¬isLast (grid8.coords t) → (cfg8.win 5).flush t = false := by decide +kernel
theorem live_5 : ∀ t : Fin cfg8.N, isLast (grid8.coords t) → cfg8.idle 5 (grid8.coords t) = false := by decide +kernel
theorem idle_6 : ∀ t : Fin cfg8.N, ¬isLast (grid8.coords t) → cfg8.idle 6 (grid8.coords t) = true := by decide +kernel
theorem unflushed_6 : ∀ t : Fin cfg8.N, ¬isLast (grid8.coords t) → (cfg8.win 6).flush t = false := by decide +kernel
theorem live_6 : ∀ t : Fin cfg8.N, isLast (grid8.coords t) → cfg8.idle 6 (grid8.coords t) = false := by decide +kernel

/-! ## The body obligation -/

def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

def bodyPost (c : Dev nD) (t : Fin cfg8.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
theorem body_at (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg8.N = 10 from N_8)
  rw [show (dat V c).leavesExact 0 t = owns (c : Thread nD τ) (st8_0 t) fullShare ((dat V c).after 0 t) from by
    unfold Dat.leavesExact; rw [live_0 t], after_0]
  rw [show (dat V c).leavesExact 1 t = owns (c : Thread nD τ) (st8_1 t) fullShare ((dat V c).after 1 t) from by
    unfold Dat.leavesExact; rw [live_1 t], after_1]
  rw [show (dat V c).leavesExact 2 t = owns (c : Thread nD τ) (st8_2 t) fullShare ((dat V c).after 2 t) from by
    unfold Dat.leavesExact; rw [live_2 t], after_2]
  rw [show (dat V c).leavesExact 3 t = owns (c : Thread nD τ) (st8_3 t) fullShare ((dat V c).after 3 t) from by
    unfold Dat.leavesExact; rw [live_3 t], after_3]
  rw [show (dat V c).leavesExact 4 t = owns (c : Thread nD τ) (st8_4 t) fullShare ((dat V c).after 4 t) from by
    unfold Dat.leavesExact; rw [live_4 t], after_4]
  by_cases h0 : t.val = 0
  · have hF : isFirst (grid8.coords t) := (first_iff t).mpr h0
    have hL : ¬isLast (grid8.coords t) := fun h => by have := (last_iff t).mp h; omega
    rw [Dat.leavesExact_idle (dat V c) 5 t (idle_5 t hL) (unflushed_5 t hL), Dat.leavesExact_idle (dat V c) 6 t (idle_6 t hL) (unflushed_6 t hL)]
    rw [acc_first V c t h0]
    rw [PhiS_castSucc V c t, PhiS_zero V c _ _ h0, PhiA_eq]
    iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ _ hF hL _ _ _ _ _ _ _ _ _ _ _ _ _ _ _ _ _ _ (tile V c 0 t) (tile V c 1 t) (tile V c 2 t) (tile V c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hbut Hg]
    · isplitl [HS0 HS1 Hbut]
      · isplitl [HS0 HS1]
        · isplitl [HS0]; · iexact HS0
          iexact HS1
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hF : ¬isFirst (grid8.coords t) := fun h => h0 ((first_iff t).mp h)
    by_cases h9 : t.val = 9
    · have hL : isLast (grid8.coords t) := (last_iff t).mpr h9
      rw [show (dat V c).leavesExact 5 t = owns (c : Thread nD τ) (st8_5 t) fullShare ((dat V c).after 5 t) from by
        unfold Dat.leavesExact; rw [live_5 t hL], after_5]
      rw [show (dat V c).leavesExact 6 t = owns (c : Thread nD τ) (st8_6 t) fullShare ((dat V c).after 6 t) from by
        unfold Dat.leavesExact; rw [live_6 t hL], after_6]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_last c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬isLast (grid8.coords t) := fun h => h9 ((last_iff t).mp h)
      rw [Dat.leavesExact_idle (dat V c) 5 t (idle_5 t hL) (unflushed_5 t hL), Dat.leavesExact_idle (dat V c) 6 t (idle_6 t hL) (unflushed_6 t hL)]
      rw [acc_later V c t h0]
      rw [PhiS_castSucc V c t, PhiS_pos V c _ _ h0]
      iintro ⟨⟨⟨⟨HS0, HS1⟩, Hbut⟩, Hg⟩, Ho, ⟨%d0, H0⟩, ⟨%d1, H1⟩, ⟨%d2, H2⟩, ⟨%d3, H3⟩, ⟨%d4, H4⟩, ⟨%d5, H5⟩, ⟨%d6, H6⟩⟩
      iapply (body_middle c Set.univ _ hF hL _ _ _ _ _ _ _ _ _ _ _ _ _ _ _ _ _ _ (tile V c 0 t) (tile V c 1 t) (tile V c 2 t) (tile V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hbut Hg]
      · isplitl [HS0 HS1 Hbut]
        · isplitl [HS0 HS1]
          · isplitl [HS0]; · iexact HS0
            iexact HS1
          iexact Hbut
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the pipeline library, at every tile. -/
theorem body_obligation (c : Dev nD) : BodyObligation (dat (F := F) V c) (defs₀ (F := F)) Variants.none () Set.univ := fun t => by
  rw [bigSep_W8, bigSep_W8]
  exact body_at V c t

/-- What the region is handed is the invariant before the first tile; -/
theorem inv_in (c : Dev nD) : Pipeline.ΦA spec8 c ⊢ (dat V c).Φ 0 := by
  rw [show (dat V c).Φ 0 = PhiS V c 0 (Nat.zero_le _) from rfl, PhiS_zero V c 0 _ rfl]
  try exact Idealize.SL.BI.Entails.refl _

/-- and after the last tile the invariant gives it back, the accumulators' contents forgotten. -/
theorem inv_out (c : Dev nD) : (dat V c).Φ (Fin.last cfg8.N) ⊢ Pipeline.ΦA spec8 c := by
  rw [show (dat V c).Φ (Fin.last cfg8.N) = PhiS V c (Fin.last cfg8.N).val (Nat.le_of_lt_succ (Fin.last cfg8.N).isLt) from rfl,
    PhiS_pos V c _ _ (by rw [Fin.val_last]; have : cfg8.N = 10 := N_8; omega), PhiA_eq]
  iintro ⟨⟨⟨HS0, HS1⟩, Hbut⟩, Hg⟩
  isplitl [HS0 HS1 Hbut]
  · isplitl [HS0 HS1]
    · isplitl [HS0]; · iexists _; iexact HS0
      iexists _; iexact HS1
    iexact Hbut
  iexact Hg

end Cert.KernelIdeal.LinearStats5

end
-- ==== Proof.KernelIdeal.Normalize5.lean ====
/-
  Batch normalisation followed by the rectifier, applied row tile by row tile (ten tiles of 5000 rows of a
  50000 x 128 array): entry (r, j) becomes max(gamma_j * (y_{r j} - mean_j) * rsqrt(var_j + 1e-5) + beta_j, 0).
  The per-column mean, variance, scale and shift are 1 x 128 windows whose block never moves; the rows are a window
  tiled by rows, as is the output.  Stated at any contents `V` of the TensorCore's buffers at the region's entry.
  (Kernel region 9.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalize5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the rows): its staging buffer holds tile `t` of its array when the body runs at `t`, fetched there or not. -/
theorem before_of_0 {c : Dev nD} (dat : Dat τ (Elt F) Unit ℕ (UR sig nD τ) ℕ cfg9 c) (hA : dat.A 0 = V c (Pipeline.arrRef spec9 0))
    (hafter : ∀ t, dat.after 0 t = tile V c 0 t) (t : Fin cfg9.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the column means): its staging buffer holds tile `t` of its array when the body runs at `t`, fetched there or not. -/
theorem before_of_1 {c : Dev nD} (dat : Dat τ (Elt F) Unit ℕ (UR sig nD τ) ℕ cfg9 c) (hA : dat.A 1 = V c (Pipeline.arrRef spec9 1))
    (hafter : ∀ t, dat.after 1 t = tile V c 1 t) (t : Fin cfg9.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the column variances): its staging buffer holds tile `t` of its array when the body runs at `t`, fetched there or not. -/
theorem before_of_2 {c : Dev nD} (dat : Dat τ (Elt F) Unit ℕ (UR sig nD τ) ℕ cfg9 c) (hA : dat.A 2 = V c (Pipeline.arrRef spec9 2))
    (hafter : ∀ t, dat.after 2 t = tile V c 2 t) (t : Fin cfg9.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- Input window 3 (the scale): its staging buffer holds tile `t` of its array when the body runs at `t`, fetched there or not. -/
theorem before_of_3 {c : Dev nD} (dat : Dat τ (Elt F) Unit ℕ (UR sig nD τ) ℕ cfg9 c) (hA : dat.A 3 = V c (Pipeline.arrRef spec9 3))
    (hafter : ∀ t, dat.after 3 t = tile V c 3 t) (t : Fin cfg9.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- Input window 4 (the shift): its staging buffer holds tile `t` of its array when the body runs at `t`, fetched there or not. -/
theorem before_of_4 {c : Dev nD} (dat : Dat τ (Elt F) Unit ℕ (UR sig nD τ) ℕ cfg9 c) (hA : dat.A 4 = V c (Pipeline.arrRef spec9 4))
    (hafter : ∀ t, dat.after 4 t = tile V c 4 t) (t : Fin cfg9.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the normalised, rectified rows of the input tile. -/
def normalised (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k9_pay1 (View.ld x0 (Rect.unit (s := S5000x128) ![0, 0] S5000x128.size inb_S5000x128_S5000x128_0_0)) (View.ld x2 (Rect.unit (s := S1x128) ![0, 0] S1x128.size inb_S1x128_S1x128_0_0)) (View.ld x3 (Rect.unit (s := S1x128) ![0, 0] S1x128.size inb_S1x128_S1x128_0_0)) (View.ld x1 (Rect.unit (s := S1x128) ![0, 0] S1x128.size inb_S1x128_S1x128_0_0)) (View.ld x4 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `normalised` of the inputs. -/
theorem body_triple (c : Dev nD) (E : Set ℕ) (i : grid9.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (normalised x0 x1 x2 x3 x4)) -∗ K ⟨⟩))
      ⊢ wp frame (wpE (defs₀ (F := F)) Variants.none c none) E (cc9_bn_relu_kernel i arg0 harg0 arg1 harg1 arg2 harg2 arg3 harg3 arg4 harg4 arg5 harg5) K := by
  simp only [cc9_bn_relu_kernel_eq_skeleton]; unfold cc9_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-- The region's proof data on core `c`: the arrays as found; after the body at tile `t` every input's buffer at
    its tile and the output's at `normalised` of the input tiles; the invariant is the scoped rest and the generator register. -/
def dat (c : Dev nD) : Dat τ (Elt F) Unit ℕ (UR sig nD τ) ℕ cfg9 c where
  A w := V c (Pipeline.arrRef spec9 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => normalised (tile V c 0 t) (tile V c 1 t) (tile V c 2 t) (tile V c 3 t) (tile V c 4 t)
  Φ _ := Pipeline.ΦA spec9 c
  q _ := fullShare
  owed _ := 0

theorem A_eq (c : Dev nD) (w : Fin cfg9.W) : (dat V c).A w = V c (Pipeline.arrRef spec9 w) := by
  dsimp only [dat]
theorem after_0 (c : Dev nD) (t : Fin cfg9.N) : (dat V c).after 0 t = tile V c 0 t := by dsimp only [dat]
theorem after_1 (c : Dev nD) (t : Fin cfg9.N) : (dat V c).after 1 t = tile V c 1 t := by dsimp only [dat]
theorem after_2 (c : Dev nD) (t : Fin cfg9.N) : (dat V c).after 2 t = tile V c 2 t := by dsimp only [dat]
theorem after_3 (c : Dev nD) (t : Fin cfg9.N) : (dat V c).after 3 t = tile V c 3 t := by dsimp only [dat]
theorem after_4 (c : Dev nD) (t : Fin cfg9.N) : (dat V c).after 4 t = tile V c 4 t := by dsimp only [dat]
theorem after_5 (c : Dev nD) (t : Fin cfg9.N) : (dat V c).after 5 t = normalised (tile V c 0 t) (tile V c 1 t) (tile V c 2 t) (tile V c 3 t) (tile V c 4 t) := by dsimp only [dat]
theorem before_0 (c : Dev nD) (t : Fin cfg9.N) (d) : (dat V c).before 0 t d = tile V c 0 t :=
  before_of_0 V (dat V c) (A_eq V c 0) (after_0 V c) t d
theorem before_1 (c : Dev nD) (t : Fin cfg9.N) (d) : (dat V c).before 1 t d = tile V c 1 t :=
  before_of_1 V (dat V c) (A_eq V c 1) (after_1 V c) t d
theorem before_2 (c : Dev nD) (t : Fin cfg9.N) (d) : (dat V c).before 2 t d = tile V c 2 t :=
  before_of_2 V (dat V c) (A_eq V c 2) (after_2 V c) t d
theorem before_3 (c : Dev nD) (t : Fin cfg9.N) (d) : (dat V c).before 3 t d = tile V c 3 t :=
  before_of_3 V (dat V c) (A_eq V c 3) (after_3 V c) t d
theorem before_4 (c : Dev nD) (t : Fin cfg9.N) (d) : (dat V c).before 4 t d = tile V c 4 t :=
  before_of_4 V (dat V c) (A_eq V c 4) (after_4 V c) t d

/-- What the body is called with at tile `t`, -/
def bodyPre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d))
    ∗ (∃ d, owns (c : Thread nD τ) (st9_3 t) fullShare ((dat V c).before 3 t d))
    ∗ (∃ d, owns (c : Thread nD τ) (st9_4 t) fullShare ((dat V c).before 4 t d))
    ∗ (∃ d, owns (c : Thread nD τ) (st9_5 t) fullShare ((dat V c).before 5 t d)))

/-- and what it returns. -/
def bodyPost (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t)
    ∗ owns (c : Thread nD τ) (st9_3 t) fullShare ((dat V c).after 3 t)
    ∗ owns (c : Thread nD τ) (st9_4 t) fullShare ((dat V c).after 4 t)
    ∗ owns (c : Thread nD τ) (st9_5 t) fullShare ((dat V c).after 5 t))

theorem body_at (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (tile V c 0 t) (tile V c 1 t) (tile V c 2 t) (tile V c 3 t) (tile V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every tile. -/
theorem body_obligation (c : Dev nD) : BodyObligation (dat (F := F) V c) (defs₀ (F := F)) Variants.none () Set.univ := fun t => by
  rw [bigSep_W9, bigSep_W9]
  exact body_at V c t

end Cert.KernelIdeal.Normalize5

end
-- ==== Proof.KernelIdeal.LastLinear.lean ====
/-
  The last linear layer, row tile by row tile (ten tiles of 5000 rows): the 5000 x 128 tile times the 128 x 128
  weight matrix plus the bias row.  The weight and bias windows never move; the rows and the output are tiled by
  rows.  Stated at any contents `V` of the TensorCore's buffers at the region's entry.  (Kernel region 10.)
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LastLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the rows): its staging buffer holds tile `t` of its array when the body runs at `t`, fetched there or not. -/
theorem before_of_0 {c : Dev nD} (dat : Dat τ (Elt F) Unit ℕ (UR sig nD τ) ℕ cfg10 c) (hA : dat.A 0 = V c (Pipeline.arrRef spec10 0))
    (hafter : ∀ t, dat.after 0 t = tile V c 0 t) (t : Fin cfg10.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- Input window 1 (the weights): its staging buffer holds tile `t` of its array when the body runs at `t`, fetched there or not. -/
theorem before_of_1 {c : Dev nD} (dat : Dat τ (Elt F) Unit ℕ (UR sig nD τ) ℕ cfg10 c) (hA : dat.A 1 = V c (Pipeline.arrRef spec10 1))
    (hafter : ∀ t, dat.after 1 t = tile V c 1 t) (t : Fin cfg10.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- Input window 2 (the bias): its staging buffer holds tile `t` of its array when the body runs at `t`, fetched there or not. -/
theorem before_of_2 {c : Dev nD} (dat : Dat τ (Elt F) Unit ℕ (UR sig nD τ) ℕ cfg10 c) (hA : dat.A 2 = V c (Pipeline.arrRef spec10 2))
    (hafter : ∀ t, dat.after 2 t = tile V c 2 t) (t : Fin cfg10.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- What the body leaves in the output tile: the input tile times the weights, plus the bias. -/
def affine (x0 : Vec F S5000x128 .f32) (x1 : Vec F S128x128 .f32) (x2 : Vec F S1x128 .f32) : Vec F S5000x128 .f32 :=
  View.canon [⟨(Rect.unit (s := S5000x128) ![0, 0] S5000x128.size inb_S5000x128_S5000x128_0_0), k10_pay1 (View.ld x0 (Rect.unit (s := S5000x128) ![0, 0] S5000x128.size inb_S5000x128_S5000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the output tile. -/
theorem store_covers (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers: every input buffer is kept, the output buffer ends at `affine` of the inputs. -/
theorem body_triple (c : Dev nD) (E : Set ℕ) (i : grid10.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (affine x0 x1 x2)) -∗ K ⟨⟩))
      ⊢ wp frame (wpE (defs₀ (F := F)) Variants.none c none) E (cc10_linear_plain_kernel i arg0 harg0 arg1 harg1 arg2 harg2 arg3 harg3) K := by
  simp only [cc10_linear_plain_kernel_eq_skeleton]; unfold cc10_linear_plain_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-- The region's proof data on core `c`: the arrays as found; after the body at tile `t` every input's buffer at
    its tile and the output's at `affine` of the input tiles; the invariant is the scoped rest and the generator register. -/
def dat (c : Dev nD) : Dat τ (Elt F) Unit ℕ (UR sig nD τ) ℕ cfg10 c where
  A w := V c (Pipeline.arrRef spec10 w)
  after w t := match w with
    | ⟨0, _⟩ => tile V c 0 t
    | ⟨1, _⟩ => tile V c 1 t
    | ⟨2, _⟩ => tile V c 2 t
    | ⟨3, _⟩ => affine (tile V c 0 t) (tile V c 1 t) (tile V c 2 t)
  Φ _ := Pipeline.ΦA spec10 c
  q _ := fullShare
  owed _ := 0

theorem A_eq (c : Dev nD) (w : Fin cfg10.W) : (dat V c).A w = V c (Pipeline.arrRef spec10 w) := by
  dsimp only [dat]
theorem after_0 (c : Dev nD) (t : Fin cfg10.N) : (dat V c).after 0 t = tile V c 0 t := by dsimp only [dat]
theorem after_1 (c : Dev nD) (t : Fin cfg10.N) : (dat V c).after 1 t = tile V c 1 t := by dsimp only [dat]
theorem after_2 (c : Dev nD) (t : Fin cfg10.N) : (dat V c).after 2 t = tile V c 2 t := by dsimp only [dat]
theorem after_3 (c : Dev nD) (t : Fin cfg10.N) : (dat V c).after 3 t = affine (tile V c 0 t) (tile V c 1 t) (tile V c 2 t) := by dsimp only [dat]
theorem before_0 (c : Dev nD) (t : Fin cfg10.N) (d) : (dat V c).before 0 t d = tile V c 0 t :=
  before_of_0 V (dat V c) (A_eq V c 0) (after_0 V c) t d
theorem before_1 (c : Dev nD) (t : Fin cfg10.N) (d) : (dat V c).before 1 t d = tile V c 1 t :=
  before_of_1 V (dat V c) (A_eq V c 1) (after_1 V c) t d
theorem before_2 (c : Dev nD) (t : Fin cfg10.N) (d) : (dat V c).before 2 t d = tile V c 2 t :=
  before_of_2 V (dat V c) (A_eq V c 2) (after_2 V c) t d

/-- What the body is called with at tile `t`, -/
def bodyPre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d)))

/-- and what it returns. -/
def bodyPost (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t))

theorem body_at (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every tile. -/
theorem body_obligation (c : Dev nD) : BodyObligation (dat (F := F) V c) (defs₀ (F := F)) Variants.none () Set.univ := fun t => by
  rw [bigSep_W10, bigSep_W10]
  exact body_at V c t

end Cert.KernelIdeal.LastLinear

end
-- ==== Proof.KernelIdeal.RowNormalize.lean ====
/-
  The last kernel region: every row of a 50000 x 128 array divided by the larger of its Euclidean norm and 1e-12,
  ten tiles of 5000 rows.  One input window and one output window, both tiled by rows; the body reads the input tile
  whole and overwrites the output tile whole with the normalised rows.  Stated at any contents `V` of the
  TensorCore's buffers at the region's entry.
-/
import proofs.«176586_j29291676959176_1_alg».proof.Proof.Gen.KernelIdeal.Launch
import proofs.«176586_j29291676959176_1_alg».proof.Proof.Gen.KernelIdeal.Skeleton
import proofs.«176586_j29291676959176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowNormalize

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile `t` of window `w`, read off the window's array as the region finds it. -/
def tile (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The input window's staging buffer holds tile `t` of the input when the body runs at `t`. -/
theorem before_in_of {c : Dev nD} (dat : Dat τ (Elt F) Unit ℕ (UR sig nD τ) ℕ cfg11 c) (hA : dat.A 0 = V c (Pipeline.arrRef spec11 0))
    (hafter : ∀ t, dat.after 0 t = tile V c 0 t) (t : Fin cfg11.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The whole 5000 x 128 tile as a rectangle. -/
abbrev whole : Rect S5000x128 := Rect.unit (s := S5000x128) ![0, 0] S5000x128.size inb_S5000x128_S5000x128_0_0

/-- What the body leaves in the output tile: the normalised rows of the input tile. -/
def normalised (x0 : Vec F S5000x128 .f32) : Vec F S5000x128 .f32 :=
  View.canon [⟨whole, k11_pay1 (View.ld x0 whole)⟩]

/-- The one store covers the tile. -/
theorem store_covers (p0 : Vec F S5000x128 .f32) (y : S5000x128.Idx) :
    ∃ pc ∈ ([⟨whole, p0⟩] : List (View.Piece (Elt F) S5000x128 .f32)), y ∈ pc.1.set :=
  View.cover_of_tiled [⟨whole, p0⟩] S5000x128.size (by rfl) y

set_option maxHeartbeats 1000000 in
/-- The body on whole staging buffers: the input tile is kept, the output tile ends at the normalised rows. -/
theorem body_triple (c : Dev nD) (E : Set ℕ) (i : grid11.Coords) (arg0 : Memref sig .tc .vmem S5000x128 .f32) (harg0 : arg0.IsWhole) (arg1 : Memref sig .tc .vmem S5000x128 .f32) (harg1 : arg1.IsWhole)
    (x0 : Vec F S5000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (normalised x0)) -∗ K ⟨⟩))
      ⊢ wp frame (wpE (defs₀ (F := F)) Variants.none c none) E (cc11_l2norm_kernel i arg0 harg0 arg1 harg1) K := by
  simp only [cc11_l2norm_kernel_eq_skeleton]; unfold cc11_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-- The region's proof data on core `c`: the arrays as found; after the body at tile `t` the input's buffer at
    its tile and the output's at the normalised tile; the invariant is the scoped rest and the generator register. -/
def dat (c : Dev nD) : Dat τ (Elt F) Unit ℕ (UR sig nD τ) ℕ cfg11 c where
  A w := V c (Pipeline.arrRef spec11 w)
  after w t := match w with
    | ⟨0, _⟩ => tile V c 0 t
    | ⟨1, _⟩ => normalised (tile V c 0 t)
  Φ _ := Pipeline.ΦA spec11 c
  q _ := fullShare
  owed _ := 0

theorem A_eq (c : Dev nD) (w : Fin cfg11.W) : (dat V c).A w = V c (Pipeline.arrRef spec11 w) := by
  dsimp only [dat]
theorem after_in (c : Dev nD) (t : Fin cfg11.N) : (dat V c).after 0 t = tile V c 0 t := by dsimp only [dat]
theorem after_out (c : Dev nD) (t : Fin cfg11.N) : (dat V c).after 1 t = normalised (tile V c 0 t) := by dsimp only [dat]
theorem before_in (c : Dev nD) (t : Fin cfg11.N) (d) : (dat V c).before 0 t d = tile V c 0 t :=
  before_in_of V (dat V c) (A_eq V c 0) (after_in V c) t d

/-- What the body is called with at tile `t`, -/
def bodyPre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d)))

/-- and what it returns. -/
def bodyPost (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t))

theorem body_at (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (body_triple c Set.univ _ _ _ _ _ (tile V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every tile. -/
theorem body_obligation (c : Dev nD) : BodyObligation (dat (F := F) V c) (defs₀ (F := F)) Variants.none () Set.univ := fun t => by
  rw [bigSep_W11, bigSep_W11]
  exact body_at V c t

end Cert.KernelIdeal.RowNormalize

end
-- ==== Proof.KernelIdeal.Run.lean ====
/-
  The whole program as a chain of twenty items — eight stretches of host operations and the twelve kernel regions —
  from the launch to the return: the contents of the TensorCore's unscoped buffers at every boundary (a stretch
  applies its operations; a region leaves its windows' arrays at what its tiles wrote back and everything else as it
  was), each region entered from the boundary before it and left at the one after it, and the run: every weakly fair
  execution terminates, nothing faults, and at the end every unscoped buffer holds the last boundary's contents.  No
  item writes an argument array.
-/
import proofs.«176586_j29291676959176_1_alg».proof.Proof.KernelIdeal.LinearStats1
import proofs.«176586_j29291676959176_1_alg».proof.Proof.KernelIdeal.Normalize1
import proofs.«176586_j29291676959176_1_alg».proof.Proof.KernelIdeal.LinearStats2
import proofs.«176586_j29291676959176_1_alg».proof.Proof.KernelIdeal.Normalize2
import proofs.«176586_j29291676959176_1_alg».proof.Proof.KernelIdeal.LinearStats3
import proofs.«176586_j29291676959176_1_alg».proof.Proof.KernelIdeal.Normalize3
import proofs.«176586_j29291676959176_1_alg».proof.Proof.KernelIdeal.LinearStats4
import proofs.«176586_j29291676959176_1_alg».proof.Proof.KernelIdeal.Normalize4
import proofs.«176586_j29291676959176_1_alg».proof.Proof.KernelIdeal.LinearStats5
import proofs.«176586_j29291676959176_1_alg».proof.Proof.KernelIdeal.Normalize5
import proofs.«176586_j29291676959176_1_alg».proof.Proof.KernelIdeal.LastLinear
import proofs.«176586_j29291676959176_1_alg».proof.Proof.KernelIdeal.RowNormalize
import proofs.«176586_j29291676959176_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After item 1, kernel region 0: its windows' arrays at what the tiles wrote back, everything else as entered. -/
def W2 (c : Dev nD) : Valuation τ sig (Elt F) :=
  Pipeline.withArrays spec0 c (W1 m ρ c) fun w => (Cert.KernelIdeal.LinearStats1.dat (V1 m ρ) c).arrAt w cfg0.N
theorem W2_arr (c : Dev nD) (w : Fin cfg0.W) :
    W2 m ρ c (Proc.devRef .tc (Pipeline.arrRef spec0 w)) = (Cert.KernelIdeal.LinearStats1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit_arr0 (c : Dev nD) (w : Fin cfg0.W) : (Cert.KernelIdeal.LinearStats1.dat (V1 m ρ) c).arrAt w cfg0.N = V2 m ρ c (Pipeline.arrRef spec0 w) :=
  (W2_arr m ρ c w).symm
theorem exit_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After item 3, kernel region 1: its windows' arrays at what the tiles wrote back, everything else as entered. -/
def W4 (c : Dev nD) : Valuation τ sig (Elt F) :=
  Pipeline.withArrays spec1 c (W3 m ρ c) fun w => (Cert.KernelIdeal.Normalize1.dat (V3 m ρ) c).arrAt w cfg1.N
theorem W4_arr (c : Dev nD) (w : Fin cfg1.W) :
    W4 m ρ c (Proc.devRef .tc (Pipeline.arrRef spec1 w)) = (Cert.KernelIdeal.Normalize1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit_arr1 (c : Dev nD) (w : Fin cfg1.W) : (Cert.KernelIdeal.Normalize1.dat (V3 m ρ) c).arrAt w cfg1.N = V4 m ρ c (Pipeline.arrRef spec1 w) :=
  (W4_arr m ρ c w).symm
theorem exit_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After item 4, kernel region 2: its windows' arrays at what the tiles wrote back, everything else as entered. -/
def W5 (c : Dev nD) : Valuation τ sig (Elt F) :=
  Pipeline.withArrays spec2 c (W4 m ρ c) fun w => (Cert.KernelIdeal.LinearStats2.dat (V4 m ρ) c).arrAt w cfg2.N
theorem W5_arr (c : Dev nD) (w : Fin cfg2.W) :
    W5 m ρ c (Proc.devRef .tc (Pipeline.arrRef spec2 w)) = (Cert.KernelIdeal.LinearStats2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem exit_arr2 (c : Dev nD) (w : Fin cfg2.W) : (Cert.KernelIdeal.LinearStats2.dat (V4 m ρ) c).arrAt w cfg2.N = V5 m ρ c (Pipeline.arrRef spec2 w) :=
  (W5_arr m ρ c w).symm
theorem exit_rest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After item 5, the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After item 6, kernel region 3: its windows' arrays at what the tiles wrote back, everything else as entered. -/
def W7 (c : Dev nD) : Valuation τ sig (Elt F) :=
  Pipeline.withArrays spec3 c (W6 m ρ c) fun w => (Cert.KernelIdeal.Normalize2.dat (V6 m ρ) c).arrAt w cfg3.N
theorem W7_arr (c : Dev nD) (w : Fin cfg3.W) :
    W7 m ρ c (Proc.devRef .tc (Pipeline.arrRef spec3 w)) = (Cert.KernelIdeal.Normalize2.dat (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem exit_arr3 (c : Dev nD) (w : Fin cfg3.W) : (Cert.KernelIdeal.Normalize2.dat (V6 m ρ) c).arrAt w cfg3.N = V7 m ρ c (Pipeline.arrRef spec3 w) :=
  (W7_arr m ρ c w).symm
theorem exit_rest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After item 7, the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
/-- After item 8, kernel region 4: its windows' arrays at what the tiles wrote back, everything else as entered. -/
def W9 (c : Dev nD) : Valuation τ sig (Elt F) :=
  Pipeline.withArrays spec4 c (W8 m ρ c) fun w => (Cert.KernelIdeal.LinearStats3.dat (V8 m ρ) c).arrAt w cfg4.N
theorem W9_arr (c : Dev nD) (w : Fin cfg4.W) :
    W9 m ρ c (Proc.devRef .tc (Pipeline.arrRef spec4 w)) = (Cert.KernelIdeal.LinearStats3.dat (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem exit_arr4 (c : Dev nD) (w : Fin cfg4.W) : (Cert.KernelIdeal.LinearStats3.dat (V8 m ρ) c).arrAt w cfg4.N = V9 m ρ c (Pipeline.arrRef spec4 w) :=
  (W9_arr m ρ c w).symm
theorem exit_rest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- After item 9, the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b
/-- After item 10, kernel region 5: its windows' arrays at what the tiles wrote back, everything else as entered. -/
def W11 (c : Dev nD) : Valuation τ sig (Elt F) :=
  Pipeline.withArrays spec5 c (W10 m ρ c) fun w => (Cert.KernelIdeal.Normalize3.dat (V10 m ρ) c).arrAt w cfg5.N
theorem W11_arr (c : Dev nD) (w : Fin cfg5.W) :
    W11 m ρ c (Proc.devRef .tc (Pipeline.arrRef spec5 w)) = (Cert.KernelIdeal.Normalize3.dat (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem exit_arr5 (c : Dev nD) (w : Fin cfg5.W) : (Cert.KernelIdeal.Normalize3.dat (V10 m ρ) c).arrAt w cfg5.N = V11 m ρ c (Pipeline.arrRef spec5 w) :=
  (W11_arr m ρ c w).symm
theorem exit_rest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- After item 11, kernel region 6: its windows' arrays at what the tiles wrote back, everything else as entered. -/
def W12 (c : Dev nD) : Valuation τ sig (Elt F) :=
  Pipeline.withArrays spec6 c (W11 m ρ c) fun w => (Cert.KernelIdeal.LinearStats4.dat (V11 m ρ) c).arrAt w cfg6.N
theorem W12_arr (c : Dev nD) (w : Fin cfg6.W) :
    W12 m ρ c (Proc.devRef .tc (Pipeline.arrRef spec6 w)) = (Cert.KernelIdeal.LinearStats4.dat (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem exit_arr6 (c : Dev nD) (w : Fin cfg6.W) : (Cert.KernelIdeal.LinearStats4.dat (V11 m ρ) c).arrAt w cfg6.N = V12 m ρ c (Pipeline.arrRef spec6 w) :=
  (W12_arr m ρ c w).symm
theorem exit_rest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- After item 12, the host stretch `hostOps7`. -/
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
/-- After item 13, kernel region 7: its windows' arrays at what the tiles wrote back, everything else as entered. -/
def W14 (c : Dev nD) : Valuation τ sig (Elt F) :=
  Pipeline.withArrays spec7 c (W13 m ρ c) fun w => (Cert.KernelIdeal.Normalize4.dat (V13 m ρ) c).arrAt w cfg7.N
theorem W14_arr (c : Dev nD) (w : Fin cfg7.W) :
    W14 m ρ c (Proc.devRef .tc (Pipeline.arrRef spec7 w)) = (Cert.KernelIdeal.Normalize4.dat (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem exit_arr7 (c : Dev nD) (w : Fin cfg7.W) : (Cert.KernelIdeal.Normalize4.dat (V13 m ρ) c).arrAt w cfg7.N = V14 m ρ c (Pipeline.arrRef spec7 w) :=
  (W14_arr m ρ c w).symm
theorem exit_rest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- After item 14, the host stretch `hostOps8`. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
/-- After item 15, kernel region 8: its windows' arrays at what the tiles wrote back, everything else as entered. -/
def W16 (c : Dev nD) : Valuation τ sig (Elt F) :=
  Pipeline.withArrays spec8 c (W15 m ρ c) fun w => (Cert.KernelIdeal.LinearStats5.dat (V15 m ρ) c).arrAt w cfg8.N
theorem W16_arr (c : Dev nD) (w : Fin cfg8.W) :
    W16 m ρ c (Proc.devRef .tc (Pipeline.arrRef spec8 w)) = (Cert.KernelIdeal.LinearStats5.dat (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem exit_arr8 (c : Dev nD) (w : Fin cfg8.W) : (Cert.KernelIdeal.LinearStats5.dat (V15 m ρ) c).arrAt w cfg8.N = V16 m ρ c (Pipeline.arrRef spec8 w) :=
  (W16_arr m ρ c w).symm
theorem exit_rest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- After item 16, the host stretch `hostOps9`. -/
abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
/-- After item 17, kernel region 9: its windows' arrays at what the tiles wrote back, everything else as entered. -/
def W18 (c : Dev nD) : Valuation τ sig (Elt F) :=
  Pipeline.withArrays spec9 c (W17 m ρ c) fun w => (Cert.KernelIdeal.Normalize5.dat (V17 m ρ) c).arrAt w cfg9.N
theorem W18_arr (c : Dev nD) (w : Fin cfg9.W) :
    W18 m ρ c (Proc.devRef .tc (Pipeline.arrRef spec9 w)) = (Cert.KernelIdeal.Normalize5.dat (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
abbrev V18 : (c : Dev nD) → (b : Ref sig .tc) → Buf (Elt F) ((c : Thread nD τ).loc b) := fun c b => W18 m ρ c b
theorem exit_arr9 (c : Dev nD) (w : Fin cfg9.W) : (Cert.KernelIdeal.Normalize5.dat (V17 m ρ) c).arrAt w cfg9.N = V18 m ρ c (Pipeline.arrRef spec9 w) :=
  (W18_arr m ρ c w).symm
theorem exit_rest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)
/-- After item 18, kernel region 10: its windows' arrays at what the tiles wrote back, everything else as entered. -/
def W19 (c : Dev nD) : Valuation τ sig (Elt F) :=
  Pipeline.withArrays spec10 c (W18 m ρ c) fun w => (Cert.KernelIdeal.LastLinear.dat (V18 m ρ) c).arrAt w cfg10.N
theorem W19_arr (c : Dev nD) (w : Fin cfg10.W) :
    W19 m ρ c (Proc.devRef .tc (Pipeline.arrRef spec10 w)) = (Cert.KernelIdeal.LastLinear.dat (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem exit_arr10 (c : Dev nD) (w : Fin cfg10.W) : (Cert.KernelIdeal.LastLinear.dat (V18 m ρ) c).arrAt w cfg10.N = V19 m ρ c (Pipeline.arrRef spec10 w) :=
  (W19_arr m ρ c w).symm
theorem exit_rest10 (c : Dev nD) : ∀ b, b ∉ Finset.univ.image (Pipeline.arrRef spec10) → V19 m ρ c b = V18 m ρ c b :=
  fun b hb => W19_of_ne m ρ c b fun w e => hb (Finset.mem_image.mpr ⟨w, Finset.mem_univ _, e⟩)
/-- After item 19, kernel region 11: its windows' arrays at what the tiles wrote back, everything else as entered. -/
def W20 (c : Dev nD) : Valuation τ sig (Elt F) :=
  Pipeline.withArrays spec11 c (W19 m ρ c) fun w => (Cert.KernelIdeal.RowNormalize.dat (V19 m ρ) c).arrAt w cfg11.N
theorem W20_arr (c : Dev nD) (w : Fin cfg11.W) :
    W20 m ρ c (Proc.devRef .tc (Pipeline.arrRef spec11 w)) = (Cert.KernelIdeal.RowNormalize.dat (V19 m ρ) c).arrAt w cfg11.N := by
  unfold W20; exact Pipeline.withArrays_arr spec11 launch11.win.arr_inj c _ _ w
theorem W20_of_ne (c : Dev nD) (b : Ref sig .tc) (hb : ∀ w, Pipeline.arrRef spec11 w ≠ b) :
    W20 m ρ c (Proc.devRef .tc b) = W19 m ρ c (Proc.devRef .tc b) := by
  unfold W20; exact Pipeline.withArrays_of_ne spec11 c _ _ b hb
abbrev V20 : (c : Dev nD) → (b : Ref sig .tc) → Buf (Elt F) ((c : Thread nD τ).loc b) := fun c b => W20 m ρ c b
theorem exit_arr11 (c : Dev nD) (w : Fin cfg11.W) : (Cert.KernelIdeal.RowNormalize.dat (V19 m ρ) c).arrAt w cfg11.N = V20 m ρ c (Pipeline.arrRef spec11 w) :=
  (W20_arr m ρ c w).symm
theorem exit_rest11 (c : Dev nD) : ∀ b, b ∉ Finset.univ.image (Pipeline.arrRef spec11) → V20 m ρ c b = V19 m ρ c b :=
  fun b hb => W20_of_ne m ρ c b fun w e => hb (Finset.mem_image.mpr ⟨w, Finset.mem_univ _, e⟩)

/-! ## The proof data of every region, and what rides along between items -/

abbrev adm : (p : Fin 12) → (pcfgs (F := F) p).Adm := fun p => (cfgs p).toPCfg_adm
/-- Every region's proof data, each at the contents its region is entered from. -/
def pdats : (p : Fin 12) → (c : Dev nD) → Dat τ (Elt F) Unit ℕ (UR sig nD τ) ℕ (Pipeline.pin (pcfgs (F := F)) adm p) c
  | ⟨0, _⟩ => fun c => Cert.KernelIdeal.LinearStats1.dat (V1 m ρ) c
  | ⟨1, _⟩ => fun c => Cert.KernelIdeal.Normalize1.dat (V3 m ρ) c
  | ⟨2, _⟩ => fun c => Cert.KernelIdeal.LinearStats2.dat (V4 m ρ) c
  | ⟨3, _⟩ => fun c => Cert.KernelIdeal.Normalize2.dat (V6 m ρ) c
  | ⟨4, _⟩ => fun c => Cert.KernelIdeal.LinearStats3.dat (V8 m ρ) c
  | ⟨5, _⟩ => fun c => Cert.KernelIdeal.Normalize3.dat (V10 m ρ) c
  | ⟨6, _⟩ => fun c => Cert.KernelIdeal.LinearStats4.dat (V11 m ρ) c
  | ⟨7, _⟩ => fun c => Cert.KernelIdeal.Normalize4.dat (V13 m ρ) c
  | ⟨8, _⟩ => fun c => Cert.KernelIdeal.LinearStats5.dat (V15 m ρ) c
  | ⟨9, _⟩ => fun c => Cert.KernelIdeal.Normalize5.dat (V17 m ρ) c
  | ⟨10, _⟩ => fun c => Cert.KernelIdeal.LastLinear.dat (V18 m ρ) c
  | ⟨11, _⟩ => fun c => Cert.KernelIdeal.RowNormalize.dat (V19 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0: entered from every unscoped buffer at the contents before it, left at those after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.KernelIdeal.LinearStats1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.KernelIdeal.LinearStats1.inv_in (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.KernelIdeal.LinearStats1.inv_out (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit_arr0 m ρ c) (exit_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents before it, left at those after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.KernelIdeal.Normalize1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit_arr1 m ρ c) (exit_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents before it, left at those after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Cert.KernelIdeal.LinearStats2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.KernelIdeal.LinearStats2.inv_in (V4 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.KernelIdeal.LinearStats2.inv_out (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (exit_arr2 m ρ c) (exit_rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents before it, left at those after it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Cert.KernelIdeal.Normalize2.body_obligation (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (exit_arr3 m ρ c) (exit_rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents before it, left at those after it. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Cert.KernelIdeal.LinearStats3.body_obligation (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.KernelIdeal.LinearStats3.inv_in (V8 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.KernelIdeal.LinearStats3.inv_out (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (exit_arr4 m ρ c) (exit_rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents before it, left at those after it. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (Cert.KernelIdeal.Normalize3.body_obligation (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (exit_arr5 m ρ c) (exit_rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents before it, left at those after it. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Cert.KernelIdeal.LinearStats4.body_obligation (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.KernelIdeal.LinearStats4.inv_in (V11 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.KernelIdeal.LinearStats4.inv_out (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (exit_arr6 m ρ c) (exit_rest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents before it, left at those after it. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (Cert.KernelIdeal.Normalize4.body_obligation (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (exit_arr7 m ρ c) (exit_rest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents before it, left at those after it. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (Cert.KernelIdeal.LinearStats5.body_obligation (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Cert.KernelIdeal.LinearStats5.inv_in (V15 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Cert.KernelIdeal.LinearStats5.inv_out (V15 m ρ) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (exit_arr8 m ρ c) (exit_rest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents before it, left at those after it. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (Cert.KernelIdeal.Normalize5.body_obligation (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V17 m ρ c) (V18 m ρ c) ((pdats m ρ 9 c).arrAt · cfg9.N) (exit_arr9 m ρ c) (exit_rest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at the contents before it, left at those after it. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (Cert.KernelIdeal.LastLinear.body_obligation (V18 m ρ) c).loose
  hwaits := Pipeline.hwaits_of_owed_zero _ _ _ _ L lv 10 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec10 c (V18 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V18 m ρ c) (V19 m ρ c) ((pdats m ρ 10 c).arrAt · cfg10.N) (exit_arr10 m ρ c) (exit_rest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at the contents before it, left at those after it. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (Cert.KernelIdeal.RowNormalize.body_obligation (V19 m ρ) c).loose
  hwaits := Pipeline.hwaits_of_owed_zero _ _ _ _ L lv 11 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (V19 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V19 m ρ c) (V20 m ρ c) ((pdats m ρ 11 c).arrAt · cfg11.N) (exit_arr11 m ρ c) (exit_rest11 m ρ c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .region (reg9 m ρ),
    .region (reg10 m ρ),
    .region (reg11 m ρ) ]

theorem main_run (c : Dev nD) : main (F := F) c = Pipeline.Seg.run (segs m ρ) := (main_chain c).trans (by chain_rfl)

set_option backward.isDefEq.respectTransparency.types false in
/-- From any memory with zero counters: every weakly fair execution of the program on the TensorCores terminates,
    nothing faulting, and at the end every unscoped buffer of core `c` holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-! ## No item writes an argument -/
theorem kept_arg0 (c : Dev nD) : W20 m ρ c (Proc.devRef .tc main_arg0) = m ((c : Thread nD τ).loc main_arg0) :=
  (W20_of_ne m ρ c main_arg0 (by decide)).trans <|
  (W19_of_ne m ρ c main_arg0 (by decide)).trans <|
  (W18_of_ne m ρ c main_arg0 (by decide)).trans <|
  (StableHlo.after_of_writes_sub hostOps9 _ hostOps9_writes (by decide : main_arg0 ∉ hostOps9_W)).trans <|
  (W16_of_ne m ρ c main_arg0 (by decide)).trans <|
  (StableHlo.after_of_writes_sub hostOps8 _ hostOps8_writes (by decide : main_arg0 ∉ hostOps8_W)).trans <|
  (W14_of_ne m ρ c main_arg0 (by decide)).trans <|
  (StableHlo.after_of_writes_sub hostOps7 _ hostOps7_writes (by decide : main_arg0 ∉ hostOps7_W)).trans <|
  (W12_of_ne m ρ c main_arg0 (by decide)).trans <|
  (W11_of_ne m ρ c main_arg0 (by decide)).trans <|
  (StableHlo.after_of_writes_sub hostOps5 _ hostOps5_writes (by decide : main_arg0 ∉ hostOps5_W)).trans <|
  (W9_of_ne m ρ c main_arg0 (by decide)).trans <|
  (StableHlo.after_of_writes_sub hostOps4 _ hostOps4_writes (by decide : main_arg0 ∉ hostOps4_W)).trans <|
  (W7_of_ne m ρ c main_arg0 (by decide)).trans <|
  (StableHlo.after_of_writes_sub hostOps3 _ hostOps3_writes (by decide : main_arg0 ∉ hostOps3_W)).trans <|
  (W5_of_ne m ρ c main_arg0 (by decide)).trans <|
  (W4_of_ne m ρ c main_arg0 (by decide)).trans <|
  (StableHlo.after_of_writes_sub hostOps1 _ hostOps1_writes (by decide : main_arg0 ∉ hostOps1_W)).trans <|
  ((W2_arr m ρ c 0).trans (((Cert.KernelIdeal.LinearStats1.dat (V1 m ρ) c).arrAt_in 0 rfl _).trans (Cert.KernelIdeal.LinearStats1.A_eq (V1 m ρ) c 0))).trans <|
  (StableHlo.after_of_writes_sub hostOps0 _ hostOps0_writes (by decide : main_arg0 ∉ hostOps0_W)).trans <| rfl
theorem kept_arg1 (c : Dev nD) : W20 m ρ c (Proc.devRef .tc main_arg1) = m ((c : Thread nD τ).loc main_arg1) :=
  (W20_of_ne m ρ c main_arg1 (by decide)).trans <|
  (W19_of_ne m ρ c main_arg1 (by decide)).trans <|
  (W18_of_ne m ρ c main_arg1 (by decide)).trans <|
  (StableHlo.after_of_writes_sub hostOps9 _ hostOps9_writes (by decide : main_arg1 ∉ hostOps9_W)).trans <|
  (W16_of_ne m ρ c main_arg1 (by decide)).trans <|
  (StableHlo.after_of_writes_sub hostOps8 _ hostOps8_writes (by decide : main_arg1 ∉ hostOps8_W)).trans <|
  (W14_of_ne m ρ c main_arg1 (by decide)).trans <|
  (StableHlo.after_of_writes_sub hostOps7 _ hostOps7_writes (by decide : main_arg1 ∉ hostOps7_W)).trans <|
  (W12_of_ne m ρ c main_arg1 (by decide)).trans <|
  (W11_of_ne m ρ c main_arg1 (by decide)).trans <|
  (StableHlo.after_of_writes_sub hostOps5 _ hostOps5_writes (by decide : main_arg1 ∉ hostOps5_W)).trans <|
  (W9_of_ne m ρ c main_arg1 (by decide)).trans <|
  (StableHlo.after_of_writes_sub hostOps4 _ hostOps4_writes (by decide : main_arg1 ∉ hostOps4_W)).trans <|
  (W7_of_ne m ρ c main_arg1 (by decide)).trans <|
  (StableHlo.after_of_writes_sub hostOps3 _ hostOps3_writes (by decide : main_arg1 ∉ hostOps3_W)).trans <|
  (W5_of_ne m ρ c main_arg1 (by decide)).trans <|
  (W4_of_ne m ρ c main_arg1 (by decide)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans <| rfl
theorem kept_arg2 (c : Dev nD) : W20 m ρ c (Proc.devRef .tc main_arg2) = m ((c : Thread nD τ).loc main_arg2) :=
  (W20_of_ne m ρ c main_arg2 (by decide)).trans <|
  (W19_of_ne m ρ c main_arg2 (by decide)).trans <|
  (W18_of_ne m ρ c main_arg2 (by decide)).trans <|
  (StableHlo.after_of_writes_sub hostOps9 _ hostOps9_writes (by decide : main_arg2 ∉ hostOps9_W)).trans <|
  (W16_of_ne m ρ c main_arg2 (by decide)).trans <|
  (StableHlo.after_of_writes_sub hostOps8 _ hostOps8_writes (by decide : main_arg2 ∉ hostOps8_W)).trans <|
  (W14_of_ne m ρ c main_arg2 (by decide)).trans <|
  (StableHlo.after_of_writes_sub hostOps7 _ hostOps7_writes (by decide : main_arg2 ∉ hostOps7_W)).trans <|
  (W12_of_ne m ρ c main_arg2 (by decide)).trans <|
  (W11_of_ne m ρ c main_arg2 (by decide)).trans <|
  (StableHlo.after_of_writes_sub hostOps5 _ hostOps5_writes (by decide : main_arg2 ∉ hostOps5_W)).trans <|
  (W9_of_ne m ρ c main_arg2 (by decide)).trans <|
  (StableHlo.after_of_writes_sub hostOps4 _ hostOps4_writes (by decide : main_arg2 ∉ hostOps4_W)).trans <|
  (W7_of_ne m ρ c main_arg2 (by decide)).trans <|
  (StableHlo.after_of_writes_sub hostOps3 _ hostOps3_writes (by decide : main_arg2 ∉ hostOps3_W)).trans <|
  (W5_of_ne m ρ c main_arg2 (by decide)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans <| rfl
theorem kept_arg3 (c : Dev nD) : W20 m ρ c (Proc.devRef .tc main_arg3) = m ((c : Thread nD τ).loc main_arg3) :=
  (W20_of_ne m ρ c main_arg3 (by decide)).trans <|
  (W19_of_ne m ρ c main_arg3 (by decide)).trans <|
  (W18_of_ne m ρ c main_arg3 (by decide)).trans <|
  (StableHlo.after_of_writes_sub hostOps9 _ hostOps9_writes (by decide : main_arg3 ∉ hostOps9_W)).trans <|
  (W16_of_ne m ρ c main_arg3 (by decide)).trans <|
  (StableHlo.after_of_writes_sub hostOps8 _ hostOps8_writes (by decide : main_arg3 ∉ hostOps8_W)).trans <|
  (W14_of_ne m ρ c main_arg3 (by decide)).trans <|
  (StableHlo.after_of_writes_sub hostOps7 _ hostOps7_writes (by decide : main_arg3 ∉ hostOps7_W)).trans <|
  (W12_of_ne m ρ c main_arg3 (by decide)).trans <|
  (W11_of_ne m ρ c main_arg3 (by decide)).trans <|
  (StableHlo.after_of_writes_sub hostOps5 _ hostOps5_writes (by decide : main_arg3 ∉ hostOps5_W)).trans <|
  (W9_of_ne m ρ c main_arg3 (by decide)).trans <|
  (StableHlo.after_of_writes_sub hostOps4 _ hostOps4_writes (by decide : main_arg3 ∉ hostOps4_W)).trans <|
  (W7_of_ne m ρ c main_arg3 (by decide)).trans <|
  (StableHlo.after_of_writes_sub hostOps3 _ hostOps3_writes (by decide : main_arg3 ∉ hostOps3_W)).trans <|
  (W5_of_ne m ρ c main_arg3 (by decide)).trans <|
  (W4_of_ne m ρ c main_arg3 (by decide)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans <| rfl
theorem kept_arg4 (c : Dev nD) : W20 m ρ c (Proc.devRef .tc main_arg4) = m ((c : Thread nD τ).loc main_arg4) :=
  (W20_of_ne m ρ c main_arg4 (by decide)).trans <|
  (W19_of_ne m ρ c main_arg4 (by decide)).trans <|
  (W18_of_ne m ρ c main_arg4 (by decide)).trans <|
  (StableHlo.after_of_writes_sub hostOps9 _ hostOps9_writes (by decide : main_arg4 ∉ hostOps9_W)).trans <|
  (W16_of_ne m ρ c main_arg4 (by decide)).trans <|
  (StableHlo.after_of_writes_sub hostOps8 _ hostOps8_writes (by decide : main_arg4 ∉ hostOps8_W)).trans <|
  (W14_of_ne m ρ c main_arg4 (by decide)).trans <|
  (StableHlo.after_of_writes_sub hostOps7 _ hostOps7_writes (by decide : main_arg4 ∉ hostOps7_W)).trans <|
  (W12_of_ne m ρ c main_arg4 (by decide)).trans <|
  (W11_of_ne m ρ c main_arg4 (by decide)).trans <|
  (StableHlo.after_of_writes_sub hostOps5 _ hostOps5_writes (by decide : main_arg4 ∉ hostOps5_W)).trans <|
  (W9_of_ne m ρ c main_arg4 (by decide)).trans <|
  (StableHlo.after_of_writes_sub hostOps4 _ hostOps4_writes (by decide : main_arg4 ∉ hostOps4_W)).trans <|
  (W7_of_ne m ρ c main_arg4 (by decide)).trans <|
  (StableHlo.after_of_writes_sub hostOps3 _ hostOps3_writes (by decide : main_arg4 ∉ hostOps3_W)).trans <|
  (W5_of_ne m ρ c main_arg4 (by decide)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans <| rfl
theorem kept_arg5 (c : Dev nD) : W20 m ρ c (Proc.devRef .tc main_arg5) = m ((c : Thread nD τ).loc main_arg5) :=
  (W20_of_ne m ρ c main_arg5 (by decide)).trans <|
  (W19_of_ne m ρ c main_arg5 (by decide)).trans <|
  (W18_of_ne m ρ c main_arg5 (by decide)).trans <|
  (StableHlo.after_of_writes_sub hostOps9 _ hostOps9_writes (by decide : main_arg5 ∉ hostOps9_W)).trans <|
  (W16_of_ne m ρ c main_arg5 (by decide)).trans <|
  (StableHlo.after_of_writes_sub hostOps8 _ hostOps8_writes (by decide : main_arg5 ∉ hostOps8_W)).trans <|
  (W14_of_ne m ρ c main_arg5 (by decide)).trans <|
  (StableHlo.after_of_writes_sub hostOps7 _ hostOps7_writes (by decide : main_arg5 ∉ hostOps7_W)).trans <|
  (W12_of_ne m ρ c main_arg5 (by decide)).trans <|
  (W11_of_ne m ρ c main_arg5 (by decide)).trans <|
  (StableHlo.after_of_writes_sub hostOps5 _ hostOps5_writes (by decide : main_arg5 ∉ hostOps5_W)).trans <|
  (W9_of_ne m ρ c main_arg5 (by decide)).trans <|
  (StableHlo.after_of_writes_sub hostOps4 _ hostOps4_writes (by decide : main_arg5 ∉ hostOps4_W)).trans <|
  (W7_of_ne m ρ c main_arg5 (by decide)).trans <|
  (StableHlo.after_of_writes_sub hostOps3 _ hostOps3_writes (by decide : main_arg5 ∉ hostOps3_W)).trans <|
  (W5_of_ne m ρ c main_arg5 (by decide)).trans <|
  (W4_of_ne m ρ c main_arg5 (by decide)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans <| rfl
theorem kept_arg6 (c : Dev nD) : W20 m ρ c (Proc.devRef .tc main_arg6) = m ((c : Thread nD τ).loc main_arg6) :=
  (W20_of_ne m ρ c main_arg6 (by decide)).trans <|
  (W19_of_ne m ρ c main_arg6 (by decide)).trans <|
  (W18_of_ne m ρ c main_arg6 (by decide)).trans <|
  (StableHlo.after_of_writes_sub hostOps9 _ hostOps9_writes (by decide : main_arg6 ∉ hostOps9_W)).trans <|
  (W16_of_ne m ρ c main_arg6 (by decide)).trans <|
  (StableHlo.after_of_writes_sub hostOps8 _ hostOps8_writes (by decide : main_arg6 ∉ hostOps8_W)).trans <|
  (W14_of_ne m ρ c main_arg6 (by decide)).trans <|
  (StableHlo.after_of_writes_sub hostOps7 _ hostOps7_writes (by decide : main_arg6 ∉ hostOps7_W)).trans <|
  (W12_of_ne m ρ c main_arg6 (by decide)).trans <|
  (W11_of_ne m ρ c main_arg6 (by decide)).trans <|
  (StableHlo.after_of_writes_sub hostOps5 _ hostOps5_writes (by decide : main_arg6 ∉ hostOps5_W)).trans <|
  (W9_of_ne m ρ c main_arg6 (by decide)).trans <|
  (StableHlo.after_of_writes_sub hostOps4 _ hostOps4_writes (by decide : main_arg6 ∉ hostOps4_W)).trans <|
  (W7_of_ne m ρ c main_arg6 (by decide)).trans <|
  (StableHlo.after_of_writes_sub hostOps3 _ hostOps3_writes (by decide : main_arg6 ∉ hostOps3_W)).trans <|
  (W5_of_ne m ρ c main_arg6 (by decide)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans <| rfl
theorem kept_arg7 (c : Dev nD) : W20 m ρ c (Proc.devRef .tc main_arg7) = m ((c : Thread nD τ).loc main_arg7) :=
  (W20_of_ne m ρ c main_arg7 (by decide)).trans <|
  (W19_of_ne m ρ c main_arg7 (by decide)).trans <|
  (W18_of_ne m ρ c main_arg7 (by decide)).trans <|
  (StableHlo.after_of_writes_sub hostOps9 _ hostOps9_writes (by decide : main_arg7 ∉ hostOps9_W)).trans <|
  (W16_of_ne m ρ c main_arg7 (by decide)).trans <|
  (StableHlo.after_of_writes_sub hostOps8 _ hostOps8_writes (by decide : main_arg7 ∉ hostOps8_W)).trans <|
  (W14_of_ne m ρ c main_arg7 (by decide)).trans <|
  (StableHlo.after_of_writes_sub hostOps7 _ hostOps7_writes (by decide : main_arg7 ∉ hostOps7_W)).trans <|
  (W12_of_ne m ρ c main_arg7 (by decide)).trans <|
  (W11_of_ne m ρ c main_arg7 (by decide)).trans <|
  (StableHlo.after_of_writes_sub hostOps5 _ hostOps5_writes (by decide : main_arg7 ∉ hostOps5_W)).trans <|
  (W9_of_ne m ρ c main_arg7 (by decide)).trans <|
  (StableHlo.after_of_writes_sub hostOps4 _ hostOps4_writes (by decide : main_arg7 ∉ hostOps4_W)).trans <|
  (W7_of_ne m ρ c main_arg7 (by decide)).trans <|
  (StableHlo.after_of_writes_sub hostOps3 _ hostOps3_writes (by decide : main_arg7 ∉ hostOps3_W)).trans <|
  (W5_of_ne m ρ c main_arg7 (by decide)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans <| rfl
theorem kept_arg8 (c : Dev nD) : W20 m ρ c (Proc.devRef .tc main_arg8) = m ((c : Thread nD τ).loc main_arg8) :=
  (W20_of_ne m ρ c main_arg8 (by decide)).trans <|
  (W19_of_ne m ρ c main_arg8 (by decide)).trans <|
  (W18_of_ne m ρ c main_arg8 (by decide)).trans <|
  (StableHlo.after_of_writes_sub hostOps9 _ hostOps9_writes (by decide : main_arg8 ∉ hostOps9_W)).trans <|
  (W16_of_ne m ρ c main_arg8 (by decide)).trans <|
  (StableHlo.after_of_writes_sub hostOps8 _ hostOps8_writes (by decide : main_arg8 ∉ hostOps8_W)).trans <|
  (W14_of_ne m ρ c main_arg8 (by decide)).trans <|
  (StableHlo.after_of_writes_sub hostOps7 _ hostOps7_writes (by decide : main_arg8 ∉ hostOps7_W)).trans <|
  (W12_of_ne m ρ c main_arg8 (by decide)).trans <|
  (W11_of_ne m ρ c main_arg8 (by decide)).trans <|
  (StableHlo.after_of_writes_sub hostOps5 _ hostOps5_writes (by decide : main_arg8 ∉ hostOps5_W)).trans <|
  (W9_of_ne m ρ c main_arg8 (by decide)).trans <|
  (StableHlo.after_of_writes_sub hostOps4 _ hostOps4_writes (by decide : main_arg8 ∉ hostOps4_W)).trans <|
  (W7_of_ne m ρ c main_arg8 (by decide)).trans <|
  (StableHlo.after_of_writes_sub hostOps3 _ hostOps3_writes (by decide : main_arg8 ∉ hostOps3_W)).trans <|
  (W5_of_ne m ρ c main_arg8 (by decide)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans <| rfl
theorem kept_arg9 (c : Dev nD) : W20 m ρ c (Proc.devRef .tc main_arg9) = m ((c : Thread nD τ).loc main_arg9) :=
  (W20_of_ne m ρ c main_arg9 (by decide)).trans <|
  (W19_of_ne m ρ c main_arg9 (by decide)).trans <|
  (W18_of_ne m ρ c main_arg9 (by decide)).trans <|
  (StableHlo.after_of_writes_sub hostOps9 _ hostOps9_writes (by decide : main_arg9 ∉ hostOps9_W)).trans <|
  (W16_of_ne m ρ c main_arg9 (by decide)).trans <|
  (StableHlo.after_of_writes_sub hostOps8 _ hostOps8_writes (by decide : main_arg9 ∉ hostOps8_W)).trans <|
  (W14_of_ne m ρ c main_arg9 (by decide)).trans <|
  (StableHlo.after_of_writes_sub hostOps7 _ hostOps7_writes (by decide : main_arg9 ∉ hostOps7_W)).trans <|
  (W12_of_ne m ρ c main_arg9 (by decide)).trans <|
  (W11_of_ne m ρ c main_arg9 (by decide)).trans <|
  (StableHlo.after_of_writes_sub hostOps5 _ hostOps5_writes (by decide : main_arg9 ∉ hostOps5_W)).trans <|
  (W9_of_ne m ρ c main_arg9 (by decide)).trans <|
  (StableHlo.after_of_writes_sub hostOps4 _ hostOps4_writes (by decide : main_arg9 ∉ hostOps4_W)).trans <|
  (W7_of_ne m ρ c main_arg9 (by decide)).trans <|
  (StableHlo.after_of_writes_sub hostOps3 _ hostOps3_writes (by decide : main_arg9 ∉ hostOps3_W)).trans <|
  (W5_of_ne m ρ c main_arg9 (by decide)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans <| rfl

/-- The frame: the program runs and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (kept_arg0 m ρ c),
    (h c _ (mem_uc main_arg1 (by decide))).trans (kept_arg1 m ρ c),
    (h c _ (mem_uc main_arg2 (by decide))).trans (kept_arg2 m ρ c),
    (h c _ (mem_uc main_arg3 (by decide))).trans (kept_arg3 m ρ c),
    (h c _ (mem_uc main_arg4 (by decide))).trans (kept_arg4 m ρ c),
    (h c _ (mem_uc main_arg5 (by decide))).trans (kept_arg5 m ρ c),
    (h c _ (mem_uc main_arg6 (by decide))).trans (kept_arg6 m ρ c),
    (h c _ (mem_uc main_arg7 (by decide))).trans (kept_arg7 m ρ c),
    (h c _ (mem_uc main_arg8 (by decide))).trans (kept_arg8 m ρ c),
    (h c _ (mem_uc main_arg9 (by decide))).trans (kept_arg9 m ρ c)⟩) (run m ρ)

end Cert.KernelIdeal.Run

end
-- ==== Proof.Reference.Stages.lean ====
/-
  The reference network as a composition of pure array functions, one definition per step of the
  source: the edge list's two rows; the neighbour sum (a gather of the source rows followed by a
  scatter-add at the destination rows, from zero); the linear maps; the batch statistics over the
  50000 nodes (the mean as sum / 50000, the variance as the source computes it: the mean of the
  squared deviations, divided by 50000 - 0 and guarded by the test 50000 - 0 > 0); the
  normalisation by the reciprocal square root; the rectifier; and the final division of every row
  by max(sqrt(sum of squares), 1e-12). `result` composes them over the ten argument arrays, for
  any float values.
-/
import proofs.«176586_j29291676959176_1_alg».proof.ReferenceIdeal
import proofs.«176586_j29291676959176_1_alg».proof.Proof.Gen.ReferenceIdeal

noncomputable section

namespace Cert.ReferenceIdeal.RefRun

open Cert.ReferenceIdeal Cert.ReferenceIdeal.Gen Idealize.ShloMosaic

variable {F : FTy → Type} [FloatOps F]

/-- Row 0 of the edge list, flattened: the source node of every edge. -/
def srcFlat (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list, flattened: the destination node of every edge. -/
def dstFlat (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The gather's index column: a negative source index is taken from the end (index + 50000). -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's index column. -/
def colIdx (d : (⟨S800000, .i32⟩ : BufTy).Contents (Elt F)) : (⟨S800000x1, .i32⟩ : BufTy).Contents (Elt F) :=
  broadcastInDim S800000x1 ![0] bcast_S800000_S800000x1_0 d

/-- The all-zero node array. -/
def zeros : (⟨S50000x128, .f32⟩ : BufTy).Contents (Elt F) :=
  broadcastInDim S50000x128 ![] bcast_S_S50000x128 (constant S_ .f32 0x00000000#32)

/-- The neighbour sum: row `dst e` receives the sum over the edges `e` into it of row `src e` of `h`. -/
def agg (h : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1 zeros (colIdx d)
    (Host.gather gather_S50000x128_S800000x1_S800000x128_1_0_n_n_0_1_1128 h (wrapIdx s))

/-- `h + agg h`. -/
def selfPlusAgg (h : (⟨S50000x128, .f32⟩ : BufTy).Contents (Elt F)) (s d : (⟨S800000, .i32⟩ : BufTy).Contents (Elt F)) : (⟨S50000x128, .f32⟩ : BufTy).Contents (Elt F) := addf h (agg h s d)

/-- One 128 × 128 matrix of a stack of three. -/
def mat3 (off : Fin S3x128x128.rank → Nat) (hs : S3x128x128.Slices off S1x128x128) (W : (⟨S3x128x128, .f32⟩ : BufTy).Contents (Elt F)) : (⟨S128x128, .f32⟩ : BufTy).Contents (Elt F) :=
  shapeCast S128x128 (extractStridedSlice S1x128x128 off W hs) shapeCasts_S1x128x128_S128x128

/-- One row of a 3 × 128 parameter array. -/
def row3 (off : Fin S3x128.rank → Nat) (hs : S3x128.Slices off S1x128) (p : (⟨S3x128, .f32⟩ : BufTy).Contents (Elt F)) : (⟨S128, .f32⟩ : BufTy).Contents (Elt F) :=
  shapeCast S128 (extractStridedSlice S1x128 off p hs) shapeCasts_S1x128_S128

/-- One row of a 2 × 128 parameter array. -/
def row2 (off : Fin S2x128.rank → Nat) (hs : S2x128.Slices off S1x128) (p : (⟨S2x128, .f32⟩ : BufTy).Contents (Elt F)) : (⟨S128, .f32⟩ : BufTy).Contents (Elt F) :=
  shapeCast S128 (extractStridedSlice S1x128 off p hs) shapeCasts_S1x128_S128

/-- A feature vector repeated on every node. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- `x · W + b`. -/
def linear (x : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none x W) (rows b)

/-- The sum over the nodes, per feature. -/
def colSum (x : (⟨S50000x128, .f32⟩ : BufTy).Contents (Elt F)) : (⟨S128, .f32⟩ : BufTy).Contents (Elt F) :=
  Host.reduceAdd x (constant S_ .f32 0x00000000#32 : (⟨S_, .f32⟩ : BufTy).Contents (Elt F)) reducesTo_S50000x128_S128_d0 h_S_

/-- The mean over the nodes: the sum divided by 50000. -/
def mean (x : (⟨S50000x128, .f32⟩ : BufTy).Contents (Elt F)) : (⟨S128, .f32⟩ : BufTy).Contents (Elt F) :=
  Host.divf (colSum x) (broadcastInDim S128 ![] bcast_S_S128 (constant S_ .f32 0x47435000#32 : (⟨S_, .f32⟩ : BufTy).Contents (Elt F)))

/-- The count the variance divides by: 50000 minus zero degrees of freedom, as a float. -/
def varCount : (⟨S_, .f32⟩ : BufTy).Contents (Elt F) :=
  subf (constant S_ .f32 0x47435000#32) (sitofp .f32 (constantI S_ 32 0#32 : (⟨S_, .i32⟩ : BufTy).Contents (Elt F)))

/-- The deviations from the mean, the mean broadcast from a 1 × 128 row as the source does. -/
def deviations (x : (⟨S50000x128, .f32⟩ : BufTy).Contents (Elt F)) : (⟨S50000x128, .f32⟩ : BufTy).Contents (Elt F) :=
  subf x (broadcastInDim S50000x128 ![0, 1] bcast_S1x128_S50000x128_0_1
    (Host.divf (broadcastInDim S1x128 ![1] bcast_S128_S1x128_1 (colSum x))
      (broadcastInDim S1x128 ![] bcast_S_S1x128 (constant S_ .f32 0x47435000#32 : (⟨S_, .f32⟩ : BufTy).Contents (Elt F)))))

/-- The variance over the nodes as the source computes it: the sum of squared deviations divided by
    the count, where the count is positive, and the quiet not-a-number word elsewhere. -/
def var (x : (⟨S50000x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (colSum (mulf (deviations x) (deviations x))) (broadcastInDim S128 ![] bcast_S_S128 (varCount (F := F))))
    (broadcastInDim S128 ![] bcast_S_S128 (constant S_ .f32 0x7FC00000#32 : (⟨S_, .f32⟩ : BufTy).Contents (Elt F)))

/-- Batch normalisation over the nodes: `γ · (x − mean x) · rsqrt (var x + 1e-5) + β`. -/
def bnorm (x : (⟨S50000x128, .f32⟩ : BufTy).Contents (Elt F)) (γ β : (⟨S128, .f32⟩ : BufTy).Contents (Elt F)) : (⟨S50000x128, .f32⟩ : BufTy).Contents (Elt F) :=
  addf (mulf (mulf (rows γ) (subf x (rows (mean x))))
      (rows (Host.rsqrt (addf (var x) (broadcastInDim S128 ![] bcast_S_S128 (constant S_ .f32 0x3727C5AC#32 : (⟨S_, .f32⟩ : BufTy).Contents (Elt F)))))))
    (rows β)

/-- `max x 0`. -/
def relu (x : (⟨S50000x128, .f32⟩ : BufTy).Contents (Elt F)) : (⟨S50000x128, .f32⟩ : BufTy).Contents (Elt F) := maximumf x zeros

/-- Every row divided by the larger of its Euclidean norm and 1e-12. -/
def l2normalize (x : (⟨S50000x128, .f32⟩ : BufTy).Contents (Elt F)) : (⟨S50000x128, .f32⟩ : BufTy).Contents (Elt F) :=
  Host.divf x (broadcastInDim S50000x128 ![0, 1] bcast_S50000x1_S50000x128_0_1
    (maximumf
      (Host.sqrt (broadcastInDim S50000x1 ![0] bcast_S50000_S50000x1_0
        (Host.reduceAdd (mulf x x) (constant S_ .f32 0x00000000#32 : (⟨S_, .f32⟩ : BufTy).Contents (Elt F)) reducesTo_S50000x128_S50000_d1 h_S_)))
      (broadcastInDim S50000x1 ![] bcast_S_S50000x1 (constant S_ .f32 0x2B8CBCCC#32 : (⟨S_, .f32⟩ : BufTy).Contents (Elt F)))))

/-! ## The three layers over the ten arrays

`a0` the node features, `a1` the edge list, `a2 a3` the first linear map's weights and bias, `a4 a5` the scale and
shift of the normalisation inside the perceptron, `a6 a7` the second linear map's, `a8 a9` the scale and shift of the
normalisation between layers. `hidL` is layer `L`'s input, `preL` its first linear map's output, `midL` that
normalised and rectified, `outL` the second linear map's output. -/

section Layers

variable (a0 : (⟨S50000x128, .f32⟩ : BufTy).Contents (Elt F)) (a1 : (⟨S2x800000, .i32⟩ : BufTy).Contents (Elt F)) (a2 : (⟨S3x128x128, .f32⟩ : BufTy).Contents (Elt F)) (a3 a4 a5 : (⟨S3x128, .f32⟩ : BufTy).Contents (Elt F)) (a6 : (⟨S3x128x128, .f32⟩ : BufTy).Contents (Elt F)) (a7 : (⟨S3x128, .f32⟩ : BufTy).Contents (Elt F)) (a8 a9 : (⟨S2x128, .f32⟩ : BufTy).Contents (Elt F))

def pre0 : (⟨S50000x128, .f32⟩ : BufTy).Contents (Elt F) :=
  linear (selfPlusAgg a0 (srcFlat a1) (dstFlat a1)) (mat3 ![0, 0, 0] slices_S3x128x128_S1x128x128_0_0_0 a2) (row3 ![0, 0] slices_S3x128_S1x128_0_0 a3)
def mid0 : (⟨S50000x128, .f32⟩ : BufTy).Contents (Elt F) :=
  relu (bnorm (pre0 a0 a1 a2 a3) (row3 ![0, 0] slices_S3x128_S1x128_0_0 a4) (row3 ![0, 0] slices_S3x128_S1x128_0_0 a5))
def out0 : (⟨S50000x128, .f32⟩ : BufTy).Contents (Elt F) :=
  linear (mid0 a0 a1 a2 a3 a4 a5) (mat3 ![0, 0, 0] slices_S3x128x128_S1x128x128_0_0_0 a6) (row3 ![0, 0] slices_S3x128_S1x128_0_0 a7)
def hid1 : (⟨S50000x128, .f32⟩ : BufTy).Contents (Elt F) :=
  relu (bnorm (out0 a0 a1 a2 a3 a4 a5 a6 a7) (row2 ![0, 0] slices_S2x128_S1x128_0_0 a8) (row2 ![0, 0] slices_S2x128_S1x128_0_0 a9))

def pre1 : (⟨S50000x128, .f32⟩ : BufTy).Contents (Elt F) :=
  linear (selfPlusAgg (hid1 a0 a1 a2 a3 a4 a5 a6 a7 a8 a9) (srcFlat a1) (dstFlat a1)) (mat3 ![1, 0, 0] slices_S3x128x128_S1x128x128_1_0_0 a2) (row3 ![1, 0] slices_S3x128_S1x128_1_0 a3)
def mid1 : (⟨S50000x128, .f32⟩ : BufTy).Contents (Elt F) :=
  relu (bnorm (pre1 a0 a1 a2 a3 a4 a5 a6 a7 a8 a9) (row3 ![1, 0] slices_S3x128_S1x128_1_0 a4) (row3 ![1, 0] slices_S3x128_S1x128_1_0 a5))
def out1 : (⟨S50000x128, .f32⟩ : BufTy).Contents (Elt F) :=
  linear (mid1 a0 a1 a2 a3 a4 a5 a6 a7 a8 a9) (mat3 ![1, 0, 0] slices_S3x128x128_S1x128x128_1_0_0 a6) (row3 ![1, 0] slices_S3x128_S1x128_1_0 a7)
def hid2 : (⟨S50000x128, .f32⟩ : BufTy).Contents (Elt F) :=
  relu (bnorm (out1 a0 a1 a2 a3 a4 a5 a6 a7 a8 a9) (row2 ![1, 0] slices_S2x128_S1x128_1_0 a8) (row2 ![1, 0] slices_S2x128_S1x128_1_0 a9))

def pre2 : (⟨S50000x128, .f32⟩ : BufTy).Contents (Elt F) :=
  linear (selfPlusAgg (hid2 a0 a1 a2 a3 a4 a5 a6 a7 a8 a9) (srcFlat a1) (dstFlat a1)) (mat3 ![2, 0, 0] slices_S3x128x128_S1x128x128_2_0_0 a2) (row3 ![2, 0] slices_S3x128_S1x128_2_0 a3)
def mid2 : (⟨S50000x128, .f32⟩ : BufTy).Contents (Elt F) :=
  relu (bnorm (pre2 a0 a1 a2 a3 a4 a5 a6 a7 a8 a9) (row3 ![2, 0] slices_S3x128_S1x128_2_0 a4) (row3 ![2, 0] slices_S3x128_S1x128_2_0 a5))
def out2 : (⟨S50000x128, .f32⟩ : BufTy).Contents (Elt F) :=
  linear (mid2 a0 a1 a2 a3 a4 a5 a6 a7 a8 a9) (mat3 ![2, 0, 0] slices_S3x128x128_S1x128x128_2_0_0 a6) (row3 ![2, 0] slices_S3x128_S1x128_2_0 a7)

/-- The reference's result as one function of its ten argument arrays. -/
def result : (⟨S50000x128, .f32⟩ : BufTy).Contents (Elt F) := l2normalize (out2 a0 a1 a2 a3 a4 a5 a6 a7 a8 a9)

end Layers

end Cert.ReferenceIdeal.RefRun

end
-- ==== Proof.Reference.Ops.lean ====
/-
  The reference program's @main as lists of its host operations, cut where the source's steps end:
  the edge list's rows; then for each layer the neighbour sum with the first linear map and the
  slices of the normalisation's scale and shift, the normalisation with its statistics and the
  rectifier, the second linear map with the slices of the next scale and shift, the normalisation
  between layers; last the third layer's second linear map and the division of every row by its
  norm. A called function's operations stand in its call's place, over that call's buffers. @main
  is the run of the lists in order, every operation touches TensorCore buffers only and determines
  its result, and no buffer of the signature is scoped.
-/
import proofs.«176586_j29291676959176_1_alg».proof.ReferenceIdeal
import proofs.«176586_j29291676959176_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Running a concatenation is running its halves in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 4 of 359 — the two rows of the edge list, flattened. -/
abbrev w1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

theorem w1_sub : (w1 : List (HloOp τ sig (Elt F))).Forall fun op => op.bufs ⊆ tcRefs τ sig :=
  ⟨unary_bufs_sub .., reshape_bufs_sub .., unary_bufs_sub .., reshape_bufs_sub ..⟩

theorem w1_fresh : (w1 : List (HloOp τ sig (Elt F))).Forall fun op => op.fresh = ∅ :=
  ⟨rfl, rfl, rfl, rfl⟩

/-- Operations 5 … 30 of 359 — layer 0: the neighbour sum, the first linear map, the scale and shift rows. -/
abbrev w2 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg2 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    unary main_arg4 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_arg5 main_v25 ((extractStridedSlice S1x128 ![0, 0] · slices_S3x128_S1x128_0_0) : (⟨S3x128, .f32⟩ : BufTy).Contents (Elt F) → (⟨S1x128, .f32⟩ : BufTy).Contents (Elt F)),
    reshape main_v25 main_v26 rfl shapeCasts_S1x128_S128 ]

theorem w2_sub : (w2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Operations 31 … 77 of 359 — layer 0: the statistics, the normalisation, the rectifier. -/
abbrev w3 : List (HloOp τ sig (Elt F)) :=
  [ nullary main_cst_1 (constant S_ .f32 0x00000000#32),
    binary main_v22 main_cst_1 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    nullary main_call0_cst ((constant S_ .f32 0x00000000#32) : (⟨S_, .f32⟩ : BufTy).Contents (Elt F)),
    binary main_v22 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call0_v0 main_call0_v1 ((broadcastInDim S1x128 ![1] bcast_S128_S1x128_1) : (⟨S128, .f32⟩ : BufTy).Contents (Elt F) → (⟨S1x128, .f32⟩ : BufTy).Contents (Elt F)),
    nullary main_call0_cst_0 ((constant S_ .f32 0x47435000#32) : (⟨S_, .f32⟩ : BufTy).Contents (Elt F)),
    unary main_call0_cst_0 main_call0_v2 ((broadcastInDim S1x128 ![] bcast_S_S1x128) : (⟨S_, .f32⟩ : BufTy).Contents (Elt F) → (⟨S1x128, .f32⟩ : BufTy).Contents (Elt F)),
    binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    unary main_call0_v3 main_call0_v4 ((broadcastInDim S50000x128 ![0, 1] bcast_S1x128_S50000x128_0_1) : (⟨S1x128, .f32⟩ : BufTy).Contents (Elt F) → (⟨S50000x128, .f32⟩ : BufTy).Contents (Elt F)),
    binary main_v22 main_call0_v4 main_call0_v5 (subf : (⟨S50000x128, .f32⟩ : BufTy).Contents (Elt F) → (⟨S50000x128, .f32⟩ : BufTy).Contents (Elt F) → (⟨S50000x128, .f32⟩ : BufTy).Contents (Elt F)),
    binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
    unary main_c_3 main_call0_v7 ((sitofp .f32) : (⟨S_, .i32⟩ : BufTy).Contents (Elt F) → (⟨S_, .f32⟩ : BufTy).Contents (Elt F)),
    nullary main_call0_cst_1 ((constant S_ .f32 0x47435000#32) : (⟨S_, .f32⟩ : BufTy).Contents (Elt F)),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 ((constant S_ .f32 0x00000000#32) : (⟨S_, .f32⟩ : BufTy).Contents (Elt F)),
    binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call0_v8 main_call0_v10 ((broadcastInDim S128 ![] bcast_S_S128) : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 ((constant S_ .f32 0x00000000#32) : (⟨S_, .f32⟩ : BufTy).Contents (Elt F)),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 ((constant S_ .f32 0x7FC00000#32) : (⟨S_, .f32⟩ : BufTy).Contents (Elt F)),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S128 ![] bcast_S_S128) : (⟨S_, .f32⟩ : BufTy).Contents (Elt F) → (⟨S128, .f32⟩ : BufTy).Contents (Elt F)),
    ternary main_call0_v12 main_call0_v11 main_call0_call0_v1 main_v30 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v22 main_v32 main_v33 (subf : (⟨S50000x128, .f32⟩ : BufTy).Contents (Elt F) → (⟨S50000x128, .f32⟩ : BufTy).Contents (Elt F) → (⟨S50000x128, .f32⟩ : BufTy).Contents (Elt F)),
    unary main_v24 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v35 main_v33 main_v36 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v37 (broadcastInDim S128 ![] bcast_S_S128 : (⟨S_, .f32⟩ : BufTy).Contents (Elt F) → (⟨S128, .f32⟩ : BufTy).Contents (Elt F)),
    binary main_v30 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v36 main_v41 main_v42 (mulf : (⟨S50000x128, .f32⟩ : BufTy).Contents (Elt F) → (⟨S50000x128, .f32⟩ : BufTy).Contents (Elt F) → (⟨S50000x128, .f32⟩ : BufTy).Contents (Elt F)),
    unary main_v26 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)),
    nullary main_call1_cst ((constant S_ .f32 0x00000000#32) : (⟨S_, .f32⟩ : BufTy).Contents (Elt F)),
    unary main_call1_cst main_call1_v0 ((broadcastInDim S50000x128 ![] bcast_S_S50000x128) : (⟨S_, .f32⟩ : BufTy).Contents (Elt F) → (⟨S50000x128, .f32⟩ : BufTy).Contents (Elt F)),
    binary main_v45 main_call1_v0 main_v46 (maximumf : (⟨S50000x128, .f32⟩ : BufTy).Contents (Elt F) → (⟨S50000x128, .f32⟩ : BufTy).Contents (Elt F) → (⟨S50000x128, .f32⟩ : BufTy).Contents (Elt F)) ]

theorem w3_sub : (w3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 78 … 89 of 359 — layer 0: the second linear map, the scale and shift rows of the normalisation between layers. -/
abbrev w4 : List (HloOp τ sig (Elt F)) :=
  [ unary main_arg6 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    unary main_arg8 main_v55 ((extractStridedSlice S1x128 ![0, 0] · slices_S2x128_S1x128_0_0) : (⟨S2x128, .f32⟩ : BufTy).Contents (Elt F) → (⟨S1x128, .f32⟩ : BufTy).Contents (Elt F)),
    reshape main_v55 main_v56 rfl shapeCasts_S1x128_S128,
    unary main_arg9 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128 ]

theorem w4_sub : (w4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

theorem w4_fresh : (w4 : List (HloOp τ sig (Elt F))).Forall fun op => op.fresh = ∅ :=
  ⟨rfl, rfl, rfl, rfl, rfl, rfl, rfl, rfl, rfl, rfl, rfl, rfl⟩

/-- The first 6 operations of `w4`. -/
abbrev w4a : List (HloOp τ sig (Elt F)) :=
  [ unary main_arg6 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)) ]

/-- The other 6 operations of `w4`. -/
abbrev w4b : List (HloOp τ sig (Elt F)) :=
  [ unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)),
    unary main_arg8 main_v55 ((extractStridedSlice S1x128 ![0, 0] · slices_S2x128_S1x128_0_0) : (⟨S2x128, .f32⟩ : BufTy).Contents (Elt F) → (⟨S1x128, .f32⟩ : BufTy).Contents (Elt F)),
    reshape main_v55 main_v56 rfl shapeCasts_S1x128_S128,
    unary main_arg9 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128 ]

theorem w4_split : (w4 : List (HloOp τ sig (Elt F))) = w4a ++ w4b := rfl

/-- Operations 90 … 136 of 359 — layer 0: the normalisation between layers and the rectifier. -/
abbrev w5 : List (HloOp τ sig (Elt F)) :=
  [ nullary main_cst_5 (constant S_ .f32 0x00000000#32),
    binary main_v54 main_cst_5 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v60 (broadcastInDim S128 ![] bcast_S_S128 : (⟨S_, .f32⟩ : BufTy).Contents (Elt F) → (⟨S128, .f32⟩ : BufTy).Contents (Elt F)),
    binary main_v59 main_v60 main_v61 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    nullary main_call2_cst ((constant S_ .f32 0x00000000#32) : (⟨S_, .f32⟩ : BufTy).Contents (Elt F)),
    binary main_v54 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call2_v0 main_call2_v1 ((broadcastInDim S1x128 ![1] bcast_S128_S1x128_1) : (⟨S128, .f32⟩ : BufTy).Contents (Elt F) → (⟨S1x128, .f32⟩ : BufTy).Contents (Elt F)),
    nullary main_call2_cst_0 ((constant S_ .f32 0x47435000#32) : (⟨S_, .f32⟩ : BufTy).Contents (Elt F)),
    unary main_call2_cst_0 main_call2_v2 ((broadcastInDim S1x128 ![] bcast_S_S1x128) : (⟨S_, .f32⟩ : BufTy).Contents (Elt F) → (⟨S1x128, .f32⟩ : BufTy).Contents (Elt F)),
    binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    unary main_call2_v3 main_call2_v4 ((broadcastInDim S50000x128 ![0, 1] bcast_S1x128_S50000x128_0_1) : (⟨S1x128, .f32⟩ : BufTy).Contents (Elt F) → (⟨S50000x128, .f32⟩ : BufTy).Contents (Elt F)),
    binary main_v54 main_call2_v4 main_call2_v5 (subf : (⟨S50000x128, .f32⟩ : BufTy).Contents (Elt F) → (⟨S50000x128, .f32⟩ : BufTy).Contents (Elt F) → (⟨S50000x128, .f32⟩ : BufTy).Contents (Elt F)),
    binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    unary main_c_7 main_call2_v7 ((sitofp .f32) : (⟨S_, .i32⟩ : BufTy).Contents (Elt F) → (⟨S_, .f32⟩ : BufTy).Contents (Elt F)),
    nullary main_call2_cst_1 ((constant S_ .f32 0x47435000#32) : (⟨S_, .f32⟩ : BufTy).Contents (Elt F)),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 ((constant S_ .f32 0x00000000#32) : (⟨S_, .f32⟩ : BufTy).Contents (Elt F)),
    binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call2_v8 main_call2_v10 ((broadcastInDim S128 ![] bcast_S_S128) : (⟨S_, .f32⟩ : BufTy).Contents (Elt F) → (⟨S128, .f32⟩ : BufTy).Contents (Elt F)),
    binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    nullary main_call2_cst_3 ((constant S_ .f32 0x00000000#32) : (⟨S_, .f32⟩ : BufTy).Contents (Elt F)),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 ((constant S_ .f32 0x7FC00000#32) : (⟨S_, .f32⟩ : BufTy).Contents (Elt F)),
    unary main_call2_cst_4 main_call2_call0_v0 (id : (⟨S_, .f32⟩ : BufTy).Contents (Elt F) → (⟨S_, .f32⟩ : BufTy).Contents (Elt F)),
    unary main_call2_call0_v0 main_call2_call0_v1 ((broadcastInDim S128 ![] bcast_S_S128) : (⟨S_, .f32⟩ : BufTy).Contents (Elt F) → (⟨S128, .f32⟩ : BufTy).Contents (Elt F)),
    ternary main_call2_v12 main_call2_v11 main_call2_call0_v1 main_v62 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v61 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v54 main_v64 main_v65 (subf : (⟨S50000x128, .f32⟩ : BufTy).Contents (Elt F) → (⟨S50000x128, .f32⟩ : BufTy).Contents (Elt F) → (⟨S50000x128, .f32⟩ : BufTy).Contents (Elt F)),
    unary main_v56 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v67 main_v65 main_v68 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v69 (broadcastInDim S128 ![] bcast_S_S128 : (⟨S_, .f32⟩ : BufTy).Contents (Elt F) → (⟨S128, .f32⟩ : BufTy).Contents (Elt F)),
    binary main_v62 main_v69 main_v70 (addf : (⟨S128, .f32⟩ : BufTy).Contents (Elt F) → (⟨S128, .f32⟩ : BufTy).Contents (Elt F) → (⟨S128, .f32⟩ : BufTy).Contents (Elt F)),
    unary main_v70 main_v71 (Host.rsqrt : (⟨S128, .f32⟩ : BufTy).Contents (Elt F) → (⟨S128, .f32⟩ : BufTy).Contents (Elt F)),
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v68 main_v73 main_v74 (mulf : (⟨S50000x128, .f32⟩ : BufTy).Contents (Elt F) → (⟨S50000x128, .f32⟩ : BufTy).Contents (Elt F) → (⟨S50000x128, .f32⟩ : BufTy).Contents (Elt F)),
    unary main_v58 main_v75 (broadcastInDim S1x128 ![1] bcast_S128_S1x128_1 : (⟨S128, .f32⟩ : BufTy).Contents (Elt F) → (⟨S1x128, .f32⟩ : BufTy).Contents (Elt F)),
    unary main_v75 main_v76 (broadcastInDim S50000x128 ![0, 1] bcast_S1x128_S50000x128_0_1 : (⟨S1x128, .f32⟩ : BufTy).Contents (Elt F) → (⟨S50000x128, .f32⟩ : BufTy).Contents (Elt F)),
    binary main_v74 main_v76 main_v77 (addf : (⟨S50000x128, .f32⟩ : BufTy).Contents (Elt F) → (⟨S50000x128, .f32⟩ : BufTy).Contents (Elt F) → (⟨S50000x128, .f32⟩ : BufTy).Contents (Elt F)),
    nullary main_call3_cst ((constant S_ .f32 0x00000000#32) : (⟨S_, .f32⟩ : BufTy).Contents (Elt F)),
    unary main_call3_cst main_call3_v0 ((broadcastInDim S50000x128 ![] bcast_S_S50000x128) : (⟨S_, .f32⟩ : BufTy).Contents (Elt F) → (⟨S50000x128, .f32⟩ : BufTy).Contents (Elt F)),
    binary main_v77 main_call3_v0 main_v78 (maximumf : (⟨S50000x128, .f32⟩ : BufTy).Contents (Elt F) → (⟨S50000x128, .f32⟩ : BufTy).Contents (Elt F) → (⟨S50000x128, .f32⟩ : BufTy).Contents (Elt F)) ]

theorem w5_sub : (w5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 137 … 162 of 359 — layer 1: the neighbour sum, the first linear map, the scale and shift rows. -/
abbrev w6 : List (HloOp τ sig (Elt F)) :=
  [ nullary main_c_9 (constantI S_ 32 0#32),
    unary main_c_9 main_v79 (broadcastInDim S800000 ![] bcast_S_S800000 : (⟨S_, .i32⟩ : BufTy).Contents (Elt F) → (⟨S800000, .i32⟩ : BufTy).Contents (Elt F)),
    binary main_v1 main_v79 main_v80 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v81 (broadcastInDim S800000 ![] bcast_S_S800000 : (⟨S_, .i32⟩ : BufTy).Contents (Elt F) → (⟨S800000, .i32⟩ : BufTy).Contents (Elt F)),
    binary main_v1 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v86 (broadcastInDim S50000x128 ![] bcast_S_S50000x128 : (⟨S_, .f32⟩ : BufTy).Contents (Elt F) → (⟨S50000x128, .f32⟩ : BufTy).Contents (Elt F)),
    unary main_v3 main_v87 (broadcastInDim S800000x1 ![0] bcast_S800000_S800000x1_0 : (⟨S800000, .i32⟩ : BufTy).Contents (Elt F) → (⟨S800000x1, .i32⟩ : BufTy).Contents (Elt F)),
    ternary main_v86 main_v87 main_v85 main_v88 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v78 main_v88 main_v89 (addf : (⟨S50000x128, .f32⟩ : BufTy).Contents (Elt F) → (⟨S50000x128, .f32⟩ : BufTy).Contents (Elt F) → (⟨S50000x128, .f32⟩ : BufTy).Contents (Elt F)),
    unary main_arg2 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v90 main_v91 rfl shapeCasts_S1x128x128_S128x128,
    binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v93 ((extractStridedSlice S1x128 ![1, 0] · slices_S3x128_S1x128_1_0) : (⟨S3x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v92 main_v96 main_v97 (addf : (⟨S50000x128, .f32⟩ : BufTy).Contents (Elt F) → (⟨S50000x128, .f32⟩ : BufTy).Contents (Elt F) → (⟨S50000x128, .f32⟩ : BufTy).Contents (Elt F)),
    unary main_arg4 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128,
    unary main_arg5 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128 ]

theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

theorem w6_fresh : (w6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- Operations 163 … 209 of 359 — layer 1: the statistics, the normalisation, the rectifier. -/
abbrev w7 : List (HloOp τ sig (Elt F)) :=
  [ nullary main_cst_12 (constant S_ .f32 0x00000000#32),
    binary main_v97 main_cst_12 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v103 (broadcastInDim S128 ![] bcast_S_S128 : (⟨S_, .f32⟩ : BufTy).Contents (Elt F) → (⟨S128, .f32⟩ : BufTy).Contents (Elt F)),
    binary main_v102 main_v103 main_v104 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    nullary main_call4_cst ((constant S_ .f32 0x00000000#32) : (⟨S_, .f32⟩ : BufTy).Contents (Elt F)),
    binary main_v97 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call4_v0 main_call4_v1 ((broadcastInDim S1x128 ![1] bcast_S128_S1x128_1) : (⟨S128, .f32⟩ : BufTy).Contents (Elt F) → (⟨S1x128, .f32⟩ : BufTy).Contents (Elt F)),
    nullary main_call4_cst_0 ((constant S_ .f32 0x47435000#32) : (⟨S_, .f32⟩ : BufTy).Contents (Elt F)),
    unary main_call4_cst_0 main_call4_v2 ((broadcastInDim S1x128 ![] bcast_S_S1x128) : (⟨S_, .f32⟩ : BufTy).Contents (Elt F) → (⟨S1x128, .f32⟩ : BufTy).Contents (Elt F)),
    binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    unary main_call4_v3 main_call4_v4 ((broadcastInDim S50000x128 ![0, 1] bcast_S1x128_S50000x128_0_1) : (⟨S1x128, .f32⟩ : BufTy).Contents (Elt F) → (⟨S50000x128, .f32⟩ : BufTy).Contents (Elt F)),
    binary main_v97 main_call4_v4 main_call4_v5 (subf : (⟨S50000x128, .f32⟩ : BufTy).Contents (Elt F) → (⟨S50000x128, .f32⟩ : BufTy).Contents (Elt F) → (⟨S50000x128, .f32⟩ : BufTy).Contents (Elt F)),
    binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    unary main_c_14 main_call4_v7 ((sitofp .f32) : (⟨S_, .i32⟩ : BufTy).Contents (Elt F) → (⟨S_, .f32⟩ : BufTy).Contents (Elt F)),
    nullary main_call4_cst_1 ((constant S_ .f32 0x47435000#32) : (⟨S_, .f32⟩ : BufTy).Contents (Elt F)),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 ((constant S_ .f32 0x00000000#32) : (⟨S_, .f32⟩ : BufTy).Contents (Elt F)),
    binary main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call4_v8 main_call4_v10 ((broadcastInDim S128 ![] bcast_S_S128) : (⟨S_, .f32⟩ : BufTy).Contents (Elt F) → (⟨S128, .f32⟩ : BufTy).Contents (Elt F)),
    binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    nullary main_call4_cst_3 ((constant S_ .f32 0x00000000#32) : (⟨S_, .f32⟩ : BufTy).Contents (Elt F)),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 ((constant S_ .f32 0x7FC00000#32) : (⟨S_, .f32⟩ : BufTy).Contents (Elt F)),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S128 ![] bcast_S_S128) : (⟨S_, .f32⟩ : BufTy).Contents (Elt F) → (⟨S128, .f32⟩ : BufTy).Contents (Elt F)),
    ternary main_call4_v12 main_call4_v11 main_call4_call0_v1 main_v105 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v104 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v97 main_v107 main_v108 (subf : (⟨S50000x128, .f32⟩ : BufTy).Contents (Elt F) → (⟨S50000x128, .f32⟩ : BufTy).Contents (Elt F) → (⟨S50000x128, .f32⟩ : BufTy).Contents (Elt F)),
    unary main_v99 main_v109 (broadcastInDim S1x128 ![1] bcast_S128_S1x128_1 : (⟨S128, .f32⟩ : BufTy).Contents (Elt F) → (⟨S1x128, .f32⟩ : BufTy).Contents (Elt F)),
    unary main_v109 main_v110 (broadcastInDim S50000x128 ![0, 1] bcast_S1x128_S50000x128_0_1 : (⟨S1x128, .f32⟩ : BufTy).Contents (Elt F) → (⟨S50000x128, .f32⟩ : BufTy).Contents (Elt F)),
    binary main_v110 main_v108 main_v111 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v112 (broadcastInDim S128 ![] bcast_S_S128 : (⟨S_, .f32⟩ : BufTy).Contents (Elt F) → (⟨S128, .f32⟩ : BufTy).Contents (Elt F)),
    binary main_v105 main_v112 main_v113 (addf : (⟨S128, .f32⟩ : BufTy).Contents (Elt F) → (⟨S128, .f32⟩ : BufTy).Contents (Elt F) → (⟨S128, .f32⟩ : BufTy).Contents (Elt F)),
    unary main_v113 main_v114 (Host.rsqrt : (⟨S128, .f32⟩ : BufTy).Contents (Elt F) → (⟨S128, .f32⟩ : BufTy).Contents (Elt F)),
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v111 main_v116 main_v117 (mulf : (⟨S50000x128, .f32⟩ : BufTy).Contents (Elt F) → (⟨S50000x128, .f32⟩ : BufTy).Contents (Elt F) → (⟨S50000x128, .f32⟩ : BufTy).Contents (Elt F)),
    unary main_v101 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v117 main_v119 main_v120 (addf : (⟨S50000x128, .f32⟩ : BufTy).Contents (Elt F) → (⟨S50000x128, .f32⟩ : BufTy).Contents (Elt F) → (⟨S50000x128, .f32⟩ : BufTy).Contents (Elt F)),
    nullary main_call5_cst ((constant S_ .f32 0x00000000#32) : (⟨S_, .f32⟩ : BufTy).Contents (Elt F)),
    unary main_call5_cst main_call5_v0 ((broadcastInDim S50000x128 ![] bcast_S_S50000x128) : (⟨S_, .f32⟩ : BufTy).Contents (Elt F) → (⟨S50000x128, .f32⟩ : BufTy).Contents (Elt F)),
    binary main_v120 main_call5_v0 main_v121 (maximumf : (⟨S50000x128, .f32⟩ : BufTy).Contents (Elt F) → (⟨S50000x128, .f32⟩ : BufTy).Contents (Elt F) → (⟨S50000x128, .f32⟩ : BufTy).Contents (Elt F)) ]

theorem w7_sub : (w7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The first 4 operations of `w7`. -/
abbrev w7a : List (HloOp τ sig (Elt F)) :=
  [ nullary main_cst_12 (constant S_ .f32 0x00000000#32),
    binary main_v97 main_cst_12 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v103 (broadcastInDim S128 ![] bcast_S_S128 : (⟨S_, .f32⟩ : BufTy).Contents (Elt F) → (⟨S128, .f32⟩ : BufTy).Contents (Elt F)) ]

/-- The other 43 operations of `w7`. -/
abbrev w7b : List (HloOp τ sig (Elt F)) :=
  [ binary main_v102 main_v103 main_v104 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    nullary main_call4_cst ((constant S_ .f32 0x00000000#32) : (⟨S_, .f32⟩ : BufTy).Contents (Elt F)),
    binary main_v97 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call4_v0 main_call4_v1 ((broadcastInDim S1x128 ![1] bcast_S128_S1x128_1) : (⟨S128, .f32⟩ : BufTy).Contents (Elt F) → (⟨S1x128, .f32⟩ : BufTy).Contents (Elt F)),
    nullary main_call4_cst_0 ((constant S_ .f32 0x47435000#32) : (⟨S_, .f32⟩ : BufTy).Contents (Elt F)),
    unary main_call4_cst_0 main_call4_v2 ((broadcastInDim S1x128 ![] bcast_S_S1x128) : (⟨S_, .f32⟩ : BufTy).Contents (Elt F) → (⟨S1x128, .f32⟩ : BufTy).Contents (Elt F)),
    binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    unary main_call4_v3 main_call4_v4 ((broadcastInDim S50000x128 ![0, 1] bcast_S1x128_S50000x128_0_1) : (⟨S1x128, .f32⟩ : BufTy).Contents (Elt F) → (⟨S50000x128, .f32⟩ : BufTy).Contents (Elt F)),
    binary main_v97 main_call4_v4 main_call4_v5 (subf : (⟨S50000x128, .f32⟩ : BufTy).Contents (Elt F) → (⟨S50000x128, .f32⟩ : BufTy).Contents (Elt F) → (⟨S50000x128, .f32⟩ : BufTy).Contents (Elt F)),
    binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    unary main_c_14 main_call4_v7 ((sitofp .f32) : (⟨S_, .i32⟩ : BufTy).Contents (Elt F) → (⟨S_, .f32⟩ : BufTy).Contents (Elt F)),
    nullary main_call4_cst_1 ((constant S_ .f32 0x47435000#32) : (⟨S_, .f32⟩ : BufTy).Contents (Elt F)),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 ((constant S_ .f32 0x00000000#32) : (⟨S_, .f32⟩ : BufTy).Contents (Elt F)),
    binary main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call4_v8 main_call4_v10 ((broadcastInDim S128 ![] bcast_S_S128) : (⟨S_, .f32⟩ : BufTy).Contents (Elt F) → (⟨S128, .f32⟩ : BufTy).Contents (Elt F)),
    binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    nullary main_call4_cst_3 ((constant S_ .f32 0x00000000#32) : (⟨S_, .f32⟩ : BufTy).Contents (Elt F)),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 ((constant S_ .f32 0x7FC00000#32) : (⟨S_, .f32⟩ : BufTy).Contents (Elt F)),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S128 ![] bcast_S_S128) : (⟨S_, .f32⟩ : BufTy).Contents (Elt F) → (⟨S128, .f32⟩ : BufTy).Contents (Elt F)),
    ternary main_call4_v12 main_call4_v11 main_call4_call0_v1 main_v105 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v104 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v97 main_v107 main_v108 (subf : (⟨S50000x128, .f32⟩ : BufTy).Contents (Elt F) → (⟨S50000x128, .f32⟩ : BufTy).Contents (Elt F) → (⟨S50000x128, .f32⟩ : BufTy).Contents (Elt F)),
    unary main_v99 main_v109 (broadcastInDim S1x128 ![1] bcast_S128_S1x128_1 : (⟨S128, .f32⟩ : BufTy).Contents (Elt F) → (⟨S1x128, .f32⟩ : BufTy).Contents (Elt F)),
    unary main_v109 main_v110 (broadcastInDim S50000x128 ![0, 1] bcast_S1x128_S50000x128_0_1 : (⟨S1x128, .f32⟩ : BufTy).Contents (Elt F) → (⟨S50000x128, .f32⟩ : BufTy).Contents (Elt F)),
    binary main_v110 main_v108 main_v111 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v112 (broadcastInDim S128 ![] bcast_S_S128 : (⟨S_, .f32⟩ : BufTy).Contents (Elt F) → (⟨S128, .f32⟩ : BufTy).Contents (Elt F)),
    binary main_v105 main_v112 main_v113 (addf : (⟨S128, .f32⟩ : BufTy).Contents (Elt F) → (⟨S128, .f32⟩ : BufTy).Contents (Elt F) → (⟨S128, .f32⟩ : BufTy).Contents (Elt F)),
    unary main_v113 main_v114 (Host.rsqrt : (⟨S128, .f32⟩ : BufTy).Contents (Elt F) → (⟨S128, .f32⟩ : BufTy).Contents (Elt F)),
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v111 main_v116 main_v117 (mulf : (⟨S50000x128, .f32⟩ : BufTy).Contents (Elt F) → (⟨S50000x128, .f32⟩ : BufTy).Contents (Elt F) → (⟨S50000x128, .f32⟩ : BufTy).Contents (Elt F)),
    unary main_v101 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v117 main_v119 main_v120 (addf : (⟨S50000x128, .f32⟩ : BufTy).Contents (Elt F) → (⟨S50000x128, .f32⟩ : BufTy).Contents (Elt F) → (⟨S50000x128, .f32⟩ : BufTy).Contents (Elt F)),
    nullary main_call5_cst ((constant S_ .f32 0x00000000#32) : (⟨S_, .f32⟩ : BufTy).Contents (Elt F)),
    unary main_call5_cst main_call5_v0 ((broadcastInDim S50000x128 ![] bcast_S_S50000x128) : (⟨S_, .f32⟩ : BufTy).Contents (Elt F) → (⟨S50000x128, .f32⟩ : BufTy).Contents (Elt F)),
    binary main_v120 main_call5_v0 main_v121 (maximumf : (⟨S50000x128, .f32⟩ : BufTy).Contents (Elt F) → (⟨S50000x128, .f32⟩ : BufTy).Contents (Elt F) → (⟨S50000x128, .f32⟩ : BufTy).Contents (Elt F)) ]

theorem w7_split : (w7 : List (HloOp τ sig (Elt F))) = w7a ++ w7b := rfl

/-- Operations 210 … 221 of 359 — layer 1: the second linear map, the scale and shift rows of the normalisation between layers. -/
abbrev w8 : List (HloOp τ sig (Elt F)) :=
  [ unary main_arg6 main_v122 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v122 main_v123 rfl shapeCasts_S1x128x128_S128x128,
    binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v125 ((extractStridedSlice S1x128 ![1, 0] · slices_S3x128_S1x128_1_0) : (⟨S3x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v124 main_v128 main_v129 (addf : (⟨S50000x128, .f32⟩ : BufTy).Contents (Elt F) → (⟨S50000x128, .f32⟩ : BufTy).Contents (Elt F) → (⟨S50000x128, .f32⟩ : BufTy).Contents (Elt F)),
    unary main_arg8 main_v130 ((extractStridedSlice S1x128 ![1, 0] · slices_S2x128_S1x128_1_0) : (⟨S2x128, .f32⟩ : BufTy).Contents (Elt F) → (⟨S1x128, .f32⟩ : BufTy).Contents (Elt F)),
    reshape main_v130 main_v131 rfl shapeCasts_S1x128_S128,
    unary main_arg9 main_v132 ((extractStridedSlice S1x128 ![1, 0] · slices_S2x128_S1x128_1_0) : (⟨S2x128, .f32⟩ : BufTy).Contents (Elt F) → (⟨S1x128, .f32⟩ : BufTy).Contents (Elt F)),
    reshape main_v132 main_v133 rfl shapeCasts_S1x128_S128 ]

theorem w8_sub : (w8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

theorem w8_fresh : (w8 : List (HloOp τ sig (Elt F))).Forall fun op => op.fresh = ∅ :=
  ⟨rfl, rfl, rfl, rfl, rfl, rfl, rfl, rfl, rfl, rfl, rfl, rfl⟩

/-- Operations 222 … 268 of 359 — layer 1: the normalisation between layers and the rectifier. -/
abbrev w9 : List (HloOp τ sig (Elt F)) :=
  [ nullary main_cst_16 (constant S_ .f32 0x00000000#32),
    binary main_v129 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_17 (constant S_ .f32 0x47435000#32),
    unary main_cst_17 main_v135 (broadcastInDim S128 ![] bcast_S_S128 : (⟨S_, .f32⟩ : BufTy).Contents (Elt F) → (⟨S128, .f32⟩ : BufTy).Contents (Elt F)),
    binary main_v134 main_v135 main_v136 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    nullary main_call6_cst ((constant S_ .f32 0x00000000#32) : (⟨S_, .f32⟩ : BufTy).Contents (Elt F)),
    binary main_v129 main_call6_cst main_call6_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call6_v0 main_call6_v1 ((broadcastInDim S1x128 ![1] bcast_S128_S1x128_1) : (⟨S128, .f32⟩ : BufTy).Contents (Elt F) → (⟨S1x128, .f32⟩ : BufTy).Contents (Elt F)),
    nullary main_call6_cst_0 ((constant S_ .f32 0x47435000#32) : (⟨S_, .f32⟩ : BufTy).Contents (Elt F)),
    unary main_call6_cst_0 main_call6_v2 ((broadcastInDim S1x128 ![] bcast_S_S1x128) : (⟨S_, .f32⟩ : BufTy).Contents (Elt F) → (⟨S1x128, .f32⟩ : BufTy).Contents (Elt F)),
    binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
    unary main_call6_v3 main_call6_v4 ((broadcastInDim S50000x128 ![0, 1] bcast_S1x128_S50000x128_0_1) : (⟨S1x128, .f32⟩ : BufTy).Contents (Elt F) → (⟨S50000x128, .f32⟩ : BufTy).Contents (Elt F)),
    binary main_v129 main_call6_v4 main_call6_v5 (subf : (⟨S50000x128, .f32⟩ : BufTy).Contents (Elt F) → (⟨S50000x128, .f32⟩ : BufTy).Contents (Elt F) → (⟨S50000x128, .f32⟩ : BufTy).Contents (Elt F)),
    binary main_call6_v5 main_call6_v5 main_call6_v6 (mulf : (⟨S50000x128, .f32⟩ : BufTy).Contents (Elt F) → (⟨S50000x128, .f32⟩ : BufTy).Contents (Elt F) → (⟨S50000x128, .f32⟩ : BufTy).Contents (Elt F)),
    unary main_c_18 main_call6_v7 ((sitofp .f32) : (⟨S_, .i32⟩ : BufTy).Contents (Elt F) → (⟨S_, .f32⟩ : BufTy).Contents (Elt F)),
    nullary main_call6_cst_1 ((constant S_ .f32 0x47435000#32) : (⟨S_, .f32⟩ : BufTy).Contents (Elt F)),
    binary main_call6_cst_1 main_call6_v7 main_call6_v8 (subf : (⟨S_, .f32⟩ : BufTy).Contents (Elt F) → (⟨S_, .f32⟩ : BufTy).Contents (Elt F) → (⟨S_, .f32⟩ : BufTy).Contents (Elt F)),
    nullary main_call6_cst_2 ((constant S_ .f32 0x00000000#32) : (⟨S_, .f32⟩ : BufTy).Contents (Elt F)),
    binary main_call6_v6 main_call6_cst_2 main_call6_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call6_v8 main_call6_v10 ((broadcastInDim S128 ![] bcast_S_S128) : (⟨S_, .f32⟩ : BufTy).Contents (Elt F) → (⟨S128, .f32⟩ : BufTy).Contents (Elt F)),
    binary main_call6_v9 main_call6_v10 main_call6_v11 (Host.divf : (⟨S128, .f32⟩ : BufTy).Contents (Elt F) → (⟨S128, .f32⟩ : BufTy).Contents (Elt F) → (⟨S128, .f32⟩ : BufTy).Contents (Elt F)),
    nullary main_call6_cst_3 ((constant S_ .f32 0x00000000#32) : (⟨S_, .f32⟩ : BufTy).Contents (Elt F)),
    binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    nullary main_call6_cst_4 ((constant S_ .f32 0x7FC00000#32) : (⟨S_, .f32⟩ : BufTy).Contents (Elt F)),
    unary main_call6_cst_4 main_call6_call0_v0 (id : (⟨S_, .f32⟩ : BufTy).Contents (Elt F) → (⟨S_, .f32⟩ : BufTy).Contents (Elt F)),
    unary main_call6_call0_v0 main_call6_call0_v1 ((broadcastInDim S128 ![] bcast_S_S128) : (⟨S_, .f32⟩ : BufTy).Contents (Elt F) → (⟨S128, .f32⟩ : BufTy).Contents (Elt F)),
    ternary main_call6_v12 main_call6_v11 main_call6_call0_v1 main_v137 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v136 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v129 main_v139 main_v140 (subf : (⟨S50000x128, .f32⟩ : BufTy).Contents (Elt F) → (⟨S50000x128, .f32⟩ : BufTy).Contents (Elt F) → (⟨S50000x128, .f32⟩ : BufTy).Contents (Elt F)),
    unary main_v131 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v142 main_v140 main_v143 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v144 (broadcastInDim S128 ![] bcast_S_S128 : (⟨S_, .f32⟩ : BufTy).Contents (Elt F) → (⟨S128, .f32⟩ : BufTy).Contents (Elt F)),
    binary main_v137 main_v144 main_v145 (addf : (⟨S128, .f32⟩ : BufTy).Contents (Elt F) → (⟨S128, .f32⟩ : BufTy).Contents (Elt F) → (⟨S128, .f32⟩ : BufTy).Contents (Elt F)),
    unary main_v145 main_v146 (Host.rsqrt : (⟨S128, .f32⟩ : BufTy).Contents (Elt F) → (⟨S128, .f32⟩ : BufTy).Contents (Elt F)),
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v143 main_v148 main_v149 (mulf : (⟨S50000x128, .f32⟩ : BufTy).Contents (Elt F) → (⟨S50000x128, .f32⟩ : BufTy).Contents (Elt F) → (⟨S50000x128, .f32⟩ : BufTy).Contents (Elt F)),
    unary main_v133 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (addf : (⟨S50000x128, .f32⟩ : BufTy).Contents (Elt F) → (⟨S50000x128, .f32⟩ : BufTy).Contents (Elt F) → (⟨S50000x128, .f32⟩ : BufTy).Contents (Elt F)),
    nullary main_call7_cst ((constant S_ .f32 0x00000000#32) : (⟨S_, .f32⟩ : BufTy).Contents (Elt F)),
    unary main_call7_cst main_call7_v0 ((broadcastInDim S50000x128 ![] bcast_S_S50000x128) : (⟨S_, .f32⟩ : BufTy).Contents (Elt F) → (⟨S50000x128, .f32⟩ : BufTy).Contents (Elt F)),
    binary main_v152 main_call7_v0 main_v153 (maximumf : (⟨S50000x128, .f32⟩ : BufTy).Contents (Elt F) → (⟨S50000x128, .f32⟩ : BufTy).Contents (Elt F) → (⟨S50000x128, .f32⟩ : BufTy).Contents (Elt F)) ]

theorem w9_sub : (w9 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem w9_fresh : (w9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 269 … 294 of 359 — layer 2: the neighbour sum, the first linear map, the scale and shift rows. -/
abbrev w10 : List (HloOp τ sig (Elt F)) :=
  [ nullary main_c_20 (constantI S_ 32 0#32),
    unary main_c_20 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_22 (constant S_ .f32 0x00000000#32),
    unary main_cst_22 main_v161 (broadcastInDim S50000x128 ![] bcast_S_S50000x128 : (⟨S_, .f32⟩ : BufTy).Contents (Elt F) → (⟨S50000x128, .f32⟩ : BufTy).Contents (Elt F)),
    unary main_v3 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v153 main_v163 main_v164 (addf : (⟨S50000x128, .f32⟩ : BufTy).Contents (Elt F) → (⟨S50000x128, .f32⟩ : BufTy).Contents (Elt F) → (⟨S50000x128, .f32⟩ : BufTy).Contents (Elt F)),
    unary main_arg2 main_v165 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v165 main_v166 rfl shapeCasts_S1x128x128_S128x128,
    binary main_v164 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v167 main_v171 main_v172 (addf : (⟨S50000x128, .f32⟩ : BufTy).Contents (Elt F) → (⟨S50000x128, .f32⟩ : BufTy).Contents (Elt F) → (⟨S50000x128, .f32⟩ : BufTy).Contents (Elt F)),
    unary main_arg4 main_v173 ((extractStridedSlice S1x128 ![2, 0] · slices_S3x128_S1x128_2_0) : (⟨S3x128, .f32⟩ : BufTy).Contents (Elt F) → (⟨S1x128, .f32⟩ : BufTy).Contents (Elt F)),
    reshape main_v173 main_v174 rfl shapeCasts_S1x128_S128,
    unary main_arg5 main_v175 ((extractStridedSlice S1x128 ![2, 0] · slices_S3x128_S1x128_2_0) : (⟨S3x128, .f32⟩ : BufTy).Contents (Elt F) → (⟨S1x128, .f32⟩ : BufTy).Contents (Elt F)),
    reshape main_v175 main_v176 rfl shapeCasts_S1x128_S128 ]

theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The first 4 operations of `w10`. -/
abbrev w10a : List (HloOp τ sig (Elt F)) :=
  [ nullary main_c_20 (constantI S_ 32 0#32),
    unary main_c_20 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32) ]

/-- The other 22 operations of `w10`. -/
abbrev w10b : List (HloOp τ sig (Elt F)) :=
  [ unary main_c_21 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_22 (constant S_ .f32 0x00000000#32),
    unary main_cst_22 main_v161 (broadcastInDim S50000x128 ![] bcast_S_S50000x128 : (⟨S_, .f32⟩ : BufTy).Contents (Elt F) → (⟨S50000x128, .f32⟩ : BufTy).Contents (Elt F)),
    unary main_v3 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v153 main_v163 main_v164 (addf : (⟨S50000x128, .f32⟩ : BufTy).Contents (Elt F) → (⟨S50000x128, .f32⟩ : BufTy).Contents (Elt F) → (⟨S50000x128, .f32⟩ : BufTy).Contents (Elt F)),
    unary main_arg2 main_v165 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v165 main_v166 rfl shapeCasts_S1x128x128_S128x128,
    binary main_v164 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v167 main_v171 main_v172 (addf : (⟨S50000x128, .f32⟩ : BufTy).Contents (Elt F) → (⟨S50000x128, .f32⟩ : BufTy).Contents (Elt F) → (⟨S50000x128, .f32⟩ : BufTy).Contents (Elt F)),
    unary main_arg4 main_v173 ((extractStridedSlice S1x128 ![2, 0] · slices_S3x128_S1x128_2_0) : (⟨S3x128, .f32⟩ : BufTy).Contents (Elt F) → (⟨S1x128, .f32⟩ : BufTy).Contents (Elt F)),
    reshape main_v173 main_v174 rfl shapeCasts_S1x128_S128,
    unary main_arg5 main_v175 ((extractStridedSlice S1x128 ![2, 0] · slices_S3x128_S1x128_2_0) : (⟨S3x128, .f32⟩ : BufTy).Contents (Elt F) → (⟨S1x128, .f32⟩ : BufTy).Contents (Elt F)),
    reshape main_v175 main_v176 rfl shapeCasts_S1x128_S128 ]

theorem w10_split : (w10 : List (HloOp τ sig (Elt F))) = w10a ++ w10b := rfl

/-- Operations 295 … 341 of 359 — layer 2: the statistics, the normalisation, the rectifier. -/
abbrev w11 : List (HloOp τ sig (Elt F)) :=
  [ nullary main_cst_23 (constant S_ .f32 0x00000000#32),
    binary main_v172 main_cst_23 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v178 (broadcastInDim S128 ![] bcast_S_S128 : (⟨S_, .f32⟩ : BufTy).Contents (Elt F) → (⟨S128, .f32⟩ : BufTy).Contents (Elt F)),
    binary main_v177 main_v178 main_v179 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    nullary main_call8_cst ((constant S_ .f32 0x00000000#32) : (⟨S_, .f32⟩ : BufTy).Contents (Elt F)),
    binary main_v172 main_call8_cst main_call8_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call8_v0 main_call8_v1 ((broadcastInDim S1x128 ![1] bcast_S128_S1x128_1) : (⟨S128, .f32⟩ : BufTy).Contents (Elt F) → (⟨S1x128, .f32⟩ : BufTy).Contents (Elt F)),
    nullary main_call8_cst_0 ((constant S_ .f32 0x47435000#32) : (⟨S_, .f32⟩ : BufTy).Contents (Elt F)),
    unary main_call8_cst_0 main_call8_v2 ((broadcastInDim S1x128 ![] bcast_S_S1x128) : (⟨S_, .f32⟩ : BufTy).Contents (Elt F) → (⟨S1x128, .f32⟩ : BufTy).Contents (Elt F)),
    binary main_call8_v1 main_call8_v2 main_call8_v3 (Host.divf : (⟨S1x128, .f32⟩ : BufTy).Contents (Elt F) → (⟨S1x128, .f32⟩ : BufTy).Contents (Elt F) → (⟨S1x128, .f32⟩ : BufTy).Contents (Elt F)),
    unary main_call8_v3 main_call8_v4 ((broadcastInDim S50000x128 ![0, 1] bcast_S1x128_S50000x128_0_1) : (⟨S1x128, .f32⟩ : BufTy).Contents (Elt F) → (⟨S50000x128, .f32⟩ : BufTy).Contents (Elt F)),
    binary main_v172 main_call8_v4 main_call8_v5 (subf : (⟨S50000x128, .f32⟩ : BufTy).Contents (Elt F) → (⟨S50000x128, .f32⟩ : BufTy).Contents (Elt F) → (⟨S50000x128, .f32⟩ : BufTy).Contents (Elt F)),
    binary main_call8_v5 main_call8_v5 main_call8_v6 (mulf : (⟨S50000x128, .f32⟩ : BufTy).Contents (Elt F) → (⟨S50000x128, .f32⟩ : BufTy).Contents (Elt F) → (⟨S50000x128, .f32⟩ : BufTy).Contents (Elt F)),
    unary main_c_25 main_call8_v7 ((sitofp .f32) : (⟨S_, .i32⟩ : BufTy).Contents (Elt F) → (⟨S_, .f32⟩ : BufTy).Contents (Elt F)),
    nullary main_call8_cst_1 ((constant S_ .f32 0x47435000#32) : (⟨S_, .f32⟩ : BufTy).Contents (Elt F)),
    binary main_call8_cst_1 main_call8_v7 main_call8_v8 (subf : (⟨S_, .f32⟩ : BufTy).Contents (Elt F) → (⟨S_, .f32⟩ : BufTy).Contents (Elt F) → (⟨S_, .f32⟩ : BufTy).Contents (Elt F)),
    nullary main_call8_cst_2 ((constant S_ .f32 0x00000000#32) : (⟨S_, .f32⟩ : BufTy).Contents (Elt F)),
    binary main_call8_v6 main_call8_cst_2 main_call8_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_call8_v8 main_call8_v10 ((broadcastInDim S128 ![] bcast_S_S128) : (⟨S_, .f32⟩ : BufTy).Contents (Elt F) → (⟨S128, .f32⟩ : BufTy).Contents (Elt F)),
    binary main_call8_v9 main_call8_v10 main_call8_v11 (Host.divf : (⟨S128, .f32⟩ : BufTy).Contents (Elt F) → (⟨S128, .f32⟩ : BufTy).Contents (Elt F) → (⟨S128, .f32⟩ : BufTy).Contents (Elt F)),
    nullary main_call8_cst_3 ((constant S_ .f32 0x00000000#32) : (⟨S_, .f32⟩ : BufTy).Contents (Elt F)),
    binary main_call8_v8 main_call8_cst_3 main_call8_v12 ((cmpf .ogt) : (⟨S_, .f32⟩ : BufTy).Contents (Elt F) → (⟨S_, .f32⟩ : BufTy).Contents (Elt F) → (⟨S_, .i1⟩ : BufTy).Contents (Elt F)),
    nullary main_call8_cst_4 ((constant S_ .f32 0x7FC00000#32) : (⟨S_, .f32⟩ : BufTy).Contents (Elt F)),
    unary main_call8_cst_4 main_call8_call0_v0 (id : (⟨S_, .f32⟩ : BufTy).Contents (Elt F) → (⟨S_, .f32⟩ : BufTy).Contents (Elt F)),
    unary main_call8_call0_v0 main_call8_call0_v1 ((broadcastInDim S128 ![] bcast_S_S128) : (⟨S_, .f32⟩ : BufTy).Contents (Elt F) → (⟨S128, .f32⟩ : BufTy).Contents (Elt F)),
    ternary main_call8_v12 main_call8_v11 main_call8_call0_v1 main_v180 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v179 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v172 main_v182 main_v183 (subf : (⟨S50000x128, .f32⟩ : BufTy).Contents (Elt F) → (⟨S50000x128, .f32⟩ : BufTy).Contents (Elt F) → (⟨S50000x128, .f32⟩ : BufTy).Contents (Elt F)),
    unary main_v174 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v185 main_v183 main_v186 (mulf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3727C5AC#32),
    unary main_cst_26 main_v187 (broadcastInDim S128 ![] bcast_S_S128 : (⟨S_, .f32⟩ : BufTy).Contents (Elt F) → (⟨S128, .f32⟩ : BufTy).Contents (Elt F)),
    binary main_v180 main_v187 main_v188 (addf : (⟨S128, .f32⟩ : BufTy).Contents (Elt F) → (⟨S128, .f32⟩ : BufTy).Contents (Elt F) → (⟨S128, .f32⟩ : BufTy).Contents (Elt F)),
    unary main_v188 main_v189 (Host.rsqrt : (⟨S128, .f32⟩ : BufTy).Contents (Elt F) → (⟨S128, .f32⟩ : BufTy).Contents (Elt F)),
    unary main_v189 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v186 main_v191 main_v192 (mulf : (⟨S50000x128, .f32⟩ : BufTy).Contents (Elt F) → (⟨S50000x128, .f32⟩ : BufTy).Contents (Elt F) → (⟨S50000x128, .f32⟩ : BufTy).Contents (Elt F)),
    unary main_v176 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v192 main_v194 main_v195 (addf : (⟨S50000x128, .f32⟩ : BufTy).Contents (Elt F) → (⟨S50000x128, .f32⟩ : BufTy).Contents (Elt F) → (⟨S50000x128, .f32⟩ : BufTy).Contents (Elt F)),
    nullary main_call9_cst ((constant S_ .f32 0x00000000#32) : (⟨S_, .f32⟩ : BufTy).Contents (Elt F)),
    unary main_call9_cst main_call9_v0 ((broadcastInDim S50000x128 ![] bcast_S_S50000x128) : (⟨S_, .f32⟩ : BufTy).Contents (Elt F) → (⟨S50000x128, .f32⟩ : BufTy).Contents (Elt F)),
    binary main_v195 main_call9_v0 main_v196 (maximumf : (⟨S50000x128, .f32⟩ : BufTy).Contents (Elt F) → (⟨S50000x128, .f32⟩ : BufTy).Contents (Elt F) → (⟨S50000x128, .f32⟩ : BufTy).Contents (Elt F)) ]

theorem w11_sub : (w11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem w11_fresh : (w11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 342 … 359 of 359 — layer 2: the second linear map, and every row divided by its norm. -/
abbrev w12 : List (HloOp τ sig (Elt F)) :=
  [ unary main_arg6 main_v197 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v197 main_v198 rfl shapeCasts_S1x128x128_S128x128,
    binary main_v196 main_v198 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v200 ((extractStridedSlice S1x128 ![2, 0] · slices_S3x128_S1x128_2_0) : (⟨S3x128, .f32⟩ : BufTy).Contents (Elt F) → (⟨S1x128, .f32⟩ : BufTy).Contents (Elt F)),
    reshape main_v200 main_v201 rfl shapeCasts_S1x128_S128,
    unary main_v201 main_v202 (broadcastInDim S1x128 ![1] bcast_S128_S1x128_1 : (⟨S128, .f32⟩ : BufTy).Contents (Elt F) → (⟨S1x128, .f32⟩ : BufTy).Contents (Elt F)),
    unary main_v202 main_v203 (broadcastInDim S50000x128 ![0, 1] bcast_S1x128_S50000x128_0_1 : (⟨S1x128, .f32⟩ : BufTy).Contents (Elt F) → (⟨S50000x128, .f32⟩ : BufTy).Contents (Elt F)),
    binary main_v199 main_v203 main_v204 (addf : (⟨S50000x128, .f32⟩ : BufTy).Contents (Elt F) → (⟨S50000x128, .f32⟩ : BufTy).Contents (Elt F) → (⟨S50000x128, .f32⟩ : BufTy).Contents (Elt F)),
    binary main_v204 main_v204 main_call10_v0 (mulf : (⟨S50000x128, .f32⟩ : BufTy).Contents (Elt F) → (⟨S50000x128, .f32⟩ : BufTy).Contents (Elt F) → (⟨S50000x128, .f32⟩ : BufTy).Contents (Elt F)),
    nullary main_call10_cst ((constant S_ .f32 0x00000000#32) : (⟨S_, .f32⟩ : BufTy).Contents (Elt F)),
    binary main_call10_v0 main_call10_cst main_call10_v1 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_call10_v1 main_call10_v2 ((broadcastInDim S50000x1 ![0] bcast_S50000_S50000x1_0) : (⟨S50000, .f32⟩ : BufTy).Contents (Elt F) → (⟨S50000x1, .f32⟩ : BufTy).Contents (Elt F)),
    unary main_call10_v2 main_v205 (Host.sqrt : (⟨S50000x1, .f32⟩ : BufTy).Contents (Elt F) → (⟨S50000x1, .f32⟩ : BufTy).Contents (Elt F)),
    nullary main_cst_27 (constant S_ .f32 0x2B8CBCCC#32),
    unary main_cst_27 main_v206 (broadcastInDim S50000x1 ![] bcast_S_S50000x1 : (⟨S_, .f32⟩ : BufTy).Contents (Elt F) → (⟨S50000x1, .f32⟩ : BufTy).Contents (Elt F)),
    binary main_v205 main_v206 main_v207 (maximumf : (⟨S50000x1, .f32⟩ : BufTy).Contents (Elt F) → (⟨S50000x1, .f32⟩ : BufTy).Contents (Elt F) → (⟨S50000x1, .f32⟩ : BufTy).Contents (Elt F)),
    unary main_v207 main_v208 (broadcastInDim S50000x128 ![0, 1] bcast_S50000x1_S50000x128_0_1 : (⟨S50000x1, .f32⟩ : BufTy).Contents (Elt F) → (⟨S50000x128, .f32⟩ : BufTy).Contents (Elt F)),
    binary main_v204 main_v208 main_v209 (Host.divf : (⟨S50000x128, .f32⟩ : BufTy).Contents (Elt F) → (⟨S50000x128, .f32⟩ : BufTy).Contents (Elt F) → (⟨S50000x128, .f32⟩ : BufTy).Contents (Elt F)) ]

theorem w12_sub : (w12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem w12_fresh : (w12 : List (HloOp τ sig (Elt F))).Forall fun op => op.fresh = ∅ :=
  ⟨rfl, rfl, rfl, rfl, rfl, rfl, rfl, rfl, rfl, rfl, rfl, rfl, rfl, rfl, rfl, rfl, rfl, rfl⟩

/-- @main's 359 operations, in order. -/
abbrev ops : List (HloOp τ sig (Elt F)) :=
  w1 ++ (w2 ++ (w3 ++ (w4 ++ (w5 ++ (w6 ++ (w7 ++ (w8 ++ (w9 ++ (w10 ++ (w11 ++ w12))))))))))

set_option maxRecDepth 8192 in
theorem part0_eq (c : Dev nD) : main_part0 (F := F) c = seq (w1 ++ (w2 ++ (w3 ++ w4a))) := rfl
set_option maxRecDepth 8192 in
theorem part1_eq (c : Dev nD) : main_part1 (F := F) c = seq (w4b ++ (w5 ++ (w6 ++ w7a))) := rfl
set_option maxRecDepth 8192 in
theorem part2_eq (c : Dev nD) : main_part2 (F := F) c = seq (w7b ++ (w8 ++ (w9 ++ w10a))) := rfl
set_option maxRecDepth 8192 in
theorem part3_eq (c : Dev nD) : main_part3 (F := F) c = seq (w10b ++ (w11 ++ w12)) := rfl
theorem part4_eq (c : Dev nD) : main_part4 (F := F) c = seq [] := rfl

/-- @main is the straight line of its operations. -/
theorem main_eq (c : Dev nD) : main (F := F) c = seq ops := by
  have e : (ops : List (HloOp τ sig (Elt F)))
      = (w1 ++ (w2 ++ (w3 ++ w4a))) ++ ((w4b ++ (w5 ++ (w6 ++ w7a))) ++ ((w7b ++ (w8 ++ (w9 ++ w10a))) ++ ((w10b ++ (w11 ++ w12)) ++ []))) := by
    simp only [ops, w4_split, w7_split, w10_split, List.append_assoc, List.append_nil]
  rw [e, seq_append (w1 ++ (w2 ++ (w3 ++ w4a))) _, seq_append (w4b ++ (w5 ++ (w6 ++ w7a))) _, seq_append (w7b ++ (w8 ++ (w9 ++ w10a))) _, seq_append (w10b ++ (w11 ++ w12)) _,
    ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append w1_sub (forall_append w2_sub (forall_append w3_sub (forall_append w4_sub (forall_append w5_sub (forall_append w6_sub
    (forall_append w7_sub (forall_append w8_sub (forall_append w9_sub (forall_append w10_sub (forall_append w11_sub w12_sub))))))))))

theorem ops_fresh : ∀ op ∈ (ops : List (HloOp τ sig (Elt F))), op.fresh = ∅ :=
  List.forall_iff_forall_mem.1
    (forall_append w1_fresh (forall_append w2_fresh (forall_append w3_fresh (forall_append w4_fresh (forall_append w5_fresh (forall_append w6_fresh
      (forall_append w7_fresh (forall_append w8_fresh (forall_append w9_fresh (forall_append w10_fresh (forall_append w11_fresh w12_fresh)))))))))))

end Cert.ReferenceIdeal.RefRun

end
-- ==== Proof.Reference.Base.lean ====
/- The operation lists and the stage definitions together. -/
import proofs.«176586_j29291676959176_1_alg».proof.Proof.Reference.Stages
import proofs.«176586_j29291676959176_1_alg».proof.Proof.Reference.Ops
-- ==== Proof.Reference.Read1.lean ====
/-
  What the device's buffers hold after each stretch of the reference's operations, from any
  contents `V0`: a buffer the stretch does not write keeps what it held, and each value a later
  stretch reads is the named stage of the network (Stages.lean) at the argument arrays' contents.
-/
import proofs.«176586_j29291676959176_1_alg».proof.Proof.Reference.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before the first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl

/-- The device's buffer contents after the first 1 stretch. -/
def val1 (V0 : Valuation τ sig (Elt F)) : Valuation τ sig (Elt F) := after w1 (val0 V0)
/-- The buffers stretch 1 writes. -/
abbrev w1_W : List (Ref sig .tc) := [main_v0, main_v1, main_v2, main_v3]
set_option maxRecDepth 8192 in
theorem w1_writes : (w1 : List (HloOp τ sig (Elt F))).Forall fun op => op.writes ⊆ (w1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 1 does not write keeps its contents through it. -/
theorem val1_keep (V0 : Valuation τ sig (Elt F)) (r : Ref sig .tc) (h : r ∉ w1_W) :
    val1 V0 (Proc.devRef .tc r) = val0 V0 (Proc.devRef .tc r) :=
  after_of_writes_sub w1 _ w1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
set_option maxRecDepth 8192 in
set_option maxHeartbeats 400000 in
theorem val1_main_v1 (V0 : Valuation τ sig (Elt F)) : val1 V0 (no_index (Proc.devRef .tc main_v1)) = srcFlat (V0 (Proc.devRef .tc main_arg1)) := by
  unfold val1
  simp only [w1]
  after_results_simp
  simp only [val0_main_arg1] <;> rfl
set_option maxRecDepth 8192 in
set_option maxHeartbeats 400000 in
theorem val1_main_v3 (V0 : Valuation τ sig (Elt F)) : val1 V0 (no_index (Proc.devRef .tc main_v3)) = dstFlat (V0 (Proc.devRef .tc main_arg1)) := by
  unfold val1
  simp only [w1]
  after_results_simp
  simp only [val0_main_arg1] <;> rfl

/-- The device's buffer contents after the first 2 stretches. -/
def val2 (V0 : Valuation τ sig (Elt F)) : Valuation τ sig (Elt F) := after w2 (val1 V0)
/-- The buffers stretch 2 writes. -/
abbrev w2_W : List (Ref sig .tc) := [main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26]
set_option maxRecDepth 8192 in
theorem w2_writes : (w2 : List (HloOp τ sig (Elt F))).Forall fun op => op.writes ⊆ (w2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_v1 (V0 : Valuation τ sig (Elt F)) : val2 V0 (no_index (Proc.devRef .tc main_v1)) = srcFlat (V0 (Proc.devRef .tc main_arg1)) :=
  (val2_keep V0 main_v1 (by decide)).trans (val1_main_v1 V0)
theorem val2_main_v3 (V0 : Valuation τ sig (Elt F)) : val2 V0 (no_index (Proc.devRef .tc main_v3)) = dstFlat (V0 (Proc.devRef .tc main_arg1)) :=
  (val2_keep V0 main_v3 (by decide)).trans (val1_main_v3 V0)
set_option maxRecDepth 8192 in
set_option maxHeartbeats 2600000 in
theorem val2_main_v22 (V0 : Valuation τ sig (Elt F)) : val2 V0 (no_index (Proc.devRef .tc main_v22)) = pre0 (V0 (Proc.devRef .tc main_arg0)) (V0 (Proc.devRef .tc main_arg1)) (V0 (Proc.devRef .tc main_arg2)) (V0 (Proc.devRef .tc main_arg3)) := by
  unfold val2
  simp only [w2]
  after_results_simp
  simp only [val1_main_arg3, val1_main_arg2, val1_main_v1, val1_main_v3, val1_main_arg0] <;> rfl
set_option maxRecDepth 8192 in
set_option maxHeartbeats 2600000 in
theorem val2_main_v24 (V0 : Valuation τ sig (Elt F)) : val2 V0 (no_index (Proc.devRef .tc main_v24)) = row3 ![0, 0] slices_S3x128_S1x128_0_0 (V0 (Proc.devRef .tc main_arg4)) := by
  unfold val2
  simp only [w2]
  after_results_simp
  simp only [val1_main_arg4] <;> rfl
set_option maxRecDepth 8192 in
set_option maxHeartbeats 2600000 in
theorem val2_main_v26 (V0 : Valuation τ sig (Elt F)) : val2 V0 (no_index (Proc.devRef .tc main_v26)) = row3 ![0, 0] slices_S3x128_S1x128_0_0 (V0 (Proc.devRef .tc main_arg5)) := by
  unfold val2
  simp only [w2]
  after_results_simp
  simp only [val1_main_arg5] <;> rfl

end Cert.ReferenceIdeal.RefRun

end
-- ==== Proof.Reference.Read2.lean ====
/-
  What the device's buffers hold after each stretch of the reference's operations, from any
  contents `V0`: a buffer the stretch does not write keeps what it held, and each value a later
  stretch reads is the named stage of the network (Stages.lean) at the argument arrays' contents.
-/
import proofs.«176586_j29291676959176_1_alg».proof.Proof.Reference.Read1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 3 stretches. -/
def val3 (V0 : Valuation τ sig (Elt F)) : Valuation τ sig (Elt F) := after w3 (val2 V0)
/-- The buffers stretch 3 writes. -/
abbrev w3_W : List (Ref sig .tc) := [main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_v34, main_v35, main_v36, main_cst_4, main_v37, main_v38, main_v39, main_v40, main_v41, main_v42, main_v43, main_v44, main_v45, main_call1_cst, main_call1_v0, main_v46]
set_option maxRecDepth 8192 in
theorem w3_writes : (w3 : List (HloOp τ sig (Elt F))).Forall fun op => op.writes ⊆ (w3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_v1 (V0 : Valuation τ sig (Elt F)) : val3 V0 (no_index (Proc.devRef .tc main_v1)) = srcFlat (V0 (Proc.devRef .tc main_arg1)) :=
  (val3_keep V0 main_v1 (by decide)).trans (val2_main_v1 V0)
theorem val3_main_v3 (V0 : Valuation τ sig (Elt F)) : val3 V0 (no_index (Proc.devRef .tc main_v3)) = dstFlat (V0 (Proc.devRef .tc main_arg1)) :=
  (val3_keep V0 main_v3 (by decide)).trans (val2_main_v3 V0)
set_option maxRecDepth 8192 in
set_option maxHeartbeats 4000000 in
theorem val3_main_v46 (V0 : Valuation τ sig (Elt F)) : val3 V0 (no_index (Proc.devRef .tc main_v46)) = mid0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val3
  simp only [w3]
  after_results_simp
  simp only [val2_main_v26, val2_main_v22, val2_main_v24] <;> rfl

/-- The device's buffer contents after the first 4 stretches. -/
def val4 (V0 : Valuation τ sig (Elt F)) : Valuation τ sig (Elt F) := after w4 (val3 V0)
/-- The buffers stretch 4 writes. -/
abbrev w4_W : List (Ref sig .tc) := [main_v47, main_v48, main_v49, main_v50, main_v51, main_v52, main_v53, main_v54, main_v55, main_v56, main_v57, main_v58]
set_option maxRecDepth 8192 in
theorem w4_writes : (w4 : List (HloOp τ sig (Elt F))).Forall fun op => op.writes ⊆ (w4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_v1 (V0 : Valuation τ sig (Elt F)) : val4 V0 (no_index (Proc.devRef .tc main_v1)) = srcFlat (V0 (Proc.devRef .tc main_arg1)) :=
  (val4_keep V0 main_v1 (by decide)).trans (val3_main_v1 V0)
theorem val4_main_v3 (V0 : Valuation τ sig (Elt F)) : val4 V0 (no_index (Proc.devRef .tc main_v3)) = dstFlat (V0 (Proc.devRef .tc main_arg1)) :=
  (val4_keep V0 main_v3 (by decide)).trans (val3_main_v3 V0)
set_option maxRecDepth 8192 in
set_option maxHeartbeats 1200000 in
theorem val4_main_v54 (V0 : Valuation τ sig (Elt F)) : val4 V0 (no_index (Proc.devRef .tc main_v54)) = out0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [w4]
  after_results_simp
  simp only [val3_main_arg7, val3_main_arg6, val3_main_v46] <;> rfl
set_option maxRecDepth 8192 in
set_option maxHeartbeats 1200000 in
theorem val4_main_v56 (V0 : Valuation τ sig (Elt F)) : val4 V0 (no_index (Proc.devRef .tc main_v56)) = row2 ![0, 0] slices_S2x128_S1x128_0_0 (V0 (Proc.devRef .tc main_arg8)) := by
  unfold val4
  simp only [w4]
  after_results_simp
  simp only [val3_main_arg8] <;> rfl
set_option maxRecDepth 8192 in
set_option maxHeartbeats 1200000 in
theorem val4_main_v58 (V0 : Valuation τ sig (Elt F)) : val4 V0 (no_index (Proc.devRef .tc main_v58)) = row2 ![0, 0] slices_S2x128_S1x128_0_0 (V0 (Proc.devRef .tc main_arg9)) := by
  unfold val4
  simp only [w4]
  after_results_simp
  simp only [val3_main_arg9] <;> rfl

/-- The device's buffer contents after the first 5 stretches. -/
def val5 (V0 : Valuation τ sig (Elt F)) : Valuation τ sig (Elt F) := after w5 (val4 V0)
/-- The buffers stretch 5 writes. -/
abbrev w5_W : List (Ref sig .tc) := [main_cst_5, main_v59, main_cst_6, main_v60, main_v61, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v62, main_v63, main_v64, main_v65, main_v66, main_v67, main_v68, main_cst_8, main_v69, main_v70, main_v71, main_v72, main_v73, main_v74, main_v75, main_v76, main_v77, main_call3_cst, main_call3_v0, main_v78]
set_option maxRecDepth 8192 in
theorem w5_writes : (w5 : List (HloOp τ sig (Elt F))).Forall fun op => op.writes ⊆ (w5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_v1 (V0 : Valuation τ sig (Elt F)) : val5 V0 (no_index (Proc.devRef .tc main_v1)) = srcFlat (V0 (Proc.devRef .tc main_arg1)) :=
  (val5_keep V0 main_v1 (by decide)).trans (val4_main_v1 V0)
theorem val5_main_v3 (V0 : Valuation τ sig (Elt F)) : val5 V0 (no_index (Proc.devRef .tc main_v3)) = dstFlat (V0 (Proc.devRef .tc main_arg1)) :=
  (val5_keep V0 main_v3 (by decide)).trans (val4_main_v3 V0)
set_option maxRecDepth 8192 in
set_option maxHeartbeats 4000000 in
theorem val5_main_v78 (V0 : Valuation τ sig (Elt F)) : val5 V0 (no_index (Proc.devRef .tc main_v78)) = hid1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val5
  simp only [w5]
  after_results_simp
  simp only [val4_main_v58, val4_main_v54, val4_main_v56] <;> rfl

end Cert.ReferenceIdeal.RefRun

end
-- ==== Proof.Reference.Read3.lean ====
/-
  What the device's buffers hold after each stretch of the reference's operations, from any
  contents `V0`: a buffer the stretch does not write keeps what it held, and each value a later
  stretch reads is the named stage of the network (Stages.lean) at the argument arrays' contents.
-/
import proofs.«176586_j29291676959176_1_alg».proof.Proof.Reference.Read2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 6 stretches. -/
def val6 (V0 : Valuation τ sig (Elt F)) : Valuation τ sig (Elt F) := after w6 (val5 V0)
/-- The buffers stretch 6 writes. -/
abbrev w6_W : List (Ref sig .tc) := [main_c_9, main_v79, main_v80, main_c_10, main_v81, main_v82, main_v83, main_v84, main_v85, main_cst_11, main_v86, main_v87, main_v88, main_v89, main_v90, main_v91, main_v92, main_v93, main_v94, main_v95, main_v96, main_v97, main_v98, main_v99, main_v100, main_v101]
set_option maxRecDepth 8192 in
theorem w6_writes : (w6 : List (HloOp τ sig (Elt F))).Forall fun op => op.writes ⊆ (w6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_v1 (V0 : Valuation τ sig (Elt F)) : val6 V0 (no_index (Proc.devRef .tc main_v1)) = srcFlat (V0 (Proc.devRef .tc main_arg1)) :=
  (val6_keep V0 main_v1 (by decide)).trans (val5_main_v1 V0)
theorem val6_main_v3 (V0 : Valuation τ sig (Elt F)) : val6 V0 (no_index (Proc.devRef .tc main_v3)) = dstFlat (V0 (Proc.devRef .tc main_arg1)) :=
  (val6_keep V0 main_v3 (by decide)).trans (val5_main_v3 V0)
set_option maxRecDepth 8192 in
set_option maxHeartbeats 2600000 in
theorem val6_main_v97 (V0 : Valuation τ sig (Elt F)) : val6 V0 (no_index (Proc.devRef .tc main_v97)) = pre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val6
  simp only [w6]
  after_results_simp
  simp only [val5_main_arg3, val5_main_arg2, val5_main_v1, val5_main_v3, val5_main_v78] <;> rfl
set_option maxRecDepth 8192 in
set_option maxHeartbeats 2600000 in
theorem val6_main_v99 (V0 : Valuation τ sig (Elt F)) : val6 V0 (no_index (Proc.devRef .tc main_v99)) = row3 ![1, 0] slices_S3x128_S1x128_1_0 (V0 (Proc.devRef .tc main_arg4)) := by
  unfold val6
  simp only [w6]
  after_results_simp
  simp only [val5_main_arg4] <;> rfl
set_option maxRecDepth 8192 in
set_option maxHeartbeats 2600000 in
theorem val6_main_v101 (V0 : Valuation τ sig (Elt F)) : val6 V0 (no_index (Proc.devRef .tc main_v101)) = row3 ![1, 0] slices_S3x128_S1x128_1_0 (V0 (Proc.devRef .tc main_arg5)) := by
  unfold val6
  simp only [w6]
  after_results_simp
  simp only [val5_main_arg5] <;> rfl

/-- The device's buffer contents after the first 7 stretches. -/
def val7 (V0 : Valuation τ sig (Elt F)) : Valuation τ sig (Elt F) := after w7 (val6 V0)
/-- The buffers stretch 7 writes. -/
abbrev w7_W : List (Ref sig .tc) := [main_cst_12, main_v102, main_cst_13, main_v103, main_v104, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v105, main_v106, main_v107, main_v108, main_v109, main_v110, main_v111, main_cst_15, main_v112, main_v113, main_v114, main_v115, main_v116, main_v117, main_v118, main_v119, main_v120, main_call5_cst, main_call5_v0, main_v121]
set_option maxRecDepth 8192 in
theorem w7_writes : (w7 : List (HloOp τ sig (Elt F))).Forall fun op => op.writes ⊆ (w7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_v1 (V0 : Valuation τ sig (Elt F)) : val7 V0 (no_index (Proc.devRef .tc main_v1)) = srcFlat (V0 (Proc.devRef .tc main_arg1)) :=
  (val7_keep V0 main_v1 (by decide)).trans (val6_main_v1 V0)
theorem val7_main_v3 (V0 : Valuation τ sig (Elt F)) : val7 V0 (no_index (Proc.devRef .tc main_v3)) = dstFlat (V0 (Proc.devRef .tc main_arg1)) :=
  (val7_keep V0 main_v3 (by decide)).trans (val6_main_v3 V0)
set_option maxRecDepth 8192 in
set_option maxHeartbeats 4000000 in
theorem val7_main_v121 (V0 : Valuation τ sig (Elt F)) : val7 V0 (no_index (Proc.devRef .tc main_v121)) = mid1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val7
  simp only [w7]
  after_results_simp
  simp only [val6_main_v101, val6_main_v97, val6_main_v99] <;> rfl

/-- The device's buffer contents after the first 8 stretches. -/
def val8 (V0 : Valuation τ sig (Elt F)) : Valuation τ sig (Elt F) := after w8 (val7 V0)
/-- The buffers stretch 8 writes. -/
abbrev w8_W : List (Ref sig .tc) := [main_v122, main_v123, main_v124, main_v125, main_v126, main_v127, main_v128, main_v129, main_v130, main_v131, main_v132, main_v133]
set_option maxRecDepth 8192 in
theorem w8_writes : (w8 : List (HloOp τ sig (Elt F))).Forall fun op => op.writes ⊆ (w8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 8 does not write keeps its contents through it. -/
theorem val8_keep (V0 : Valuation τ sig (Elt F)) (r : Ref sig .tc) (h : r ∉ w8_W) :
    val8 V0 (Proc.devRef .tc r) = val7 V0 (Proc.devRef .tc r) :=
  after_of_writes_sub w8 _ w8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_v1 (V0 : Valuation τ sig (Elt F)) : val8 V0 (no_index (Proc.devRef .tc main_v1)) = srcFlat (V0 (Proc.devRef .tc main_arg1)) :=
  (val8_keep V0 main_v1 (by decide)).trans (val7_main_v1 V0)
theorem val8_main_v3 (V0 : Valuation τ sig (Elt F)) : val8 V0 (no_index (Proc.devRef .tc main_v3)) = dstFlat (V0 (Proc.devRef .tc main_arg1)) :=
  (val8_keep V0 main_v3 (by decide)).trans (val7_main_v3 V0)
set_option maxRecDepth 8192 in
set_option maxHeartbeats 1200000 in
theorem val8_main_v129 (V0 : Valuation τ sig (Elt F)) : val8 V0 (no_index (Proc.devRef .tc main_v129)) = out1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val8
  simp only [w8]
  after_results_simp
  simp only [val7_main_arg7, val7_main_arg6, val7_main_v121] <;> rfl
set_option maxRecDepth 8192 in
set_option maxHeartbeats 1200000 in
theorem val8_main_v131 (V0 : Valuation τ sig (Elt F)) : val8 V0 (no_index (Proc.devRef .tc main_v131)) = row2 ![1, 0] slices_S2x128_S1x128_1_0 (V0 (Proc.devRef .tc main_arg8)) := by
  unfold val8
  simp only [w8]
  after_results_simp
  simp only [val7_main_arg8] <;> rfl
set_option maxRecDepth 8192 in
set_option maxHeartbeats 1200000 in
theorem val8_main_v133 (V0 : Valuation τ sig (Elt F)) : val8 V0 (no_index (Proc.devRef .tc main_v133)) = row2 ![1, 0] slices_S2x128_S1x128_1_0 (V0 (Proc.devRef .tc main_arg9)) := by
  unfold val8
  simp only [w8]
  after_results_simp
  simp only [val7_main_arg9] <;> rfl

/-- The device's buffer contents after the first 9 stretches. -/
def val9 (V0 : Valuation τ sig (Elt F)) : Valuation τ sig (Elt F) := after w9 (val8 V0)
/-- The buffers stretch 9 writes. -/
abbrev w9_W : List (Ref sig .tc) := [main_cst_16, main_v134, main_cst_17, main_v135, main_v136, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v137, main_v138, main_v139, main_v140, main_v141, main_v142, main_v143, main_cst_19, main_v144, main_v145, main_v146, main_v147, main_v148, main_v149, main_v150, main_v151, main_v152, main_call7_cst, main_call7_v0, main_v153]
set_option maxRecDepth 8192 in
theorem w9_writes : (w9 : List (HloOp τ sig (Elt F))).Forall fun op => op.writes ⊆ (w9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 9 does not write keeps its contents through it. -/
theorem val9_keep (V0 : Valuation τ sig (Elt F)) (r : Ref sig .tc) (h : r ∉ w9_W) :
    val9 V0 (Proc.devRef .tc r) = val8 V0 (Proc.devRef .tc r) :=
  after_of_writes_sub w9 _ w9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_v1 (V0 : Valuation τ sig (Elt F)) : val9 V0 (no_index (Proc.devRef .tc main_v1)) = srcFlat (V0 (Proc.devRef .tc main_arg1)) :=
  (val9_keep V0 main_v1 (by decide)).trans (val8_main_v1 V0)
theorem val9_main_v3 (V0 : Valuation τ sig (Elt F)) : val9 V0 (no_index (Proc.devRef .tc main_v3)) = dstFlat (V0 (Proc.devRef .tc main_arg1)) :=
  (val9_keep V0 main_v3 (by decide)).trans (val8_main_v3 V0)
set_option maxRecDepth 8192 in
set_option maxHeartbeats 4000000 in
theorem val9_main_v153 (V0 : Valuation τ sig (Elt F)) : val9 V0 (no_index (Proc.devRef .tc main_v153)) = hid2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val9
  simp only [w9]
  after_results_simp
  simp only [val8_main_v133, val8_main_v129, val8_main_v131] <;> rfl

end Cert.ReferenceIdeal.RefRun

end
-- ==== Proof.Reference.Read4.lean ====
/-
  What the device's buffers hold after each stretch of the reference's operations, from any
  contents `V0`: a buffer the stretch does not write keeps what it held, and each value a later
  stretch reads is the named stage of the network (Stages.lean) at the argument arrays' contents.
-/
import proofs.«176586_j29291676959176_1_alg».proof.Proof.Reference.Read3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 10 stretches. -/
def val10 (V0 : Valuation τ sig (Elt F)) : Valuation τ sig (Elt F) := after w10 (val9 V0)
/-- The buffers stretch 10 writes. -/
abbrev w10_W : List (Ref sig .tc) := [main_c_20, main_v154, main_v155, main_c_21, main_v156, main_v157, main_v158, main_v159, main_v160, main_cst_22, main_v161, main_v162, main_v163, main_v164, main_v165, main_v166, main_v167, main_v168, main_v169, main_v170, main_v171, main_v172, main_v173, main_v174, main_v175, main_v176]
set_option maxRecDepth 8192 in
theorem w10_writes : (w10 : List (HloOp τ sig (Elt F))).Forall fun op => op.writes ⊆ (w10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 10 does not write keeps its contents through it. -/
theorem val10_keep (V0 : Valuation τ sig (Elt F)) (r : Ref sig .tc) (h : r ∉ w10_W) :
    val10 V0 (Proc.devRef .tc r) = val9 V0 (Proc.devRef .tc r) :=
  after_of_writes_sub w10 _ w10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
set_option maxRecDepth 8192 in
set_option maxHeartbeats 2600000 in
theorem val10_main_v172 (V0 : Valuation τ sig (Elt F)) : val10 V0 (no_index (Proc.devRef .tc main_v172)) = pre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val10
  simp only [w10]
  after_results_simp
  simp only [val9_main_arg3, val9_main_arg2, val9_main_v1, val9_main_v3, val9_main_v153] <;> rfl
set_option maxRecDepth 8192 in
set_option maxHeartbeats 2600000 in
theorem val10_main_v174 (V0 : Valuation τ sig (Elt F)) : val10 V0 (no_index (Proc.devRef .tc main_v174)) = row3 ![2, 0] slices_S3x128_S1x128_2_0 (V0 (Proc.devRef .tc main_arg4)) := by
  unfold val10
  simp only [w10]
  after_results_simp
  simp only [val9_main_arg4] <;> rfl
set_option maxRecDepth 8192 in
set_option maxHeartbeats 2600000 in
theorem val10_main_v176 (V0 : Valuation τ sig (Elt F)) : val10 V0 (no_index (Proc.devRef .tc main_v176)) = row3 ![2, 0] slices_S3x128_S1x128_2_0 (V0 (Proc.devRef .tc main_arg5)) := by
  unfold val10
  simp only [w10]
  after_results_simp
  simp only [val9_main_arg5] <;> rfl

/-- The device's buffer contents after the first 11 stretches. -/
def val11 (V0 : Valuation τ sig (Elt F)) : Valuation τ sig (Elt F) := after w11 (val10 V0)
/-- The buffers stretch 11 writes. -/
abbrev w11_W : List (Ref sig .tc) := [main_cst_23, main_v177, main_cst_24, main_v178, main_v179, main_c_25, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v180, main_v181, main_v182, main_v183, main_v184, main_v185, main_v186, main_cst_26, main_v187, main_v188, main_v189, main_v190, main_v191, main_v192, main_v193, main_v194, main_v195, main_call9_cst, main_call9_v0, main_v196]
set_option maxRecDepth 8192 in
theorem w11_writes : (w11 : List (HloOp τ sig (Elt F))).Forall fun op => op.writes ⊆ (w11_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 11 does not write keeps its contents through it. -/
theorem val11_keep (V0 : Valuation τ sig (Elt F)) (r : Ref sig .tc) (h : r ∉ w11_W) :
    val11 V0 (Proc.devRef .tc r) = val10 V0 (Proc.devRef .tc r) :=
  after_of_writes_sub w11 _ w11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
set_option maxRecDepth 8192 in
set_option maxHeartbeats 4000000 in
theorem val11_main_v196 (V0 : Valuation τ sig (Elt F)) : val11 V0 (no_index (Proc.devRef .tc main_v196)) = mid2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val11
  simp only [w11]
  after_results_simp
  simp only [val10_main_v176, val10_main_v172, val10_main_v174] <;> rfl

/-- The device's buffer contents after the first 12 stretches. -/
def val12 (V0 : Valuation τ sig (Elt F)) : Valuation τ sig (Elt F) := after w12 (val11 V0)
/-- The buffers stretch 12 writes. -/
abbrev w12_W : List (Ref sig .tc) := [main_v197, main_v198, main_v199, main_v200, main_v201, main_v202, main_v203, main_v204, main_call10_v0, main_call10_cst, main_call10_v1, main_call10_v2, main_v205, main_cst_27, main_v206, main_v207, main_v208, main_v209]
set_option maxRecDepth 8192 in
theorem w12_writes : (w12 : List (HloOp τ sig (Elt F))).Forall fun op => op.writes ⊆ (w12_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 12 does not write keeps its contents through it. -/
theorem val12_keep (V0 : Valuation τ sig (Elt F)) (r : Ref sig .tc) (h : r ∉ w12_W) :
    val12 V0 (Proc.devRef .tc r) = val11 V0 (Proc.devRef .tc r) :=
  after_of_writes_sub w12 _ w12_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
set_option maxRecDepth 8192 in
set_option maxHeartbeats 1800000 in
theorem val12_main_v209 (V0 : Valuation τ sig (Elt F)) : val12 V0 (no_index (Proc.devRef .tc main_v209)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val12
  simp only [w12]
  after_results_simp
  simp only [val11_main_arg7, val11_main_arg6, val11_main_v196] <;> rfl

end Cert.ReferenceIdeal.RefRun

end
-- ==== Proof.Reference.Run.lean ====
/-
  The reference program's run: from any memory with zero counters every weakly fair execution of
  @main terminates, nothing faulting, with the result buffer at `result` of the ten argument arrays'
  launch contents and the argument buffers unchanged — for any float values.
-/
import proofs.«176586_j29291676959176_1_alg».proof.Proof.Reference.Read4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after all the operations are the contents after the twelve stretches. -/
theorem after_ops (V0 : Valuation τ sig (Elt F)) : after ops V0 = val12 V0 := by
  simp only [ops, after_append]
  rfl

/-- On every device, for any float values, from any memory with zero counters: every weakly fair execution of
    @main terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v209).trans (by rw [after_ops]; exact val12_main_v209 _),
      (h c main_arg0).trans (by rw [after_ops]; exact val12_main_arg0 _),
      (h c main_arg1).trans (by rw [after_ops]; exact val12_main_arg1 _),
      (h c main_arg2).trans (by rw [after_ops]; exact val12_main_arg2 _),
      (h c main_arg3).trans (by rw [after_ops]; exact val12_main_arg3 _),
      (h c main_arg4).trans (by rw [after_ops]; exact val12_main_arg4 _),
      (h c main_arg5).trans (by rw [after_ops]; exact val12_main_arg5 _),
      (h c main_arg6).trans (by rw [after_ops]; exact val12_main_arg6 _),
      (h c main_arg7).trans (by rw [after_ops]; exact val12_main_arg7 _),
      (h c main_arg8).trans (by rw [after_ops]; exact val12_main_arg8 _),
      (h c main_arg9).trans (by rw [after_ops]; exact val12_main_arg9 _)⟩)
    (run_seq scopedRefs_eq scopedSems_eq defs main (fun _ => ops) main_eq (fun _ => ops_sub) m ρ (fun _ => ops_fresh))

end Cert.ReferenceIdeal.RefRun

end
-- ==== Proof.Reference.Frame.lean ====
/-
  The reference's frame claim: its run with the result dropped — it terminates, faults nowhere and
  leaves its ten argument arrays as they were, whatever the inputs.
-/
import proofs.«176586_j29291676959176_1_alg».proof.Defs
import proofs.«176586_j29291676959176_1_alg».proof.Proof.Gen.Pre_finite_inputs
import proofs.«176586_j29291676959176_1_alg».proof.Proof.Reference.Run

noncomputable section

namespace Cert.ReferenceIdeal.RefRun

open Idealize.ShloMosaic Idealize.SL.Sem

theorem frame : Cert.frame_ReferenceIdeal := fun m ρ _ =>
  (θ_run (Cert.ReferenceIdeal.defs (F := Ideal)) _ _).mono (fun _ h c => (h c).2) (run (F := Ideal) m ρ)

end Cert.ReferenceIdeal.RefRun

end
-- ==== Proof.Spec.lean ====
/-
  The mathematics both programs compute, as formulas over extended reals indexed by a node `r : Fin 50000` and a
  feature `j : Fin 128`: a linear layer, the per-feature mean and (biased) variance over the nodes in its two
  spellings — the mean of the squared deviations, and the mean of the squares minus the squared mean —, batch
  normalisation followed by the rectifier, and the final division of every row by the larger of its Euclidean norm
  and 1e-12.  The float literals are kept as their words.
-/
import Mathlib
import Idealize.ShloMosaic.PureOps.Ideal

noncomputable section

namespace Cert.Spec

open Idealize.ShloMosaic

/-- A real-valued (extended-real-valued) array of `m` rows and `n` columns. -/
abbrev Mat (m n : ℕ) := Fin m → Fin n → EReal

/-- The number of nodes, 50000, as the float word both programs divide by. -/
def count : EReal := Ideal.ofBits .f32 0x47435000#32
/-- The batch-norm epsilon, the float nearest 1e-5. -/
def eps : EReal := Ideal.ofBits .f32 0x3727C5AC#32
/-- The norm's floor, the float nearest 1e-12. -/
def tiny : EReal := Ideal.ofBits .f32 0x2B8CBCCC#32

/-- A linear layer: row `r` of `X` times the weights, plus the bias. -/
def lin (X : Mat 50000 128) (W : Mat 128 128) (b : Fin 128 → EReal) : Mat 50000 128 :=
  fun r j => (∑ k, X r k * W k j) + b j

/-- The mean of column `j` over the nodes. -/
def colMean (Y : Mat 50000 128) (j : Fin 128) : EReal := Ideal.div (∑ r, Y r j) count

/-- The variance of column `j` as the mean of the squared deviations from the mean. -/
def varDev (Y : Mat 50000 128) (j : Fin 128) : EReal :=
  Ideal.div (∑ r, (Y r j - colMean Y j) * (Y r j - colMean Y j)) count

/-- The variance of column `j` as the mean of the squares minus the squared mean. -/
def varSq (Y : Mat 50000 128) (j : Fin 128) : EReal :=
  Ideal.div (∑ r, Y r j * Y r j) count - colMean Y j * colMean Y j

/-- Batch normalisation with statistics `μ`, `v`, scale `γ`, shift `β`, then the rectifier. -/
def bnRelu (Y : Mat 50000 128) (μ v γ β : Fin 128 → EReal) : Mat 50000 128 :=
  fun r j => max (γ j * (Y r j - μ j) * Ideal.rsqrt (v j + eps) + β j) 0

/-- Every row divided by the larger of its Euclidean norm and the floor. -/
def rowNormalize (X : Mat 50000 128) : Mat 50000 128 :=
  fun r j => Ideal.div (X r j) (max (Ideal.sqrt (∑ k, X r k * X r k)) tiny)

end Cert.Spec

end
-- ==== Proof.KernelIdeal.Shapes.lean ====
/-
  Arrays read as functions of their coordinates: a 50000 x 128 array as a matrix of its (row, column) entries, a
  128 x 128 array likewise, a 1 x 128 array as the vector of its one row.
-/
import Mathlib
import Idealize.ShloMosaic.PureOps.Ideal
import Idealize.ShloMosaic.Lib.ValueIdx
import proofs.«176586_j29291676959176_1_alg».proof.Proof.Spec

noncomputable section

namespace Cert.KernelIdeal.Shapes

open Idealize.ShloMosaic Idealize.ShloMosaic.ValueIdx

/-- A two-dimensional array as the matrix of its entries. -/
def curry {a b : ℕ} (A : (⟨2, ![a, b]⟩ : Shape).Idx → EReal) : Cert.Spec.Mat a b := fun r j => A (ix2 r j)

/-- A one-row array as the vector of its entries. -/
def row {b : ℕ} (v : (⟨2, ![1, b]⟩ : Shape).Idx → EReal) : Fin b → EReal := fun j => v (ix2 0 j)

theorem curry_apply {a b : ℕ} (A : (⟨2, ![a, b]⟩ : Shape).Idx → EReal) (r : Fin a) (j : Fin b) : curry A r j = A (ix2 r j) := rfl
theorem row_apply {b : ℕ} (v : (⟨2, ![1, b]⟩ : Shape).Idx → EReal) (j : Fin b) : row v j = v (ix2 0 j) := rfl

/-- Two arrays with the same matrix of entries are the same array. -/
theorem eq_of_curry_eq {a b : ℕ} {A B : (⟨2, ![a, b]⟩ : Shape).Idx → EReal} (h : curry A = curry B) : A = B := by
  funext i
  rw [eq_ix2 i]
  exact congrFun (congrFun h (i 0)) (i 1)

/-- Two one-row arrays with the same vector of entries are the same array. -/
theorem eq_of_row_eq {b : ℕ} {u v : (⟨2, ![1, b]⟩ : Shape).Idx → EReal} (h : row u = row v) : u = v := by
  funext i
  obtain ⟨u, j, rfl⟩ : ∃ (u : Fin 1) (j : Fin b), i = ix2 u j := ⟨i 0, i 1, eq_ix2 i⟩
  obtain rfl : u = 0 := Subsingleton.elim _ _
  exact congrFun h j

end Cert.KernelIdeal.Shapes

end
-- ==== Proof.Reference.IdealA.lean ====
/-
  The reference's stages read at an index, over extended reals: a feature vector repeated on
  every node reads the vector; one matrix of a stack and one row of a parameter array read the
  stack and the array; the linear map is a sum over the 128 input features plus the bias; the
  sum over the nodes is the sum of the column.
-/
import proofs.«176586_j29291676959176_1_alg».proof.Proof.Reference.Stages
import proofs.«176586_j29291676959176_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.ValueIdx

/-- A node array as a matrix of extended reals: node `r`, feature `j`. -/
def curry (A : (⟨S50000x128, .f32⟩ : BufTy).Contents (Elt Ideal)) : Cert.Spec.Mat 50000 128 := fun r j => A (ix2 r j)

theorem curry_apply (A : (⟨S50000x128, .f32⟩ : BufTy).Contents (Elt Ideal)) (r : Fin 50000) (j : Fin 128) : curry A r j = A (ix2 r j) := rfl

section Layout
variable {F : FTy → Type} [FloatOps F]

/-- A feature vector repeated on every node reads the vector at the feature. -/
theorem rows_apply (v : (⟨S128, .f32⟩ : BufTy).Contents (Elt F)) (r : Fin 50000) (j : Fin 128) :
    rows v (ix2 r j) = v (ix1 j) := by
  unfold rows
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- Matrix `L` of a stack of three, at row `k` and column `j`. -/
theorem mat3_apply (off : Fin S3x128x128.rank → Nat) (hs : S3x128x128.Slices off S1x128x128)
    (W : (⟨S3x128x128, .f32⟩ : BufTy).Contents (Elt F)) (L : Fin 3) (h0 : off 0 = L.val) (h1 : off 1 = 0) (h2 : off 2 = 0)
    (k j : Fin 128) : mat3 off hs W (ix2 k j) = W (ix3 L k j) := by
  unfold mat3
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply off W hs (ix3 (0 : Fin 1) k j) (ix3 L k j) fun a => ?_
    match a with
    | ⟨0, _⟩ => show L.val = off 0 + 0; omega
    | ⟨1, _⟩ => show k.val = off 1 + k.val; omega
    | ⟨2, _⟩ => show j.val = off 2 + j.val; omega

/-- Row `L` of a 3 × 128 parameter array, at feature `j`. -/
theorem row3_apply (off : Fin S3x128.rank → Nat) (hs : S3x128.Slices off S1x128)
    (p : (⟨S3x128, .f32⟩ : BufTy).Contents (Elt F)) (L : Fin 3) (h0 : off 0 = L.val) (h1 : off 1 = 0)
    (j : Fin 128) : row3 off hs p (ix1 j) = p (ix2 L j) := by
  unfold row3
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply off p hs (ix2 (0 : Fin 1) j) (ix2 L j) fun a => ?_
    match a with
    | ⟨0, _⟩ => show L.val = off 0 + 0; omega
    | ⟨1, _⟩ => show j.val = off 1 + j.val; omega

/-- Row `L` of a 2 × 128 parameter array, at feature `j`. -/
theorem row2_apply (off : Fin S2x128.rank → Nat) (hs : S2x128.Slices off S1x128)
    (p : (⟨S2x128, .f32⟩ : BufTy).Contents (Elt F)) (L : Fin 2) (h0 : off 0 = L.val) (h1 : off 1 = 0)
    (j : Fin 128) : row2 off hs p (ix1 j) = p (ix2 L j) := by
  unfold row2
  refine (shapeCast_apply _ _ (ix1 j) (ix2 (0 : Fin 1) j) ?_).trans ?_
  · rw [Shape.rowMajor_val_two, Shape.rowMajor_val_one]
    show (0 : Nat) * 128 + j.val = j.val
    omega
  · refine extractStridedSlice_apply off p hs (ix2 (0 : Fin 1) j) (ix2 L j) fun a => ?_
    match a with
    | ⟨0, _⟩ => show L.val = off 0 + 0; omega
    | ⟨1, _⟩ => show j.val = off 1 + j.val; omega

end Layout

/-- The dimension numbers of the network's matrix products: rows times columns, one contracted axis of extent 128. -/
abbrev dotD : DotDims S50000x128 S128x128 S50000x128 := dot_S50000x128_S128x128_S50000x128_1_0_0_1_n_n

theorem dot_lhs_0 (i : S50000x128.Idx) (q : dotD.contr.Idx) : (dotD.lhsIdx i q 0).val = (i 0).val := by
  unfold DotDims.lhsIdx
  rw [dif_neg (show ¬(0 : Fin S50000x128.rank) ∈ dotD.lhsBatch by decide), dif_pos (show (0 : Fin S50000x128.rank) ∈ dotD.lhsNonContracting by decide)]
  rfl
theorem dot_lhs_1 (i : S50000x128.Idx) (q : dotD.contr.Idx) : (dotD.lhsIdx i q 1).val = (q ⟨0, by decide⟩).val :=
  dotD.lhsIdx_val_of_single rfl i q
theorem dot_rhs_0 (i : S50000x128.Idx) (q : dotD.contr.Idx) : (dotD.rhsIdx i q 0).val = (q ⟨0, by decide⟩).val :=
  dotD.rhsIdx_val_of_single rfl i q
theorem dot_rhs_1 (i : S50000x128.Idx) (q : dotD.contr.Idx) : (dotD.rhsIdx i q 1).val = (i 1).val := by
  unfold DotDims.rhsIdx
  rw [dif_neg (show ¬(1 : Fin S128x128.rank) ∈ dotD.rhsBatch by decide), dif_pos (show (1 : Fin S128x128.rank) ∈ dotD.rhsNonContracting by decide)]
  rfl

/-- The product of a node array and a matrix, at node `r` and feature `j`: the sum over the 128 input features. -/
theorem dot_apply (x : (⟨S50000x128, .f32⟩ : BufTy).Contents (Elt Ideal)) (W : (⟨S128x128, .f32⟩ : BufTy).Contents (Elt Ideal)) (r : Fin 50000) (j : Fin 128) :
    Host.dotGeneral (F := Ideal) (φ₁ := .f32) (φ₂ := .f32) dotD none x W (ix2 r j) = ∑ k : Fin 128, x (ix2 r k) * W (ix2 k j) := by
  simp only [Host.dotGeneral]
  rw [Ideal.dotGeneral_apply, ← Equiv.sum_comp (ValueIdx.contrEquiv1 dotD 128 rfl rfl).symm]
  refine Finset.sum_congr rfl fun k _ => ?_
  have hk := ValueIdx.contrEquiv1_symm_val dotD 128 rfl rfl k
  have el : dotD.lhsIdx (ix2 r j) ((ValueIdx.contrEquiv1 dotD 128 rfl rfl).symm k) = ix2 r k := funext fun a => Fin.ext (by
    match a with
    | ⟨0, _⟩ => exact dot_lhs_0 _ _
    | ⟨1, _⟩ => exact (dot_lhs_1 _ _).trans hk)
  have er : dotD.rhsIdx (ix2 r j) ((ValueIdx.contrEquiv1 dotD 128 rfl rfl).symm k) = ix2 k j := funext fun a => Fin.ext (by
    match a with
    | ⟨0, _⟩ => exact (dot_rhs_0 _ _).trans hk
    | ⟨1, _⟩ => exact dot_rhs_1 _ _)
  rw [el, er]

/-- The linear map as a matrix of extended reals. -/
theorem curry_linear (x : (⟨S50000x128, .f32⟩ : BufTy).Contents (Elt Ideal)) (W : (⟨S128x128, .f32⟩ : BufTy).Contents (Elt Ideal)) (b : (⟨S128, .f32⟩ : BufTy).Contents (Elt Ideal)) :
    curry (linear x W b) = Cert.Spec.lin (curry x) (fun k j => W (ix2 k j)) (fun j => b (ix1 j)) := by
  funext r j
  unfold linear Cert.Spec.lin curry
  rw [addf_apply, dot_apply, rows_apply]

/-- The sum over the nodes of feature `j`. -/
theorem colSum_apply (x : (⟨S50000x128, .f32⟩ : BufTy).Contents (Elt Ideal)) (j : Fin 128) : colSum x (ix1 j) = ∑ r : Fin 50000, x (ix2 r j) := by
  unfold colSum
  rw [hostReduceAdd_apply, Ideal.hostReduceAdd_single reducesTo_S50000x128_S128_d0 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

end Cert.ReferenceIdeal.RefRun

end
-- ==== Proof.KernelIdeal.HostRead.lean ====
/-
  What the kernel program's host stretches leave, read against the same array functions the reference is
  composed of: the neighbour sum (a gather of the source rows, then a scatter-add at the destination rows, from
  zero), each layer's sliced weights, biases, scales and shifts, and the per-feature mean and variance the program
  forms from the column sums and column sums of squares a kernel region hands it (sum / 50000, and sum of squares /
  50000 minus the squared mean).  Also: which buffers an item leaves as it found them.
-/
import proofs.«176586_j29291676959176_1_alg».proof.Proof.KernelIdeal.Run
import proofs.«176586_j29291676959176_1_alg».proof.Proof.KernelIdeal.Shapes
import proofs.«176586_j29291676959176_1_alg».proof.Proof.Reference.Stages
import proofs.«176586_j29291676959176_1_alg».proof.Proof.Reference.IdealA
import Idealize.ShloMosaic.Lib.StableHlo.Run
import Idealize.ShloMosaic.Lib.Pipeline.Value
import Idealize.ShloMosaic.Lib.ValueLayout
import Idealize.ShloMosaic.PureOps.Ideal

set_option maxRecDepth 16384

noncomputable section

namespace Cert.KernelIdeal.HostRead

open Cert.KernelIdeal Cert.KernelIdeal.Gen Cert.KernelIdeal.Run Cert.KernelIdeal.Shapes
open Idealize.ShloMosaic Idealize.ShloMosaic.TcCoe Idealize.ShloMosaic.ValueIdx Idealize.SL.Sem
open Cert.ReferenceIdeal.RefRun (agg srcFlat dstFlat mat3 row3 row2)

variable (m : (ℓ : Loc nD τ sig) → Buf (Elt Ideal) ℓ) (ρ : Dev nD → PrngReg) (c : Dev nD)

/-! ## Pointwise readings of the small host operations -/

/-- A 128-vector laid out as one row, read back as a vector. -/
theorem row_reshape (v : S128.Idx → EReal) (h : S128.ShapeCasts S1x128) : row (shapeCast S1x128 v h) = fun j => v (ix1 j) := by
  funext j
  exact shapeCast_a_1a_apply v h (0 : Fin 1) j

/-- A column sum divided by the node count, entry by entry. -/
theorem row_div_count (s : S1x128.Idx → EReal) (hb) :
    row (Host.divf (F := Ideal) s (broadcastInDim S1x128 ![] hb (constant S_ .f32 0x47435000#32))) = fun j => Ideal.div (row s j) Cert.Spec.count := by
  funext j
  simp only [row, Host.divf, broadcastInDim, constant, Ideal.hostDivf_def, Ideal.ofBits_def, Cert.Spec.count]

/-- The variance the program forms: the mean of the squares minus the squared mean, entry by entry. -/
theorem row_var (s q : S1x128.Idx → EReal) (hb hb') :
    row (subf (F := Ideal) (Host.divf q (broadcastInDim S1x128 ![] hb' (constant S_ .f32 0x47435000#32)))
        (mulf (Host.divf s (broadcastInDim S1x128 ![] hb (constant S_ .f32 0x47435000#32))) (Host.divf s (broadcastInDim S1x128 ![] hb (constant S_ .f32 0x47435000#32)))))
      = fun j => Ideal.div (row q j) Cert.Spec.count - Ideal.div (row s j) Cert.Spec.count * Ideal.div (row s j) Cert.Spec.count := by
  funext j
  simp only [row, subf, mulf, Host.divf, broadcastInDim, constant, Ideal.hostDivf_def, Ideal.subf_def, Ideal.mulf_def, Ideal.ofBits_def, Cert.Spec.count]

/-! ## The edge list's two rows, read once at the first stretch and carried -/

theorem src_rows : W1 m ρ c (Proc.devRef .tc main_v1) = srcFlat (F := Ideal) (m ((c : Thread nD τ).loc main_arg1)) := by
  show StableHlo.after hostOps0 (W0 m ρ c) (Proc.devRef .tc main_v1) = _
  after_results
  try rfl
theorem dst_rows : W1 m ρ c (Proc.devRef .tc main_v3) = dstFlat (F := Ideal) (m ((c : Thread nD τ).loc main_arg1)) := by
  show StableHlo.after hostOps0 (W0 m ρ c) (Proc.devRef .tc main_v3) = _
  after_results
  try rfl
theorem arg2_at0 : W0 m ρ c (Proc.devRef .tc main_arg2) = m ((c : Thread nD τ).loc main_arg2) :=
  rfl
theorem arg3_at0 : W0 m ρ c (Proc.devRef .tc main_arg3) = m ((c : Thread nD τ).loc main_arg3) :=
  rfl
theorem arg4_at0 : W0 m ρ c (Proc.devRef .tc main_arg4) = m ((c : Thread nD τ).loc main_arg4) :=
  rfl
theorem arg5_at0 : W0 m ρ c (Proc.devRef .tc main_arg5) = m ((c : Thread nD τ).loc main_arg5) :=
  rfl
theorem arg6_at0 : W0 m ρ c (Proc.devRef .tc main_arg6) = m ((c : Thread nD τ).loc main_arg6) :=
  rfl
theorem arg7_at0 : W0 m ρ c (Proc.devRef .tc main_arg7) = m ((c : Thread nD τ).loc main_arg7) :=
  rfl

/-! ## Layer 0: the stretch before its first region -/

set_option maxHeartbeats 8000000 in
/-- The neighbour sum of the layer's input. -/
theorem agg_0 : (W1 m ρ c (Proc.devRef .tc main_v13) : S50000x128.Idx → EReal) = agg (F := Ideal) (W0 m ρ c (Proc.devRef .tc main_arg0)) (srcFlat (F := Ideal) (m ((c : Thread nD τ).loc main_arg1))) (dstFlat (F := Ideal) (m ((c : Thread nD τ).loc main_arg1))) := by
  show StableHlo.after hostOps0 (W0 m ρ c) (Proc.devRef .tc main_v13) = _
  after_results
  try rfl
set_option maxHeartbeats 4000000 in
theorem w1_0 : (W1 m ρ c (Proc.devRef .tc main_v15) : S128x128.Idx → EReal) = mat3 (F := Ideal) ![0, 0, 0] Cert.ReferenceIdeal.Facts₀.slices_S3x128x128_S1x128x128_0_0_0 (W0 m ρ c (Proc.devRef .tc main_arg2)) := by
  show StableHlo.after hostOps0 (W0 m ρ c) (Proc.devRef .tc main_v15) = _
  after_results
  try rfl
set_option maxHeartbeats 4000000 in
theorem w2_0 : (W1 m ρ c (Proc.devRef .tc main_v26) : S128x128.Idx → EReal) = mat3 (F := Ideal) ![0, 0, 0] Cert.ReferenceIdeal.Facts₀.slices_S3x128x128_S1x128x128_0_0_0 (W0 m ρ c (Proc.devRef .tc main_arg6)) := by
  show StableHlo.after hostOps0 (W0 m ρ c) (Proc.devRef .tc main_v26) = _
  after_results
  try rfl
set_option maxHeartbeats 4000000 in
theorem b1_0 : (W1 m ρ c (Proc.devRef .tc main_v18) : S1x128.Idx → EReal) = shapeCast S1x128 (row3 (F := Ideal) ![0, 0] Cert.ReferenceIdeal.Facts₀.slices_S3x128_S1x128_0_0 (W0 m ρ c (Proc.devRef .tc main_arg3))) Cert.KernelIdeal.Facts₀.shapeCasts_S128_S1x128 := by
  show StableHlo.after hostOps0 (W0 m ρ c) (Proc.devRef .tc main_v18) = _
  after_results
  try rfl
set_option maxHeartbeats 4000000 in
theorem g_0 : (W1 m ρ c (Proc.devRef .tc main_v21) : S1x128.Idx → EReal) = shapeCast S1x128 (row3 (F := Ideal) ![0, 0] Cert.ReferenceIdeal.Facts₀.slices_S3x128_S1x128_0_0 (W0 m ρ c (Proc.devRef .tc main_arg4))) Cert.KernelIdeal.Facts₀.shapeCasts_S128_S1x128 := by
  show StableHlo.after hostOps0 (W0 m ρ c) (Proc.devRef .tc main_v21) = _
  after_results
  try rfl
set_option maxHeartbeats 4000000 in
theorem be_0 : (W1 m ρ c (Proc.devRef .tc main_v24) : S1x128.Idx → EReal) = shapeCast S1x128 (row3 (F := Ideal) ![0, 0] Cert.ReferenceIdeal.Facts₀.slices_S3x128_S1x128_0_0 (W0 m ρ c (Proc.devRef .tc main_arg5))) Cert.KernelIdeal.Facts₀.shapeCasts_S128_S1x128 := by
  show StableHlo.after hostOps0 (W0 m ρ c) (Proc.devRef .tc main_v24) = _
  after_results
  try rfl
set_option maxHeartbeats 4000000 in
theorem b2_0 : (W1 m ρ c (Proc.devRef .tc main_v29) : S1x128.Idx → EReal) = shapeCast S1x128 (row3 (F := Ideal) ![0, 0] Cert.ReferenceIdeal.Facts₀.slices_S3x128_S1x128_0_0 (W0 m ρ c (Proc.devRef .tc main_arg7))) Cert.KernelIdeal.Facts₀.shapeCasts_S128_S1x128 := by
  show StableHlo.after hostOps0 (W0 m ρ c) (Proc.devRef .tc main_v29) = _
  after_results
  try rfl

/-! ## Layer 0: the mean and variance after its first region -/

theorem mean_0 : (W3 m ρ c (Proc.devRef .tc main_v32) : S1x128.Idx → EReal)
    = Host.divf (F := Ideal) (W2 m ρ c (Proc.devRef .tc main_v30_1)) (broadcastInDim S1x128 ![] Cert.KernelIdeal.Facts₀.bcast_S_S1x128 (constant S_ .f32 0x47435000#32)) := by
  show StableHlo.after hostOps1 (W2 m ρ c) (Proc.devRef .tc main_v32) = _
  after_results
  try rfl
theorem var_0 : (W3 m ρ c (Proc.devRef .tc main_v36) : S1x128.Idx → EReal)
    = subf (F := Ideal) (Host.divf (W2 m ρ c (Proc.devRef .tc main_v30_2)) (broadcastInDim S1x128 ![] Cert.KernelIdeal.Facts₀.bcast_S_S1x128 (constant S_ .f32 0x47435000#32)))
        (mulf (Host.divf (W2 m ρ c (Proc.devRef .tc main_v30_1)) (broadcastInDim S1x128 ![] Cert.KernelIdeal.Facts₀.bcast_S_S1x128 (constant S_ .f32 0x47435000#32)))
          (Host.divf (W2 m ρ c (Proc.devRef .tc main_v30_1)) (broadcastInDim S1x128 ![] Cert.KernelIdeal.Facts₀.bcast_S_S1x128 (constant S_ .f32 0x47435000#32)))) := by
  show StableHlo.after hostOps1 (W2 m ρ c) (Proc.devRef .tc main_v36) = _
  after_results
  try rfl
theorem arg8_at5 : W5 m ρ c (Proc.devRef .tc main_arg8) = m ((c : Thread nD τ).loc main_arg8) :=
  (W5_of_ne m ρ c main_arg8 (by decide)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans <| rfl
theorem arg9_at5 : W5 m ρ c (Proc.devRef .tc main_arg9) = m ((c : Thread nD τ).loc main_arg9) :=
  (W5_of_ne m ρ c main_arg9 (by decide)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans <| rfl

/-! ## Layer 0: the mean, the variance, the scale and the shift after its second linear region -/

theorem mean2_0 : (W6 m ρ c (Proc.devRef .tc main_v40) : S1x128.Idx → EReal)
    = Host.divf (F := Ideal) (W5 m ρ c (Proc.devRef .tc main_v38_1)) (broadcastInDim S1x128 ![] Cert.KernelIdeal.Facts₀.bcast_S_S1x128 (constant S_ .f32 0x47435000#32)) := by
  show StableHlo.after hostOps3 (W5 m ρ c) (Proc.devRef .tc main_v40) = _
  after_results
  try rfl
theorem var2_0 : (W6 m ρ c (Proc.devRef .tc main_v44) : S1x128.Idx → EReal)
    = subf (F := Ideal) (Host.divf (W5 m ρ c (Proc.devRef .tc main_v38_2)) (broadcastInDim S1x128 ![] Cert.KernelIdeal.Facts₀.bcast_S_S1x128 (constant S_ .f32 0x47435000#32)))
        (mulf (Host.divf (W5 m ρ c (Proc.devRef .tc main_v38_1)) (broadcastInDim S1x128 ![] Cert.KernelIdeal.Facts₀.bcast_S_S1x128 (constant S_ .f32 0x47435000#32)))
          (Host.divf (W5 m ρ c (Proc.devRef .tc main_v38_1)) (broadcastInDim S1x128 ![] Cert.KernelIdeal.Facts₀.bcast_S_S1x128 (constant S_ .f32 0x47435000#32)))) := by
  show StableHlo.after hostOps3 (W5 m ρ c) (Proc.devRef .tc main_v44) = _
  after_results
  try rfl
theorem g2_0 : (W6 m ρ c (Proc.devRef .tc main_v47) : S1x128.Idx → EReal) = shapeCast S1x128 (row2 (F := Ideal) ![0, 0] Cert.ReferenceIdeal.Facts₀.slices_S2x128_S1x128_0_0 (W5 m ρ c (Proc.devRef .tc main_arg8))) Cert.KernelIdeal.Facts₀.shapeCasts_S128_S1x128 := by
  show StableHlo.after hostOps3 (W5 m ρ c) (Proc.devRef .tc main_v47) = _
  after_results
  try rfl
theorem be2_0 : (W6 m ρ c (Proc.devRef .tc main_v50) : S1x128.Idx → EReal) = shapeCast S1x128 (row2 (F := Ideal) ![0, 0] Cert.ReferenceIdeal.Facts₀.slices_S2x128_S1x128_0_0 (W5 m ρ c (Proc.devRef .tc main_arg9))) Cert.KernelIdeal.Facts₀.shapeCasts_S128_S1x128 := by
  show StableHlo.after hostOps3 (W5 m ρ c) (Proc.devRef .tc main_v50) = _
  after_results
  try rfl
theorem arg2_at7 : W7 m ρ c (Proc.devRef .tc main_arg2) = m ((c : Thread nD τ).loc main_arg2) :=
  (W7_of_ne m ρ c main_arg2 (by decide)).trans <|
  (StableHlo.after_of_writes_sub hostOps3 _ hostOps3_writes (by decide : main_arg2 ∉ hostOps3_W)).trans <|
  (W5_of_ne m ρ c main_arg2 (by decide)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans <| rfl
theorem arg3_at7 : W7 m ρ c (Proc.devRef .tc main_arg3) = m ((c : Thread nD τ).loc main_arg3) :=
  (W7_of_ne m ρ c main_arg3 (by decide)).trans <|
  (StableHlo.after_of_writes_sub hostOps3 _ hostOps3_writes (by decide : main_arg3 ∉ hostOps3_W)).trans <|
  (W5_of_ne m ρ c main_arg3 (by decide)).trans <|
  (W4_of_ne m ρ c main_arg3 (by decide)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans <| rfl
theorem arg4_at7 : W7 m ρ c (Proc.devRef .tc main_arg4) = m ((c : Thread nD τ).loc main_arg4) :=
  (W7_of_ne m ρ c main_arg4 (by decide)).trans <|
  (StableHlo.after_of_writes_sub hostOps3 _ hostOps3_writes (by decide : main_arg4 ∉ hostOps3_W)).trans <|
  (W5_of_ne m ρ c main_arg4 (by decide)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans <| rfl
theorem arg5_at7 : W7 m ρ c (Proc.devRef .tc main_arg5) = m ((c : Thread nD τ).loc main_arg5) :=
  (W7_of_ne m ρ c main_arg5 (by decide)).trans <|
  (StableHlo.after_of_writes_sub hostOps3 _ hostOps3_writes (by decide : main_arg5 ∉ hostOps3_W)).trans <|
  (W5_of_ne m ρ c main_arg5 (by decide)).trans <|
  (W4_of_ne m ρ c main_arg5 (by decide)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans <| rfl
theorem arg6_at7 : W7 m ρ c (Proc.devRef .tc main_arg6) = m ((c : Thread nD τ).loc main_arg6) :=
  (W7_of_ne m ρ c main_arg6 (by decide)).trans <|
  (StableHlo.after_of_writes_sub hostOps3 _ hostOps3_writes (by decide : main_arg6 ∉ hostOps3_W)).trans <|
  (W5_of_ne m ρ c main_arg6 (by decide)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans <| rfl
theorem arg7_at7 : W7 m ρ c (Proc.devRef .tc main_arg7) = m ((c : Thread nD τ).loc main_arg7) :=
  (W7_of_ne m ρ c main_arg7 (by decide)).trans <|
  (StableHlo.after_of_writes_sub hostOps3 _ hostOps3_writes (by decide : main_arg7 ∉ hostOps3_W)).trans <|
  (W5_of_ne m ρ c main_arg7 (by decide)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans <| rfl
theorem src_at7 : W7 m ρ c (Proc.devRef .tc main_v1) = srcFlat (F := Ideal) (m ((c : Thread nD τ).loc main_arg1)) :=
  ((W7_of_ne m ρ c main_v1 (by decide)).trans <|
  (StableHlo.after_of_writes_sub hostOps3 _ hostOps3_writes (by decide : main_v1 ∉ hostOps3_W)).trans <|
  (W5_of_ne m ρ c main_v1 (by decide)).trans <|
  (W4_of_ne m ρ c main_v1 (by decide)).trans <|
  (StableHlo.after_of_writes_sub hostOps1 _ hostOps1_writes (by decide : main_v1 ∉ hostOps1_W)).trans <|
  (W2_of_ne m ρ c main_v1 (by decide)).trans <| (src_rows m ρ c))
theorem dst_at7 : W7 m ρ c (Proc.devRef .tc main_v3) = dstFlat (F := Ideal) (m ((c : Thread nD τ).loc main_arg1)) :=
  ((W7_of_ne m ρ c main_v3 (by decide)).trans <|
  (StableHlo.after_of_writes_sub hostOps3 _ hostOps3_writes (by decide : main_v3 ∉ hostOps3_W)).trans <|
  (W5_of_ne m ρ c main_v3 (by decide)).trans <|
  (W4_of_ne m ρ c main_v3 (by decide)).trans <|
  (StableHlo.after_of_writes_sub hostOps1 _ hostOps1_writes (by decide : main_v3 ∉ hostOps1_W)).trans <|
  (W2_of_ne m ρ c main_v3 (by decide)).trans <| (dst_rows m ρ c))

/-! ## Layer 1: the stretch before its first region -/

set_option maxHeartbeats 8000000 in
/-- The neighbour sum of the layer's input. -/
theorem agg_1 : (W8 m ρ c (Proc.devRef .tc main_v61) : S50000x128.Idx → EReal) = agg (F := Ideal) (W7 m ρ c (Proc.devRef .tc main_v51)) (W7 m ρ c (Proc.devRef .tc main_v1)) (W7 m ρ c (Proc.devRef .tc main_v3)) := by
  show StableHlo.after hostOps4 (W7 m ρ c) (Proc.devRef .tc main_v61) = _
  after_results
  try rfl
set_option maxHeartbeats 4000000 in
theorem w1_1 : (W8 m ρ c (Proc.devRef .tc main_v63) : S128x128.Idx → EReal) = mat3 (F := Ideal) ![1, 0, 0] Cert.ReferenceIdeal.Facts₀.slices_S3x128x128_S1x128x128_1_0_0 (W7 m ρ c (Proc.devRef .tc main_arg2)) := by
  show StableHlo.after hostOps4 (W7 m ρ c) (Proc.devRef .tc main_v63) = _
  after_results
  try rfl
set_option maxHeartbeats 4000000 in
theorem w2_1 : (W8 m ρ c (Proc.devRef .tc main_v74) : S128x128.Idx → EReal) = mat3 (F := Ideal) ![1, 0, 0] Cert.ReferenceIdeal.Facts₀.slices_S3x128x128_S1x128x128_1_0_0 (W7 m ρ c (Proc.devRef .tc main_arg6)) := by
  show StableHlo.after hostOps4 (W7 m ρ c) (Proc.devRef .tc main_v74) = _
  after_results
  try rfl
set_option maxHeartbeats 4000000 in
theorem b1_1 : (W8 m ρ c (Proc.devRef .tc main_v66) : S1x128.Idx → EReal) = shapeCast S1x128 (row3 (F := Ideal) ![1, 0] Cert.ReferenceIdeal.Facts₀.slices_S3x128_S1x128_1_0 (W7 m ρ c (Proc.devRef .tc main_arg3))) Cert.KernelIdeal.Facts₀.shapeCasts_S128_S1x128 := by
  show StableHlo.after hostOps4 (W7 m ρ c) (Proc.devRef .tc main_v66) = _
  after_results
  try rfl
set_option maxHeartbeats 4000000 in
theorem g_1 : (W8 m ρ c (Proc.devRef .tc main_v69) : S1x128.Idx → EReal) = shapeCast S1x128 (row3 (F := Ideal) ![1, 0] Cert.ReferenceIdeal.Facts₀.slices_S3x128_S1x128_1_0 (W7 m ρ c (Proc.devRef .tc main_arg4))) Cert.KernelIdeal.Facts₀.shapeCasts_S128_S1x128 := by
  show StableHlo.after hostOps4 (W7 m ρ c) (Proc.devRef .tc main_v69) = _
  after_results
  try rfl
set_option maxHeartbeats 4000000 in
theorem be_1 : (W8 m ρ c (Proc.devRef .tc main_v72) : S1x128.Idx → EReal) = shapeCast S1x128 (row3 (F := Ideal) ![1, 0] Cert.ReferenceIdeal.Facts₀.slices_S3x128_S1x128_1_0 (W7 m ρ c (Proc.devRef .tc main_arg5))) Cert.KernelIdeal.Facts₀.shapeCasts_S128_S1x128 := by
  show StableHlo.after hostOps4 (W7 m ρ c) (Proc.devRef .tc main_v72) = _
  after_results
  try rfl
set_option maxHeartbeats 4000000 in
theorem b2_1 : (W8 m ρ c (Proc.devRef .tc main_v77) : S1x128.Idx → EReal) = shapeCast S1x128 (row3 (F := Ideal) ![1, 0] Cert.ReferenceIdeal.Facts₀.slices_S3x128_S1x128_1_0 (W7 m ρ c (Proc.devRef .tc main_arg7))) Cert.KernelIdeal.Facts₀.shapeCasts_S128_S1x128 := by
  show StableHlo.after hostOps4 (W7 m ρ c) (Proc.devRef .tc main_v77) = _
  after_results
  try rfl

/-! ## Layer 1: the mean and variance after its first region -/

theorem mean_1 : (W10 m ρ c (Proc.devRef .tc main_v80) : S1x128.Idx → EReal)
    = Host.divf (F := Ideal) (W9 m ρ c (Proc.devRef .tc main_v78_1)) (broadcastInDim S1x128 ![] Cert.KernelIdeal.Facts₀.bcast_S_S1x128 (constant S_ .f32 0x47435000#32)) := by
  show StableHlo.after hostOps5 (W9 m ρ c) (Proc.devRef .tc main_v80) = _
  after_results
  try rfl
theorem var_1 : (W10 m ρ c (Proc.devRef .tc main_v84) : S1x128.Idx → EReal)
    = subf (F := Ideal) (Host.divf (W9 m ρ c (Proc.devRef .tc main_v78_2)) (broadcastInDim S1x128 ![] Cert.KernelIdeal.Facts₀.bcast_S_S1x128 (constant S_ .f32 0x47435000#32)))
        (mulf (Host.divf (W9 m ρ c (Proc.devRef .tc main_v78_1)) (broadcastInDim S1x128 ![] Cert.KernelIdeal.Facts₀.bcast_S_S1x128 (constant S_ .f32 0x47435000#32)))
          (Host.divf (W9 m ρ c (Proc.devRef .tc main_v78_1)) (broadcastInDim S1x128 ![] Cert.KernelIdeal.Facts₀.bcast_S_S1x128 (constant S_ .f32 0x47435000#32)))) := by
  show StableHlo.after hostOps5 (W9 m ρ c) (Proc.devRef .tc main_v84) = _
  after_results
  try rfl
theorem arg8_at12 : W12 m ρ c (Proc.devRef .tc main_arg8) = m ((c : Thread nD τ).loc main_arg8) :=
  (W12_of_ne m ρ c main_arg8 (by decide)).trans <|
  (W11_of_ne m ρ c main_arg8 (by decide)).trans <|
  (StableHlo.after_of_writes_sub hostOps5 _ hostOps5_writes (by decide : main_arg8 ∉ hostOps5_W)).trans <|
  (W9_of_ne m ρ c main_arg8 (by decide)).trans <|
  (StableHlo.after_of_writes_sub hostOps4 _ hostOps4_writes (by decide : main_arg8 ∉ hostOps4_W)).trans <|
  (W7_of_ne m ρ c main_arg8 (by decide)).trans <|
  (StableHlo.after_of_writes_sub hostOps3 _ hostOps3_writes (by decide : main_arg8 ∉ hostOps3_W)).trans <|
  (W5_of_ne m ρ c main_arg8 (by decide)).trans <|
  (W4_of_ne m ρ c main_arg8 (by decide)).trans <|
  (StableHlo.after_of_writes_sub hostOps1 _ hostOps1_writes (by decide : main_arg8 ∉ hostOps1_W)).trans <|
  (W2_of_ne m ρ c main_arg8 (by decide)).trans <|
  (StableHlo.after_of_writes_sub hostOps0 _ hostOps0_writes (by decide : main_arg8 ∉ hostOps0_W)).trans <| rfl
theorem arg9_at12 : W12 m ρ c (Proc.devRef .tc main_arg9) = m ((c : Thread nD τ).loc main_arg9) :=
  (W12_of_ne m ρ c main_arg9 (by decide)).trans <|
  (W11_of_ne m ρ c main_arg9 (by decide)).trans <|
  (StableHlo.after_of_writes_sub hostOps5 _ hostOps5_writes (by decide : main_arg9 ∉ hostOps5_W)).trans <|
  (W9_of_ne m ρ c main_arg9 (by decide)).trans <|
  (StableHlo.after_of_writes_sub hostOps4 _ hostOps4_writes (by decide : main_arg9 ∉ hostOps4_W)).trans <|
  (W7_of_ne m ρ c main_arg9 (by decide)).trans <|
  (StableHlo.after_of_writes_sub hostOps3 _ hostOps3_writes (by decide : main_arg9 ∉ hostOps3_W)).trans <|
  (W5_of_ne m ρ c main_arg9 (by decide)).trans <|
  (W4_of_ne m ρ c main_arg9 (by decide)).trans <|
  (StableHlo.after_of_writes_sub hostOps1 _ hostOps1_writes (by decide : main_arg9 ∉ hostOps1_W)).trans <|
  (W2_of_ne m ρ c main_arg9 (by decide)).trans <|
  (StableHlo.after_of_writes_sub hostOps0 _ hostOps0_writes (by decide : main_arg9 ∉ hostOps0_W)).trans <| rfl

/-! ## Layer 1: the mean, the variance, the scale and the shift after its second linear region -/

theorem mean2_1 : (W13 m ρ c (Proc.devRef .tc main_v88) : S1x128.Idx → EReal)
    = Host.divf (F := Ideal) (W12 m ρ c (Proc.devRef .tc main_v86_1)) (broadcastInDim S1x128 ![] Cert.KernelIdeal.Facts₀.bcast_S_S1x128 (constant S_ .f32 0x47435000#32)) := by
  show StableHlo.after hostOps7 (W12 m ρ c) (Proc.devRef .tc main_v88) = _
  after_results
  try rfl
theorem var2_1 : (W13 m ρ c (Proc.devRef .tc main_v92) : S1x128.Idx → EReal)
    = subf (F := Ideal) (Host.divf (W12 m ρ c (Proc.devRef .tc main_v86_2)) (broadcastInDim S1x128 ![] Cert.KernelIdeal.Facts₀.bcast_S_S1x128 (constant S_ .f32 0x47435000#32)))
        (mulf (Host.divf (W12 m ρ c (Proc.devRef .tc main_v86_1)) (broadcastInDim S1x128 ![] Cert.KernelIdeal.Facts₀.bcast_S_S1x128 (constant S_ .f32 0x47435000#32)))
          (Host.divf (W12 m ρ c (Proc.devRef .tc main_v86_1)) (broadcastInDim S1x128 ![] Cert.KernelIdeal.Facts₀.bcast_S_S1x128 (constant S_ .f32 0x47435000#32)))) := by
  show StableHlo.after hostOps7 (W12 m ρ c) (Proc.devRef .tc main_v92) = _
  after_results
  try rfl
theorem g2_1 : (W13 m ρ c (Proc.devRef .tc main_v95) : S1x128.Idx → EReal) = shapeCast S1x128 (row2 (F := Ideal) ![1, 0] Cert.ReferenceIdeal.Facts₀.slices_S2x128_S1x128_1_0 (W12 m ρ c (Proc.devRef .tc main_arg8))) Cert.KernelIdeal.Facts₀.shapeCasts_S128_S1x128 := by
  show StableHlo.after hostOps7 (W12 m ρ c) (Proc.devRef .tc main_v95) = _
  after_results
  try rfl
theorem be2_1 : (W13 m ρ c (Proc.devRef .tc main_v98) : S1x128.Idx → EReal) = shapeCast S1x128 (row2 (F := Ideal) ![1, 0] Cert.ReferenceIdeal.Facts₀.slices_S2x128_S1x128_1_0 (W12 m ρ c (Proc.devRef .tc main_arg9))) Cert.KernelIdeal.Facts₀.shapeCasts_S128_S1x128 := by
  show StableHlo.after hostOps7 (W12 m ρ c) (Proc.devRef .tc main_v98) = _
  after_results
  try rfl
theorem arg2_at14 : W14 m ρ c (Proc.devRef .tc main_arg2) = m ((c : Thread nD τ).loc main_arg2) :=
  (W14_of_ne m ρ c main_arg2 (by decide)).trans <|
  (StableHlo.after_of_writes_sub hostOps7 _ hostOps7_writes (by decide : main_arg2 ∉ hostOps7_W)).trans <|
  (W12_of_ne m ρ c main_arg2 (by decide)).trans <|
  (W11_of_ne m ρ c main_arg2 (by decide)).trans <|
  (StableHlo.after_of_writes_sub hostOps5 _ hostOps5_writes (by decide : main_arg2 ∉ hostOps5_W)).trans <|
  (W9_of_ne m ρ c main_arg2 (by decide)).trans <|
  (StableHlo.after_of_writes_sub hostOps4 _ hostOps4_writes (by decide : main_arg2 ∉ hostOps4_W)).trans <|
  (W7_of_ne m ρ c main_arg2 (by decide)).trans <|
  (StableHlo.after_of_writes_sub hostOps3 _ hostOps3_writes (by decide : main_arg2 ∉ hostOps3_W)).trans <|
  (W5_of_ne m ρ c main_arg2 (by decide)).trans <|
  (W4_of_ne m ρ c main_arg2 (by decide)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans <| rfl
theorem arg3_at14 : W14 m ρ c (Proc.devRef .tc main_arg3) = m ((c : Thread nD τ).loc main_arg3) :=
  (W14_of_ne m ρ c main_arg3 (by decide)).trans <|
  (StableHlo.after_of_writes_sub hostOps7 _ hostOps7_writes (by decide : main_arg3 ∉ hostOps7_W)).trans <|
  (W12_of_ne m ρ c main_arg3 (by decide)).trans <|
  (W11_of_ne m ρ c main_arg3 (by decide)).trans <|
  (StableHlo.after_of_writes_sub hostOps5 _ hostOps5_writes (by decide : main_arg3 ∉ hostOps5_W)).trans <|
  (W9_of_ne m ρ c main_arg3 (by decide)).trans <|
  (StableHlo.after_of_writes_sub hostOps4 _ hostOps4_writes (by decide : main_arg3 ∉ hostOps4_W)).trans <|
  (W7_of_ne m ρ c main_arg3 (by decide)).trans <|
  (StableHlo.after_of_writes_sub hostOps3 _ hostOps3_writes (by decide : main_arg3 ∉ hostOps3_W)).trans <|
  (W5_of_ne m ρ c main_arg3 (by decide)).trans <|
  (W4_of_ne m ρ c main_arg3 (by decide)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans <| rfl
theorem arg4_at14 : W14 m ρ c (Proc.devRef .tc main_arg4) = m ((c : Thread nD τ).loc main_arg4) :=
  (W14_of_ne m ρ c main_arg4 (by decide)).trans <|
  (StableHlo.after_of_writes_sub hostOps7 _ hostOps7_writes (by decide : main_arg4 ∉ hostOps7_W)).trans <|
  (W12_of_ne m ρ c main_arg4 (by decide)).trans <|
  (W11_of_ne m ρ c main_arg4 (by decide)).trans <|
  (StableHlo.after_of_writes_sub hostOps5 _ hostOps5_writes (by decide : main_arg4 ∉ hostOps5_W)).trans <|
  (W9_of_ne m ρ c main_arg4 (by decide)).trans <|
  (StableHlo.after_of_writes_sub hostOps4 _ hostOps4_writes (by decide : main_arg4 ∉ hostOps4_W)).trans <|
  (W7_of_ne m ρ c main_arg4 (by decide)).trans <|
  (StableHlo.after_of_writes_sub hostOps3 _ hostOps3_writes (by decide : main_arg4 ∉ hostOps3_W)).trans <|
  (W5_of_ne m ρ c main_arg4 (by decide)).trans <|
  (W4_of_ne m ρ c main_arg4 (by decide)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans <| rfl
theorem arg5_at14 : W14 m ρ c (Proc.devRef .tc main_arg5) = m ((c : Thread nD τ).loc main_arg5) :=
  (W14_of_ne m ρ c main_arg5 (by decide)).trans <|
  (StableHlo.after_of_writes_sub hostOps7 _ hostOps7_writes (by decide : main_arg5 ∉ hostOps7_W)).trans <|
  (W12_of_ne m ρ c main_arg5 (by decide)).trans <|
  (W11_of_ne m ρ c main_arg5 (by decide)).trans <|
  (StableHlo.after_of_writes_sub hostOps5 _ hostOps5_writes (by decide : main_arg5 ∉ hostOps5_W)).trans <|
  (W9_of_ne m ρ c main_arg5 (by decide)).trans <|
  (StableHlo.after_of_writes_sub hostOps4 _ hostOps4_writes (by decide : main_arg5 ∉ hostOps4_W)).trans <|
  (W7_of_ne m ρ c main_arg5 (by decide)).trans <|
  (StableHlo.after_of_writes_sub hostOps3 _ hostOps3_writes (by decide : main_arg5 ∉ hostOps3_W)).trans <|
  (W5_of_ne m ρ c main_arg5 (by decide)).trans <|
  (W4_of_ne m ρ c main_arg5 (by decide)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans <| rfl
theorem arg6_at14 : W14 m ρ c (Proc.devRef .tc main_arg6) = m ((c : Thread nD τ).loc main_arg6) :=
  (W14_of_ne m ρ c main_arg6 (by decide)).trans <|
  (StableHlo.after_of_writes_sub hostOps7 _ hostOps7_writes (by decide : main_arg6 ∉ hostOps7_W)).trans <|
  (W12_of_ne m ρ c main_arg6 (by decide)).trans <|
  (W11_of_ne m ρ c main_arg6 (by decide)).trans <|
  (StableHlo.after_of_writes_sub hostOps5 _ hostOps5_writes (by decide : main_arg6 ∉ hostOps5_W)).trans <|
  (W9_of_ne m ρ c main_arg6 (by decide)).trans <|
  (StableHlo.after_of_writes_sub hostOps4 _ hostOps4_writes (by decide : main_arg6 ∉ hostOps4_W)).trans <|
  (W7_of_ne m ρ c main_arg6 (by decide)).trans <|
  (StableHlo.after_of_writes_sub hostOps3 _ hostOps3_writes (by decide : main_arg6 ∉ hostOps3_W)).trans <|
  (W5_of_ne m ρ c main_arg6 (by decide)).trans <|
  (W4_of_ne m ρ c main_arg6 (by decide)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans <| rfl
theorem arg7_at14 : W14 m ρ c (Proc.devRef .tc main_arg7) = m ((c : Thread nD τ).loc main_arg7) :=
  (W14_of_ne m ρ c main_arg7 (by decide)).trans <|
  (StableHlo.after_of_writes_sub hostOps7 _ hostOps7_writes (by decide : main_arg7 ∉ hostOps7_W)).trans <|
  (W12_of_ne m ρ c main_arg7 (by decide)).trans <|
  (W11_of_ne m ρ c main_arg7 (by decide)).trans <|
  (StableHlo.after_of_writes_sub hostOps5 _ hostOps5_writes (by decide : main_arg7 ∉ hostOps5_W)).trans <|
  (W9_of_ne m ρ c main_arg7 (by decide)).trans <|
  (StableHlo.after_of_writes_sub hostOps4 _ hostOps4_writes (by decide : main_arg7 ∉ hostOps4_W)).trans <|
  (W7_of_ne m ρ c main_arg7 (by decide)).trans <|
  (StableHlo.after_of_writes_sub hostOps3 _ hostOps3_writes (by decide : main_arg7 ∉ hostOps3_W)).trans <|
  (W5_of_ne m ρ c main_arg7 (by decide)).trans <|
  (W4_of_ne m ρ c main_arg7 (by decide)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans <| rfl
theorem src_at14 : W14 m ρ c (Proc.devRef .tc main_v1) = srcFlat (F := Ideal) (m ((c : Thread nD τ).loc main_arg1)) :=
  ((W14_of_ne m ρ c main_v1 (by decide)).trans <|
  (StableHlo.after_of_writes_sub hostOps7 _ hostOps7_writes (by decide : main_v1 ∉ hostOps7_W)).trans <|
  (W12_of_ne m ρ c main_v1 (by decide)).trans <|
  (W11_of_ne m ρ c main_v1 (by decide)).trans <|
  (StableHlo.after_of_writes_sub hostOps5 _ hostOps5_writes (by decide : main_v1 ∉ hostOps5_W)).trans <|
  (W9_of_ne m ρ c main_v1 (by decide)).trans <|
  (StableHlo.after_of_writes_sub hostOps4 _ hostOps4_writes (by decide : main_v1 ∉ hostOps4_W)).trans <|
  (W7_of_ne m ρ c main_v1 (by decide)).trans <|
  (StableHlo.after_of_writes_sub hostOps3 _ hostOps3_writes (by decide : main_v1 ∉ hostOps3_W)).trans <|
  (W5_of_ne m ρ c main_v1 (by decide)).trans <|
  (W4_of_ne m ρ c main_v1 (by decide)).trans <|
  (StableHlo.after_of_writes_sub hostOps1 _ hostOps1_writes (by decide : main_v1 ∉ hostOps1_W)).trans <|
  (W2_of_ne m ρ c main_v1 (by decide)).trans <| (src_rows m ρ c))
theorem dst_at14 : W14 m ρ c (Proc.devRef .tc main_v3) = dstFlat (F := Ideal) (m ((c : Thread nD τ).loc main_arg1)) :=
  ((W14_of_ne m ρ c main_v3 (by decide)).trans <|
  (StableHlo.after_of_writes_sub hostOps7 _ hostOps7_writes (by decide : main_v3 ∉ hostOps7_W)).trans <|
  (W12_of_ne m ρ c main_v3 (by decide)).trans <|
  (W11_of_ne m ρ c main_v3 (by decide)).trans <|
  (StableHlo.after_of_writes_sub hostOps5 _ hostOps5_writes (by decide : main_v3 ∉ hostOps5_W)).trans <|
  (W9_of_ne m ρ c main_v3 (by decide)).trans <|
  (StableHlo.after_of_writes_sub hostOps4 _ hostOps4_writes (by decide : main_v3 ∉ hostOps4_W)).trans <|
  (W7_of_ne m ρ c main_v3 (by decide)).trans <|
  (StableHlo.after_of_writes_sub hostOps3 _ hostOps3_writes (by decide : main_v3 ∉ hostOps3_W)).trans <|
  (W5_of_ne m ρ c main_v3 (by decide)).trans <|
  (W4_of_ne m ρ c main_v3 (by decide)).trans <|
  (StableHlo.after_of_writes_sub hostOps1 _ hostOps1_writes (by decide : main_v3 ∉ hostOps1_W)).trans <|
  (W2_of_ne m ρ c main_v3 (by decide)).trans <| (dst_rows m ρ c))

/-! ## Layer 2: the stretch before its first region -/

set_option maxHeartbeats 8000000 in
/-- The neighbour sum of the layer's input. -/
theorem agg_2 : (W15 m ρ c (Proc.devRef .tc main_v109) : S50000x128.Idx → EReal) = agg (F := Ideal) (W14 m ρ c (Proc.devRef .tc main_v99)) (W14 m ρ c (Proc.devRef .tc main_v1)) (W14 m ρ c (Proc.devRef .tc main_v3)) := by
  show StableHlo.after hostOps8 (W14 m ρ c) (Proc.devRef .tc main_v109) = _
  after_results
  try rfl
set_option maxHeartbeats 4000000 in
theorem w1_2 : (W15 m ρ c (Proc.devRef .tc main_v111) : S128x128.Idx → EReal) = mat3 (F := Ideal) ![2, 0, 0] Cert.ReferenceIdeal.Facts₀.slices_S3x128x128_S1x128x128_2_0_0 (W14 m ρ c (Proc.devRef .tc main_arg2)) := by
  show StableHlo.after hostOps8 (W14 m ρ c) (Proc.devRef .tc main_v111) = _
  after_results
  try rfl
set_option maxHeartbeats 4000000 in
theorem w2_2 : (W15 m ρ c (Proc.devRef .tc main_v122) : S128x128.Idx → EReal) = mat3 (F := Ideal) ![2, 0, 0] Cert.ReferenceIdeal.Facts₀.slices_S3x128x128_S1x128x128_2_0_0 (W14 m ρ c (Proc.devRef .tc main_arg6)) := by
  show StableHlo.after hostOps8 (W14 m ρ c) (Proc.devRef .tc main_v122) = _
  after_results
  try rfl
set_option maxHeartbeats 4000000 in
theorem b1_2 : (W15 m ρ c (Proc.devRef .tc main_v114) : S1x128.Idx → EReal) = shapeCast S1x128 (row3 (F := Ideal) ![2, 0] Cert.ReferenceIdeal.Facts₀.slices_S3x128_S1x128_2_0 (W14 m ρ c (Proc.devRef .tc main_arg3))) Cert.KernelIdeal.Facts₀.shapeCasts_S128_S1x128 := by
  show StableHlo.after hostOps8 (W14 m ρ c) (Proc.devRef .tc main_v114) = _
  after_results
  try rfl
set_option maxHeartbeats 4000000 in
theorem g_2 : (W15 m ρ c (Proc.devRef .tc main_v117) : S1x128.Idx → EReal) = shapeCast S1x128 (row3 (F := Ideal) ![2, 0] Cert.ReferenceIdeal.Facts₀.slices_S3x128_S1x128_2_0 (W14 m ρ c (Proc.devRef .tc main_arg4))) Cert.KernelIdeal.Facts₀.shapeCasts_S128_S1x128 := by
  show StableHlo.after hostOps8 (W14 m ρ c) (Proc.devRef .tc main_v117) = _
  after_results
  try rfl
set_option maxHeartbeats 4000000 in
theorem be_2 : (W15 m ρ c (Proc.devRef .tc main_v120) : S1x128.Idx → EReal) = shapeCast S1x128 (row3 (F := Ideal) ![2, 0] Cert.ReferenceIdeal.Facts₀.slices_S3x128_S1x128_2_0 (W14 m ρ c (Proc.devRef .tc main_arg5))) Cert.KernelIdeal.Facts₀.shapeCasts_S128_S1x128 := by
  show StableHlo.after hostOps8 (W14 m ρ c) (Proc.devRef .tc main_v120) = _
  after_results
  try rfl
set_option maxHeartbeats 4000000 in
theorem b2_2 : (W15 m ρ c (Proc.devRef .tc main_v125) : S1x128.Idx → EReal) = shapeCast S1x128 (row3 (F := Ideal) ![2, 0] Cert.ReferenceIdeal.Facts₀.slices_S3x128_S1x128_2_0 (W14 m ρ c (Proc.devRef .tc main_arg7))) Cert.KernelIdeal.Facts₀.shapeCasts_S128_S1x128 := by
  show StableHlo.after hostOps8 (W14 m ρ c) (Proc.devRef .tc main_v125) = _
  after_results
  try rfl

/-! ## Layer 2: the mean and variance after its first region -/

theorem mean_2 : (W17 m ρ c (Proc.devRef .tc main_v128) : S1x128.Idx → EReal)
    = Host.divf (F := Ideal) (W16 m ρ c (Proc.devRef .tc main_v126_1)) (broadcastInDim S1x128 ![] Cert.KernelIdeal.Facts₀.bcast_S_S1x128 (constant S_ .f32 0x47435000#32)) := by
  show StableHlo.after hostOps9 (W16 m ρ c) (Proc.devRef .tc main_v128) = _
  after_results
  try rfl
theorem var_2 : (W17 m ρ c (Proc.devRef .tc main_v132) : S1x128.Idx → EReal)
    = subf (F := Ideal) (Host.divf (W16 m ρ c (Proc.devRef .tc main_v126_2)) (broadcastInDim S1x128 ![] Cert.KernelIdeal.Facts₀.bcast_S_S1x128 (constant S_ .f32 0x47435000#32)))
        (mulf (Host.divf (W16 m ρ c (Proc.devRef .tc main_v126_1)) (broadcastInDim S1x128 ![] Cert.KernelIdeal.Facts₀.bcast_S_S1x128 (constant S_ .f32 0x47435000#32)))
          (Host.divf (W16 m ρ c (Proc.devRef .tc main_v126_1)) (broadcastInDim S1x128 ![] Cert.KernelIdeal.Facts₀.bcast_S_S1x128 (constant S_ .f32 0x47435000#32)))) := by
  show StableHlo.after hostOps9 (W16 m ρ c) (Proc.devRef .tc main_v132) = _
  after_results
  try rfl

end Cert.KernelIdeal.HostRead

end
-- ==== Proof.KernelIdeal.Payloads.lean ====
/-
  The arithmetic of each kernel tile, read at one entry, at the extended reals.

  Every region of the program computes its tile from the tiles it loaded by a fixed chain of vector operations. Read at
  row `p` and feature `j` (the accumulators: at the one row `0` and feature `j`), each chain is a closed formula in the
  entries of the loaded tiles:
  • the linear tiles — the rows (in regions 0, 4, 8 the rows plus the neighbour rows) times the 128×128 weights plus the
    bias row; the narrowing of the operands to sixteen bits is the identity on extended reals and the product accumulates
    into zero, so the entry is `∑ k, row k * weight k j` plus the bias;
  • the two accumulators of the column statistics — both start at zero; after a tile each holds what it held plus the
    tile's column sums, of the entries and of their squares;
  • batch normalisation followed by the rectifier — `max (γ * (x − μ) * rsqrt (v + ε) + β) 0` with the four statistics
    read from their one row;
  • the row normalisation — the entry divided by the larger of the row's Euclidean norm and the floor.
  The float words `ε` and the floor stay the words `Cert.Spec.eps` and `Cert.Spec.tiny`; only the zero word is read as `0`.

  First the operations that are not pointwise, each read at an index given by coordinates: the product of a 5000×128 by a
  128×128 matrix, the sum of a tile over its rows and along its rows, the cast of a vector to a one-column matrix and the
  broadcast of a one-column matrix along the rows. Then the tiles, region by region; regions that run the same chain
  have the same statement with the region's number changed.
-/
import proofs.«176586_j29291676959176_1_alg».proof.Proof.Gen.KernelIdeal.Skeleton
import proofs.«176586_j29291676959176_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-! ## The non-pointwise operations of the tiles, read at an index -/

/-- A 5000×128 matrix times a 128×128 matrix, accumulated into zero, read at row `p` and column `j`:
    the sum over the contracted coordinate of the products of the entries. -/
theorem matmul_zero_apply {φ₁ φ₂ : FTy} (A : FVec Ideal S5000x128 φ₁) (B : FVec Ideal S128x128 φ₂) (p : Fin 5000) (j : Fin 128) :
    matmul dot_S5000x128_S128x128_S5000x128_1_0_0_1_n_n none A B (constant (F := Ideal) S5000x128 .f32 0x00000000#32) (ix2 p j)
      = ∑ k : Fin 128, A (ix2 p k) * B (ix2 k j) := by
  show FloatOps.matmul _ none A B _ (ix2 p j) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p j) ((contrEquiv1 _ 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p j) ((contrEquiv1 _ 128 rfl rfl).symm c) = ix2 c j := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The sum of a 5000×128 tile over its rows, read at column `j`. -/
theorem colSum_apply (src : FVec Ideal S5000x128 .f32) (h : S5000x128.Reduces [0] S128) (hφ : FKind.Formats .f32)
    (hacc : (0x00000000#32 : BitVec FTy.f32.bits) = FKind.add.neutral .f32 hφ) (j : Fin 128) :
    multiReduction .add [0] S128 src 0x00000000#32 h hφ hacc (ix1 j) = ∑ p : Fin 5000, src (ix2 p j) := by
  refine (Ideal.multiReduction_add_single src 0x00000000#32 h hφ hacc (ix1 j)).trans ?_
  show ∑ p : Fin 5000, src (h.lift (ix1 j) p) = _
  refine Finset.sum_congr rfl fun p _ => congrArg src ?_
  funext ax; apply Fin.ext
  match ax with
  | ⟨0, _⟩ => rfl
  | ⟨1, _⟩ => rfl

/-- The sum of a 5000×128 tile along each row, read at row `p`. -/
theorem rowSum_apply (src : FVec Ideal S5000x128 .f32) (h : S5000x128.Reduces [1] S5000) (hφ : FKind.Formats .f32)
    (hacc : (0x00000000#32 : BitVec FTy.f32.bits) = FKind.add.neutral .f32 hφ) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src ?_
  funext ax; apply Fin.ext
  match ax with
  | ⟨0, _⟩ => rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero word of the 32-bit format, as a scalar at the ideal values, is the extended real zero. -/
theorem scalar_zero_f32 : (Scalar.ofBits (F := Ideal) .f32 0x00000000#32 : EReal) = 0 := Ideal.ofBits_zero_f32

/-! ## The linear tiles -/

/-- Region 0: the rows plus the neighbour rows, times the weights, plus the bias. -/
theorem k0_pay3_apply (x0 x1 : Vec Ideal S5000x128 .f32) (x2 : Vec Ideal S128x128 .f32) (x3 : Vec Ideal S1x128 .f32)
    (p : Fin 5000) (j : Fin 128) :
    k0_pay3 x0 x1 x2 x3 (ix2 p j)
      = (∑ k : Fin 128, (x0 (ix2 p k) + x1 (ix2 p k)) * x2 (ix2 k j)) + x3 (ix2 0 j) := by
  unfold k0_pay3
  simp only [shapeCast_self]
  rw [addf_apply, broadcastTo_1b_ab_apply, matmul_zero_apply]
  rfl

/-- Region 4: the rows plus the neighbour rows, times the weights, plus the bias. -/
theorem k4_pay3_apply (x0 x1 : Vec Ideal S5000x128 .f32) (x2 : Vec Ideal S128x128 .f32) (x3 : Vec Ideal S1x128 .f32)
    (p : Fin 5000) (j : Fin 128) :
    k4_pay3 x0 x1 x2 x3 (ix2 p j)
      = (∑ k : Fin 128, (x0 (ix2 p k) + x1 (ix2 p k)) * x2 (ix2 k j)) + x3 (ix2 0 j) := by
  unfold k4_pay3
  simp only [shapeCast_self]
  rw [addf_apply, broadcastTo_1b_ab_apply, matmul_zero_apply]
  rfl

/-- Region 8: the rows plus the neighbour rows, times the weights, plus the bias. -/
theorem k8_pay3_apply (x0 x1 : Vec Ideal S5000x128 .f32) (x2 : Vec Ideal S128x128 .f32) (x3 : Vec Ideal S1x128 .f32)
    (p : Fin 5000) (j : Fin 128) :
    k8_pay3 x0 x1 x2 x3 (ix2 p j)
      = (∑ k : Fin 128, (x0 (ix2 p k) + x1 (ix2 p k)) * x2 (ix2 k j)) + x3 (ix2 0 j) := by
  unfold k8_pay3
  simp only [shapeCast_self]
  rw [addf_apply, broadcastTo_1b_ab_apply, matmul_zero_apply]
  rfl

/-- Region 2: the rows times the weights, plus the bias. -/
theorem k2_pay3_apply (x0 : Vec Ideal S5000x128 .f32) (x1 : Vec Ideal S128x128 .f32) (x2 : Vec Ideal S1x128 .f32)
    (p : Fin 5000) (j : Fin 128) :
    k2_pay3 x0 x1 x2 (ix2 p j) = (∑ k : Fin 128, x0 (ix2 p k) * x1 (ix2 k j)) + x2 (ix2 0 j) := by
  unfold k2_pay3
  simp only [shapeCast_self]
  rw [addf_apply, broadcastTo_1b_ab_apply, matmul_zero_apply]
  rfl

/-- Region 6: the rows times the weights, plus the bias. -/
theorem k6_pay3_apply (x0 : Vec Ideal S5000x128 .f32) (x1 : Vec Ideal S128x128 .f32) (x2 : Vec Ideal S1x128 .f32)
    (p : Fin 5000) (j : Fin 128) :
    k6_pay3 x0 x1 x2 (ix2 p j) = (∑ k : Fin 128, x0 (ix2 p k) * x1 (ix2 k j)) + x2 (ix2 0 j) := by
  unfold k6_pay3
  simp only [shapeCast_self]
  rw [addf_apply, broadcastTo_1b_ab_apply, matmul_zero_apply]
  rfl

/-- Region 10: the rows times the weights, plus the bias. -/
theorem k10_pay1_apply (x0 : Vec Ideal S5000x128 .f32) (x1 : Vec Ideal S128x128 .f32) (x2 : Vec Ideal S1x128 .f32)
    (p : Fin 5000) (j : Fin 128) :
    k10_pay1 x0 x1 x2 (ix2 p j) = (∑ k : Fin 128, x0 (ix2 p k) * x1 (ix2 k j)) + x2 (ix2 0 j) := by
  unfold k10_pay1
  simp only [shapeCast_self]
  rw [addf_apply, broadcastTo_1b_ab_apply, matmul_zero_apply]
  rfl

/-! ## The accumulators of the column statistics -/

/-- Region 0: the sum accumulator starts at zero. -/
theorem k0_pay1_apply (j : Fin 128) : k0_pay1 (F := Ideal) (ix2 0 j) = 0 := by
  unfold k0_pay1
  simp only [shapeCast_self]
  exact scalar_zero_f32

/-- Region 0: the sum-of-squares accumulator starts at zero. -/
theorem k0_pay2_apply (j : Fin 128) : k0_pay2 (F := Ideal) (ix2 0 j) = 0 := by
  unfold k0_pay2
  simp only [shapeCast_self]
  exact scalar_zero_f32

/-- Region 0: the sum accumulator after a tile holds what it held plus the tile's column sums. -/
theorem k0_pay4_apply (x0 x1 : Vec Ideal S5000x128 .f32) (x2 : Vec Ideal S128x128 .f32) (x3 s : Vec Ideal S1x128 .f32)
    (j : Fin 128) :
    k0_pay4 x0 x1 x2 x3 s (ix2 0 j) = s (ix2 0 j) + ∑ p : Fin 5000, k0_pay3 x0 x1 x2 x3 (ix2 p j) := by
  unfold k0_pay4
  simp only [shapeCast_self]
  rw [addf_apply, shapeCast_a_1a_apply]
  exact congrArg (s (ix2 0 j) + ·) (colSum_apply _ _ _ _ j)

/-- Region 0: the sum-of-squares accumulator after a tile holds what it held plus the column sums of the tile's squares. -/
theorem k0_pay5_apply (x0 x1 : Vec Ideal S5000x128 .f32) (x2 : Vec Ideal S128x128 .f32) (x3 q : Vec Ideal S1x128 .f32)
    (j : Fin 128) :
    k0_pay5 x0 x1 x2 x3 q (ix2 0 j)
      = q (ix2 0 j) + ∑ p : Fin 5000, k0_pay3 x0 x1 x2 x3 (ix2 p j) * k0_pay3 x0 x1 x2 x3 (ix2 p j) := by
  unfold k0_pay5
  simp only [shapeCast_self]
  rw [addf_apply, shapeCast_a_1a_apply]
  exact congrArg (q (ix2 0 j) + ·) (colSum_apply _ _ _ _ j)

/-- Region 4: the sum accumulator starts at zero. -/
theorem k4_pay1_apply (j : Fin 128) : k4_pay1 (F := Ideal) (ix2 0 j) = 0 := by
  unfold k4_pay1
  simp only [shapeCast_self]
  exact scalar_zero_f32

/-- Region 4: the sum-of-squares accumulator starts at zero. -/
theorem k4_pay2_apply (j : Fin 128) : k4_pay2 (F := Ideal) (ix2 0 j) = 0 := by
  unfold k4_pay2
  simp only [shapeCast_self]
  exact scalar_zero_f32

/-- Region 4: the sum accumulator after a tile holds what it held plus the tile's column sums. -/
theorem k4_pay4_apply (x0 x1 : Vec Ideal S5000x128 .f32) (x2 : Vec Ideal S128x128 .f32) (x3 s : Vec Ideal S1x128 .f32)
    (j : Fin 128) :
    k4_pay4 x0 x1 x2 x3 s (ix2 0 j) = s (ix2 0 j) + ∑ p : Fin 5000, k4_pay3 x0 x1 x2 x3 (ix2 p j) := by
  unfold k4_pay4
  simp only [shapeCast_self]
  rw [addf_apply, shapeCast_a_1a_apply]
  exact congrArg (s (ix2 0 j) + ·) (colSum_apply _ _ _ _ j)

/-- Region 4: the sum-of-squares accumulator after a tile holds what it held plus the column sums of the tile's squares. -/
theorem k4_pay5_apply (x0 x1 : Vec Ideal S5000x128 .f32) (x2 : Vec Ideal S128x128 .f32) (x3 q : Vec Ideal S1x128 .f32)
    (j : Fin 128) :
    k4_pay5 x0 x1 x2 x3 q (ix2 0 j)
      = q (ix2 0 j) + ∑ p : Fin 5000, k4_pay3 x0 x1 x2 x3 (ix2 p j) * k4_pay3 x0 x1 x2 x3 (ix2 p j) := by
  unfold k4_pay5
  simp only [shapeCast_self]
  rw [addf_apply, shapeCast_a_1a_apply]
  exact congrArg (q (ix2 0 j) + ·) (colSum_apply _ _ _ _ j)

/-- Region 8: the sum accumulator starts at zero. -/
theorem k8_pay1_apply (j : Fin 128) : k8_pay1 (F := Ideal) (ix2 0 j) = 0 := by
  unfold k8_pay1
  simp only [shapeCast_self]
  exact scalar_zero_f32

/-- Region 8: the sum-of-squares accumulator starts at zero. -/
theorem k8_pay2_apply (j : Fin 128) : k8_pay2 (F := Ideal) (ix2 0 j) = 0 := by
  unfold k8_pay2
  simp only [shapeCast_self]
  exact scalar_zero_f32

/-- Region 8: the sum accumulator after a tile holds what it held plus the tile's column sums. -/
theorem k8_pay4_apply (x0 x1 : Vec Ideal S5000x128 .f32) (x2 : Vec Ideal S128x128 .f32) (x3 s : Vec Ideal S1x128 .f32)
    (j : Fin 128) :
    k8_pay4 x0 x1 x2 x3 s (ix2 0 j) = s (ix2 0 j) + ∑ p : Fin 5000, k8_pay3 x0 x1 x2 x3 (ix2 p j) := by
  unfold k8_pay4
  simp only [shapeCast_self]
  rw [addf_apply, shapeCast_a_1a_apply]
  exact congrArg (s (ix2 0 j) + ·) (colSum_apply _ _ _ _ j)

/-- Region 8: the sum-of-squares accumulator after a tile holds what it held plus the column sums of the tile's squares. -/
theorem k8_pay5_apply (x0 x1 : Vec Ideal S5000x128 .f32) (x2 : Vec Ideal S128x128 .f32) (x3 q : Vec Ideal S1x128 .f32)
    (j : Fin 128) :
    k8_pay5 x0 x1 x2 x3 q (ix2 0 j)
      = q (ix2 0 j) + ∑ p : Fin 5000, k8_pay3 x0 x1 x2 x3 (ix2 p j) * k8_pay3 x0 x1 x2 x3 (ix2 p j) := by
  unfold k8_pay5
  simp only [shapeCast_self]
  rw [addf_apply, shapeCast_a_1a_apply]
  exact congrArg (q (ix2 0 j) + ·) (colSum_apply _ _ _ _ j)

/-- Region 2: the sum accumulator starts at zero. -/
theorem k2_pay1_apply (j : Fin 128) : k2_pay1 (F := Ideal) (ix2 0 j) = 0 := by
  unfold k2_pay1
  simp only [shapeCast_self]
  exact scalar_zero_f32

/-- Region 2: the sum-of-squares accumulator starts at zero. -/
theorem k2_pay2_apply (j : Fin 128) : k2_pay2 (F := Ideal) (ix2 0 j) = 0 := by
  unfold k2_pay2
  simp only [shapeCast_self]
  exact scalar_zero_f32

/-- Region 2: the sum accumulator after a tile holds what it held plus the tile's column sums. -/
theorem k2_pay4_apply (x0 : Vec Ideal S5000x128 .f32) (x1 : Vec Ideal S128x128 .f32) (x2 s : Vec Ideal S1x128 .f32)
    (j : Fin 128) :
    k2_pay4 x0 x1 x2 s (ix2 0 j) = s (ix2 0 j) + ∑ p : Fin 5000, k2_pay3 x0 x1 x2 (ix2 p j) := by
  unfold k2_pay4
  simp only [shapeCast_self]
  rw [addf_apply, shapeCast_a_1a_apply]
  exact congrArg (s (ix2 0 j) + ·) (colSum_apply _ _ _ _ j)

/-- Region 2: the sum-of-squares accumulator after a tile holds what it held plus the column sums of the tile's squares. -/
theorem k2_pay5_apply (x0 : Vec Ideal S5000x128 .f32) (x1 : Vec Ideal S128x128 .f32) (x2 q : Vec Ideal S1x128 .f32)
    (j : Fin 128) :
    k2_pay5 x0 x1 x2 q (ix2 0 j)
      = q (ix2 0 j) + ∑ p : Fin 5000, k2_pay3 x0 x1 x2 (ix2 p j) * k2_pay3 x0 x1 x2 (ix2 p j) := by
  unfold k2_pay5
  simp only [shapeCast_self]
  rw [addf_apply, shapeCast_a_1a_apply]
  exact congrArg (q (ix2 0 j) + ·) (colSum_apply _ _ _ _ j)

/-- Region 6: the sum accumulator starts at zero. -/
theorem k6_pay1_apply (j : Fin 128) : k6_pay1 (F := Ideal) (ix2 0 j) = 0 := by
  unfold k6_pay1
  simp only [shapeCast_self]
  exact scalar_zero_f32

/-- Region 6: the sum-of-squares accumulator starts at zero. -/
theorem k6_pay2_apply (j : Fin 128) : k6_pay2 (F := Ideal) (ix2 0 j) = 0 := by
  unfold k6_pay2
  simp only [shapeCast_self]
  exact scalar_zero_f32

/-- Region 6: the sum accumulator after a tile holds what it held plus the tile's column sums. -/
theorem k6_pay4_apply (x0 : Vec Ideal S5000x128 .f32) (x1 : Vec Ideal S128x128 .f32) (x2 s : Vec Ideal S1x128 .f32)
    (j : Fin 128) :
    k6_pay4 x0 x1 x2 s (ix2 0 j) = s (ix2 0 j) + ∑ p : Fin 5000, k6_pay3 x0 x1 x2 (ix2 p j) := by
  unfold k6_pay4
  simp only [shapeCast_self]
  rw [addf_apply, shapeCast_a_1a_apply]
  exact congrArg (s (ix2 0 j) + ·) (colSum_apply _ _ _ _ j)

/-- Region 6: the sum-of-squares accumulator after a tile holds what it held plus the column sums of the tile's squares. -/
theorem k6_pay5_apply (x0 : Vec Ideal S5000x128 .f32) (x1 : Vec Ideal S128x128 .f32) (x2 q : Vec Ideal S1x128 .f32)
    (j : Fin 128) :
    k6_pay5 x0 x1 x2 q (ix2 0 j)
      = q (ix2 0 j) + ∑ p : Fin 5000, k6_pay3 x0 x1 x2 (ix2 p j) * k6_pay3 x0 x1 x2 (ix2 p j) := by
  unfold k6_pay5
  simp only [shapeCast_self]
  rw [addf_apply, shapeCast_a_1a_apply]
  exact congrArg (q (ix2 0 j) + ·) (colSum_apply _ _ _ _ j)

/-! ## Batch normalisation followed by the rectifier -/

/-- Region 1: the scale times (the entry minus the mean), times the reciprocal root of (the variance plus epsilon), plus
    the shift; then the larger of that and zero. -/
theorem k1_pay1_apply (v0 : Vec Ideal S5000x128 .f32) (v2 v7 v9 v17 : Vec Ideal S1x128 .f32) (p : Fin 5000) (j : Fin 128) :
    k1_pay1 v0 v2 v7 v9 v17 (ix2 p j)
      = max (v7 (ix2 0 j) * (v0 (ix2 p j) - v9 (ix2 0 j)) * Ideal.rsqrt (v2 (ix2 0 j) + Cert.Spec.eps) + v17 (ix2 0 j)) 0 := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, scalar_zero_f32]
  rfl

/-- Region 3: the scale times (the entry minus the mean), times the reciprocal root of (the variance plus epsilon), plus
    the shift; then the larger of that and zero. -/
theorem k3_pay1_apply (v0 : Vec Ideal S5000x128 .f32) (v2 v7 v9 v17 : Vec Ideal S1x128 .f32) (p : Fin 5000) (j : Fin 128) :
    k3_pay1 v0 v2 v7 v9 v17 (ix2 p j)
      = max (v7 (ix2 0 j) * (v0 (ix2 p j) - v9 (ix2 0 j)) * Ideal.rsqrt (v2 (ix2 0 j) + Cert.Spec.eps) + v17 (ix2 0 j)) 0 := by
  unfold k3_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, scalar_zero_f32]
  rfl

/-- Region 5: the scale times (the entry minus the mean), times the reciprocal root of (the variance plus epsilon), plus
    the shift; then the larger of that and zero. -/
theorem k5_pay1_apply (v0 : Vec Ideal S5000x128 .f32) (v2 v7 v9 v17 : Vec Ideal S1x128 .f32) (p : Fin 5000) (j : Fin 128) :
    k5_pay1 v0 v2 v7 v9 v17 (ix2 p j)
      = max (v7 (ix2 0 j) * (v0 (ix2 p j) - v9 (ix2 0 j)) * Ideal.rsqrt (v2 (ix2 0 j) + Cert.Spec.eps) + v17 (ix2 0 j)) 0 := by
  unfold k5_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, scalar_zero_f32]
  rfl

/-- Region 7: the scale times (the entry minus the mean), times the reciprocal root of (the variance plus epsilon), plus
    the shift; then the larger of that and zero. -/
theorem k7_pay1_apply (v0 : Vec Ideal S5000x128 .f32) (v2 v7 v9 v17 : Vec Ideal S1x128 .f32) (p : Fin 5000) (j : Fin 128) :
    k7_pay1 v0 v2 v7 v9 v17 (ix2 p j)
      = max (v7 (ix2 0 j) * (v0 (ix2 p j) - v9 (ix2 0 j)) * Ideal.rsqrt (v2 (ix2 0 j) + Cert.Spec.eps) + v17 (ix2 0 j)) 0 := by
  unfold k7_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, scalar_zero_f32]
  rfl

/-- Region 9: the scale times (the entry minus the mean), times the reciprocal root of (the variance plus epsilon), plus
    the shift; then the larger of that and zero. -/
theorem k9_pay1_apply (v0 : Vec Ideal S5000x128 .f32) (v2 v7 v9 v17 : Vec Ideal S1x128 .f32) (p : Fin 5000) (j : Fin 128) :
    k9_pay1 v0 v2 v7 v9 v17 (ix2 p j)
      = max (v7 (ix2 0 j) * (v0 (ix2 p j) - v9 (ix2 0 j)) * Ideal.rsqrt (v2 (ix2 0 j) + Cert.Spec.eps) + v17 (ix2 0 j)) 0 := by
  unfold k9_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply, scalar_zero_f32]
  rfl

/-! ## The row normalisation -/

/-- Region 11: each entry divided by the larger of its row's Euclidean norm and the floor. -/
theorem k11_pay1_apply (v0 : Vec Ideal S5000x128 .f32) (p : Fin 5000) (j : Fin 128) :
    k11_pay1 v0 (ix2 p j)
      = Ideal.div (v0 (ix2 p j)) (max (Ideal.sqrt (∑ k : Fin 128, v0 (ix2 p k) * v0 (ix2 p k))) Cert.Spec.tiny) := by
  unfold k11_pay1
  simp only [shapeCast_self]
  rw [divf_apply, broadcastTo_a1_ab_apply, maximumf_apply, broadcast_apply]
  show Ideal.div _ (max (Ideal.sqrt (shapeCast S5000x1 _ _ (ix2 p (0 : Fin 1)))) _) = _
  rw [shapeCast_a_a1_apply]
  exact congrArg (fun t => Ideal.div (v0 (ix2 p j)) (max (Ideal.sqrt t) Cert.Spec.tiny)) (rowSum_apply _ _ _ _ p)

end Cert.KernelIdeal.Payloads

end
-- ==== Proof.LibBnStats.lean ====
/-
  Batch statistics over the extended reals.

  A column of finitely many REAL entries has a mean and two spellings of its variance: the mean of the squared
  deviations, and the mean of the squares minus the square of the mean. Over the reals they agree; here the entries live
  in the extended reals, division is by a nonzero real constant equal to the number of entries, and the agreement is
  proved by pushing every coercion outward.  Also: closure of "is a real number" under the operations a dense layer uses.
-/
import Mathlib
import Idealize.ShloMosaic.PureOps.Ideal

noncomputable section

namespace BnStats

open Idealize.ShloMosaic

/-- A finite sum of coerced reals is the coercion of the real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) {f : ι → EReal} (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

theorem IsReal.div_coe {x : EReal} (hx : IsReal x) {c : ℝ} (hc : c ≠ 0) : IsReal (Ideal.div x (c : EReal)) := by
  rw [Ideal.div_coe hc]; exact hx.mul ⟨_, rfl⟩

/-- The inverse square root of a POSITIVE real is a real. -/
theorem IsReal.rsqrt_pos {r : ℝ} (hr : 0 < r) : IsReal (Ideal.rsqrt (r : EReal)) := by
  rw [Ideal.rsqrt_coe, if_neg (not_lt.mpr hr.le), if_neg hr.ne']; exact ⟨_, rfl⟩

/-- The two spellings of the (biased) variance of finitely many real entries agree, the divisor being the number of
    entries: the mean of the squared deviations is the mean of the squares minus the squared mean. -/
theorem var_eq {ρ : Type*} [Fintype ρ] (L : ρ → EReal) (hL : ∀ r, IsReal (L r)) (c : ℝ)
    (hc : (Fintype.card ρ : ℝ) = c) (hc0 : c ≠ 0) :
    Ideal.div (∑ r, (L r - Ideal.div (∑ r, L r) (c : EReal)) * (L r - Ideal.div (∑ r, L r) (c : EReal))) (c : EReal)
      = Ideal.div (∑ r, L r * L r) (c : EReal)
          - Ideal.div (∑ r, L r) (c : EReal) * Ideal.div (∑ r, L r) (c : EReal) := by
  choose l hl using hL
  obtain rfl : L = fun r => ((l r : ℝ) : EReal) := funext hl
  simp only [Ideal.div_coe hc0, coe_finset_sum, ← EReal.coe_mul, ← EReal.coe_sub]
  rw [EReal.coe_eq_coe_iff]
  have h1 : ∑ r, (l r - (∑ r, l r) * (1 / c)) * (l r - (∑ r, l r) * (1 / c))
      = ∑ r, l r * l r - 2 * ((∑ r, l r) * (1 / c)) * ∑ r, l r
        + (Fintype.card ρ : ℝ) * (((∑ r, l r) * (1 / c)) * ((∑ r, l r) * (1 / c))) := by
    simp only [sub_mul, mul_sub, Finset.sum_sub_distrib, ← Finset.mul_sum, ← Finset.sum_mul, Finset.sum_const,
      Finset.card_univ, nsmul_eq_mul]
    ring
  rw [h1, hc]
  field_simp
  ring

/-- The variance of real entries, in its deviation spelling, is a non-negative real; so adding a positive real keeps it
    positive. -/
theorem var_dev_nonneg {ρ : Type*} [Fintype ρ] (l : ρ → ℝ) (μ c : ℝ) (hc : 0 < c) :
    0 ≤ (∑ r, (l r - μ) * (l r - μ)) * (1 / c) :=
  mul_nonneg (Finset.sum_nonneg fun r _ => mul_self_nonneg _) (by positivity)

/-- A sum over `a * b` rows is the sum over `a` tiles of the sums over the `b` rows of each tile. -/
theorem sum_tiles (a b : ℕ) {M : Type*} [AddCommMonoid M] (f : Fin (a * b) → M) :
    ∑ r : Fin (a * b), f r = ∑ t : Fin a, ∑ q : Fin b, f (finProdFinEquiv (t, q)) := by
  rw [← Fintype.sum_prod_type', ← Equiv.sum_comp finProdFinEquiv]

end BnStats

end
-- ==== Proof.KernelIdeal.LinearStatsValue.lean ====
/-
  The five linear-with-statistics regions read as whole arrays, over extended reals: the rows a
  region leaves are the specification's linear layer of the arrays it finds (each point writes its
  tile of 5000 rows, and the ten tiles cover the 50000 rows); the two small outputs, written back
  at the last point only, are the accumulators after the tenth tile, the column sums and the column
  sums of squares over all the rows.
-/
import proofs.«176586_j29291676959176_1_alg».proof.Proof.KernelIdeal.LinearStats1
import proofs.«176586_j29291676959176_1_alg».proof.Proof.KernelIdeal.LinearStats2
import proofs.«176586_j29291676959176_1_alg».proof.Proof.KernelIdeal.LinearStats3
import proofs.«176586_j29291676959176_1_alg».proof.Proof.KernelIdeal.LinearStats4
import proofs.«176586_j29291676959176_1_alg».proof.Proof.KernelIdeal.LinearStats5
import proofs.«176586_j29291676959176_1_alg».proof.Proof.KernelIdeal.Payloads
import proofs.«176586_j29291676959176_1_alg».proof.Proof.KernelIdeal.Shapes
import proofs.«176586_j29291676959176_1_alg».proof.Proof.LibBnStats
import Idealize.ShloMosaic.Lib.Pipeline.Value

set_option maxRecDepth 16384

noncomputable section

namespace Cert.KernelIdeal.LinearStatsValue

open Cert.KernelIdeal Cert.KernelIdeal.Gen Cert.KernelIdeal.Shapes Cert.KernelIdeal.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A sum over 50000 rows is the sum over ten tiles of the sums over each tile's 5000 rows. -/
theorem sum_rows (f : ℕ → EReal) : ∑ r : Fin 50000, f r.val = ∑ t : Fin 10, ∑ p : Fin 5000, f (t.val * 5000 + p.val) := by
  refine (BnStats.sum_tiles 10 5000 (fun r : Fin (10 * 5000) => f r.val)).trans ?_
  refine Finset.sum_congr rfl fun t _ => Finset.sum_congr rfl fun q _ => ?_
  refine congrArg f ?_
  show q.val + 5000 * t.val = t.val * 5000 + q.val
  omega

/-! ## Region 0 -/

section Region0

/-- Window 0's array as the region finds it. -/
abbrev arr0_0 (c : Dev nD) : S50000x128.Idx → EReal := V c (Pipeline.arrRef spec0 0)
/-- Window 1's array as the region finds it. -/
abbrev arr0_1 (c : Dev nD) : S50000x128.Idx → EReal := V c (Pipeline.arrRef spec0 1)
/-- Window 2's array as the region finds it. -/
abbrev arr0_2 (c : Dev nD) : S128x128.Idx → EReal := V c (Pipeline.arrRef spec0 2)
/-- Window 3's array as the region finds it. -/
abbrev arr0_3 (c : Dev nD) : S1x128.Idx → EReal := V c (Pipeline.arrRef spec0 3)

/-- The printed index maps of region 0, decided over its ten points: the row windows move one tile a point, the others stay. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_4.index t (0 : Fin 2) = t.val
    ∧ win0_4.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

theorem tile0_0 (c : Dev nD) (t : Fin cfg0.N) (y : S5000x128.Idx) :
    LinearStats1.tile V c 0 t y = (arr0_0 V c) (ix2 ⟨t.val * 5000 + (y 0).val, by have h5 : (y 0).val < 5000 := (y 0).isLt; have := t.isLt; have : cfg0.N = 10 := N_0; omega⟩ (y 1)) := by
  obtain ⟨e0, e1, e2, e3, e4, e5, e6, e7, e8, e9, e10, e11, e12, e13⟩ := idx_facts0 t
  unfold LinearStats1.tile arr0_0
  rw [View.read_apply]
  refine congrArg (V c (Pipeline.arrRef spec0 0)) (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

theorem tile0_1 (c : Dev nD) (t : Fin cfg0.N) (y : S5000x128.Idx) :
    LinearStats1.tile V c 1 t y = (arr0_1 V c) (ix2 ⟨t.val * 5000 + (y 0).val, by have h5 : (y 0).val < 5000 := (y 0).isLt; have := t.isLt; have : cfg0.N = 10 := N_0; omega⟩ (y 1)) := by
  obtain ⟨e0, e1, e2, e3, e4, e5, e6, e7, e8, e9, e10, e11, e12, e13⟩ := idx_facts0 t
  unfold LinearStats1.tile arr0_1
  rw [View.read_apply]
  refine congrArg (V c (Pipeline.arrRef spec0 1)) (funext fun a => Fin.ext ?_)
  match a with
  | ⟨0, _⟩ => show win0_1.index t (0 : Fin 2) * 5000 + 1 * (y 0).val = t.val * 5000 + (y 0).val; omega
  | ⟨1, _⟩ => show win0_1.index t (1 : Fin 2) * 128 + 1 * (y 1).val = (y 1).val; omega

theorem tile0_2 (c : Dev nD) (t : Fin cfg0.N) (y : S128x128.Idx) :
    LinearStats1.tile V c 2 t y = (arr0_2 V c) (ix2 (y 0) (y 1)) := by
  obtain ⟨e0, e1, e2, e3, e4, e5, e6, e7, e8, e9, e10, e11, e12, e13⟩ := idx_facts0 t
  unfold LinearStats1.tile arr0_2
  rw [View.read_apply]
  refine congrArg (V c (Pipeline.arrRef spec0 2)) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem tile0_3 (c : Dev nD) (t : Fin cfg0.N) (y : S1x128.Idx) :
    LinearStats1.tile V c 3 t y = (arr0_3 V c) (ix2 (y 0) (y 1)) := by
  obtain ⟨e0, e1, e2, e3, e4, e5, e6, e7, e8, e9, e10, e11, e12, e13⟩ := idx_facts0 t
  unfold LinearStats1.tile arr0_3
  rw [View.read_apply]
  refine congrArg (V c (Pipeline.arrRef spec0 3)) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The region's rows as the specification's linear layer of the arrays it finds. -/
def Y0 (c : Dev nD) : Cert.Spec.Mat 50000 128 :=
  Cert.Spec.lin (fun r k => (arr0_0 V c) (ix2 r k) + (arr0_1 V c) (ix2 r k)) (curry (arr0_2 V c)) (row (arr0_3 V c))

/-- The same as an array. -/
def G0 (c : Dev nD) : S50000x128.Idx → EReal := fun i => Y0 V c (i 0) (i 1)

/-- A tile's payload at row `p`, feature `j`, is row `t · 5000 + p` of the linear layer. -/
theorem pay3_tile0 (c : Dev nD) (t : Fin cfg0.N) (p : Fin 5000) (j : Fin 128) :
    k0_pay3 (LinearStats1.tile V c 0 t) (LinearStats1.tile V c 1 t) (LinearStats1.tile V c 2 t) (LinearStats1.tile V c 3 t) (ix2 p j)
      = Y0 V c ⟨t.val * 5000 + p.val, by have h5 : p.val < 5000 := p.isLt; have := t.isLt; have : cfg0.N = 10 := N_0; omega⟩ j := by
  rw [k0_pay3_apply]
  unfold Y0 Cert.Spec.lin
  simp only [tile0_0, tile0_1, tile0_2, tile0_3]
  rfl

/-- Row `r` of the linear layer, zero past the last row: the rows by their number. -/
def rowN0 (c : Dev nD) (r : ℕ) (j : Fin 128) : EReal := if h : r < 50000 then Y0 V c ⟨r, h⟩ j else 0

theorem rowN0_val (c : Dev nD) (r : Fin 50000) (j : Fin 128) : rowN0 V c r.val j = Y0 V c r j := by
  unfold rowN0; rw [dif_pos r.isLt]

theorem pay3_rowN0 (c : Dev nD) (t : Fin cfg0.N) (p : Fin 5000) (j : Fin 128) :
    k0_pay3 (LinearStats1.tile V c 0 t) (LinearStats1.tile V c 1 t) (LinearStats1.tile V c 2 t) (LinearStats1.tile V c 3 t) (ix2 p j) = rowN0 V c (t.val * 5000 + p.val) j := by
  rw [pay3_tile0]
  unfold rowN0
  rw [dif_pos]

/-- What point `t` writes back of the rows is its tile of the linear layer. -/
theorem flushed_rows0 (c : Dev nD) (t : Fin cfg0.N) :
    (LinearStats1.dat (F := Ideal) V c).flushed 4 t = ((cfg0.win 4).blk t).view.read (Elt Ideal) (G0 V c) := by
  obtain ⟨e0, e1, e2, e3, e4, e5, e6, e7, e8, e9, e10, e11, e12, e13⟩ := idx_facts0 t
  show (cfg0.win 4).cut (grid0.coords t) ((LinearStats1.dat (F := Ideal) V c).after 4 t) = _
  rw [LinearStats1.after_4]
  refine funext fun (y : S5000x128.Idx) => ?_
  rw [View.read_apply]
  obtain ⟨p, j, rfl⟩ : ∃ (p : Fin 5000) (j : Fin 128), y = ix2 p j := ⟨y 0, y 1, eq_ix2 y⟩
  show k0_pay3 (LinearStats1.tile V c 0 t) (LinearStats1.tile V c 1 t) (LinearStats1.tile V c 2 t) (LinearStats1.tile V c 3 t) (ix2 p j) = G0 V c (((cfg0.win 4).blk t).view.emb (ix2 p j))
  rw [pay3_tile0]
  unfold G0
  have hr : (((cfg0.win 4).blk t).view.emb (ix2 p j) 0).val = t.val * 5000 + p.val := by
    show win0_4.index t (0 : Fin 2) * 5000 + 1 * p.val = t.val * 5000 + p.val; omega
  have hc : (((cfg0.win 4).blk t).view.emb (ix2 p j) 1).val = j.val := by
    show win0_4.index t (1 : Fin 2) * 128 + 1 * j.val = j.val; omega
  exact congrArg₂ (Y0 V c) (Fin.ext hr.symm) (Fin.ext hc.symm)

/-- An index of the rows' array is in point `t`'s block iff each coordinate is in the block's range. -/
theorem mem_rows0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_0).slice (win0_4.rect t)).set ↔ _
  rw [View.set_slice_whole, Rect.mem_set_unit]
  exact Iff.rfl

/-- Every row is in the tile of the point `row / 5000`. -/
theorem cover_rows0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by omega⟩, flush0_4 _, ?_⟩
  obtain ⟨e0, e1, e2, e3, e4, e5, e6, e7, e8, e9, e10, e11, e12, e13⟩ := idx_facts0 ⟨(i 0).val / 5000, by omega⟩
  rw [mem_rows0]
  intro a
  match a with
  | ⟨0, _⟩ => show win0_4.index _ (0 : Fin 2) * 5000 ≤ (i 0).val ∧ (i 0).val < win0_4.index _ (0 : Fin 2) * 5000 + 5000; rw [e4]; show (i 0).val / 5000 * 5000 ≤ (i 0).val ∧ (i 0).val < (i 0).val / 5000 * 5000 + 5000; omega
  | ⟨1, _⟩ => show win0_4.index _ (1 : Fin 2) * 128 ≤ (i 1).val ∧ (i 1).val < win0_4.index _ (1 : Fin 2) * 128 + 128; rw [e5]; omega

/-- The rows the region leaves: the linear layer of the arrays it found. -/
theorem rows_eq0 (c : Dev nD) : curry ((LinearStats1.dat (F := Ideal) V c).arrAt 4 cfg0.N) = Y0 V c := by
  rw [(LinearStats1.dat (F := Ideal) V c).arrAt_eq_of_cover 4 (G0 V c) (fun t _ => flushed_rows0 V c t) cover_rows0]
  rfl

/-- An index of the small output's array is in point `t`'s block iff each coordinate is in the block's range. -/
theorem mem_sums0 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v30_1).slice (win0_5.rect t)).set ↔ _
  rw [View.set_slice_whole, Rect.mem_set_unit]
  exact Iff.rfl

/-- The only point that writes the small output back is the last, and what it writes is the accumulator after the tenth tile. -/
theorem flushed_sums0 (c : Dev nD) (t : Fin cfg0.N) (hf : (cfg0.win 5).flush t = true) :
    (LinearStats1.dat (F := Ideal) V c).flushed 5 t
      = ((cfg0.win 5).blk t).view.read (Elt Ideal) ((LinearStats1.acc V c 9 (by have : cfg0.N = 10 := N_0; omega)).1) := by
  have h9 : t.val = 9 := by have := (flush0_5 t).1 hf; have := t.isLt; have : cfg0.N = 10 := N_0; omega
  obtain ⟨e0, e1, e2, e3, e4, e5, e6, e7, e8, e9, e10, e11, e12, e13⟩ := idx_facts0 t
  show (cfg0.win 5).cut (grid0.coords t) ((LinearStats1.dat (F := Ideal) V c).after 5 t) = _
  rw [LinearStats1.after_5]
  refine funext fun (y : S1x128.Idx) => ?_
  rw [View.read_apply]
  have hemb : ((cfg0.win 5).blk t).view.emb y = y := funext fun a => Fin.ext (by
    match a with
    | ⟨0, _⟩ => show win0_5.index t (0 : Fin 2) * 1 + 1 * (y 0).val = (y 0).val; omega
    | ⟨1, _⟩ => show win0_5.index t (1 : Fin 2) * 128 + 1 * (y 1).val = (y 1).val; omega)
  rw [hemb]
  have key : ∀ (n : ℕ) (hn : n < cfg0.N), n = 9 →
      (LinearStats1.acc V c n hn).1 = (LinearStats1.acc V c 9 (by have : cfg0.N = 10 := N_0; omega)).1 := by
    intro n hn e; subst e; rfl
  exact congrFun (key t.val t.isLt h9) y

/-- The last point's block is the whole small array. -/
theorem cover_sums0 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  refine ⟨⟨9, by have : cfg0.N = 10 := N_0; omega⟩, (flush0_5 _).2 rfl, ?_⟩
  obtain ⟨e0, e1, e2, e3, e4, e5, e6, e7, e8, e9, e10, e11, e12, e13⟩ := idx_facts0 ⟨9, by have : cfg0.N = 10 := N_0; omega⟩
  rw [mem_sums0]
  intro a
  match a with
  | ⟨0, _⟩ => show win0_5.index _ (0 : Fin 2) * 1 ≤ (i 0).val ∧ (i 0).val < win0_5.index _ (0 : Fin 2) * 1 + 1; rw [e10]; omega
  | ⟨1, _⟩ => show win0_5.index _ (1 : Fin 2) * 128 ≤ (i 1).val ∧ (i 1).val < win0_5.index _ (1 : Fin 2) * 128 + 128; rw [e11]; omega

/-- The small output after the region is the accumulator after the tenth tile. -/
theorem sums_arr0 (c : Dev nD) :
    (LinearStats1.dat (F := Ideal) V c).arrAt 5 cfg0.N = (LinearStats1.acc V c 9 (by have : cfg0.N = 10 := N_0; omega)).1 :=
  (LinearStats1.dat (F := Ideal) V c).arrAt_eq_of_cover 5 _ (fun t hf => flushed_sums0 V c t hf) cover_sums0

/-- The accumulator after tile `n`, at feature `j`: the sum over the tiles so far of the sums over each tile's rows. -/
theorem acc_sums0 (c : Dev nD) : ∀ (n : ℕ) (hn : n < cfg0.N) (j : Fin 128),
    (LinearStats1.acc V c n hn).1 (ix2 0 j) = ∑ t ∈ Finset.range (n + 1), ∑ p : Fin 5000, rowN0 V c (t * 5000 + p.val) j
  | 0, hn, j => by
    show k0_pay4 (LinearStats1.tile V c 0 ⟨0, hn⟩) (LinearStats1.tile V c 1 ⟨0, hn⟩) (LinearStats1.tile V c 2 ⟨0, hn⟩) (LinearStats1.tile V c 3 ⟨0, hn⟩) (k0_pay1 (F := Ideal)) (ix2 0 j) = _
    rw [k0_pay4_apply, k0_pay1_apply, zero_add, Finset.sum_range_one]
    refine Finset.sum_congr rfl fun p _ => ?_
    rw [pay3_rowN0 V c ⟨0, hn⟩ p j]
  | n + 1, hn, j => by
    show k0_pay4 (LinearStats1.tile V c 0 ⟨n + 1, hn⟩) (LinearStats1.tile V c 1 ⟨n + 1, hn⟩) (LinearStats1.tile V c 2 ⟨n + 1, hn⟩) (LinearStats1.tile V c 3 ⟨n + 1, hn⟩) (LinearStats1.acc V c n (Nat.lt_of_succ_lt hn)).1 (ix2 0 j) = _
    rw [k0_pay4_apply, acc_sums0 c n (Nat.lt_of_succ_lt hn) j, Finset.sum_range_succ _ (n + 1)]
    refine congrArg (_ + ·) (Finset.sum_congr rfl fun p _ => ?_)
    rw [pay3_rowN0 V c ⟨n + 1, hn⟩ p j]

/-- The small output the region leaves: the column sums of its rows. -/
theorem sums_eq0 (c : Dev nD) :
    row ((LinearStats1.dat (F := Ideal) V c).arrAt 5 cfg0.N) = fun j => ∑ r, Y0 V c r j := by
  funext j
  rw [sums_arr0]
  show (LinearStats1.acc V c 9 _).1 (ix2 0 j) = _
  rw [acc_sums0 V c 9 _ j, Finset.sum_range]
  refine (sum_rows (fun r => rowN0 V c r j)).symm.trans ?_
  refine Finset.sum_congr rfl fun r _ => ?_
  rw [rowN0_val]

/-- An index of the small output's array is in point `t`'s block iff each coordinate is in the block's range. -/
theorem mem_squares0 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v30_2).slice (win0_6.rect t)).set ↔ _
  rw [View.set_slice_whole, Rect.mem_set_unit]
  exact Iff.rfl

/-- The only point that writes the small output back is the last, and what it writes is the accumulator after the tenth tile. -/
theorem flushed_squares0 (c : Dev nD) (t : Fin cfg0.N) (hf : (cfg0.win 6).flush t = true) :
    (LinearStats1.dat (F := Ideal) V c).flushed 6 t
      = ((cfg0.win 6).blk t).view.read (Elt Ideal) ((LinearStats1.acc V c 9 (by have : cfg0.N = 10 := N_0; omega)).2) := by
  have h9 : t.val = 9 := by have := (flush0_6 t).1 hf; have := t.isLt; have : cfg0.N = 10 := N_0; omega
  obtain ⟨e0, e1, e2, e3, e4, e5, e6, e7, e8, e9, e10, e11, e12, e13⟩ := idx_facts0 t
  show (cfg0.win 6).cut (grid0.coords t) ((LinearStats1.dat (F := Ideal) V c).after 6 t) = _
  rw [LinearStats1.after_6]
  refine funext fun (y : S1x128.Idx) => ?_
  rw [View.read_apply]
  have hemb : ((cfg0.win 6).blk t).view.emb y = y := funext fun a => Fin.ext (by
    match a with
    | ⟨0, _⟩ => show win0_6.index t (0 : Fin 2) * 1 + 1 * (y 0).val = (y 0).val; omega
    | ⟨1, _⟩ => show win0_6.index t (1 : Fin 2) * 128 + 1 * (y 1).val = (y 1).val; omega)
  rw [hemb]
  have key : ∀ (n : ℕ) (hn : n < cfg0.N), n = 9 →
      (LinearStats1.acc V c n hn).2 = (LinearStats1.acc V c 9 (by have : cfg0.N = 10 := N_0; omega)).2 := by
    intro n hn e; subst e; rfl
  exact congrFun (key t.val t.isLt h9) y

/-- The last point's block is the whole small array. -/
theorem cover_squares0 (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  refine ⟨⟨9, by have : cfg0.N = 10 := N_0; omega⟩, (flush0_6 _).2 rfl, ?_⟩
  obtain ⟨e0, e1, e2, e3, e4, e5, e6, e7, e8, e9, e10, e11, e12, e13⟩ := idx_facts0 ⟨9, by have : cfg0.N = 10 := N_0; omega⟩
  rw [mem_squares0]
  intro a
  match a with
  | ⟨0, _⟩ => show win0_6.index _ (0 : Fin 2) * 1 ≤ (i 0).val ∧ (i 0).val < win0_6.index _ (0 : Fin 2) * 1 + 1; rw [e12]; omega
  | ⟨1, _⟩ => show win0_6.index _ (1 : Fin 2) * 128 ≤ (i 1).val ∧ (i 1).val < win0_6.index _ (1 : Fin 2) * 128 + 128; rw [e13]; omega

/-- The small output after the region is the accumulator after the tenth tile. -/
theorem squares_arr0 (c : Dev nD) :
    (LinearStats1.dat (F := Ideal) V c).arrAt 6 cfg0.N = (LinearStats1.acc V c 9 (by have : cfg0.N = 10 := N_0; omega)).2 :=
  (LinearStats1.dat (F := Ideal) V c).arrAt_eq_of_cover 6 _ (fun t hf => flushed_squares0 V c t hf) cover_squares0

/-- The accumulator after tile `n`, at feature `j`: the sum over the tiles so far of the sums over each tile's rows. -/
theorem acc_squares0 (c : Dev nD) : ∀ (n : ℕ) (hn : n < cfg0.N) (j : Fin 128),
    (LinearStats1.acc V c n hn).2 (ix2 0 j) = ∑ t ∈ Finset.range (n + 1), ∑ p : Fin 5000, rowN0 V c (t * 5000 + p.val) j * rowN0 V c (t * 5000 + p.val) j
  | 0, hn, j => by
    show k0_pay5 (LinearStats1.tile V c 0 ⟨0, hn⟩) (LinearStats1.tile V c 1 ⟨0, hn⟩) (LinearStats1.tile V c 2 ⟨0, hn⟩) (LinearStats1.tile V c 3 ⟨0, hn⟩) (k0_pay2 (F := Ideal)) (ix2 0 j) = _
    rw [k0_pay5_apply, k0_pay2_apply, zero_add, Finset.sum_range_one]
    refine Finset.sum_congr rfl fun p _ => ?_
    rw [pay3_rowN0 V c ⟨0, hn⟩ p j]
  | n + 1, hn, j => by
    show k0_pay5 (LinearStats1.tile V c 0 ⟨n + 1, hn⟩) (LinearStats1.tile V c 1 ⟨n + 1, hn⟩) (LinearStats1.tile V c 2 ⟨n + 1, hn⟩) (LinearStats1.tile V c 3 ⟨n + 1, hn⟩) (LinearStats1.acc V c n (Nat.lt_of_succ_lt hn)).2 (ix2 0 j) = _
    rw [k0_pay5_apply, acc_squares0 c n (Nat.lt_of_succ_lt hn) j, Finset.sum_range_succ _ (n + 1)]
    refine congrArg (_ + ·) (Finset.sum_congr rfl fun p _ => ?_)
    rw [pay3_rowN0 V c ⟨n + 1, hn⟩ p j]

/-- The small output the region leaves: the column sums of squares of its rows. -/
theorem squares_eq0 (c : Dev nD) :
    row ((LinearStats1.dat (F := Ideal) V c).arrAt 6 cfg0.N) = fun j => ∑ r, Y0 V c r j * Y0 V c r j := by
  funext j
  rw [squares_arr0]
  show (LinearStats1.acc V c 9 _).2 (ix2 0 j) = _
  rw [acc_squares0 V c 9 _ j, Finset.sum_range]
  refine (sum_rows (fun r => rowN0 V c r j * rowN0 V c r j)).symm.trans ?_
  refine Finset.sum_congr rfl fun r _ => ?_
  rw [rowN0_val]

end Region0

/-! ## Region 2 -/

section Region2

/-- Window 0's array as the region finds it. -/
abbrev arr2_0 (c : Dev nD) : S50000x128.Idx → EReal := V c (Pipeline.arrRef spec2 0)
/-- Window 1's array as the region finds it. -/
abbrev arr2_1 (c : Dev nD) : S128x128.Idx → EReal := V c (Pipeline.arrRef spec2 1)
/-- Window 2's array as the region finds it. -/
abbrev arr2_2 (c : Dev nD) : S1x128.Idx → EReal := V c (Pipeline.arrRef spec2 2)

/-- The printed index maps of region 2, decided over its ten points: the row windows move one tile a point, the others stay. -/
theorem idx_facts2 : ∀ t : Fin cfg2.N, win2_0.index t (0 : Fin 2) = t.val
    ∧ win2_0.index t (1 : Fin 2) = 0
    ∧ win2_3.index t (0 : Fin 2) = t.val
    ∧ win2_3.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_4.index t (0 : Fin 2) = 0
    ∧ win2_4.index t (1 : Fin 2) = 0
    ∧ win2_5.index t (0 : Fin 2) = 0
    ∧ win2_5.index t (1 : Fin 2) = 0 :=
  (by decide +kernel : ∀ t : Fin grid2.N, _)

theorem tile2_0 (c : Dev nD) (t : Fin cfg2.N) (y : S5000x128.Idx) :
    LinearStats2.tile V c 0 t y = (arr2_0 V c) (ix2 ⟨t.val * 5000 + (y 0).val, by have h5 : (y 0).val < 5000 := (y 0).isLt; have := t.isLt; have : cfg2.N = 10 := N_2; omega⟩ (y 1)) := by
  obtain ⟨e0, e1, e2, e3, e4, e5, e6, e7, e8, e9, e10, e11⟩ := idx_facts2 t
  unfold LinearStats2.tile arr2_0
  rw [View.read_apply]
  refine congrArg (V c (Pipeline.arrRef spec2 0)) (funext fun a => Fin.ext ?_)
  match a with
  | ⟨0, _⟩ => show win2_0.index t (0 : Fin 2) * 5000 + 1 * (y 0).val = t.val * 5000 + (y 0).val; omega
  | ⟨1, _⟩ => show win2_0.index t (1 : Fin 2) * 128 + 1 * (y 1).val = (y 1).val; omega

theorem tile2_1 (c : Dev nD) (t : Fin cfg2.N) (y : S128x128.Idx) :
    LinearStats2.tile V c 1 t y = (arr2_1 V c) (ix2 (y 0) (y 1)) := by
  obtain ⟨e0, e1, e2, e3, e4, e5, e6, e7, e8, e9, e10, e11⟩ := idx_facts2 t
  unfold LinearStats2.tile arr2_1
  rw [View.read_apply]
  refine congrArg (V c (Pipeline.arrRef spec2 1)) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem tile2_2 (c : Dev nD) (t : Fin cfg2.N) (y : S1x128.Idx) :
    LinearStats2.tile V c 2 t y = (arr2_2 V c) (ix2 (y 0) (y 1)) := by
  obtain ⟨e0, e1, e2, e3, e4, e5, e6, e7, e8, e9, e10, e11⟩ := idx_facts2 t
  unfold LinearStats2.tile arr2_2
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The region's rows as the specification's linear layer of the arrays it finds. -/
def Y2 (c : Dev nD) : Cert.Spec.Mat 50000 128 :=
  Cert.Spec.lin (curry (arr2_0 V c)) (curry (arr2_1 V c)) (row (arr2_2 V c))

/-- The same as an array. -/
def G2 (c : Dev nD) : S50000x128.Idx → EReal := fun i => Y2 V c (i 0) (i 1)

/-- A tile's payload at row `p`, feature `j`, is row `t · 5000 + p` of the linear layer. -/
theorem pay3_tile2 (c : Dev nD) (t : Fin cfg2.N) (p : Fin 5000) (j : Fin 128) :
    k2_pay3 (LinearStats2.tile V c 0 t) (LinearStats2.tile V c 1 t) (LinearStats2.tile V c 2 t) (ix2 p j)
      = Y2 V c ⟨t.val * 5000 + p.val, by have h5 : p.val < 5000 := p.isLt; have := t.isLt; have : cfg2.N = 10 := N_2; omega⟩ j := by
  rw [k2_pay3_apply]
  unfold Y2 Cert.Spec.lin
  simp only [tile2_0, tile2_1, tile2_2]
  rfl

/-- Row `r` of the linear layer, zero past the last row: the rows by their number. -/
def rowN2 (c : Dev nD) (r : ℕ) (j : Fin 128) : EReal := if h : r < 50000 then Y2 V c ⟨r, h⟩ j else 0

theorem rowN2_val (c : Dev nD) (r : Fin 50000) (j : Fin 128) : rowN2 V c r.val j = Y2 V c r j := by
  unfold rowN2; rw [dif_pos r.isLt]

theorem pay3_rowN2 (c : Dev nD) (t : Fin cfg2.N) (p : Fin 5000) (j : Fin 128) :
    k2_pay3 (LinearStats2.tile V c 0 t) (LinearStats2.tile V c 1 t) (LinearStats2.tile V c 2 t) (ix2 p j) = rowN2 V c (t.val * 5000 + p.val) j := by
  rw [pay3_tile2]
  unfold rowN2
  rw [dif_pos]

/-- What point `t` writes back of the rows is its tile of the linear layer. -/
theorem flushed_rows2 (c : Dev nD) (t : Fin cfg2.N) :
    (LinearStats2.dat (F := Ideal) V c).flushed 3 t = ((cfg2.win 3).blk t).view.read (Elt Ideal) (G2 V c) := by
  obtain ⟨e0, e1, e2, e3, e4, e5, e6, e7, e8, e9, e10, e11⟩ := idx_facts2 t
  show (cfg2.win 3).cut (grid2.coords t) ((LinearStats2.dat (F := Ideal) V c).after 3 t) = _
  rw [LinearStats2.after_3]
  refine funext fun (y : S5000x128.Idx) => ?_
  rw [View.read_apply]
  obtain ⟨p, j, rfl⟩ : ∃ (p : Fin 5000) (j : Fin 128), y = ix2 p j := ⟨y 0, y 1, eq_ix2 y⟩
  show k2_pay3 (LinearStats2.tile V c 0 t) (LinearStats2.tile V c 1 t) (LinearStats2.tile V c 2 t) (ix2 p j) = G2 V c (((cfg2.win 3).blk t).view.emb (ix2 p j))
  rw [pay3_tile2]
  unfold G2
  have hr : (((cfg2.win 3).blk t).view.emb (ix2 p j) 0).val = t.val * 5000 + p.val := by
    show win2_3.index t (0 : Fin 2) * 5000 + 1 * p.val = t.val * 5000 + p.val; omega
  have hc : (((cfg2.win 3).blk t).view.emb (ix2 p j) 1).val = j.val := by
    show win2_3.index t (1 : Fin 2) * 128 + 1 * j.val = j.val; omega
  exact congrArg₂ (Y2 V c) (Fin.ext hr.symm) (Fin.ext hc.symm)

/-- An index of the rows' array is in point `t`'s block iff each coordinate is in the block's range. -/
theorem mem_rows2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v38_0).slice (win2_3.rect t)).set ↔ _
  rw [View.set_slice_whole, Rect.mem_set_unit]
  exact Iff.rfl

/-- Every row is in the tile of the point `row / 5000`. -/
theorem cover_rows2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  refine ⟨⟨(i 0).val / 5000, by omega⟩, flush2_3 _, ?_⟩
  obtain ⟨e0, e1, e2, e3, e4, e5, e6, e7, e8, e9, e10, e11⟩ := idx_facts2 ⟨(i 0).val / 5000, by omega⟩
  rw [mem_rows2]
  intro a
  match a with
  | ⟨0, _⟩ => show win2_3.index _ (0 : Fin 2) * 5000 ≤ (i 0).val ∧ (i 0).val < win2_3.index _ (0 : Fin 2) * 5000 + 5000; rw [e2]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e3]; omega

/-- The rows the region leaves: the linear layer of the arrays it found. -/
theorem rows_eq2 (c : Dev nD) : curry ((LinearStats2.dat (F := Ideal) V c).arrAt 3 cfg2.N) = Y2 V c := by
  rw [(LinearStats2.dat (F := Ideal) V c).arrAt_eq_of_cover 3 (G2 V c) (fun t _ => flushed_rows2 V c t) cover_rows2]
  rfl

/-- An index of the small output's array is in point `t`'s block iff each coordinate is in the block's range. -/
theorem mem_sums2 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v38_1).slice (win2_4.rect t)).set ↔ _
  rw [View.set_slice_whole, Rect.mem_set_unit]
  exact Iff.rfl

/-- The only point that writes the small output back is the last, and what it writes is the accumulator after the tenth tile. -/
theorem flushed_sums2 (c : Dev nD) (t : Fin cfg2.N) (hf : (cfg2.win 4).flush t = true) :
    (LinearStats2.dat (F := Ideal) V c).flushed 4 t
      = ((cfg2.win 4).blk t).view.read (Elt Ideal) ((LinearStats2.acc V c 9 (by have : cfg2.N = 10 := N_2; omega)).1) := by
  have h9 : t.val = 9 := by have := (flush2_4 t).1 hf; have := t.isLt; have : cfg2.N = 10 := N_2; omega
  obtain ⟨e0, e1, e2, e3, e4, e5, e6, e7, e8, e9, e10, e11⟩ := idx_facts2 t
  show (cfg2.win 4).cut (grid2.coords t) ((LinearStats2.dat (F := Ideal) V c).after 4 t) = _
  rw [LinearStats2.after_4]
  refine funext fun (y : S1x128.Idx) => ?_
  rw [View.read_apply]
  have hemb : ((cfg2.win 4).blk t).view.emb y = y := funext fun a => Fin.ext (by
    match a with
    | ⟨0, _⟩ => show win2_4.index t (0 : Fin 2) * 1 + 1 * (y 0).val = (y 0).val; omega
    | ⟨1, _⟩ => show win2_4.index t (1 : Fin 2) * 128 + 1 * (y 1).val = (y 1).val; omega)
  rw [hemb]
  have key : ∀ (n : ℕ) (hn : n < cfg2.N), n = 9 →
      (LinearStats2.acc V c n hn).1 = (LinearStats2.acc V c 9 (by have : cfg2.N = 10 := N_2; omega)).1 := by
    intro n hn e; subst e; rfl
  exact congrFun (key t.val t.isLt h9) y

/-- The last point's block is the whole small array. -/
theorem cover_sums2 (i : S1x128.Idx) :
    ∃ t : Fin cfg2.N, (cfg2.win 4).flush t = true ∧ i ∈ ((cfg2.win 4).blk t).view.set := by
  have hi0 : (i 0).val < 1 := (i 0).isLt
  have hi1 : (i 1).val < 128 := (i 1).isLt
  refine ⟨⟨9, by have : cfg2.N = 10 := N_2; omega⟩, (flush2_4 _).2 rfl, ?_⟩
  obtain ⟨e0, e1, e2, e3, e4, e5, e6, e7, e8, e9, e10, e11⟩ := idx_facts2 ⟨9, by have : cfg2.N = 10 := N_2; omega⟩
  rw [mem_sums2]
  intro a
  match a with
  | ⟨0, _⟩ => show win2_4.index _ (0 : Fin 2) * 1 ≤ (i 0).val ∧ (i 0).val < win2_4.index _ (0 : Fin 2) * 1 + 1; rw [e8]; omega
  | ⟨1, _⟩ => show win2_4.index _ (1 : Fin 2) * 128 ≤ (i 1).val ∧ (i 1).val < win2_4.index _ (1 : Fin 2) * 128 + 128; rw [e9]; omega

/-- The small output after the region is the accumulator after the tenth tile. -/
theorem sums_arr2 (c : Dev nD) :
    (LinearStats2.dat (F := Ideal) V c).arrAt 4 cfg2.N = (LinearStats2.acc V c 9 (by have : cfg2.N = 10 := N_2; omega)).1 :=
  (LinearStats2.dat (F := Ideal) V c).arrAt_eq_of_cover 4 _ (fun t hf => flushed_sums2 V c t hf) cover_sums2

/-- The accumulator after tile `n`, at feature `j`: the sum over the tiles so far of the sums over each tile's rows. -/
theorem acc_sums2 (c : Dev nD) : ∀ (n : ℕ) (hn : n < cfg2.N) (j : Fin 128),
    (LinearStats2.acc V c n hn).1 (ix2 0 j) = ∑ t ∈ Finset.range (n + 1), ∑ p : Fin 5000, rowN2 V c (t * 5000 + p.val) j
  | 0, hn, j => by
    show k2_pay4 (LinearStats2.tile V c 0 ⟨0, hn⟩) (LinearStats2.tile V c 1 ⟨0, hn⟩) (LinearStats2.tile V c 2 ⟨0, hn⟩) (k2_pay1 (F := Ideal)) (ix2 0 j) = _
    rw [k2_pay4_apply, k2_pay1_apply, zero_add, Finset.sum_range_one]
    refine Finset.sum_congr rfl fun p _ => ?_
    rw [pay3_rowN2 V c ⟨0, hn⟩ p j]
  | n + 1, hn, j => by
    show k2_pay4 (LinearStats2.tile V c 0 ⟨n + 1, hn⟩) (LinearStats2.tile V c 1 ⟨n + 1, hn⟩) (LinearStats2.tile V c 2 ⟨n + 1, hn⟩) (LinearStats2.acc V c n (Nat.lt_of_succ_lt hn)).1 (ix2 0 j) = _
    rw [k2_pay4_apply, acc_sums2 c n (Nat.lt_of_succ_lt hn) j, Finset.sum_range_succ _ (n + 1)]
    refine congrArg (_ + ·) (Finset.sum_congr rfl fun p _ => ?_)
    rw [pay3_rowN2 V c ⟨n + 1, hn⟩ p j]

/-- The small output the region leaves: the column sums of its rows. -/
theorem sums_eq2 (c : Dev nD) :
    row ((LinearStats2.dat (F := Ideal) V c).arrAt 4 cfg2.N) = fun j => ∑ r, Y2 V c r j := by
  funext j
  rw [sums_arr2]
  show (LinearStats2.acc V c 9 _).1 (ix2 0 j) = _
  rw [acc_sums2 V c 9 _ j, Finset.sum_range]
  refine (sum_rows (fun r => rowN2 V c r j)).symm.trans ?_
  refine Finset.sum_congr rfl fun r _ => ?_
  rw [rowN2_val]

/-- An index of the small output's array is in point `t`'s block iff each coordinate is in the block's range. -/
theorem mem_squares2 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v38_2).slice (win2_5.rect t)).set ↔ _
  rw [View.set_slice_whole, Rect.mem_set_unit]
  exact Iff.rfl

/-- The only point that writes the small output back is the last, and what it writes is the accumulator after the tenth tile. -/
theorem flushed_squares2 (c : Dev nD) (t : Fin cfg2.N) (hf : (cfg2.win 5).flush t = true) :
    (LinearStats2.dat (F := Ideal) V c).flushed 5 t
      = ((cfg2.win 5).blk t).view.read (Elt Ideal) ((LinearStats2.acc V c 9 (by have : cfg2.N = 10 := N_2; omega)).2) := by
  have h9 : t.val = 9 := by have := (flush2_5 t).1 hf; have := t.isLt; have : cfg2.N = 10 := N_2; omega
  obtain ⟨e0, e1, e2, e3, e4, e5, e6, e7, e8, e9, e10, e11⟩ := idx_facts2 t
  show (cfg2.win 5).cut (grid2.coords t) ((LinearStats2.dat (F := Ideal) V c).after 5 t) = _
  rw [LinearStats2.after_5]
  refine funext fun (y : S1x128.Idx) => ?_
  rw [View.read_apply]
  have hemb : ((cfg2.win 5).blk t).view.emb y = y := funext fun a => Fin.ext (by
    match a with
    | ⟨0, _⟩ => show win2_5.index t (0 : Fin 2) * 1 + 1 * (y 0).val = (y 0).val; omega
    | ⟨1, _⟩ => show win2_5.index t (1 : Fin 2) * 128 + 1 * (y 1).val = (y 1).val; omega)
  rw [hemb]
  have key : ∀ (n : ℕ) (hn : n < cfg2.N), n = 9 →
      (LinearStats2.acc V c n hn).2 = (LinearStats2.acc V c 9 (by have : cfg2.N = 10 := N_2; omega)).2 := by
    intro n hn e; subst e; rfl
  exact congrFun (key t.val t.isLt h9) y

/-- The last point's block is the whole small array. -/
theorem cover_squares2 (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  refine ⟨⟨9, by have : cfg2.N = 10 := N_2; omega⟩, (flush2_5 _).2 rfl, ?_⟩
  obtain ⟨e0, e1, e2, e3, e4, e5, e6, e7, e8, e9, e10, e11⟩ := idx_facts2 ⟨9, by have : cfg2.N = 10 := N_2; omega⟩
  rw [mem_squares2]
  intro a
  match a with
  | ⟨0, _⟩ => show win2_5.index _ (0 : Fin 2) * 1 ≤ (i 0).val ∧ (i 0).val < win2_5.index _ (0 : Fin 2) * 1 + 1; rw [e10]; omega
  | ⟨1, _⟩ => show win2_5.index _ (1 : Fin 2) * 128 ≤ (i 1).val ∧ (i 1).val < win2_5.index _ (1 : Fin 2) * 128 + 128; rw [e11]; omega

/-- The small output after the region is the accumulator after the tenth tile. -/
theorem squares_arr2 (c : Dev nD) :
    (LinearStats2.dat (F := Ideal) V c).arrAt 5 cfg2.N = (LinearStats2.acc V c 9 (by have : cfg2.N = 10 := N_2; omega)).2 :=
  (LinearStats2.dat (F := Ideal) V c).arrAt_eq_of_cover 5 _ (fun t hf => flushed_squares2 V c t hf) cover_squares2

/-- The accumulator after tile `n`, at feature `j`: the sum over the tiles so far of the sums over each tile's rows. -/
theorem acc_squares2 (c : Dev nD) : ∀ (n : ℕ) (hn : n < cfg2.N) (j : Fin 128),
    (LinearStats2.acc V c n hn).2 (ix2 0 j) = ∑ t ∈ Finset.range (n + 1), ∑ p : Fin 5000, rowN2 V c (t * 5000 + p.val) j * rowN2 V c (t * 5000 + p.val) j
  | 0, hn, j => by
    show k2_pay5 (LinearStats2.tile V c 0 ⟨0, hn⟩) (LinearStats2.tile V c 1 ⟨0, hn⟩) (LinearStats2.tile V c 2 ⟨0, hn⟩) (k2_pay2 (F := Ideal)) (ix2 0 j) = _
    rw [k2_pay5_apply, k2_pay2_apply, zero_add, Finset.sum_range_one]
    refine Finset.sum_congr rfl fun p _ => ?_
    rw [pay3_rowN2 V c ⟨0, hn⟩ p j]
  | n + 1, hn, j => by
    show k2_pay5 (LinearStats2.tile V c 0 ⟨n + 1, hn⟩) (LinearStats2.tile V c 1 ⟨n + 1, hn⟩) (LinearStats2.tile V c 2 ⟨n + 1, hn⟩) (LinearStats2.acc V c n (Nat.lt_of_succ_lt hn)).2 (ix2 0 j) = _
    rw [k2_pay5_apply, acc_squares2 c n (Nat.lt_of_succ_lt hn) j, Finset.sum_range_succ _ (n + 1)]
    refine congrArg (_ + ·) (Finset.sum_congr rfl fun p _ => ?_)
    rw [pay3_rowN2 V c ⟨n + 1, hn⟩ p j]

/-- The small output the region leaves: the column sums of squares of its rows. -/
theorem squares_eq2 (c : Dev nD) :
    row ((LinearStats2.dat (F := Ideal) V c).arrAt 5 cfg2.N) = fun j => ∑ r, Y2 V c r j * Y2 V c r j := by
  funext j
  rw [squares_arr2]
  show (LinearStats2.acc V c 9 _).2 (ix2 0 j) = _
  rw [acc_squares2 V c 9 _ j, Finset.sum_range]
  refine (sum_rows (fun r => rowN2 V c r j * rowN2 V c r j)).symm.trans ?_
  refine Finset.sum_congr rfl fun r _ => ?_
  rw [rowN2_val]

end Region2

/-! ## Region 4 -/

section Region4

/-- Window 0's array as the region finds it. -/
abbrev arr4_0 (c : Dev nD) : S50000x128.Idx → EReal := V c (Pipeline.arrRef spec4 0)
/-- Window 1's array as the region finds it. -/
abbrev arr4_1 (c : Dev nD) : S50000x128.Idx → EReal := V c (Pipeline.arrRef spec4 1)
/-- Window 2's array as the region finds it. -/
abbrev arr4_2 (c : Dev nD) : S128x128.Idx → EReal := V c (Pipeline.arrRef spec4 2)
/-- Window 3's array as the region finds it. -/
abbrev arr4_3 (c : Dev nD) : S1x128.Idx → EReal := V c (Pipeline.arrRef spec4 3)

/-- The printed index maps of region 4, decided over its ten points: the row windows move one tile a point, the others stay. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_4.index t (0 : Fin 2) = t.val
    ∧ win4_4.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_5.index t (0 : Fin 2) = 0
    ∧ win4_5.index t (1 : Fin 2) = 0
    ∧ win4_6.index t (0 : Fin 2) = 0
    ∧ win4_6.index t (1 : Fin 2) = 0 :=
  (by decide +kernel : ∀ t : Fin grid4.N, _)

theorem tile4_0 (c : Dev nD) (t : Fin cfg4.N) (y : S5000x128.Idx) :
    LinearStats3.tile V c 0 t y = (arr4_0 V c) (ix2 ⟨t.val * 5000 + (y 0).val, by have h5 : (y 0).val < 5000 := (y 0).isLt; have := t.isLt; have : cfg4.N = 10 := N_4; omega⟩ (y 1)) := by
  obtain ⟨e0, e1, e2, e3, e4, e5, e6, e7, e8, e9, e10, e11, e12, e13⟩ := idx_facts4 t
  unfold LinearStats3.tile arr4_0
  rw [View.read_apply]
  refine congrArg (V c (Pipeline.arrRef spec4 0)) (funext fun a => Fin.ext ?_)
  match a with
  | ⟨0, _⟩ => show win4_0.index t (0 : Fin 2) * 5000 + 1 * (y 0).val = t.val * 5000 + (y 0).val; omega
  | ⟨1, _⟩ => show win4_0.index t (1 : Fin 2) * 128 + 1 * (y 1).val = (y 1).val; omega

theorem tile4_1 (c : Dev nD) (t : Fin cfg4.N) (y : S5000x128.Idx) :
    LinearStats3.tile V c 1 t y = (arr4_1 V c) (ix2 ⟨t.val * 5000 + (y 0).val, by have h5 : (y 0).val < 5000 := (y 0).isLt; have := t.isLt; have : cfg4.N = 10 := N_4; omega⟩ (y 1)) := by
  obtain ⟨e0, e1, e2, e3, e4, e5, e6, e7, e8, e9, e10, e11, e12, e13⟩ := idx_facts4 t
  unfold LinearStats3.tile arr4_1
  rw [View.read_apply]
  refine congrArg (V c (Pipeline.arrRef spec4 1)) (funext fun a => Fin.ext ?_)
  match a with
  | ⟨0, _⟩ => show win4_1.index t (0 : Fin 2) * 5000 + 1 * (y 0).val = t.val * 5000 + (y 0).val; omega
  | ⟨1, _⟩ => show win4_1.index t (1 : Fin 2) * 128 + 1 * (y 1).val = (y 1).val; omega

theorem tile4_2 (c : Dev nD) (t : Fin cfg4.N) (y : S128x128.Idx) :
    LinearStats3.tile V c 2 t y = (arr4_2 V c) (ix2 (y 0) (y 1)) := by
  obtain ⟨e0, e1, e2, e3, e4, e5, e6, e7, e8, e9, e10, e11, e12, e13⟩ := idx_facts4 t
  unfold LinearStats3.tile arr4_2
  rw [View.read_apply]
  refine congrArg (V c (Pipeline.arrRef spec4 2)) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

theorem tile4_3 (c : Dev nD) (t : Fin cfg4.N) (y : S1x128.Idx) :
    LinearStats3.tile V c 3 t y = (arr4_3 V c) (ix2 (y 0) (y 1)) := by
  obtain ⟨e0, e1, e2, e3, e4, e5, e6, e7, e8, e9, e10, e11, e12, e13⟩ := idx_facts4 t
  unfold LinearStats3.tile arr4_3
  rw [View.read_apply]
  refine congrArg (V c (Pipeline.arrRef spec4 3)) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The region's rows as the specification's linear layer of the arrays it finds. -/
def Y4 (c : Dev nD) : Cert.Spec.Mat 50000 128 :=
  Cert.Spec.lin (fun r k => (arr4_0 V c) (ix2 r k) + (arr4_1 V c) (ix2 r k)) (curry (arr4_2 V c)) (row (arr4_3 V c))

/-- The same as an array. -/
def G4 (c : Dev nD) : S50000x128.Idx → EReal := fun i => Y4 V c (i 0) (i 1)

/-- A tile's payload at row `p`, feature `j`, is row `t · 5000 + p` of the linear layer. -/
theorem pay3_tile4 (c : Dev nD) (t : Fin cfg4.N) (p : Fin 5000) (j : Fin 128) :
    k4_pay3 (LinearStats3.tile V c 0 t) (LinearStats3.tile V c 1 t) (LinearStats3.tile V c 2 t) (LinearStats3.tile V c 3 t) (ix2 p j)
      = Y4 V c ⟨t.val * 5000 + p.val, by have h5 : p.val < 5000 := p.isLt; have := t.isLt; have : cfg4.N = 10 := N_4; omega⟩ j := by
  rw [k4_pay3_apply]
  unfold Y4 Cert.Spec.lin
  simp only [tile4_0, tile4_1, tile4_2, tile4_3]
  rfl

/-- Row `r` of the linear layer, zero past the last row: the rows by their number. -/
def rowN4 (c : Dev nD) (r : ℕ) (j : Fin 128) : EReal := if h : r < 50000 then Y4 V c ⟨r, h⟩ j else 0

theorem rowN4_val (c : Dev nD) (r : Fin 50000) (j : Fin 128) : rowN4 V c r.val j = Y4 V c r j := by
  unfold rowN4; rw [dif_pos r.isLt]

theorem pay3_rowN4 (c : Dev nD) (t : Fin cfg4.N) (p : Fin 5000) (j : Fin 128) :
    k4_pay3 (LinearStats3.tile V c 0 t) (LinearStats3.tile V c 1 t) (LinearStats3.tile V c 2 t) (LinearStats3.tile V c 3 t) (ix2 p j) = rowN4 V c (t.val * 5000 + p.val) j := by
  rw [pay3_tile4]
  unfold rowN4
  rw [dif_pos]

/-- What point `t` writes back of the rows is its tile of the linear layer. -/
theorem flushed_rows4 (c : Dev nD) (t : Fin cfg4.N) :
    (LinearStats3.dat (F := Ideal) V c).flushed 4 t = ((cfg4.win 4).blk t).view.read (Elt Ideal) (G4 V c) := by
  obtain ⟨e0, e1, e2, e3, e4, e5, e6, e7, e8, e9, e10, e11, e12, e13⟩ := idx_facts4 t
  show (cfg4.win 4).cut (grid4.coords t) ((LinearStats3.dat (F := Ideal) V c).after 4 t) = _
  rw [LinearStats3.after_4]
  refine funext fun (y : S5000x128.Idx) => ?_
  rw [View.read_apply]
  obtain ⟨p, j, rfl⟩ : ∃ (p : Fin 5000) (j : Fin 128), y = ix2 p j := ⟨y 0, y 1, eq_ix2 y⟩
  show k4_pay3 (LinearStats3.tile V c 0 t) (LinearStats3.tile V c 1 t) (LinearStats3.tile V c 2 t) (LinearStats3.tile V c 3 t) (ix2 p j) = G4 V c (((cfg4.win 4).blk t).view.emb (ix2 p j))
  rw [pay3_tile4]
  unfold G4
  have hr : (((cfg4.win 4).blk t).view.emb (ix2 p j) 0).val = t.val * 5000 + p.val := by
    show win4_4.index t (0 : Fin 2) * 5000 + 1 * p.val = t.val * 5000 + p.val; omega
  have hc : (((cfg4.win 4).blk t).view.emb (ix2 p j) 1).val = j.val := by
    show win4_4.index t (1 : Fin 2) * 128 + 1 * j.val = j.val; omega
  exact congrArg₂ (Y4 V c) (Fin.ext hr.symm) (Fin.ext hc.symm)

/-- An index of the rows' array is in point `t`'s block iff each coordinate is in the block's range. -/
theorem mem_rows4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v78_0).slice (win4_4.rect t)).set ↔ _
  rw [View.set_slice_whole, Rect.mem_set_unit]
  exact Iff.rfl

/-- Every row is in the tile of the point `row / 5000`. -/
theorem cover_rows4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  refine ⟨⟨(i 0).val / 5000, by omega⟩, flush4_4 _, ?_⟩
  obtain ⟨e0, e1, e2, e3, e4, e5, e6, e7, e8, e9, e10, e11, e12, e13⟩ := idx_facts4 ⟨(i 0).val / 5000, by omega⟩
  rw [mem_rows4]
  intro a
  match a with
  | ⟨0, _⟩ => show win4_4.index _ (0 : Fin 2) * 5000 ≤ (i 0).val ∧ (i 0).val < win4_4.index _ (0 : Fin 2) * 5000 + 5000; rw [e4]; show (i 0).val / 5000 * 5000 ≤ (i 0).val ∧ (i 0).val < (i 0).val / 5000 * 5000 + 5000; omega
  | ⟨1, _⟩ => show win4_4.index _ (1 : Fin 2) * 128 ≤ (i 1).val ∧ (i 1).val < win4_4.index _ (1 : Fin 2) * 128 + 128; rw [e5]; omega

/-- The rows the region leaves: the linear layer of the arrays it found. -/
theorem rows_eq4 (c : Dev nD) : curry ((LinearStats3.dat (F := Ideal) V c).arrAt 4 cfg4.N) = Y4 V c := by
  rw [(LinearStats3.dat (F := Ideal) V c).arrAt_eq_of_cover 4 (G4 V c) (fun t _ => flushed_rows4 V c t) cover_rows4]
  rfl

/-- An index of the small output's array is in point `t`'s block iff each coordinate is in the block's range. -/
theorem mem_sums4 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v78_1).slice (win4_5.rect t)).set ↔ _
  rw [View.set_slice_whole, Rect.mem_set_unit]
  exact Iff.rfl

/-- The only point that writes the small output back is the last, and what it writes is the accumulator after the tenth tile. -/
theorem flushed_sums4 (c : Dev nD) (t : Fin cfg4.N) (hf : (cfg4.win 5).flush t = true) :
    (LinearStats3.dat (F := Ideal) V c).flushed 5 t
      = ((cfg4.win 5).blk t).view.read (Elt Ideal) ((LinearStats3.acc V c 9 (by have : cfg4.N = 10 := N_4; omega)).1) := by
  have h9 : t.val = 9 := by have := (flush4_5 t).1 hf; have := t.isLt; have : cfg4.N = 10 := N_4; omega
  obtain ⟨e0, e1, e2, e3, e4, e5, e6, e7, e8, e9, e10, e11, e12, e13⟩ := idx_facts4 t
  show (cfg4.win 5).cut (grid4.coords t) ((LinearStats3.dat (F := Ideal) V c).after 5 t) = _
  rw [LinearStats3.after_5]
  refine funext fun (y : S1x128.Idx) => ?_
  rw [View.read_apply]
  have hemb : ((cfg4.win 5).blk t).view.emb y = y := funext fun a => Fin.ext (by
    match a with
    | ⟨0, _⟩ => show win4_5.index t (0 : Fin 2) * 1 + 1 * (y 0).val = (y 0).val; omega
    | ⟨1, _⟩ => show win4_5.index t (1 : Fin 2) * 128 + 1 * (y 1).val = (y 1).val; omega)
  rw [hemb]
  have key : ∀ (n : ℕ) (hn : n < cfg4.N), n = 9 →
      (LinearStats3.acc V c n hn).1 = (LinearStats3.acc V c 9 (by have : cfg4.N = 10 := N_4; omega)).1 := by
    intro n hn e; subst e; rfl
  exact congrFun (key t.val t.isLt h9) y

/-- The last point's block is the whole small array. -/
theorem cover_sums4 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  refine ⟨⟨9, by have : cfg4.N = 10 := N_4; omega⟩, (flush4_5 _).2 rfl, ?_⟩
  obtain ⟨e0, e1, e2, e3, e4, e5, e6, e7, e8, e9, e10, e11, e12, e13⟩ := idx_facts4 ⟨9, by have : cfg4.N = 10 := N_4; omega⟩
  rw [mem_sums4]
  intro a
  match a with
  | ⟨0, _⟩ => show win4_5.index _ (0 : Fin 2) * 1 ≤ (i 0).val ∧ (i 0).val < win4_5.index _ (0 : Fin 2) * 1 + 1; rw [e10]; omega
  | ⟨1, _⟩ => show win4_5.index _ (1 : Fin 2) * 128 ≤ (i 1).val ∧ (i 1).val < win4_5.index _ (1 : Fin 2) * 128 + 128; rw [e11]; omega

/-- The small output after the region is the accumulator after the tenth tile. -/
theorem sums_arr4 (c : Dev nD) :
    (LinearStats3.dat (F := Ideal) V c).arrAt 5 cfg4.N = (LinearStats3.acc V c 9 (by have : cfg4.N = 10 := N_4; omega)).1 :=
  (LinearStats3.dat (F := Ideal) V c).arrAt_eq_of_cover 5 _ (fun t hf => flushed_sums4 V c t hf) cover_sums4

/-- The accumulator after tile `n`, at feature `j`: the sum over the tiles so far of the sums over each tile's rows. -/
theorem acc_sums4 (c : Dev nD) : ∀ (n : ℕ) (hn : n < cfg4.N) (j : Fin 128),
    (LinearStats3.acc V c n hn).1 (ix2 0 j) = ∑ t ∈ Finset.range (n + 1), ∑ p : Fin 5000, rowN4 V c (t * 5000 + p.val) j
  | 0, hn, j => by
    show k4_pay4 (LinearStats3.tile V c 0 ⟨0, hn⟩) (LinearStats3.tile V c 1 ⟨0, hn⟩) (LinearStats3.tile V c 2 ⟨0, hn⟩) (LinearStats3.tile V c 3 ⟨0, hn⟩) (k4_pay1 (F := Ideal)) (ix2 0 j) = _
    rw [k4_pay4_apply, k4_pay1_apply, zero_add, Finset.sum_range_one]
    refine Finset.sum_congr rfl fun p _ => ?_
    rw [pay3_rowN4 V c ⟨0, hn⟩ p j]
  | n + 1, hn, j => by
    show k4_pay4 (LinearStats3.tile V c 0 ⟨n + 1, hn⟩) (LinearStats3.tile V c 1 ⟨n + 1, hn⟩) (LinearStats3.tile V c 2 ⟨n + 1, hn⟩) (LinearStats3.tile V c 3 ⟨n + 1, hn⟩) (LinearStats3.acc V c n (Nat.lt_of_succ_lt hn)).1 (ix2 0 j) = _
    rw [k4_pay4_apply, acc_sums4 c n (Nat.lt_of_succ_lt hn) j, Finset.sum_range_succ _ (n + 1)]
    refine congrArg (_ + ·) (Finset.sum_congr rfl fun p _ => ?_)
    rw [pay3_rowN4 V c ⟨n + 1, hn⟩ p j]

/-- The small output the region leaves: the column sums of its rows. -/
theorem sums_eq4 (c : Dev nD) :
    row ((LinearStats3.dat (F := Ideal) V c).arrAt 5 cfg4.N) = fun j => ∑ r, Y4 V c r j := by
  funext j
  rw [sums_arr4]
  show (LinearStats3.acc V c 9 _).1 (ix2 0 j) = _
  rw [acc_sums4 V c 9 _ j, Finset.sum_range]
  refine (sum_rows (fun r => rowN4 V c r j)).symm.trans ?_
  refine Finset.sum_congr rfl fun r _ => ?_
  rw [rowN4_val]

/-- An index of the small output's array is in point `t`'s block iff each coordinate is in the block's range. -/
theorem mem_squares4 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v78_2).slice (win4_6.rect t)).set ↔ _
  rw [View.set_slice_whole, Rect.mem_set_unit]
  exact Iff.rfl

/-- The only point that writes the small output back is the last, and what it writes is the accumulator after the tenth tile. -/
theorem flushed_squares4 (c : Dev nD) (t : Fin cfg4.N) (hf : (cfg4.win 6).flush t = true) :
    (LinearStats3.dat (F := Ideal) V c).flushed 6 t
      = ((cfg4.win 6).blk t).view.read (Elt Ideal) ((LinearStats3.acc V c 9 (by have : cfg4.N = 10 := N_4; omega)).2) := by
  have h9 : t.val = 9 := by have := (flush4_6 t).1 hf; have := t.isLt; have : cfg4.N = 10 := N_4; omega
  obtain ⟨e0, e1, e2, e3, e4, e5, e6, e7, e8, e9, e10, e11, e12, e13⟩ := idx_facts4 t
  show (cfg4.win 6).cut (grid4.coords t) ((LinearStats3.dat (F := Ideal) V c).after 6 t) = _
  rw [LinearStats3.after_6]
  refine funext fun (y : S1x128.Idx) => ?_
  rw [View.read_apply]
  have hemb : ((cfg4.win 6).blk t).view.emb y = y := funext fun a => Fin.ext (by
    match a with
    | ⟨0, _⟩ => show win4_6.index t (0 : Fin 2) * 1 + 1 * (y 0).val = (y 0).val; omega
    | ⟨1, _⟩ => show win4_6.index t (1 : Fin 2) * 128 + 1 * (y 1).val = (y 1).val; omega)
  rw [hemb]
  have key : ∀ (n : ℕ) (hn : n < cfg4.N), n = 9 →
      (LinearStats3.acc V c n hn).2 = (LinearStats3.acc V c 9 (by have : cfg4.N = 10 := N_4; omega)).2 := by
    intro n hn e; subst e; rfl
  exact congrFun (key t.val t.isLt h9) y

/-- The last point's block is the whole small array. -/
theorem cover_squares4 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  refine ⟨⟨9, by have : cfg4.N = 10 := N_4; omega⟩, (flush4_6 _).2 rfl, ?_⟩
  obtain ⟨e0, e1, e2, e3, e4, e5, e6, e7, e8, e9, e10, e11, e12, e13⟩ := idx_facts4 ⟨9, by have : cfg4.N = 10 := N_4; omega⟩
  rw [mem_squares4]
  intro a
  match a with
  | ⟨0, _⟩ => show win4_6.index _ (0 : Fin 2) * 1 ≤ (i 0).val ∧ (i 0).val < win4_6.index _ (0 : Fin 2) * 1 + 1; rw [e12]; omega
  | ⟨1, _⟩ => show win4_6.index _ (1 : Fin 2) * 128 ≤ (i 1).val ∧ (i 1).val < win4_6.index _ (1 : Fin 2) * 128 + 128; rw [e13]; omega

/-- The small output after the region is the accumulator after the tenth tile. -/
theorem squares_arr4 (c : Dev nD) :
    (LinearStats3.dat (F := Ideal) V c).arrAt 6 cfg4.N = (LinearStats3.acc V c 9 (by have : cfg4.N = 10 := N_4; omega)).2 :=
  (LinearStats3.dat (F := Ideal) V c).arrAt_eq_of_cover 6 _ (fun t hf => flushed_squares4 V c t hf) cover_squares4

/-- The accumulator after tile `n`, at feature `j`: the sum over the tiles so far of the sums over each tile's rows. -/
theorem acc_squares4 (c : Dev nD) : ∀ (n : ℕ) (hn : n < cfg4.N) (j : Fin 128),
    (LinearStats3.acc V c n hn).2 (ix2 0 j) = ∑ t ∈ Finset.range (n + 1), ∑ p : Fin 5000, rowN4 V c (t * 5000 + p.val) j * rowN4 V c (t * 5000 + p.val) j
  | 0, hn, j => by
    show k4_pay5 (LinearStats3.tile V c 0 ⟨0, hn⟩) (LinearStats3.tile V c 1 ⟨0, hn⟩) (LinearStats3.tile V c 2 ⟨0, hn⟩) (LinearStats3.tile V c 3 ⟨0, hn⟩) (k4_pay2 (F := Ideal)) (ix2 0 j) = _
    rw [k4_pay5_apply, k4_pay2_apply, zero_add, Finset.sum_range_one]
    refine Finset.sum_congr rfl fun p _ => ?_
    rw [pay3_rowN4 V c ⟨0, hn⟩ p j]
  | n + 1, hn, j => by
    show k4_pay5 (LinearStats3.tile V c 0 ⟨n + 1, hn⟩) (LinearStats3.tile V c 1 ⟨n + 1, hn⟩) (LinearStats3.tile V c 2 ⟨n + 1, hn⟩) (LinearStats3.tile V c 3 ⟨n + 1, hn⟩) (LinearStats3.acc V c n (Nat.lt_of_succ_lt hn)).2 (ix2 0 j) = _
    rw [k4_pay5_apply, acc_squares4 c n (Nat.lt_of_succ_lt hn) j, Finset.sum_range_succ _ (n + 1)]
    refine congrArg (_ + ·) (Finset.sum_congr rfl fun p _ => ?_)
    rw [pay3_rowN4 V c ⟨n + 1, hn⟩ p j]

/-- The small output the region leaves: the column sums of squares of its rows. -/
theorem squares_eq4 (c : Dev nD) :
    row ((LinearStats3.dat (F := Ideal) V c).arrAt 6 cfg4.N) = fun j => ∑ r, Y4 V c r j * Y4 V c r j := by
  funext j
  rw [squares_arr4]
  show (LinearStats3.acc V c 9 _).2 (ix2 0 j) = _
  rw [acc_squares4 V c 9 _ j, Finset.sum_range]
  refine (sum_rows (fun r => rowN4 V c r j * rowN4 V c r j)).symm.trans ?_
  refine Finset.sum_congr rfl fun r _ => ?_
  rw [rowN4_val]

end Region4

/-! ## Region 6 -/

section Region6

/-- Window 0's array as the region finds it. -/
abbrev arr6_0 (c : Dev nD) : S50000x128.Idx → EReal := V c (Pipeline.arrRef spec6 0)
/-- Window 1's array as the region finds it. -/
abbrev arr6_1 (c : Dev nD) : S128x128.Idx → EReal := V c (Pipeline.arrRef spec6 1)
/-- Window 2's array as the region finds it. -/
abbrev arr6_2 (c : Dev nD) : S1x128.Idx → EReal := V c (Pipeline.arrRef spec6 2)

/-- The printed index maps of region 6, decided over its ten points: the row windows move one tile a point, the others stay. -/
theorem idx_facts6 : ∀ t : Fin cfg6.N, win6_0.index t (0 : Fin 2) = t.val
    ∧ win6_0.index t (1 : Fin 2) = 0
    ∧ win6_3.index t (0 : Fin 2) = t.val
    ∧ win6_3.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_4.index t (0 : Fin 2) = 0
    ∧ win6_4.index t (1 : Fin 2) = 0
    ∧ win6_5.index t (0 : Fin 2) = 0
    ∧ win6_5.index t (1 : Fin 2) = 0 :=
  (by decide +kernel : ∀ t : Fin grid6.N, _)

theorem tile6_0 (c : Dev nD) (t : Fin cfg6.N) (y : S5000x128.Idx) :
    LinearStats4.tile V c 0 t y = (arr6_0 V c) (ix2 ⟨t.val * 5000 + (y 0).val, by have h5 : (y 0).val < 5000 := (y 0).isLt; have := t.isLt; have : cfg6.N = 10 := N_6; omega⟩ (y 1)) := by
  obtain ⟨e0, e1, e2, e3, e4, e5, e6, e7, e8, e9, e10, e11⟩ := idx_facts6 t
  unfold LinearStats4.tile arr6_0
  rw [View.read_apply]
  refine congrArg (V c (Pipeline.arrRef spec6 0)) (funext fun a => Fin.ext ?_)
  match a with
  | ⟨0, _⟩ => show win6_0.index t (0 : Fin 2) * 5000 + 1 * (y 0).val = t.val * 5000 + (y 0).val; omega
  | ⟨1, _⟩ => show win6_0.index t (1 : Fin 2) * 128 + 1 * (y 1).val = (y 1).val; omega

theorem tile6_1 (c : Dev nD) (t : Fin cfg6.N) (y : S128x128.Idx) :
    LinearStats4.tile V c 1 t y = (arr6_1 V c) (ix2 (y 0) (y 1)) := by
  obtain ⟨e0, e1, e2, e3, e4, e5, e6, e7, e8, e9, e10, e11⟩ := idx_facts6 t
  unfold LinearStats4.tile arr6_1
  rw [View.read_apply]
  refine congrArg (V c (Pipeline.arrRef spec6 1)) (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

theorem tile6_2 (c : Dev nD) (t : Fin cfg6.N) (y : S1x128.Idx) :
    LinearStats4.tile V c 2 t y = (arr6_2 V c) (ix2 (y 0) (y 1)) := by
  obtain ⟨e0, e1, e2, e3, e4, e5, e6, e7, e8, e9, e10, e11⟩ := idx_facts6 t
  unfold LinearStats4.tile arr6_2
  rw [View.read_apply]
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The region's rows as the specification's linear layer of the arrays it finds. -/
def Y6 (c : Dev nD) : Cert.Spec.Mat 50000 128 :=
  Cert.Spec.lin (curry (arr6_0 V c)) (curry (arr6_1 V c)) (row (arr6_2 V c))

/-- The same as an array. -/
def G6 (c : Dev nD) : S50000x128.Idx → EReal := fun i => Y6 V c (i 0) (i 1)

/-- A tile's payload at row `p`, feature `j`, is row `t · 5000 + p` of the linear layer. -/
theorem pay3_tile6 (c : Dev nD) (t : Fin cfg6.N) (p : Fin 5000) (j : Fin 128) :
    k6_pay3 (LinearStats4.tile V c 0 t) (LinearStats4.tile V c 1 t) (LinearStats4.tile V c 2 t) (ix2 p j)
      = Y6 V c ⟨t.val * 5000 + p.val, by have h5 : p.val < 5000 := p.isLt; have := t.isLt; have : cfg6.N = 10 := N_6; omega⟩ j := by
  rw [k6_pay3_apply]
  unfold Y6 Cert.Spec.lin
  simp only [tile6_0, tile6_1, tile6_2]
  rfl

/-- Row `r` of the linear layer, zero past the last row: the rows by their number. -/
def rowN6 (c : Dev nD) (r : ℕ) (j : Fin 128) : EReal := if h : r < 50000 then Y6 V c ⟨r, h⟩ j else 0

theorem rowN6_val (c : Dev nD) (r : Fin 50000) (j : Fin 128) : rowN6 V c r.val j = Y6 V c r j := by
  unfold rowN6; rw [dif_pos r.isLt]

theorem pay3_rowN6 (c : Dev nD) (t : Fin cfg6.N) (p : Fin 5000) (j : Fin 128) :
    k6_pay3 (LinearStats4.tile V c 0 t) (LinearStats4.tile V c 1 t) (LinearStats4.tile V c 2 t) (ix2 p j) = rowN6 V c (t.val * 5000 + p.val) j := by
  rw [pay3_tile6]
  unfold rowN6
  rw [dif_pos]

/-- What point `t` writes back of the rows is its tile of the linear layer. -/
theorem flushed_rows6 (c : Dev nD) (t : Fin cfg6.N) :
    (LinearStats4.dat (F := Ideal) V c).flushed 3 t = ((cfg6.win 3).blk t).view.read (Elt Ideal) (G6 V c) := by
  obtain ⟨e0, e1, e2, e3, e4, e5, e6, e7, e8, e9, e10, e11⟩ := idx_facts6 t
  show (cfg6.win 3).cut (grid6.coords t) ((LinearStats4.dat (F := Ideal) V c).after 3 t) = _
  rw [LinearStats4.after_3]
  refine funext fun (y : S5000x128.Idx) => ?_
  rw [View.read_apply]
  obtain ⟨p, j, rfl⟩ : ∃ (p : Fin 5000) (j : Fin 128), y = ix2 p j := ⟨y 0, y 1, eq_ix2 y⟩
  show k6_pay3 (LinearStats4.tile V c 0 t) (LinearStats4.tile V c 1 t) (LinearStats4.tile V c 2 t) (ix2 p j) = G6 V c (((cfg6.win 3).blk t).view.emb (ix2 p j))
  rw [pay3_tile6]
  unfold G6
  have hr : (((cfg6.win 3).blk t).view.emb (ix2 p j) 0).val = t.val * 5000 + p.val := by
    show win6_3.index t (0 : Fin 2) * 5000 + 1 * p.val = t.val * 5000 + p.val; omega
  have hc : (((cfg6.win 3).blk t).view.emb (ix2 p j) 1).val = j.val := by
    show win6_3.index t (1 : Fin 2) * 128 + 1 * j.val = j.val; omega
  exact congrArg₂ (Y6 V c) (Fin.ext hr.symm) (Fin.ext hc.symm)

/-- An index of the rows' array is in point `t`'s block iff each coordinate is in the block's range. -/
theorem mem_rows6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v86_0).slice (win6_3.rect t)).set ↔ _
  rw [View.set_slice_whole, Rect.mem_set_unit]
  exact Iff.rfl

/-- Every row is in the tile of the point `row / 5000`. -/
theorem cover_rows6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  refine ⟨⟨(i 0).val / 5000, by omega⟩, flush6_3 _, ?_⟩
  obtain ⟨e0, e1, e2, e3, e4, e5, e6, e7, e8, e9, e10, e11⟩ := idx_facts6 ⟨(i 0).val / 5000, by omega⟩
  rw [mem_rows6]
  intro a
  match a with
  | ⟨0, _⟩ => show win6_3.index _ (0 : Fin 2) * 5000 ≤ (i 0).val ∧ (i 0).val < win6_3.index _ (0 : Fin 2) * 5000 + 5000; rw [e2]; show (i 0).val / 5000 * 5000 ≤ (i 0).val ∧ (i 0).val < (i 0).val / 5000 * 5000 + 5000; omega
  | ⟨1, _⟩ => show win6_3.index _ (1 : Fin 2) * 128 ≤ (i 1).val ∧ (i 1).val < win6_3.index _ (1 : Fin 2) * 128 + 128; rw [e3]; omega

/-- The rows the region leaves: the linear layer of the arrays it found. -/
theorem rows_eq6 (c : Dev nD) : curry ((LinearStats4.dat (F := Ideal) V c).arrAt 3 cfg6.N) = Y6 V c := by
  rw [(LinearStats4.dat (F := Ideal) V c).arrAt_eq_of_cover 3 (G6 V c) (fun t _ => flushed_rows6 V c t) cover_rows6]
  rfl

/-- An index of the small output's array is in point `t`'s block iff each coordinate is in the block's range. -/
theorem mem_sums6 (t : Fin cfg6.N) (i : S1x128.Idx) :
    i ∈ ((cfg6.win 4).blk t).view.set ↔ ∀ a : Fin 2, win6_4.index t a * S1x128.size a ≤ (i a).val ∧ (i a).val < win6_4.index t a * S1x128.size a + S1x128.size a := by
  show i ∈ ((View.whole main_v86_1).slice (win6_4.rect t)).set ↔ _
  rw [View.set_slice_whole, Rect.mem_set_unit]
  exact Iff.rfl

/-- The only point that writes the small output back is the last, and what it writes is the accumulator after the tenth tile. -/
theorem flushed_sums6 (c : Dev nD) (t : Fin cfg6.N) (hf : (cfg6.win 4).flush t = true) :
    (LinearStats4.dat (F := Ideal) V c).flushed 4 t
      = ((cfg6.win 4).blk t).view.read (Elt Ideal) ((LinearStats4.acc V c 9 (by have : cfg6.N = 10 := N_6; omega)).1) := by
  have h9 : t.val = 9 := by have := (flush6_4 t).1 hf; have := t.isLt; have : cfg6.N = 10 := N_6; omega
  obtain ⟨e0, e1, e2, e3, e4, e5, e6, e7, e8, e9, e10, e11⟩ := idx_facts6 t
  show (cfg6.win 4).cut (grid6.coords t) ((LinearStats4.dat (F := Ideal) V c).after 4 t) = _
  rw [LinearStats4.after_4]
  refine funext fun (y : S1x128.Idx) => ?_
  rw [View.read_apply]
  have hemb : ((cfg6.win 4).blk t).view.emb y = y := funext fun a => Fin.ext (by
    match a with
    | ⟨0, _⟩ => show win6_4.index t (0 : Fin 2) * 1 + 1 * (y 0).val = (y 0).val; omega
    | ⟨1, _⟩ => show win6_4.index t (1 : Fin 2) * 128 + 1 * (y 1).val = (y 1).val; omega)
  rw [hemb]
  have key : ∀ (n : ℕ) (hn : n < cfg6.N), n = 9 →
      (LinearStats4.acc V c n hn).1 = (LinearStats4.acc V c 9 (by have : cfg6.N = 10 := N_6; omega)).1 := by
    intro n hn e; subst e; rfl
  exact congrFun (key t.val t.isLt h9) y

/-- The last point's block is the whole small array. -/
theorem cover_sums6 (i : S1x128.Idx) :
    ∃ t : Fin cfg6.N, (cfg6.win 4).flush t = true ∧ i ∈ ((cfg6.win 4).blk t).view.set := by
  have hi0 : (i 0).val < 1 := (i 0).isLt
  have hi1 : (i 1).val < 128 := (i 1).isLt
  refine ⟨⟨9, by have : cfg6.N = 10 := N_6; omega⟩, (flush6_4 _).2 rfl, ?_⟩
  obtain ⟨e0, e1, e2, e3, e4, e5, e6, e7, e8, e9, e10, e11⟩ := idx_facts6 ⟨9, by have : cfg6.N = 10 := N_6; omega⟩
  rw [mem_sums6]
  intro a
  match a with
  | ⟨0, _⟩ => show win6_4.index _ (0 : Fin 2) * 1 ≤ (i 0).val ∧ (i 0).val < win6_4.index _ (0 : Fin 2) * 1 + 1; rw [e8]; omega
  | ⟨1, _⟩ => show win6_4.index _ (1 : Fin 2) * 128 ≤ (i 1).val ∧ (i 1).val < win6_4.index _ (1 : Fin 2) * 128 + 128; rw [e9]; omega

/-- The small output after the region is the accumulator after the tenth tile. -/
theorem sums_arr6 (c : Dev nD) :
    (LinearStats4.dat (F := Ideal) V c).arrAt 4 cfg6.N = (LinearStats4.acc V c 9 (by have : cfg6.N = 10 := N_6; omega)).1 :=
  (LinearStats4.dat (F := Ideal) V c).arrAt_eq_of_cover 4 _ (fun t hf => flushed_sums6 V c t hf) cover_sums6

/-- The accumulator after tile `n`, at feature `j`: the sum over the tiles so far of the sums over each tile's rows. -/
theorem acc_sums6 (c : Dev nD) : ∀ (n : ℕ) (hn : n < cfg6.N) (j : Fin 128),
    (LinearStats4.acc V c n hn).1 (ix2 0 j) = ∑ t ∈ Finset.range (n + 1), ∑ p : Fin 5000, rowN6 V c (t * 5000 + p.val) j
  | 0, hn, j => by
    show k6_pay4 (LinearStats4.tile V c 0 ⟨0, hn⟩) (LinearStats4.tile V c 1 ⟨0, hn⟩) (LinearStats4.tile V c 2 ⟨0, hn⟩) (k6_pay1 (F := Ideal)) (ix2 0 j) = _
    rw [k6_pay4_apply, k6_pay1_apply, zero_add, Finset.sum_range_one]
    refine Finset.sum_congr rfl fun p _ => ?_
    rw [pay3_rowN6 V c ⟨0, hn⟩ p j]
  | n + 1, hn, j => by
    show k6_pay4 (LinearStats4.tile V c 0 ⟨n + 1, hn⟩) (LinearStats4.tile V c 1 ⟨n + 1, hn⟩) (LinearStats4.tile V c 2 ⟨n + 1, hn⟩) (LinearStats4.acc V c n (Nat.lt_of_succ_lt hn)).1 (ix2 0 j) = _
    rw [k6_pay4_apply, acc_sums6 c n (Nat.lt_of_succ_lt hn) j, Finset.sum_range_succ _ (n + 1)]
    refine congrArg (_ + ·) (Finset.sum_congr rfl fun p _ => ?_)
    rw [pay3_rowN6 V c ⟨n + 1, hn⟩ p j]

/-- The small output the region leaves: the column sums of its rows. -/
theorem sums_eq6 (c : Dev nD) :
    row ((LinearStats4.dat (F := Ideal) V c).arrAt 4 cfg6.N) = fun j => ∑ r, Y6 V c r j := by
  funext j
  rw [sums_arr6]
  show (LinearStats4.acc V c 9 _).1 (ix2 0 j) = _
  rw [acc_sums6 V c 9 _ j, Finset.sum_range]
  refine (sum_rows (fun r => rowN6 V c r j)).symm.trans ?_
  refine Finset.sum_congr rfl fun r _ => ?_
  rw [rowN6_val]

/-- An index of the small output's array is in point `t`'s block iff each coordinate is in the block's range. -/
theorem mem_squares6 (t : Fin cfg6.N) (i : S1x128.Idx) :
    i ∈ ((cfg6.win 5).blk t).view.set ↔ ∀ a : Fin 2, win6_5.index t a * S1x128.size a ≤ (i a).val ∧ (i a).val < win6_5.index t a * S1x128.size a + S1x128.size a := by
  show i ∈ ((View.whole main_v86_2).slice (win6_5.rect t)).set ↔ _
  rw [View.set_slice_whole, Rect.mem_set_unit]
  exact Iff.rfl

/-- The only point that writes the small output back is the last, and what it writes is the accumulator after the tenth tile. -/
theorem flushed_squares6 (c : Dev nD) (t : Fin cfg6.N) (hf : (cfg6.win 5).flush t = true) :
    (LinearStats4.dat (F := Ideal) V c).flushed 5 t
      = ((cfg6.win 5).blk t).view.read (Elt Ideal) ((LinearStats4.acc V c 9 (by have : cfg6.N = 10 := N_6; omega)).2) := by
  have h9 : t.val = 9 := by have := (flush6_5 t).1 hf; have := t.isLt; have : cfg6.N = 10 := N_6; omega
  obtain ⟨e0, e1, e2, e3, e4, e5, e6, e7, e8, e9, e10, e11⟩ := idx_facts6 t
  show (cfg6.win 5).cut (grid6.coords t) ((LinearStats4.dat (F := Ideal) V c).after 5 t) = _
  rw [LinearStats4.after_5]
  refine funext fun (y : S1x128.Idx) => ?_
  rw [View.read_apply]
  have hemb : ((cfg6.win 5).blk t).view.emb y = y := funext fun a => Fin.ext (by
    match a with
    | ⟨0, _⟩ => show win6_5.index t (0 : Fin 2) * 1 + 1 * (y 0).val = (y 0).val; omega
    | ⟨1, _⟩ => show win6_5.index t (1 : Fin 2) * 128 + 1 * (y 1).val = (y 1).val; omega)
  rw [hemb]
  have key : ∀ (n : ℕ) (hn : n < cfg6.N), n = 9 →
      (LinearStats4.acc V c n hn).2 = (LinearStats4.acc V c 9 (by have : cfg6.N = 10 := N_6; omega)).2 := by
    intro n hn e; subst e; rfl
  exact congrFun (key t.val t.isLt h9) y

/-- The last point's block is the whole small array. -/
theorem cover_squares6 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  refine ⟨⟨9, by have : cfg6.N = 10 := N_6; omega⟩, (flush6_5 _).2 rfl, ?_⟩
  obtain ⟨e0, e1, e2, e3, e4, e5, e6, e7, e8, e9, e10, e11⟩ := idx_facts6 ⟨9, by have : cfg6.N = 10 := N_6; omega⟩
  rw [mem_squares6]
  intro a
  match a with
  | ⟨0, _⟩ => show win6_5.index _ (0 : Fin 2) * 1 ≤ (i 0).val ∧ (i 0).val < win6_5.index _ (0 : Fin 2) * 1 + 1; rw [e10]; omega
  | ⟨1, _⟩ => show win6_5.index _ (1 : Fin 2) * 128 ≤ (i 1).val ∧ (i 1).val < win6_5.index _ (1 : Fin 2) * 128 + 128; rw [e11]; omega

/-- The small output after the region is the accumulator after the tenth tile. -/
theorem squares_arr6 (c : Dev nD) :
    (LinearStats4.dat (F := Ideal) V c).arrAt 5 cfg6.N = (LinearStats4.acc V c 9 (by have : cfg6.N = 10 := N_6; omega)).2 :=
  (LinearStats4.dat (F := Ideal) V c).arrAt_eq_of_cover 5 _ (fun t hf => flushed_squares6 V c t hf) cover_squares6

/-- The accumulator after tile `n`, at feature `j`: the sum over the tiles so far of the sums over each tile's rows. -/
theorem acc_squares6 (c : Dev nD) : ∀ (n : ℕ) (hn : n < cfg6.N) (j : Fin 128),
    (LinearStats4.acc V c n hn).2 (ix2 0 j) = ∑ t ∈ Finset.range (n + 1), ∑ p : Fin 5000, rowN6 V c (t * 5000 + p.val) j * rowN6 V c (t * 5000 + p.val) j
  | 0, hn, j => by
    show k6_pay5 (LinearStats4.tile V c 0 ⟨0, hn⟩) (LinearStats4.tile V c 1 ⟨0, hn⟩) (LinearStats4.tile V c 2 ⟨0, hn⟩) (k6_pay2 (F := Ideal)) (ix2 0 j) = _
    rw [k6_pay5_apply, k6_pay2_apply, zero_add, Finset.sum_range_one]
    refine Finset.sum_congr rfl fun p _ => ?_
    rw [pay3_rowN6 V c ⟨0, hn⟩ p j]
  | n + 1, hn, j => by
    show k6_pay5 (LinearStats4.tile V c 0 ⟨n + 1, hn⟩) (LinearStats4.tile V c 1 ⟨n + 1, hn⟩) (LinearStats4.tile V c 2 ⟨n + 1, hn⟩) (LinearStats4.acc V c n (Nat.lt_of_succ_lt hn)).2 (ix2 0 j) = _
    rw [k6_pay5_apply, acc_squares6 c n (Nat.lt_of_succ_lt hn) j, Finset.sum_range_succ _ (n + 1)]
    refine congrArg (_ + ·) (Finset.sum_congr rfl fun p _ => ?_)
    rw [pay3_rowN6 V c ⟨n + 1, hn⟩ p j]

/-- The small output the region leaves: the column sums of squares of its rows. -/
theorem squares_eq6 (c : Dev nD) :
    row ((LinearStats4.dat (F := Ideal) V c).arrAt 5 cfg6.N) = fun j => ∑ r, Y6 V c r j * Y6 V c r j := by
  funext j
  rw [squares_arr6]
  show (LinearStats4.acc V c 9 _).2 (ix2 0 j) = _
  rw [acc_squares6 V c 9 _ j, Finset.sum_range]
  refine (sum_rows (fun r => rowN6 V c r j * rowN6 V c r j)).symm.trans ?_
  refine Finset.sum_congr rfl fun r _ => ?_
  rw [rowN6_val]

end Region6

/-! ## Region 8 -/

section Region8

/-- Window 0's array as the region finds it. -/
abbrev arr8_0 (c : Dev nD) : S50000x128.Idx → EReal := V c (Pipeline.arrRef spec8 0)
/-- Window 1's array as the region finds it. -/
abbrev arr8_1 (c : Dev nD) : S50000x128.Idx → EReal := V c (Pipeline.arrRef spec8 1)
/-- Window 2's array as the region finds it. -/
abbrev arr8_2 (c : Dev nD) : S128x128.Idx → EReal := V c (Pipeline.arrRef spec8 2)
/-- Window 3's array as the region finds it. -/
abbrev arr8_3 (c : Dev nD) : S1x128.Idx → EReal := V c (Pipeline.arrRef spec8 3)

/-- The printed index maps of region 8, decided over its ten points: the row windows move one tile a point, the others stay. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_4.index t (0 : Fin 2) = t.val
    ∧ win8_4.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_5.index t (0 : Fin 2) = 0
    ∧ win8_5.index t (1 : Fin 2) = 0
    ∧ win8_6.index t (0 : Fin 2) = 0
    ∧ win8_6.index t (1 : Fin 2) = 0 :=
  (by decide +kernel : ∀ t : Fin grid8.N, _)

theorem tile8_0 (c : Dev nD) (t : Fin cfg8.N) (y : S5000x128.Idx) :
    LinearStats5.tile V c 0 t y = (arr8_0 V c) (ix2 ⟨t.val * 5000 + (y 0).val, by have h5 : (y 0).val < 5000 := (y 0).isLt; have := t.isLt; have : cfg8.N = 10 := N_8; omega⟩ (y 1)) := by
  obtain ⟨e0, e1, e2, e3, e4, e5, e6, e7, e8, e9, e10, e11, e12, e13⟩ := idx_facts8 t
  unfold LinearStats5.tile arr8_0
  rw [View.read_apply]
  refine congrArg (V c (Pipeline.arrRef spec8 0)) (funext fun a => Fin.ext ?_)
  match a with
  | ⟨0, _⟩ => show win8_0.index t (0 : Fin 2) * 5000 + 1 * (y 0).val = t.val * 5000 + (y 0).val; omega
  | ⟨1, _⟩ => show win8_0.index t (1 : Fin 2) * 128 + 1 * (y 1).val = (y 1).val; omega

theorem tile8_1 (c : Dev nD) (t : Fin cfg8.N) (y : S5000x128.Idx) :
    LinearStats5.tile V c 1 t y = (arr8_1 V c) (ix2 ⟨t.val * 5000 + (y 0).val, by have h5 : (y 0).val < 5000 := (y 0).isLt; have := t.isLt; have : cfg8.N = 10 := N_8; omega⟩ (y 1)) := by
  obtain ⟨e0, e1, e2, e3, e4, e5, e6, e7, e8, e9, e10, e11, e12, e13⟩ := idx_facts8 t
  unfold LinearStats5.tile arr8_1
  rw [View.read_apply]
  refine congrArg (V c (Pipeline.arrRef spec8 1)) (funext fun a => Fin.ext ?_)
  match a with
  | ⟨0, _⟩ => show win8_1.index t (0 : Fin 2) * 5000 + 1 * (y 0).val = t.val * 5000 + (y 0).val; omega
  | ⟨1, _⟩ => show win8_1.index t (1 : Fin 2) * 128 + 1 * (y 1).val = (y 1).val; omega

theorem tile8_2 (c : Dev nD) (t : Fin cfg8.N) (y : S128x128.Idx) :
    LinearStats5.tile V c 2 t y = (arr8_2 V c) (ix2 (y 0) (y 1)) := by
  obtain ⟨e0, e1, e2, e3, e4, e5, e6, e7, e8, e9, e10, e11, e12, e13⟩ := idx_facts8 t
  unfold LinearStats5.tile arr8_2
  rw [View.read_apply]
  refine congrArg (V c (Pipeline.arrRef spec8 2)) (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega

theorem tile8_3 (c : Dev nD) (t : Fin cfg8.N) (y : S1x128.Idx) :
    LinearStats5.tile V c 3 t y = (arr8_3 V c) (ix2 (y 0) (y 1)) := by
  obtain ⟨e0, e1, e2, e3, e4, e5, e6, e7, e8, e9, e10, e11, e12, e13⟩ := idx_facts8 t
  unfold LinearStats5.tile arr8_3
  rw [View.read_apply]
  refine congrArg (V c (Pipeline.arrRef spec8 3)) (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

/-- The region's rows as the specification's linear layer of the arrays it finds. -/
def Y8 (c : Dev nD) : Cert.Spec.Mat 50000 128 :=
  Cert.Spec.lin (fun r k => (arr8_0 V c) (ix2 r k) + (arr8_1 V c) (ix2 r k)) (curry (arr8_2 V c)) (row (arr8_3 V c))

/-- The same as an array. -/
def G8 (c : Dev nD) : S50000x128.Idx → EReal := fun i => Y8 V c (i 0) (i 1)

/-- A tile's payload at row `p`, feature `j`, is row `t · 5000 + p` of the linear layer. -/
theorem pay3_tile8 (c : Dev nD) (t : Fin cfg8.N) (p : Fin 5000) (j : Fin 128) :
    k8_pay3 (LinearStats5.tile V c 0 t) (LinearStats5.tile V c 1 t) (LinearStats5.tile V c 2 t) (LinearStats5.tile V c 3 t) (ix2 p j)
      = Y8 V c ⟨t.val * 5000 + p.val, by have h5 : p.val < 5000 := p.isLt; have := t.isLt; have : cfg8.N = 10 := N_8; omega⟩ j := by
  rw [k8_pay3_apply]
  unfold Y8 Cert.Spec.lin
  simp only [tile8_0, tile8_1, tile8_2, tile8_3]
  rfl

/-- Row `r` of the linear layer, zero past the last row: the rows by their number. -/
def rowN8 (c : Dev nD) (r : ℕ) (j : Fin 128) : EReal := if h : r < 50000 then Y8 V c ⟨r, h⟩ j else 0

theorem rowN8_val (c : Dev nD) (r : Fin 50000) (j : Fin 128) : rowN8 V c r.val j = Y8 V c r j := by
  unfold rowN8; rw [dif_pos r.isLt]

theorem pay3_rowN8 (c : Dev nD) (t : Fin cfg8.N) (p : Fin 5000) (j : Fin 128) :
    k8_pay3 (LinearStats5.tile V c 0 t) (LinearStats5.tile V c 1 t) (LinearStats5.tile V c 2 t) (LinearStats5.tile V c 3 t) (ix2 p j) = rowN8 V c (t.val * 5000 + p.val) j := by
  rw [pay3_tile8]
  unfold rowN8
  rw [dif_pos]

/-- What point `t` writes back of the rows is its tile of the linear layer. -/
theorem flushed_rows8 (c : Dev nD) (t : Fin cfg8.N) :
    (LinearStats5.dat (F := Ideal) V c).flushed 4 t = ((cfg8.win 4).blk t).view.read (Elt Ideal) (G8 V c) := by
  obtain ⟨e0, e1, e2, e3, e4, e5, e6, e7, e8, e9, e10, e11, e12, e13⟩ := idx_facts8 t
  show (cfg8.win 4).cut (grid8.coords t) ((LinearStats5.dat (F := Ideal) V c).after 4 t) = _
  rw [LinearStats5.after_4]
  refine funext fun (y : S5000x128.Idx) => ?_
  rw [View.read_apply]
  obtain ⟨p, j, rfl⟩ : ∃ (p : Fin 5000) (j : Fin 128), y = ix2 p j := ⟨y 0, y 1, eq_ix2 y⟩
  show k8_pay3 (LinearStats5.tile V c 0 t) (LinearStats5.tile V c 1 t) (LinearStats5.tile V c 2 t) (LinearStats5.tile V c 3 t) (ix2 p j) = G8 V c (((cfg8.win 4).blk t).view.emb (ix2 p j))
  rw [pay3_tile8]
  unfold G8
  have hr : (((cfg8.win 4).blk t).view.emb (ix2 p j) 0).val = t.val * 5000 + p.val := by
    show win8_4.index t (0 : Fin 2) * 5000 + 1 * p.val = t.val * 5000 + p.val; omega
  have hc : (((cfg8.win 4).blk t).view.emb (ix2 p j) 1).val = j.val := by
    show win8_4.index t (1 : Fin 2) * 128 + 1 * j.val = j.val; omega
  exact congrArg₂ (Y8 V c) (Fin.ext hr.symm) (Fin.ext hc.symm)

/-- An index of the rows' array is in point `t`'s block iff each coordinate is in the block's range. -/
theorem mem_rows8 (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v126_0).slice (win8_4.rect t)).set ↔ _
  rw [View.set_slice_whole, Rect.mem_set_unit]
  exact Iff.rfl

/-- Every row is in the tile of the point `row / 5000`. -/
theorem cover_rows8 (i : S50000x128.Idx) :
    ∃ t : Fin cfg8.N, (cfg8.win 4).flush t = true ∧ i ∈ ((cfg8.win 4).blk t).view.set := by
  have hi0 : (i 0).val < 50000 := (i 0).isLt
  have hi1 : (i 1).val < 128 := (i 1).isLt
  have hN : cfg8.N = 10 := N_8
  refine ⟨⟨(i 0).val / 5000, by omega⟩, flush8_4 _, ?_⟩
  obtain ⟨e0, e1, e2, e3, e4, e5, e6, e7, e8, e9, e10, e11, e12, e13⟩ := idx_facts8 ⟨(i 0).val / 5000, by omega⟩
  rw [mem_rows8]
  intro a
  match a with
  | ⟨0, _⟩ => show win8_4.index _ (0 : Fin 2) * 5000 ≤ (i 0).val ∧ (i 0).val < win8_4.index _ (0 : Fin 2) * 5000 + 5000; rw [e4]; show (i 0).val / 5000 * 5000 ≤ (i 0).val ∧ (i 0).val < (i 0).val / 5000 * 5000 + 5000; omega
  | ⟨1, _⟩ => show win8_4.index _ (1 : Fin 2) * 128 ≤ (i 1).val ∧ (i 1).val < win8_4.index _ (1 : Fin 2) * 128 + 128; rw [e5]; omega

/-- The rows the region leaves: the linear layer of the arrays it found. -/
theorem rows_eq8 (c : Dev nD) : curry ((LinearStats5.dat (F := Ideal) V c).arrAt 4 cfg8.N) = Y8 V c := by
  rw [(LinearStats5.dat (F := Ideal) V c).arrAt_eq_of_cover 4 (G8 V c) (fun t _ => flushed_rows8 V c t) cover_rows8]
  rfl

/-- An index of the small output's array is in point `t`'s block iff each coordinate is in the block's range. -/
theorem mem_sums8 (t : Fin cfg8.N) (i : S1x128.Idx) :
    i ∈ ((cfg8.win 5).blk t).view.set ↔ ∀ a : Fin 2, win8_5.index t a * S1x128.size a ≤ (i a).val ∧ (i a).val < win8_5.index t a * S1x128.size a + S1x128.size a := by
  show i ∈ ((View.whole main_v126_1).slice (win8_5.rect t)).set ↔ _
  rw [View.set_slice_whole, Rect.mem_set_unit]
  exact Iff.rfl

/-- The only point that writes the small output back is the last, and what it writes is the accumulator after the tenth tile. -/
theorem flushed_sums8 (c : Dev nD) (t : Fin cfg8.N) (hf : (cfg8.win 5).flush t = true) :
    (LinearStats5.dat (F := Ideal) V c).flushed 5 t
      = ((cfg8.win 5).blk t).view.read (Elt Ideal) ((LinearStats5.acc V c 9 (by have : cfg8.N = 10 := N_8; omega)).1) := by
  have h9 : t.val = 9 := by have := (flush8_5 t).1 hf; have := t.isLt; have : cfg8.N = 10 := N_8; omega
  obtain ⟨e0, e1, e2, e3, e4, e5, e6, e7, e8, e9, e10, e11, e12, e13⟩ := idx_facts8 t
  show (cfg8.win 5).cut (grid8.coords t) ((LinearStats5.dat (F := Ideal) V c).after 5 t) = _
  rw [LinearStats5.after_5]
  refine funext fun (y : S1x128.Idx) => ?_
  rw [View.read_apply]
  have hemb : ((cfg8.win 5).blk t).view.emb y = y := funext fun a => Fin.ext (by
    match a with
    | ⟨0, _⟩ => show win8_5.index t (0 : Fin 2) * 1 + 1 * (y 0).val = (y 0).val; omega
    | ⟨1, _⟩ => show win8_5.index t (1 : Fin 2) * 128 + 1 * (y 1).val = (y 1).val; omega)
  rw [hemb]
  have key : ∀ (n : ℕ) (hn : n < cfg8.N), n = 9 →
      (LinearStats5.acc V c n hn).1 = (LinearStats5.acc V c 9 (by have : cfg8.N = 10 := N_8; omega)).1 := by
    intro n hn e; subst e; rfl
  exact congrFun (key t.val t.isLt h9) y

/-- The last point's block is the whole small array. -/
theorem cover_sums8 (i : S1x128.Idx) :
    ∃ t : Fin cfg8.N, (cfg8.win 5).flush t = true ∧ i ∈ ((cfg8.win 5).blk t).view.set := by
  have hi0 : (i 0).val < 1 := (i 0).isLt
  have hi1 : (i 1).val < 128 := (i 1).isLt
  refine ⟨⟨9, by have : cfg8.N = 10 := N_8; omega⟩, (flush8_5 _).2 rfl, ?_⟩
  obtain ⟨e0, e1, e2, e3, e4, e5, e6, e7, e8, e9, e10, e11, e12, e13⟩ := idx_facts8 ⟨9, by have : cfg8.N = 10 := N_8; omega⟩
  rw [mem_sums8]
  intro a
  match a with
  | ⟨0, _⟩ => show win8_5.index _ (0 : Fin 2) * 1 ≤ (i 0).val ∧ (i 0).val < win8_5.index _ (0 : Fin 2) * 1 + 1; rw [e10]; omega
  | ⟨1, _⟩ => show win8_5.index _ (1 : Fin 2) * 128 ≤ (i 1).val ∧ (i 1).val < win8_5.index _ (1 : Fin 2) * 128 + 128; rw [e11]; omega

/-- The small output after the region is the accumulator after the tenth tile. -/
theorem sums_arr8 (c : Dev nD) :
    (LinearStats5.dat (F := Ideal) V c).arrAt 5 cfg8.N = (LinearStats5.acc V c 9 (by have : cfg8.N = 10 := N_8; omega)).1 :=
  (LinearStats5.dat (F := Ideal) V c).arrAt_eq_of_cover 5 _ (fun t hf => flushed_sums8 V c t hf) cover_sums8

/-- The accumulator after tile `n`, at feature `j`: the sum over the tiles so far of the sums over each tile's rows. -/
theorem acc_sums8 (c : Dev nD) : ∀ (n : ℕ) (hn : n < cfg8.N) (j : Fin 128),
    (LinearStats5.acc V c n hn).1 (ix2 0 j) = ∑ t ∈ Finset.range (n + 1), ∑ p : Fin 5000, rowN8 V c (t * 5000 + p.val) j
  | 0, hn, j => by
    show k8_pay4 (LinearStats5.tile V c 0 ⟨0, hn⟩) (LinearStats5.tile V c 1 ⟨0, hn⟩) (LinearStats5.tile V c 2 ⟨0, hn⟩) (LinearStats5.tile V c 3 ⟨0, hn⟩) (k8_pay1 (F := Ideal)) (ix2 0 j) = _
    rw [k8_pay4_apply, k8_pay1_apply, zero_add, Finset.sum_range_one]
    refine Finset.sum_congr rfl fun p _ => ?_
    rw [pay3_rowN8 V c ⟨0, hn⟩ p j]
  | n + 1, hn, j => by
    show k8_pay4 (LinearStats5.tile V c 0 ⟨n + 1, hn⟩) (LinearStats5.tile V c 1 ⟨n + 1, hn⟩) (LinearStats5.tile V c 2 ⟨n + 1, hn⟩) (LinearStats5.tile V c 3 ⟨n + 1, hn⟩) (LinearStats5.acc V c n (Nat.lt_of_succ_lt hn)).1 (ix2 0 j) = _
    rw [k8_pay4_apply, acc_sums8 c n (Nat.lt_of_succ_lt hn) j, Finset.sum_range_succ _ (n + 1)]
    refine congrArg (_ + ·) (Finset.sum_congr rfl fun p _ => ?_)
    rw [pay3_rowN8 V c ⟨n + 1, hn⟩ p j]

/-- The small output the region leaves: the column sums of its rows. -/
theorem sums_eq8 (c : Dev nD) :
    row ((LinearStats5.dat (F := Ideal) V c).arrAt 5 cfg8.N) = fun j => ∑ r, Y8 V c r j := by
  funext j
  rw [sums_arr8]
  show (LinearStats5.acc V c 9 _).1 (ix2 0 j) = _
  rw [acc_sums8 V c 9 _ j, Finset.sum_range]
  refine (sum_rows (fun r => rowN8 V c r j)).symm.trans ?_
  refine Finset.sum_congr rfl fun r _ => ?_
  rw [rowN8_val]

/-- An index of the small output's array is in point `t`'s block iff each coordinate is in the block's range. -/
theorem mem_squares8 (t : Fin cfg8.N) (i : S1x128.Idx) :
    i ∈ ((cfg8.win 6).blk t).view.set ↔ ∀ a : Fin 2, win8_6.index t a * S1x128.size a ≤ (i a).val ∧ (i a).val < win8_6.index t a * S1x128.size a + S1x128.size a := by
  show i ∈ ((View.whole main_v126_2).slice (win8_6.rect t)).set ↔ _
  rw [View.set_slice_whole, Rect.mem_set_unit]
  exact Iff.rfl

/-- The only point that writes the small output back is the last, and what it writes is the accumulator after the tenth tile. -/
theorem flushed_squares8 (c : Dev nD) (t : Fin cfg8.N) (hf : (cfg8.win 6).flush t = true) :
    (LinearStats5.dat (F := Ideal) V c).flushed 6 t
      = ((cfg8.win 6).blk t).view.read (Elt Ideal) ((LinearStats5.acc V c 9 (by have : cfg8.N = 10 := N_8; omega)).2) := by
  have h9 : t.val = 9 := by have := (flush8_6 t).1 hf; have := t.isLt; have : cfg8.N = 10 := N_8; omega
  obtain ⟨e0, e1, e2, e3, e4, e5, e6, e7, e8, e9, e10, e11, e12, e13⟩ := idx_facts8 t
  show (cfg8.win 6).cut (grid8.coords t) ((LinearStats5.dat (F := Ideal) V c).after 6 t) = _
  rw [LinearStats5.after_6]
  refine funext fun (y : S1x128.Idx) => ?_
  rw [View.read_apply]
  have hemb : ((cfg8.win 6).blk t).view.emb y = y := funext fun a => Fin.ext (by
    match a with
    | ⟨0, _⟩ => show win8_6.index t (0 : Fin 2) * 1 + 1 * (y 0).val = (y 0).val; omega
    | ⟨1, _⟩ => show win8_6.index t (1 : Fin 2) * 128 + 1 * (y 1).val = (y 1).val; omega)
  rw [hemb]
  have key : ∀ (n : ℕ) (hn : n < cfg8.N), n = 9 →
      (LinearStats5.acc V c n hn).2 = (LinearStats5.acc V c 9 (by have : cfg8.N = 10 := N_8; omega)).2 := by
    intro n hn e; subst e; rfl
  exact congrFun (key t.val t.isLt h9) y

/-- The last point's block is the whole small array. -/
theorem cover_squares8 (i : S1x128.Idx) :
    ∃ t : Fin cfg8.N, (cfg8.win 6).flush t = true ∧ i ∈ ((cfg8.win 6).blk t).view.set := by
  have hi0 : (i 0).val < 1 := (i 0).isLt
  have hi1 : (i 1).val < 128 := (i 1).isLt
  refine ⟨⟨9, by have : cfg8.N = 10 := N_8; omega⟩, (flush8_6 _).2 rfl, ?_⟩
  obtain ⟨e0, e1, e2, e3, e4, e5, e6, e7, e8, e9, e10, e11, e12, e13⟩ := idx_facts8 ⟨9, by have : cfg8.N = 10 := N_8; omega⟩
  rw [mem_squares8]
  intro a
  match a with
  | ⟨0, _⟩ => show win8_6.index _ (0 : Fin 2) * 1 ≤ (i 0).val ∧ (i 0).val < win8_6.index _ (0 : Fin 2) * 1 + 1; rw [e12]; omega
  | ⟨1, _⟩ => show win8_6.index _ (1 : Fin 2) * 128 ≤ (i 1).val ∧ (i 1).val < win8_6.index _ (1 : Fin 2) * 128 + 128; rw [e13]; omega

/-- The small output after the region is the accumulator after the tenth tile. -/
theorem squares_arr8 (c : Dev nD) :
    (LinearStats5.dat (F := Ideal) V c).arrAt 6 cfg8.N = (LinearStats5.acc V c 9 (by have : cfg8.N = 10 := N_8; omega)).2 :=
  (LinearStats5.dat (F := Ideal) V c).arrAt_eq_of_cover 6 _ (fun t hf => flushed_squares8 V c t hf) cover_squares8

/-- The accumulator after tile `n`, at feature `j`: the sum over the tiles so far of the sums over each tile's rows. -/
theorem acc_squares8 (c : Dev nD) : ∀ (n : ℕ) (hn : n < cfg8.N) (j : Fin 128),
    (LinearStats5.acc V c n hn).2 (ix2 0 j) = ∑ t ∈ Finset.range (n + 1), ∑ p : Fin 5000, rowN8 V c (t * 5000 + p.val) j * rowN8 V c (t * 5000 + p.val) j
  | 0, hn, j => by
    show k8_pay5 (LinearStats5.tile V c 0 ⟨0, hn⟩) (LinearStats5.tile V c 1 ⟨0, hn⟩) (LinearStats5.tile V c 2 ⟨0, hn⟩) (LinearStats5.tile V c 3 ⟨0, hn⟩) (k8_pay2 (F := Ideal)) (ix2 0 j) = _
    rw [k8_pay5_apply, k8_pay2_apply, zero_add, Finset.sum_range_one]
    refine Finset.sum_congr rfl fun p _ => ?_
    rw [pay3_rowN8 V c ⟨0, hn⟩ p j]
  | n + 1, hn, j => by
    show k8_pay5 (LinearStats5.tile V c 0 ⟨n + 1, hn⟩) (LinearStats5.tile V c 1 ⟨n + 1, hn⟩) (LinearStats5.tile V c 2 ⟨n + 1, hn⟩) (LinearStats5.tile V c 3 ⟨n + 1, hn⟩) (LinearStats5.acc V c n (Nat.lt_of_succ_lt hn)).2 (ix2 0 j) = _
    rw [k8_pay5_apply, acc_squares8 c n (Nat.lt_of_succ_lt hn) j, Finset.sum_range_succ _ (n + 1)]
    refine congrArg (_ + ·) (Finset.sum_congr rfl fun p _ => ?_)
    rw [pay3_rowN8 V c ⟨n + 1, hn⟩ p j]

/-- The small output the region leaves: the column sums of squares of its rows. -/
theorem squares_eq8 (c : Dev nD) :
    row ((LinearStats5.dat (F := Ideal) V c).arrAt 6 cfg8.N) = fun j => ∑ r, Y8 V c r j * Y8 V c r j := by
  funext j
  rw [squares_arr8]
  show (LinearStats5.acc V c 9 _).2 (ix2 0 j) = _
  rw [acc_squares8 V c 9 _ j, Finset.sum_range]
  refine (sum_rows (fun r => rowN8 V c r j * rowN8 V c r j)).symm.trans ?_
  refine Finset.sum_congr rfl fun r _ => ?_
  rw [rowN8_val]

end Region8

end Cert.KernelIdeal.LinearStatsValue

end
-- ==== Proof.KernelIdeal.NormalizeValue.lean ====
/-
  The output array of each batch-normalisation region as one function of its input arrays.

  A region walks ten blocks of 5000 rows of a 50000 × 128 array. At block `t` it reads rows `5000 t … 5000 t + 4999` of the
  rows' array and the one row of each of the four statistics (mean, variance, scale, shift: 1 × 128 arrays whose block
  never moves), and writes back, to the same rows of the output array, batch normalisation followed by the rectifier of
  what it read. So what block `t` writes back is block `t` of ONE function of the input arrays — entry `(r, j)` is
  `max (γ j * (x r j − μ j) * rsqrt (v j + ε) + β j) 0` —, the ten blocks cover the output array (row `r` is in block
  `r / 5000`), and the output array after the region is that function: `Cert.Spec.bnRelu` of the arrays read as a matrix
  and four vectors. Regions 1, 3, 5, 7 and 9 run the same steps on their own arrays; the five sections differ in the
  regions' numbers only.
-/
import proofs.«176586_j29291676959176_1_alg».proof.Proof.KernelIdeal.Normalize1
import proofs.«176586_j29291676959176_1_alg».proof.Proof.KernelIdeal.Normalize2
import proofs.«176586_j29291676959176_1_alg».proof.Proof.KernelIdeal.Normalize3
import proofs.«176586_j29291676959176_1_alg».proof.Proof.KernelIdeal.Normalize4
import proofs.«176586_j29291676959176_1_alg».proof.Proof.KernelIdeal.Normalize5
import proofs.«176586_j29291676959176_1_alg».proof.Proof.KernelIdeal.Payloads
import proofs.«176586_j29291676959176_1_alg».proof.Proof.KernelIdeal.Shapes
import proofs.«176586_j29291676959176_1_alg».proof.Proof.Spec
import Idealize.ShloMosaic.Lib.Pipeline.Value
import Idealize.ShloMosaic.Lib.ValueIdx

set_option maxRecDepth 16384

noncomputable section

namespace Cert.KernelIdeal.NormalizeValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Shapes Cert.KernelIdeal.Payloads

variable (V : (c : Dev nD) → (b : Ref sig .tc) → Buf (Elt Ideal) ((c : Thread nD τ).loc b))

/-- The zero offsets of a whole-buffer rectangle, as the constant function. -/
theorem hz : (![0, 0] : Fin 2 → Nat) = fun _ => 0 := funext fun a => by fin_cases a <;> rfl

/-! ## Region 1 -/

/-- The tile the region leaves, read at one entry. -/
theorem normalised1_apply (x0 : Vec Ideal S5000x128 .f32) (x1 x2 x3 x4 : Vec Ideal S1x128 .f32) (p : Fin 5000) (j : Fin 128) :
    Normalize1.normalised x0 x1 x2 x3 x4 (ix2 p j)
      = max (x3 (ix2 0 j) * (x0 (ix2 p j) - x1 (ix2 0 j)) * Ideal.rsqrt (x2 (ix2 0 j) + Cert.Spec.eps) + x4 (ix2 0 j)) 0 := by
  unfold Normalize1.normalised
  rw [View.canon_unit_zero hz]
  simp only [View.ld_unit_zero (S := S5000x128) hz, View.ld_unit_zero (S := S1x128) hz]
  exact k1_pay1_apply x0 x2 x3 x1 x4 p j

/-- The block indices over the grid: the rows and the output move one block of rows per point, the four statistics stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output array as one function of the five input arrays: batch normalisation and the rectifier, entry by entry. -/
def G1 (c : Dev nD) : S50000x128.Idx → EReal := fun i =>
  Cert.Spec.bnRelu (curry (V c (Pipeline.arrRef spec1 0))) (row (V c (Pipeline.arrRef spec1 1)))
    (row (V c (Pipeline.arrRef spec1 2))) (row (V c (Pipeline.arrRef spec1 3))) (row (V c (Pipeline.arrRef spec1 4))) (i 0) (i 1)

/-- The rows' tile at point `t`, read at `(p, j)`, is the rows' array at the output block's row and column. -/
theorem tile1_0 (c : Dev nD) (t : Fin cfg1.N) (p : Fin 5000) (j : Fin 128) :
    Normalize1.tile V c 0 t (ix2 p j)
      = curry (V c (Pipeline.arrRef spec1 0)) ((((cfg1.win 5).blk t).view.emb (ix2 p j)) 0) ((((cfg1.win 5).blk t).view.emb (ix2 p j)) 1) := by
  obtain ⟨e00, e01, e10, e11, e20, e21, e30, e31, e40, e41, e50, e51⟩ := idx_facts1 t
  show V c (Pipeline.arrRef spec1 0) (((cfg1.win 0).blk t).view.emb (ix2 p j)) = V c (Pipeline.arrRef spec1 0) (ix2 _ _)
  refine congrArg (V c (Pipeline.arrRef spec1 0)) ?_
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * j.val = win1_5.index t (1 : Fin 2) * 128 + 1 * j.val; omega

/-- A statistic's tile at point `t`, read at column `j`, is its array's one row at the output block's column. -/
theorem tile1_1 (c : Dev nD) (t : Fin cfg1.N) (p : Fin 5000) (j : Fin 128) :
    Normalize1.tile V c 1 t (ix2 0 j) = row (V c (Pipeline.arrRef spec1 1)) ((((cfg1.win 5).blk t).view.emb (ix2 p j)) 1) := by
  obtain ⟨e00, e01, e10, e11, e20, e21, e30, e31, e40, e41, e50, e51⟩ := idx_facts1 t
  show V c (Pipeline.arrRef spec1 1) (((cfg1.win 1).blk t).view.emb (ix2 0 j)) = V c (Pipeline.arrRef spec1 1) (ix2 0 _)
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 128 + 1 * j.val = win1_5.index t (1 : Fin 2) * 128 + 1 * j.val; omega

theorem tile1_2 (c : Dev nD) (t : Fin cfg1.N) (p : Fin 5000) (j : Fin 128) :
    Normalize1.tile V c 2 t (ix2 0 j) = row (V c (Pipeline.arrRef spec1 2)) ((((cfg1.win 5).blk t).view.emb (ix2 p j)) 1) := by
  obtain ⟨e00, e01, e10, e11, e20, e21, e30, e31, e40, e41, e50, e51⟩ := idx_facts1 t
  show V c (Pipeline.arrRef spec1 2) (((cfg1.win 2).blk t).view.emb (ix2 0 j)) = V c (Pipeline.arrRef spec1 2) (ix2 0 _)
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 128 + 1 * j.val = win1_5.index t (1 : Fin 2) * 128 + 1 * j.val; omega

theorem tile1_3 (c : Dev nD) (t : Fin cfg1.N) (p : Fin 5000) (j : Fin 128) :
    Normalize1.tile V c 3 t (ix2 0 j) = row (V c (Pipeline.arrRef spec1 3)) ((((cfg1.win 5).blk t).view.emb (ix2 p j)) 1) := by
  obtain ⟨e00, e01, e10, e11, e20, e21, e30, e31, e40, e41, e50, e51⟩ := idx_facts1 t
  show V c (Pipeline.arrRef spec1 3) (((cfg1.win 3).blk t).view.emb (ix2 0 j)) = V c (Pipeline.arrRef spec1 3) (ix2 0 _)
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 128 + 1 * j.val = win1_5.index t (1 : Fin 2) * 128 + 1 * j.val; omega

theorem tile1_4 (c : Dev nD) (t : Fin cfg1.N) (p : Fin 5000) (j : Fin 128) :
    Normalize1.tile V c 4 t (ix2 0 j) = row (V c (Pipeline.arrRef spec1 4)) ((((cfg1.win 5).blk t).view.emb (ix2 p j)) 1) := by
  obtain ⟨e00, e01, e10, e11, e20, e21, e30, e31, e40, e41, e50, e51⟩ := idx_facts1 t
  show V c (Pipeline.arrRef spec1 4) (((cfg1.win 4).blk t).view.emb (ix2 0 j)) = V c (Pipeline.arrRef spec1 4) (ix2 0 _)
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 128 + 1 * j.val = win1_5.index t (1 : Fin 2) * 128 + 1 * j.val; omega

/-- What point `t` writes back is block `t` of that function. -/
theorem flushed_eq1 (c : Dev nD) (t : Fin cfg1.N) :
    (Normalize1.dat V c).flushed 5 t = ((cfg1.win 5).blk t).view.read (Elt Ideal) (G1 V c) := by
  show (cfg1.win 5).cut (grid1.coords t) ((Normalize1.dat V c).after 5 t) = _
  rw [Normalize1.after_5]
  funext y
  obtain ⟨p, j, rfl⟩ : ∃ (p : Fin 5000) (j : Fin 128), y = ix2 p j := ⟨y 0, y 1, eq_ix2 y⟩
  refine (normalised1_apply _ _ _ _ _ p j).trans ?_
  rw [tile1_0 V c t p j, tile1_1 V c t p j, tile1_2 V c t p j, tile1_3 V c t p j, tile1_4 V c t p j]
  rfl
/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every row of the output array is in the block of the point its row number divided by 5000 names. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31, e40, e41, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region is that function. -/
theorem final1 (c : Dev nD) : (Normalize1.dat V c).arrAt 5 cfg1.N = G1 V c :=
  (Normalize1.dat V c).arrAt_eq_of_cover 5 (G1 V c) (fun t _ => flushed_eq1 V c t) cover1

/-- The output array, read as a matrix, is batch normalisation and the rectifier of the input arrays read as a matrix and four vectors. -/
theorem out_eq1 (c : Dev nD) :
    curry ((Normalize1.dat (F := Ideal) V c).arrAt 5 cfg1.N)
      = Cert.Spec.bnRelu (curry (V c (Pipeline.arrRef spec1 0))) (row (V c (Pipeline.arrRef spec1 1)))
          (row (V c (Pipeline.arrRef spec1 2))) (row (V c (Pipeline.arrRef spec1 3))) (row (V c (Pipeline.arrRef spec1 4))) := by
  rw [final1]
  rfl

/-! ## Region 3 -/

/-- The tile the region leaves, read at one entry. -/
theorem normalised3_apply (x0 : Vec Ideal S5000x128 .f32) (x1 x2 x3 x4 : Vec Ideal S1x128 .f32) (p : Fin 5000) (j : Fin 128) :
    Normalize2.normalised x0 x1 x2 x3 x4 (ix2 p j)
      = max (x3 (ix2 0 j) * (x0 (ix2 p j) - x1 (ix2 0 j)) * Ideal.rsqrt (x2 (ix2 0 j) + Cert.Spec.eps) + x4 (ix2 0 j)) 0 := by
  unfold Normalize2.normalised
  rw [View.canon_unit_zero hz]
  simp only [View.ld_unit_zero (S := S5000x128) hz, View.ld_unit_zero (S := S1x128) hz]
  exact k3_pay1_apply x0 x2 x3 x1 x4 p j

/-- The block indices over the grid: the rows and the output move one block of rows per point, the four statistics stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The output array as one function of the five input arrays: batch normalisation and the rectifier, entry by entry. -/
def G3 (c : Dev nD) : S50000x128.Idx → EReal := fun i =>
  Cert.Spec.bnRelu (curry (V c (Pipeline.arrRef spec3 0))) (row (V c (Pipeline.arrRef spec3 1)))
    (row (V c (Pipeline.arrRef spec3 2))) (row (V c (Pipeline.arrRef spec3 3))) (row (V c (Pipeline.arrRef spec3 4))) (i 0) (i 1)

/-- The rows' tile at point `t`, read at `(p, j)`, is the rows' array at the output block's row and column. -/
theorem tile3_0 (c : Dev nD) (t : Fin cfg3.N) (p : Fin 5000) (j : Fin 128) :
    Normalize2.tile V c 0 t (ix2 p j)
      = curry (V c (Pipeline.arrRef spec3 0)) ((((cfg3.win 5).blk t).view.emb (ix2 p j)) 0) ((((cfg3.win 5).blk t).view.emb (ix2 p j)) 1) := by
  obtain ⟨e00, e01, e10, e11, e20, e21, e30, e31, e40, e41, e50, e51⟩ := idx_facts3 t
  show V c (Pipeline.arrRef spec3 0) (((cfg3.win 0).blk t).view.emb (ix2 p j)) = V c (Pipeline.arrRef spec3 0) (ix2 _ _)
  refine congrArg (V c (Pipeline.arrRef spec3 0)) ?_
  funext a; apply Fin.ext
  match a with
  | ⟨0, _⟩ => show win3_0.index t (0 : Fin 2) * 5000 + 1 * p.val = win3_5.index t (0 : Fin 2) * 5000 + 1 * p.val; omega
  | ⟨1, _⟩ => show win3_0.index t (1 : Fin 2) * 128 + 1 * j.val = win3_5.index t (1 : Fin 2) * 128 + 1 * j.val; omega

/-- A statistic's tile at point `t`, read at column `j`, is its array's one row at the output block's column. -/
theorem tile3_1 (c : Dev nD) (t : Fin cfg3.N) (p : Fin 5000) (j : Fin 128) :
    Normalize2.tile V c 1 t (ix2 0 j) = row (V c (Pipeline.arrRef spec3 1)) ((((cfg3.win 5).blk t).view.emb (ix2 p j)) 1) := by
  obtain ⟨e00, e01, e10, e11, e20, e21, e30, e31, e40, e41, e50, e51⟩ := idx_facts3 t
  show V c (Pipeline.arrRef spec3 1) (((cfg3.win 1).blk t).view.emb (ix2 0 j)) = V c (Pipeline.arrRef spec3 1) (ix2 0 _)
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 128 + 1 * j.val = win3_5.index t (1 : Fin 2) * 128 + 1 * j.val; omega

theorem tile3_2 (c : Dev nD) (t : Fin cfg3.N) (p : Fin 5000) (j : Fin 128) :
    Normalize2.tile V c 2 t (ix2 0 j) = row (V c (Pipeline.arrRef spec3 2)) ((((cfg3.win 5).blk t).view.emb (ix2 p j)) 1) := by
  obtain ⟨e00, e01, e10, e11, e20, e21, e30, e31, e40, e41, e50, e51⟩ := idx_facts3 t
  show V c (Pipeline.arrRef spec3 2) (((cfg3.win 2).blk t).view.emb (ix2 0 j)) = V c (Pipeline.arrRef spec3 2) (ix2 0 _)
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 128 + 1 * j.val = win3_5.index t (1 : Fin 2) * 128 + 1 * j.val; omega

theorem tile3_3 (c : Dev nD) (t : Fin cfg3.N) (p : Fin 5000) (j : Fin 128) :
    Normalize2.tile V c 3 t (ix2 0 j) = row (V c (Pipeline.arrRef spec3 3)) ((((cfg3.win 5).blk t).view.emb (ix2 p j)) 1) := by
  obtain ⟨e00, e01, e10, e11, e20, e21, e30, e31, e40, e41, e50, e51⟩ := idx_facts3 t
  show V c (Pipeline.arrRef spec3 3) (((cfg3.win 3).blk t).view.emb (ix2 0 j)) = V c (Pipeline.arrRef spec3 3) (ix2 0 _)
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 128 + 1 * j.val = win3_5.index t (1 : Fin 2) * 128 + 1 * j.val; omega

theorem tile3_4 (c : Dev nD) (t : Fin cfg3.N) (p : Fin 5000) (j : Fin 128) :
    Normalize2.tile V c 4 t (ix2 0 j) = row (V c (Pipeline.arrRef spec3 4)) ((((cfg3.win 5).blk t).view.emb (ix2 p j)) 1) := by
  obtain ⟨e00, e01, e10, e11, e20, e21, e30, e31, e40, e41, e50, e51⟩ := idx_facts3 t
  show V c (Pipeline.arrRef spec3 4) (((cfg3.win 4).blk t).view.emb (ix2 0 j)) = V c (Pipeline.arrRef spec3 4) (ix2 0 _)
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 128 + 1 * j.val = win3_5.index t (1 : Fin 2) * 128 + 1 * j.val; omega

/-- What point `t` writes back is block `t` of that function. -/
theorem flushed_eq3 (c : Dev nD) (t : Fin cfg3.N) :
    (Normalize2.dat V c).flushed 5 t = ((cfg3.win 5).blk t).view.read (Elt Ideal) (G3 V c) := by
  show (cfg3.win 5).cut (grid3.coords t) ((Normalize2.dat V c).after 5 t) = _
  rw [Normalize2.after_5]
  funext y
  obtain ⟨p, j, rfl⟩ : ∃ (p : Fin 5000) (j : Fin 128), y = ix2 p j := ⟨y 0, y 1, eq_ix2 y⟩
  refine (normalised3_apply _ _ _ _ _ p j).trans ?_
  rw [tile3_0 V c t p j, tile3_1 V c t p j, tile3_2 V c t p j, tile3_3 V c t p j, tile3_4 V c t p j]
  rfl
/-- An index of the output array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v51).slice (win3_5.rect t)).set ↔ _
  rw [View.set_slice_whole, Rect.mem_set_unit]
  exact Iff.rfl

/-- Every row of the output array is in the block of the point its row number divided by 5000 names. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e00, e01, e10, e11, e20, e21, e30, e31, e40, e41, e50, e51⟩ := idx_facts3 t
  have ht : t.val = (i 0).val / 5000 := rfl
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region is that function. -/
theorem final3 (c : Dev nD) : (Normalize2.dat V c).arrAt 5 cfg3.N = G3 V c :=
  (Normalize2.dat V c).arrAt_eq_of_cover 5 (G3 V c) (fun t _ => flushed_eq3 V c t) cover3

/-- The output array, read as a matrix, is batch normalisation and the rectifier of the input arrays read as a matrix and four vectors. -/
theorem out_eq3 (c : Dev nD) :
    curry ((Normalize2.dat (F := Ideal) V c).arrAt 5 cfg3.N)
      = Cert.Spec.bnRelu (curry (V c (Pipeline.arrRef spec3 0))) (row (V c (Pipeline.arrRef spec3 1)))
          (row (V c (Pipeline.arrRef spec3 2))) (row (V c (Pipeline.arrRef spec3 3))) (row (V c (Pipeline.arrRef spec3 4))) := by
  rw [final3]
  rfl

/-! ## Region 5 -/

/-- The tile the region leaves, read at one entry. -/
theorem normalised5_apply (x0 : Vec Ideal S5000x128 .f32) (x1 x2 x3 x4 : Vec Ideal S1x128 .f32) (p : Fin 5000) (j : Fin 128) :
    Normalize3.normalised x0 x1 x2 x3 x4 (ix2 p j)
      = max (x3 (ix2 0 j) * (x0 (ix2 p j) - x1 (ix2 0 j)) * Ideal.rsqrt (x2 (ix2 0 j) + Cert.Spec.eps) + x4 (ix2 0 j)) 0 := by
  unfold Normalize3.normalised
  rw [View.canon_unit_zero hz]
  simp only [View.ld_unit_zero (S := S5000x128) hz, View.ld_unit_zero (S := S1x128) hz]
  exact k5_pay1_apply x0 x2 x3 x1 x4 p j

/-- The block indices over the grid: the rows and the output move one block of rows per point, the four statistics stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The output array as one function of the five input arrays: batch normalisation and the rectifier, entry by entry. -/
def G5 (c : Dev nD) : S50000x128.Idx → EReal := fun i =>
  Cert.Spec.bnRelu (curry (V c (Pipeline.arrRef spec5 0))) (row (V c (Pipeline.arrRef spec5 1)))
    (row (V c (Pipeline.arrRef spec5 2))) (row (V c (Pipeline.arrRef spec5 3))) (row (V c (Pipeline.arrRef spec5 4))) (i 0) (i 1)

/-- The rows' tile at point `t`, read at `(p, j)`, is the rows' array at the output block's row and column. -/
theorem tile5_0 (c : Dev nD) (t : Fin cfg5.N) (p : Fin 5000) (j : Fin 128) :
    Normalize3.tile V c 0 t (ix2 p j)
      = curry (V c (Pipeline.arrRef spec5 0)) ((((cfg5.win 5).blk t).view.emb (ix2 p j)) 0) ((((cfg5.win 5).blk t).view.emb (ix2 p j)) 1) := by
  obtain ⟨e00, e01, e10, e11, e20, e21, e30, e31, e40, e41, e50, e51⟩ := idx_facts5 t
  show V c (Pipeline.arrRef spec5 0) (((cfg5.win 0).blk t).view.emb (ix2 p j)) = V c (Pipeline.arrRef spec5 0) (ix2 _ _)
  refine congrArg (V c (Pipeline.arrRef spec5 0)) ?_
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 128 + 1 * j.val = win5_5.index t (1 : Fin 2) * 128 + 1 * j.val; omega

/-- A statistic's tile at point `t`, read at column `j`, is its array's one row at the output block's column. -/
theorem tile5_1 (c : Dev nD) (t : Fin cfg5.N) (p : Fin 5000) (j : Fin 128) :
    Normalize3.tile V c 1 t (ix2 0 j) = row (V c (Pipeline.arrRef spec5 1)) ((((cfg5.win 5).blk t).view.emb (ix2 p j)) 1) := by
  obtain ⟨e00, e01, e10, e11, e20, e21, e30, e31, e40, e41, e50, e51⟩ := idx_facts5 t
  show V c (Pipeline.arrRef spec5 1) (((cfg5.win 1).blk t).view.emb (ix2 0 j)) = V c (Pipeline.arrRef spec5 1) (ix2 0 _)
  refine congrArg (V c (Pipeline.arrRef spec5 1)) ?_
  funext a; apply Fin.ext
  match a with
  | ⟨0, _⟩ => show win5_1.index t (0 : Fin 2) * 1 + 1 * 0 = 0; omega
  | ⟨1, _⟩ => show win5_1.index t (1 : Fin 2) * 128 + 1 * j.val = win5_5.index t (1 : Fin 2) * 128 + 1 * j.val; omega

theorem tile5_2 (c : Dev nD) (t : Fin cfg5.N) (p : Fin 5000) (j : Fin 128) :
    Normalize3.tile V c 2 t (ix2 0 j) = row (V c (Pipeline.arrRef spec5 2)) ((((cfg5.win 5).blk t).view.emb (ix2 p j)) 1) := by
  obtain ⟨e00, e01, e10, e11, e20, e21, e30, e31, e40, e41, e50, e51⟩ := idx_facts5 t
  show V c (Pipeline.arrRef spec5 2) (((cfg5.win 2).blk t).view.emb (ix2 0 j)) = V c (Pipeline.arrRef spec5 2) (ix2 0 _)
  refine congrArg (V c (Pipeline.arrRef spec5 2)) ?_
  funext a; apply Fin.ext
  match a with
  | ⟨0, _⟩ => show win5_2.index t (0 : Fin 2) * 1 + 1 * 0 = 0; omega
  | ⟨1, _⟩ => show win5_2.index t (1 : Fin 2) * 128 + 1 * j.val = win5_5.index t (1 : Fin 2) * 128 + 1 * j.val; omega

theorem tile5_3 (c : Dev nD) (t : Fin cfg5.N) (p : Fin 5000) (j : Fin 128) :
    Normalize3.tile V c 3 t (ix2 0 j) = row (V c (Pipeline.arrRef spec5 3)) ((((cfg5.win 5).blk t).view.emb (ix2 p j)) 1) := by
  obtain ⟨e00, e01, e10, e11, e20, e21, e30, e31, e40, e41, e50, e51⟩ := idx_facts5 t
  show V c (Pipeline.arrRef spec5 3) (((cfg5.win 3).blk t).view.emb (ix2 0 j)) = V c (Pipeline.arrRef spec5 3) (ix2 0 _)
  refine congrArg (V c (Pipeline.arrRef spec5 3)) ?_
  funext a; apply Fin.ext
  match a with
  | ⟨0, _⟩ => show win5_3.index t (0 : Fin 2) * 1 + 1 * 0 = 0; omega
  | ⟨1, _⟩ => show win5_3.index t (1 : Fin 2) * 128 + 1 * j.val = win5_5.index t (1 : Fin 2) * 128 + 1 * j.val; omega

theorem tile5_4 (c : Dev nD) (t : Fin cfg5.N) (p : Fin 5000) (j : Fin 128) :
    Normalize3.tile V c 4 t (ix2 0 j) = row (V c (Pipeline.arrRef spec5 4)) ((((cfg5.win 5).blk t).view.emb (ix2 p j)) 1) := by
  obtain ⟨e00, e01, e10, e11, e20, e21, e30, e31, e40, e41, e50, e51⟩ := idx_facts5 t
  show V c (Pipeline.arrRef spec5 4) (((cfg5.win 4).blk t).view.emb (ix2 0 j)) = V c (Pipeline.arrRef spec5 4) (ix2 0 _)
  refine congrArg (V c (Pipeline.arrRef spec5 4)) ?_
  funext a; apply Fin.ext
  match a with
  | ⟨0, _⟩ => show win5_4.index t (0 : Fin 2) * 1 + 1 * 0 = 0; omega
  | ⟨1, _⟩ => show win5_4.index t (1 : Fin 2) * 128 + 1 * j.val = win5_5.index t (1 : Fin 2) * 128 + 1 * j.val; omega

/-- What point `t` writes back is block `t` of that function. -/
theorem flushed_eq5 (c : Dev nD) (t : Fin cfg5.N) :
    (Normalize3.dat V c).flushed 5 t = ((cfg5.win 5).blk t).view.read (Elt Ideal) (G5 V c) := by
  show (cfg5.win 5).cut (grid5.coords t) ((Normalize3.dat V c).after 5 t) = _
  rw [Normalize3.after_5]
  funext y
  obtain ⟨p, j, rfl⟩ : ∃ (p : Fin 5000) (j : Fin 128), y = ix2 p j := ⟨y 0, y 1, eq_ix2 y⟩
  refine (normalised5_apply _ _ _ _ _ p j).trans ?_
  rw [tile5_0 V c t p j, tile5_1 V c t p j, tile5_2 V c t p j, tile5_3 V c t p j, tile5_4 V c t p j]
  rfl
/-- An index of the output array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v85).slice (win5_5.rect t)).set ↔ _
  rw [View.set_slice_whole, Rect.mem_set_unit]
  exact Iff.rfl

/-- Every row of the output array is in the block of the point its row number divided by 5000 names. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e00, e01, e10, e11, e20, e21, e30, e31, e40, e41, e50, e51⟩ := idx_facts5 t
  have ht : t.val = (i 0).val / 5000 := rfl
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array after the region is that function. -/
theorem final5 (c : Dev nD) : (Normalize3.dat V c).arrAt 5 cfg5.N = G5 V c :=
  (Normalize3.dat V c).arrAt_eq_of_cover 5 (G5 V c) (fun t _ => flushed_eq5 V c t) cover5

/-- The output array, read as a matrix, is batch normalisation and the rectifier of the input arrays read as a matrix and four vectors. -/
theorem out_eq5 (c : Dev nD) :
    curry ((Normalize3.dat (F := Ideal) V c).arrAt 5 cfg5.N)
      = Cert.Spec.bnRelu (curry (V c (Pipeline.arrRef spec5 0))) (row (V c (Pipeline.arrRef spec5 1)))
          (row (V c (Pipeline.arrRef spec5 2))) (row (V c (Pipeline.arrRef spec5 3))) (row (V c (Pipeline.arrRef spec5 4))) := by
  rw [final5]
  rfl

/-! ## Region 7 -/

/-- The tile the region leaves, read at one entry. -/
theorem normalised7_apply (x0 : Vec Ideal S5000x128 .f32) (x1 x2 x3 x4 : Vec Ideal S1x128 .f32) (p : Fin 5000) (j : Fin 128) :
    Normalize4.normalised x0 x1 x2 x3 x4 (ix2 p j)
      = max (x3 (ix2 0 j) * (x0 (ix2 p j) - x1 (ix2 0 j)) * Ideal.rsqrt (x2 (ix2 0 j) + Cert.Spec.eps) + x4 (ix2 0 j)) 0 := by
  unfold Normalize4.normalised
  rw [View.canon_unit_zero hz]
  simp only [View.ld_unit_zero (S := S5000x128) hz, View.ld_unit_zero (S := S1x128) hz]
  exact k7_pay1_apply x0 x2 x3 x1 x4 p j

/-- The block indices over the grid: the rows and the output move one block of rows per point, the four statistics stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The output array as one function of the five input arrays: batch normalisation and the rectifier, entry by entry. -/
def G7 (c : Dev nD) : S50000x128.Idx → EReal := fun i =>
  Cert.Spec.bnRelu (curry (V c (Pipeline.arrRef spec7 0))) (row (V c (Pipeline.arrRef spec7 1)))
    (row (V c (Pipeline.arrRef spec7 2))) (row (V c (Pipeline.arrRef spec7 3))) (row (V c (Pipeline.arrRef spec7 4))) (i 0) (i 1)

/-- The rows' tile at point `t`, read at `(p, j)`, is the rows' array at the output block's row and column. -/
theorem tile7_0 (c : Dev nD) (t : Fin cfg7.N) (p : Fin 5000) (j : Fin 128) :
    Normalize4.tile V c 0 t (ix2 p j)
      = curry (V c (Pipeline.arrRef spec7 0)) ((((cfg7.win 5).blk t).view.emb (ix2 p j)) 0) ((((cfg7.win 5).blk t).view.emb (ix2 p j)) 1) := by
  obtain ⟨e00, e01, e10, e11, e20, e21, e30, e31, e40, e41, e50, e51⟩ := idx_facts7 t
  show V c (Pipeline.arrRef spec7 0) (((cfg7.win 0).blk t).view.emb (ix2 p j)) = V c (Pipeline.arrRef spec7 0) (ix2 _ _)
  refine congrArg (V c (Pipeline.arrRef spec7 0)) ?_
  funext a; apply Fin.ext
  match a with
  | ⟨0, _⟩ => show win7_0.index t (0 : Fin 2) * 5000 + 1 * p.val = win7_5.index t (0 : Fin 2) * 5000 + 1 * p.val; omega
  | ⟨1, _⟩ => show win7_0.index t (1 : Fin 2) * 128 + 1 * j.val = win7_5.index t (1 : Fin 2) * 128 + 1 * j.val; omega

/-- A statistic's tile at point `t`, read at column `j`, is its array's one row at the output block's column. -/
theorem tile7_1 (c : Dev nD) (t : Fin cfg7.N) (p : Fin 5000) (j : Fin 128) :
    Normalize4.tile V c 1 t (ix2 0 j) = row (V c (Pipeline.arrRef spec7 1)) ((((cfg7.win 5).blk t).view.emb (ix2 p j)) 1) := by
  obtain ⟨e00, e01, e10, e11, e20, e21, e30, e31, e40, e41, e50, e51⟩ := idx_facts7 t
  show V c (Pipeline.arrRef spec7 1) (((cfg7.win 1).blk t).view.emb (ix2 0 j)) = V c (Pipeline.arrRef spec7 1) (ix2 0 _)
  refine congrArg (V c (Pipeline.arrRef spec7 1)) ?_
  funext a; apply Fin.ext
  match a with
  | ⟨0, _⟩ => show win7_1.index t (0 : Fin 2) * 1 + 1 * 0 = 0; omega
  | ⟨1, _⟩ => show win7_1.index t (1 : Fin 2) * 128 + 1 * j.val = win7_5.index t (1 : Fin 2) * 128 + 1 * j.val; omega

theorem tile7_2 (c : Dev nD) (t : Fin cfg7.N) (p : Fin 5000) (j : Fin 128) :
    Normalize4.tile V c 2 t (ix2 0 j) = row (V c (Pipeline.arrRef spec7 2)) ((((cfg7.win 5).blk t).view.emb (ix2 p j)) 1) := by
  obtain ⟨e00, e01, e10, e11, e20, e21, e30, e31, e40, e41, e50, e51⟩ := idx_facts7 t
  show V c (Pipeline.arrRef spec7 2) (((cfg7.win 2).blk t).view.emb (ix2 0 j)) = V c (Pipeline.arrRef spec7 2) (ix2 0 _)
  refine congrArg (V c (Pipeline.arrRef spec7 2)) ?_
  funext a; apply Fin.ext
  match a with
  | ⟨0, _⟩ => show win7_2.index t (0 : Fin 2) * 1 + 1 * 0 = 0; omega
  | ⟨1, _⟩ => show win7_2.index t (1 : Fin 2) * 128 + 1 * j.val = win7_5.index t (1 : Fin 2) * 128 + 1 * j.val; omega

theorem tile7_3 (c : Dev nD) (t : Fin cfg7.N) (p : Fin 5000) (j : Fin 128) :
    Normalize4.tile V c 3 t (ix2 0 j) = row (V c (Pipeline.arrRef spec7 3)) ((((cfg7.win 5).blk t).view.emb (ix2 p j)) 1) := by
  obtain ⟨e00, e01, e10, e11, e20, e21, e30, e31, e40, e41, e50, e51⟩ := idx_facts7 t
  show V c (Pipeline.arrRef spec7 3) (((cfg7.win 3).blk t).view.emb (ix2 0 j)) = V c (Pipeline.arrRef spec7 3) (ix2 0 _)
  refine congrArg (V c (Pipeline.arrRef spec7 3)) ?_
  funext a; apply Fin.ext
  match a with
  | ⟨0, _⟩ => show win7_3.index t (0 : Fin 2) * 1 + 1 * 0 = 0; omega
  | ⟨1, _⟩ => show win7_3.index t (1 : Fin 2) * 128 + 1 * j.val = win7_5.index t (1 : Fin 2) * 128 + 1 * j.val; omega

theorem tile7_4 (c : Dev nD) (t : Fin cfg7.N) (p : Fin 5000) (j : Fin 128) :
    Normalize4.tile V c 4 t (ix2 0 j) = row (V c (Pipeline.arrRef spec7 4)) ((((cfg7.win 5).blk t).view.emb (ix2 p j)) 1) := by
  obtain ⟨e00, e01, e10, e11, e20, e21, e30, e31, e40, e41, e50, e51⟩ := idx_facts7 t
  show V c (Pipeline.arrRef spec7 4) (((cfg7.win 4).blk t).view.emb (ix2 0 j)) = V c (Pipeline.arrRef spec7 4) (ix2 0 _)
  refine congrArg (V c (Pipeline.arrRef spec7 4)) ?_
  funext a; apply Fin.ext
  match a with
  | ⟨0, _⟩ => show win7_4.index t (0 : Fin 2) * 1 + 1 * 0 = 0; omega
  | ⟨1, _⟩ => show win7_4.index t (1 : Fin 2) * 128 + 1 * j.val = win7_5.index t (1 : Fin 2) * 128 + 1 * j.val; omega

/-- What point `t` writes back is block `t` of that function. -/
theorem flushed_eq7 (c : Dev nD) (t : Fin cfg7.N) :
    (Normalize4.dat V c).flushed 5 t = ((cfg7.win 5).blk t).view.read (Elt Ideal) (G7 V c) := by
  show (cfg7.win 5).cut (grid7.coords t) ((Normalize4.dat V c).after 5 t) = _
  rw [Normalize4.after_5]
  funext y
  obtain ⟨p, j, rfl⟩ : ∃ (p : Fin 5000) (j : Fin 128), y = ix2 p j := ⟨y 0, y 1, eq_ix2 y⟩
  refine (normalised7_apply _ _ _ _ _ p j).trans ?_
  rw [tile7_0 V c t p j, tile7_1 V c t p j, tile7_2 V c t p j, tile7_3 V c t p j, tile7_4 V c t p j]
  rfl
/-- An index of the output array is in point `t`'s block iff each coordinate is in the block's range on its axis. -/
theorem mem_blk7 (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v99).slice (win7_5.rect t)).set ↔ _
  rw [View.set_slice_whole, Rect.mem_set_unit]
  exact Iff.rfl

/-- Every row of the output array is in the block of the point its row number divided by 5000 names. -/
theorem cover7 (i : S50000x128.Idx) : ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨e00, e01, e10, e11, e20, e21, e30, e31, e40, e41, e50, e51⟩ := idx_facts7 t
  have ht : t.val = (i 0).val / 5000 := rfl
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- The output array after the region is that function. -/
theorem final7 (c : Dev nD) : (Normalize4.dat V c).arrAt 5 cfg7.N = G7 V c :=
  (Normalize4.dat V c).arrAt_eq_of_cover 5 (G7 V c) (fun t _ => flushed_eq7 V c t) cover7

/-- The output array, read as a matrix, is batch normalisation and the rectifier of the input arrays read as a matrix and four vectors. -/
theorem out_eq7 (c : Dev nD) :
    curry ((Normalize4.dat (F := Ideal) V c).arrAt 5 cfg7.N)
      = Cert.Spec.bnRelu (curry (V c (Pipeline.arrRef spec7 0))) (row (V c (Pipeline.arrRef spec7 1)))
          (row (V c (Pipeline.arrRef spec7 2))) (row (V c (Pipeline.arrRef spec7 3))) (row (V c (Pipeline.arrRef spec7 4))) := by
  rw [final7]
  rfl

/-! ## Region 9 -/

/-- The tile the region leaves, read at one entry. -/
theorem normalised9_apply (x0 : Vec Ideal S5000x128 .f32) (x1 x2 x3 x4 : Vec Ideal S1x128 .f32) (p : Fin 5000) (j : Fin 128) :
    Normalize5.normalised x0 x1 x2 x3 x4 (ix2 p j)
      = max (x3 (ix2 0 j) * (x0 (ix2 p j) - x1 (ix2 0 j)) * Ideal.rsqrt (x2 (ix2 0 j) + Cert.Spec.eps) + x4 (ix2 0 j)) 0 := by
  unfold Normalize5.normalised
  rw [View.canon_unit_zero hz]
  simp only [View.ld_unit_zero (S := S5000x128) hz, View.ld_unit_zero (S := S1x128) hz]
  exact k9_pay1_apply x0 x2 x3 x1 x4 p j

/-- The block indices over the grid: the rows and the output move one block of rows per point, the four statistics stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The output array as one function of the five input arrays: batch normalisation and the rectifier, entry by entry. -/
def G9 (c : Dev nD) : S50000x128.Idx → EReal := fun i =>
  Cert.Spec.bnRelu (curry (V c (Pipeline.arrRef spec9 0))) (row (V c (Pipeline.arrRef spec9 1)))
    (row (V c (Pipeline.arrRef spec9 2))) (row (V c (Pipeline.arrRef spec9 3))) (row (V c (Pipeline.arrRef spec9 4))) (i 0) (i 1)

/-- The rows' tile at point `t`, read at `(p, j)`, is the rows' array at the output block's row and column. -/
theorem tile9_0 (c : Dev nD) (t : Fin cfg9.N) (p : Fin 5000) (j : Fin 128) :
    Normalize5.tile V c 0 t (ix2 p j)
      = curry (V c (Pipeline.arrRef spec9 0)) ((((cfg9.win 5).blk t).view.emb (ix2 p j)) 0) ((((cfg9.win 5).blk t).view.emb (ix2 p j)) 1) := by
  obtain ⟨e00, e01, e10, e11, e20, e21, e30, e31, e40, e41, e50, e51⟩ := idx_facts9 t
  show V c (Pipeline.arrRef spec9 0) (((cfg9.win 0).blk t).view.emb (ix2 p j)) = V c (Pipeline.arrRef spec9 0) (ix2 _ _)
  refine congrArg (V c (Pipeline.arrRef spec9 0)) ?_
  funext a; apply Fin.ext
  match a with
  | ⟨0, _⟩ => show win9_0.index t (0 : Fin 2) * 5000 + 1 * p.val = win9_5.index t (0 : Fin 2) * 5000 + 1 * p.val; omega
  | ⟨1, _⟩ => show win9_0.index t (1 : Fin 2) * 128 + 1 * j.val = win9_5.index t (1 : Fin 2) * 128 + 1 * j.val; omega

/-- A statistic's tile at point `t`, read at column `j`, is its array's one row at the output block's column. -/
theorem tile9_1 (c : Dev nD) (t : Fin cfg9.N) (p : Fin 5000) (j : Fin 128) :
    Normalize5.tile V c 1 t (ix2 0 j) = row (V c (Pipeline.arrRef spec9 1)) ((((cfg9.win 5).blk t).view.emb (ix2 p j)) 1) := by
  obtain ⟨e00, e01, e10, e11, e20, e21, e30, e31, e40, e41, e50, e51⟩ := idx_facts9 t
  show V c (Pipeline.arrRef spec9 1) (((cfg9.win 1).blk t).view.emb (ix2 0 j)) = V c (Pipeline.arrRef spec9 1) (ix2 0 _)
  refine congrArg (V c (Pipeline.arrRef spec9 1)) ?_
  funext a; apply Fin.ext
  match a with
  | ⟨0, _⟩ => show win9_1.index t (0 : Fin 2) * 1 + 1 * 0 = 0; omega
  | ⟨1, _⟩ => show win9_1.index t (1 : Fin 2) * 128 + 1 * j.val = win9_5.index t (1 : Fin 2) * 128 + 1 * j.val; omega

theorem tile9_2 (c : Dev nD) (t : Fin cfg9.N) (p : Fin 5000) (j : Fin 128) :
    Normalize5.tile V c 2 t (ix2 0 j) = row (V c (Pipeline.arrRef spec9 2)) ((((cfg9.win 5).blk t).view.emb (ix2 p j)) 1) := by
  obtain ⟨e00, e01, e10, e11, e20, e21, e30, e31, e40, e41, e50, e51⟩ := idx_facts9 t
  show V c (Pipeline.arrRef spec9 2) (((cfg9.win 2).blk t).view.emb (ix2 0 j)) = V c (Pipeline.arrRef spec9 2) (ix2 0 _)
  refine congrArg (V c (Pipeline.arrRef spec9 2)) ?_
  funext a; apply Fin.ext
  match a with
  | ⟨0, _⟩ => show win9_2.index t (0 : Fin 2) * 1 + 1 * 0 = 0; omega
  | ⟨1, _⟩ => show win9_2.index t (1 : Fin 2) * 128 + 1 * j.val = win9_5.index t (1 : Fin 2) * 128 + 1 * j.val; omega

theorem tile9_3 (c : Dev nD) (t : Fin cfg9.N) (p : Fin 5000) (j : Fin 128) :
    Normalize5.tile V c 3 t (ix2 0 j) = row (V c (Pipeline.arrRef spec9 3)) ((((cfg9.win 5).blk t).view.emb (ix2 p j)) 1) := by
  obtain ⟨e00, e01, e10, e11, e20, e21, e30, e31, e40, e41, e50, e51⟩ := idx_facts9 t
  show V c (Pipeline.arrRef spec9 3) (((cfg9.win 3).blk t).view.emb (ix2 0 j)) = V c (Pipeline.arrRef spec9 3) (ix2 0 _)
  refine congrArg (V c (Pipeline.arrRef spec9 3)) ?_
  funext a; apply Fin.ext
  match a with
  | ⟨0, _⟩ => show win9_3.index t (0 : Fin 2) * 1 + 1 * 0 = 0; omega
  | ⟨1, _⟩ => show win9_3.index t (1 : Fin 2) * 128 + 1 * j.val = win9_5.index t (1 : Fin 2) * 128 + 1 * j.val; omega

theorem tile9_4 (c : Dev nD) (t : Fin cfg9.N) (p : Fin 5000) (j : Fin 128) :
    Normalize5.tile V c 4 t (ix2 0 j) = row (V c (Pipeline.arrRef spec9 4)) ((((cfg9.win 5).blk t).view.emb (ix2 p j)) 1) := by
  obtain ⟨e00, e01, e10, e11, e20, e21, e30, e31, e40, e41, e50, e51⟩ := idx_facts9 t
  show V c (Pipeline.arrRef spec9 4) (((cfg9.win 4).blk t).view.emb (ix2 0 j)) = V c (Pipeline.arrRef spec9 4) (ix2 0 _)
  refine congrArg (V c (Pipeline.arrRef spec9 4)) ?_
  funext a; apply Fin.ext
  match a with
  | ⟨0, _⟩ => show win9_4.index t (0 : Fin 2) * 1 + 1 * 0 = 0; omega
  | ⟨1, _⟩ => show win9_4.index t (1 : Fin 2) * 128 + 1 * j.val = win9_5.index t (1 : Fin 2) * 128 + 1 * j.val; omega

/-- What point `t` writes back is block `t` of that function. -/
theorem flushed_eq9 (c : Dev nD) (t : Fin cfg9.N) :
    (Normalize5.dat V c).flushed 5 t = ((cfg9.win 5).blk t).view.read (Elt Ideal) (G9 V c) := by
  show (cfg9.win 5).cut (grid9.coords t) ((Normalize5.dat V c).after 5 t) = _
  rw [Normalize5.after_5]
  funext y
  obtain ⟨p, j, rfl⟩ : ∃ (p : Fin 5000) (j : Fin 128), y = ix2 p j := ⟨y 0, y 1, eq_ix2 y⟩
  refine (normalised9_apply _ _ _ _ _ p j).trans ?_
  rw [tile9_0 V c t p j, tile9_1 V c t p j, tile9_2 V c t p j, tile9_3 V c t p j, tile9_4 V c t p j]
  rfl
/-- An index of the output array is in point `t`'s block iff each coordinate is in the block's range on its axis. -/
theorem mem_blk9 (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v133).slice (win9_5.rect t)).set ↔ _
  rw [View.set_slice_whole, Rect.mem_set_unit]
  exact Iff.rfl

/-- Every row of the output array is in the block of the point its row number divided by 5000 names. -/
theorem cover9 (i : S50000x128.Idx) : ∃ t : Fin cfg9.N, (cfg9.win 5).flush t = true ∧ i ∈ ((cfg9.win 5).blk t).view.set := by
  have hi0 : (i 0).val < 50000 := (i 0).isLt
  have hi1 : (i 1).val < 128 := (i 1).isLt
  have hN : cfg9.N = 10 := N_9
  let t : Fin cfg9.N := ⟨(i 0).val / 5000, by rw [hN]; omega⟩
  obtain ⟨e00, e01, e10, e11, e20, e21, e30, e31, e40, e41, e50, e51⟩ := idx_facts9 t
  have ht : t.val = (i 0).val / 5000 := rfl
  refine ⟨t, flush9_5 t, ?_⟩
  rw [mem_blk9]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 128 ≤ (i 1).val ∧ (i 1).val < win9_5.index t (1 : Fin 2) * 128 + 128; omega

/-- The output array after the region is that function. -/
theorem final9 (c : Dev nD) : (Normalize5.dat V c).arrAt 5 cfg9.N = G9 V c :=
  (Normalize5.dat V c).arrAt_eq_of_cover 5 (G9 V c) (fun t _ => flushed_eq9 V c t) cover9

/-- The output array, read as a matrix, is batch normalisation and the rectifier of the input arrays read as a matrix and four vectors. -/
theorem out_eq9 (c : Dev nD) :
    curry ((Normalize5.dat (F := Ideal) V c).arrAt 5 cfg9.N)
      = Cert.Spec.bnRelu (curry (V c (Pipeline.arrRef spec9 0))) (row (V c (Pipeline.arrRef spec9 1)))
          (row (V c (Pipeline.arrRef spec9 2))) (row (V c (Pipeline.arrRef spec9 3))) (row (V c (Pipeline.arrRef spec9 4))) := by
  rw [final9]
  rfl

end Cert.KernelIdeal.NormalizeValue

end
-- ==== Proof.KernelIdeal.LastLinearValue.lean ====
/-
  The output array of the last linear region as one function of its input arrays.

  The region walks ten blocks of 5000 rows of a 50000 × 128 array. At block `t` it reads rows `5000 t … 5000 t + 4999` of the
  rows' array, the whole 128 × 128 weights and the one row of the bias (two arrays whose block never moves), and writes
  back, to the same rows of the output array, the rows times the weights plus the bias. So what block `t` writes back is
  block `t` of ONE function of the input arrays — entry `(r, j)` is `∑ k, x r k * w k j` plus `b j` —, the ten blocks cover
  the output array (row `r` is in block `r / 5000`), and the output array after the region is that function:
  `Cert.Spec.lin` of the arrays read as two matrices and a vector.
-/
import proofs.«176586_j29291676959176_1_alg».proof.Proof.KernelIdeal.LastLinear
import proofs.«176586_j29291676959176_1_alg».proof.Proof.KernelIdeal.Payloads
import proofs.«176586_j29291676959176_1_alg».proof.Proof.KernelIdeal.Shapes
import proofs.«176586_j29291676959176_1_alg».proof.Proof.Spec
import Idealize.ShloMosaic.Lib.Pipeline.Value
import Idealize.ShloMosaic.Lib.ValueIdx

set_option maxRecDepth 16384

noncomputable section

namespace Cert.KernelIdeal.LastLinearValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Shapes Cert.KernelIdeal.Payloads

variable (V : (c : Dev nD) → (b : Ref sig .tc) → Buf (Elt Ideal) ((c : Thread nD τ).loc b))

/-- The zero offsets of a whole-buffer rectangle, as the constant function. -/
theorem hz : (![0, 0] : Fin 2 → Nat) = fun _ => 0 := funext fun a => by fin_cases a <;> rfl

/-- The tile the region leaves, read at one entry. -/
theorem affine_apply (x0 : Vec Ideal S5000x128 .f32) (x1 : Vec Ideal S128x128 .f32) (x2 : Vec Ideal S1x128 .f32)
    (p : Fin 5000) (j : Fin 128) :
    LastLinear.affine x0 x1 x2 (ix2 p j) = (∑ k : Fin 128, x0 (ix2 p k) * x1 (ix2 k j)) + x2 (ix2 0 j) := by
  unfold LastLinear.affine
  rw [View.canon_unit_zero hz]
  simp only [View.ld_unit_zero (S := S5000x128) hz, View.ld_unit_zero (S := S128x128) hz, View.ld_unit_zero (S := S1x128) hz]
  exact k10_pay1_apply x0 x1 x2 p j

/-- The block indices over the grid: the rows and the output move one block of rows per point, the weights and the bias stay. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The output array as one function of the three input arrays: the linear layer, entry by entry. -/
def G (c : Dev nD) : S50000x128.Idx → EReal := fun i =>
  Cert.Spec.lin (curry (V c (Pipeline.arrRef spec10 0))) (curry (V c (Pipeline.arrRef spec10 1)))
    (row (V c (Pipeline.arrRef spec10 2))) (i 0) (i 1)

/-- The rows' tile at point `t`, read at `(p, k)`, is the rows' array at the output block's row and at column `k`. -/
theorem tile_0 (c : Dev nD) (t : Fin cfg10.N) (p : Fin 5000) (j k : Fin 128) :
    LastLinear.tile V c 0 t (ix2 p k)
      = curry (V c (Pipeline.arrRef spec10 0)) ((((cfg10.win 3).blk t).view.emb (ix2 p j)) 0) k := by
  obtain ⟨e00, e01, e10, e11, e20, e21, e30, e31⟩ := idx_facts t
  show V c (Pipeline.arrRef spec10 0) (((cfg10.win 0).blk t).view.emb (ix2 p k)) = V c (Pipeline.arrRef spec10 0) (ix2 _ k)
  refine congrArg (V c (Pipeline.arrRef spec10 0)) ?_
  funext a; apply Fin.ext
  match a with
  | ⟨0, _⟩ => show win10_0.index t (0 : Fin 2) * 5000 + 1 * p.val = win10_3.index t (0 : Fin 2) * 5000 + 1 * p.val; omega
  | ⟨1, _⟩ => show win10_0.index t (1 : Fin 2) * 128 + 1 * k.val = k.val; omega

/-- The weights' tile at any point, read at `(k, j)`, is the weights' array at row `k` and at the output block's column. -/
theorem tile_1 (c : Dev nD) (t : Fin cfg10.N) (p : Fin 5000) (j k : Fin 128) :
    LastLinear.tile V c 1 t (ix2 k j)
      = curry (V c (Pipeline.arrRef spec10 1)) k ((((cfg10.win 3).blk t).view.emb (ix2 p j)) 1) := by
  obtain ⟨e00, e01, e10, e11, e20, e21, e30, e31⟩ := idx_facts t
  show V c (Pipeline.arrRef spec10 1) (((cfg10.win 1).blk t).view.emb (ix2 k j)) = V c (Pipeline.arrRef spec10 1) (ix2 k _)
  refine congrArg (V c (Pipeline.arrRef spec10 1)) ?_
  funext a; apply Fin.ext
  match a with
  | ⟨0, _⟩ => show win10_1.index t (0 : Fin 2) * 128 + 1 * k.val = k.val; omega
  | ⟨1, _⟩ => show win10_1.index t (1 : Fin 2) * 128 + 1 * j.val = win10_3.index t (1 : Fin 2) * 128 + 1 * j.val; omega

/-- The bias's tile at any point, read at column `j`, is the bias's one row at the output block's column. -/
theorem tile_2 (c : Dev nD) (t : Fin cfg10.N) (p : Fin 5000) (j : Fin 128) :
    LastLinear.tile V c 2 t (ix2 0 j) = row (V c (Pipeline.arrRef spec10 2)) ((((cfg10.win 3).blk t).view.emb (ix2 p j)) 1) := by
  obtain ⟨e00, e01, e10, e11, e20, e21, e30, e31⟩ := idx_facts t
  show V c (Pipeline.arrRef spec10 2) (((cfg10.win 2).blk t).view.emb (ix2 0 j)) = V c (Pipeline.arrRef spec10 2) (ix2 0 _)
  refine congrArg (V c (Pipeline.arrRef spec10 2)) ?_
  funext a; apply Fin.ext
  match a with
  | ⟨0, _⟩ => show win10_2.index t (0 : Fin 2) * 1 + 1 * 0 = 0; omega
  | ⟨1, _⟩ => show win10_2.index t (1 : Fin 2) * 128 + 1 * j.val = win10_3.index t (1 : Fin 2) * 128 + 1 * j.val; omega

/-- What point `t` writes back is block `t` of that function. -/
theorem flushed_eq (c : Dev nD) (t : Fin cfg10.N) :
    (LastLinear.dat V c).flushed 3 t = ((cfg10.win 3).blk t).view.read (Elt Ideal) (G V c) := by
  show (cfg10.win 3).cut (grid10.coords t) ((LastLinear.dat V c).after 3 t) = _
  rw [LastLinear.after_3]
  funext y
  obtain ⟨p, j, rfl⟩ : ∃ (p : Fin 5000) (j : Fin 128), y = ix2 p j := ⟨y 0, y 1, eq_ix2 y⟩
  refine (affine_apply _ _ _ p j).trans ?_
  show _ = (∑ k : Fin 128, curry (V c (Pipeline.arrRef spec10 0)) ((((cfg10.win 3).blk t).view.emb (ix2 p j)) 0) k
        * curry (V c (Pipeline.arrRef spec10 1)) k ((((cfg10.win 3).blk t).view.emb (ix2 p j)) 1))
      + row (V c (Pipeline.arrRef spec10 2)) ((((cfg10.win 3).blk t).view.emb (ix2 p j)) 1)
  rw [tile_2 V c t p j]
  refine congrArg (· + _) ?_
  refine Finset.sum_congr rfl fun k _ => ?_
  rw [tile_0 V c t p j k, tile_1 V c t p j k]

/-- An index of the output array is in point `t`'s block iff each coordinate is in the block's range on its axis. -/
theorem mem_blk (t : Fin cfg10.N) (i : S50000x128.Idx) :
    i ∈ ((cfg10.win 3).blk t).view.set ↔ ∀ a : Fin 2, win10_3.index t a * S5000x128.size a ≤ (i a).val ∧ (i a).val < win10_3.index t a * S5000x128.size a + S5000x128.size a := by
  show i ∈ ((View.whole main_v134).slice (win10_3.rect t)).set ↔ _
  rw [View.set_slice_whole, Rect.mem_set_unit]
  exact Iff.rfl

/-- Every row of the output array is in the block of the point its row number divided by 5000 names. -/
theorem cover (i : S50000x128.Idx) : ∃ t : Fin cfg10.N, (cfg10.win 3).flush t = true ∧ i ∈ ((cfg10.win 3).blk t).view.set := by
  have hi0 : (i 0).val < 50000 := (i 0).isLt
  have hi1 : (i 1).val < 128 := (i 1).isLt
  have hN : cfg10.N = 10 := N_10
  let t : Fin cfg10.N := ⟨(i 0).val / 5000, by rw [hN]; omega⟩
  obtain ⟨e00, e01, e10, e11, e20, e21, e30, e31⟩ := idx_facts t
  have ht : t.val = (i 0).val / 5000 := rfl
  refine ⟨t, flush10_3 t, ?_⟩
  rw [mem_blk]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 128 ≤ (i 1).val ∧ (i 1).val < win10_3.index t (1 : Fin 2) * 128 + 128; omega

/-- The output array after the region is that function. -/
theorem final (c : Dev nD) : (LastLinear.dat V c).arrAt 3 cfg10.N = G V c :=
  (LastLinear.dat V c).arrAt_eq_of_cover 3 (G V c) (fun t _ => flushed_eq V c t) cover

/-- The output array, read as a matrix, is the linear layer of the input arrays read as two matrices and a vector. -/
theorem out_eq (c : Dev nD) :
    curry ((LastLinear.dat (F := Ideal) V c).arrAt 3 cfg10.N)
      = Cert.Spec.lin (curry (V c (Pipeline.arrRef spec10 0))) (curry (V c (Pipeline.arrRef spec10 1)))
          (row (V c (Pipeline.arrRef spec10 2))) := by
  rw [final]
  rfl

end Cert.KernelIdeal.LastLinearValue

end
-- ==== Proof.KernelIdeal.RowNormalizeValue.lean ====
/-
  The output array of the row-normalisation region as one function of its input array.

  The region walks ten blocks of 5000 rows of a 50000 × 128 array. At block `t` it reads rows `5000 t … 5000 t + 4999` of the
  input array and writes back, to the same rows of the output array, every row divided by the larger of its Euclidean
  norm and the floor. A row's norm needs that row only, so what block `t` writes back is block `t` of ONE function of the
  input array — entry `(r, j)` is `x r j` divided by `max (sqrt (∑ k, x r k * x r k))` and the floor —, the ten blocks cover
  the output array (row `r` is in block `r / 5000`), and the output array after the region is that function:
  `Cert.Spec.rowNormalize` of the input array read as a matrix.
-/
import proofs.«176586_j29291676959176_1_alg».proof.Proof.KernelIdeal.RowNormalize
import proofs.«176586_j29291676959176_1_alg».proof.Proof.KernelIdeal.Payloads
import proofs.«176586_j29291676959176_1_alg».proof.Proof.KernelIdeal.Shapes
import proofs.«176586_j29291676959176_1_alg».proof.Proof.Spec
import Idealize.ShloMosaic.Lib.Pipeline.Value
import Idealize.ShloMosaic.Lib.ValueIdx

set_option maxRecDepth 16384

noncomputable section

namespace Cert.KernelIdeal.RowNormalizeValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Shapes Cert.KernelIdeal.Payloads

variable (V : (c : Dev nD) → (b : Ref sig .tc) → Buf (Elt Ideal) ((c : Thread nD τ).loc b))

/-- The zero offsets of a whole-buffer rectangle, as the constant function. -/
theorem hz : (![0, 0] : Fin 2 → Nat) = fun _ => 0 := funext fun a => by fin_cases a <;> rfl

/-- The tile the region leaves, read at one entry. -/
theorem normalised_apply (x0 : Vec Ideal S5000x128 .f32) (p : Fin 5000) (j : Fin 128) :
    RowNormalize.normalised x0 (ix2 p j)
      = Ideal.div (x0 (ix2 p j)) (max (Ideal.sqrt (∑ k : Fin 128, x0 (ix2 p k) * x0 (ix2 p k))) Cert.Spec.tiny) := by
  unfold RowNormalize.normalised RowNormalize.whole
  rw [View.canon_unit_zero hz]
  simp only [View.ld_unit_zero (S := S5000x128) hz]
  exact k11_pay1_apply x0 p j

/-- The block indices over the grid: the input and the output move one block of rows per point. -/
theorem idx_facts : ∀ t : Fin cfg11.N, win11_0.index t (0 : Fin 2) = t.val ∧ win11_0.index t (1 : Fin 2) = 0
    ∧ win11_1.index t (0 : Fin 2) = t.val ∧ win11_1.index t (1 : Fin 2) = 0 :=
  (by decide +kernel : ∀ t : Fin grid11.N, _)

/-- The output array as one function of the input array: the row normalisation, entry by entry. -/
def G (c : Dev nD) : S50000x128.Idx → EReal := fun i =>
  Cert.Spec.rowNormalize (curry (V c (Pipeline.arrRef spec11 0))) (i 0) (i 1)

/-- The input's tile at point `t`, read at `(p, k)`, is the input array at the output block's row and at column `k`. -/
theorem tile_0 (c : Dev nD) (t : Fin cfg11.N) (p : Fin 5000) (j k : Fin 128) :
    RowNormalize.tile V c 0 t (ix2 p k)
      = curry (V c (Pipeline.arrRef spec11 0)) ((((cfg11.win 1).blk t).view.emb (ix2 p j)) 0) k := by
  obtain ⟨e00, e01, e10, e11⟩ := idx_facts t
  show V c (Pipeline.arrRef spec11 0) (((cfg11.win 0).blk t).view.emb (ix2 p k)) = V c (Pipeline.arrRef spec11 0) (ix2 _ k)
  refine congrArg (V c (Pipeline.arrRef spec11 0)) ?_
  funext a; apply Fin.ext
  match a with
  | ⟨0, _⟩ => show win11_0.index t (0 : Fin 2) * 5000 + 1 * p.val = win11_1.index t (0 : Fin 2) * 5000 + 1 * p.val; omega
  | ⟨1, _⟩ => show win11_0.index t (1 : Fin 2) * 128 + 1 * k.val = k.val; omega

/-- The output block's column at `(p, j)` is `j`. -/
theorem emb_col (t : Fin cfg11.N) (p : Fin 5000) (j : Fin 128) :
    ((((cfg11.win 1).blk t).view.emb (ix2 p j)) 1 : Fin 128) = j := by
  obtain ⟨e00, e01, e10, e11⟩ := idx_facts t
  apply Fin.ext
  show win11_1.index t (1 : Fin 2) * 128 + 1 * j.val = j.val
  omega

/-- What point `t` writes back is block `t` of that function. -/
theorem flushed_eq (c : Dev nD) (t : Fin cfg11.N) :
    (RowNormalize.dat V c).flushed 1 t = ((cfg11.win 1).blk t).view.read (Elt Ideal) (G V c) := by
  show (cfg11.win 1).cut (grid11.coords t) ((RowNormalize.dat V c).after 1 t) = _
  rw [RowNormalize.after_out]
  funext y
  obtain ⟨p, j, rfl⟩ : ∃ (p : Fin 5000) (j : Fin 128), y = ix2 p j := ⟨y 0, y 1, eq_ix2 y⟩
  refine (normalised_apply _ p j).trans ?_
  show _ = Ideal.div (curry (V c (Pipeline.arrRef spec11 0)) ((((cfg11.win 1).blk t).view.emb (ix2 p j)) 0) ((((cfg11.win 1).blk t).view.emb (ix2 p j)) 1))
      (max (Ideal.sqrt (∑ k : Fin 128, curry (V c (Pipeline.arrRef spec11 0)) ((((cfg11.win 1).blk t).view.emb (ix2 p j)) 0) k
        * curry (V c (Pipeline.arrRef spec11 0)) ((((cfg11.win 1).blk t).view.emb (ix2 p j)) 0) k)) Cert.Spec.tiny)
  refine congrArg₂ Ideal.div ?_ (congrArg (fun s => max (Ideal.sqrt s) Cert.Spec.tiny) (Finset.sum_congr rfl fun k _ => ?_))
  · exact (tile_0 V c t p j j).trans
      (congrArg (curry (V c (Pipeline.arrRef spec11 0)) ((((cfg11.win 1).blk t).view.emb (ix2 p j)) 0)) (emb_col t p j).symm)
  · rw [tile_0 V c t p j k]

/-- An index of the output array is in point `t`'s block iff each coordinate is in the block's range on its axis. -/
theorem mem_blk (t : Fin cfg11.N) (i : S50000x128.Idx) :
    i ∈ ((cfg11.win 1).blk t).view.set ↔ ∀ a : Fin 2, win11_1.index t a * S5000x128.size a ≤ (i a).val ∧ (i a).val < win11_1.index t a * S5000x128.size a + S5000x128.size a := by
  show i ∈ ((View.whole main_v135).slice (win11_1.rect t)).set ↔ _
  rw [View.set_slice_whole, Rect.mem_set_unit]
  exact Iff.rfl

/-- Every row of the output array is in the block of the point its row number divided by 5000 names. -/
theorem cover (i : S50000x128.Idx) : ∃ t : Fin cfg11.N, (cfg11.win 1).flush t = true ∧ i ∈ ((cfg11.win 1).blk t).view.set := by
  have hi0 : (i 0).val < 50000 := (i 0).isLt
  have hi1 : (i 1).val < 128 := (i 1).isLt
  have hN : cfg11.N = 10 := N_11
  let t : Fin cfg11.N := ⟨(i 0).val / 5000, by rw [hN]; omega⟩
  obtain ⟨e00, e01, e10, e11⟩ := idx_facts t
  have ht : t.val = (i 0).val / 5000 := rfl
  refine ⟨t, flush11_1 t, ?_⟩
  rw [mem_blk]
  intro a
  match a with
  | ⟨0, _⟩ => show win11_1.index t (0 : Fin 2) * 5000 ≤ (i 0).val ∧ (i 0).val < win11_1.index t (0 : Fin 2) * 5000 + 5000; omega
  | ⟨1, _⟩ => show win11_1.index t (1 : Fin 2) * 128 ≤ (i 1).val ∧ (i 1).val < win11_1.index t (1 : Fin 2) * 128 + 128; omega

/-- The output array after the region is that function. -/
theorem final (c : Dev nD) : (RowNormalize.dat V c).arrAt 1 cfg11.N = G V c :=
  (RowNormalize.dat V c).arrAt_eq_of_cover 1 (G V c) (fun t _ => flushed_eq V c t) cover

/-- The output array, read as a matrix, is the row normalisation of the input array read as a matrix. -/
theorem out_eq (c : Dev nD) :
    curry ((RowNormalize.dat (F := Ideal) V c).arrAt 1 cfg11.N)
      = Cert.Spec.rowNormalize (curry (V c (Pipeline.arrRef spec11 0))) := by
  rw [final]
  rfl

end Cert.KernelIdeal.RowNormalizeValue

end
-- ==== Proof.Reference.Words.lean ====
/-
  The three float words of the network as real numbers: the node count is exactly 50000, and the
  normalisation's epsilon and the norm's floor are positive reals.
-/
import proofs.«176586_j29291676959176_1_alg».proof.Proof.Spec

noncomputable section

namespace Cert.Spec

open Idealize.ShloMosaic

/-- The word 0x47435000 is 12800000 · 2⁻⁸ = 50000. -/
theorem count_eq : count = ((50000 : ℝ) : EReal) := by
  unfold count
  simp [Ideal.ofBits, Ideal.ieee, -EReal.coe_mul]
  norm_num

theorem count_pos : (0 : EReal) < count := by
  rw [count_eq]; exact_mod_cast (by norm_num : (0 : ℝ) < 50000)

theorem count_ne_zero : (50000 : ℝ) ≠ 0 := by norm_num

/-- The word 0x3727C5AC is 10995116 · 2⁻⁴⁰, a positive real. -/
theorem eps_eq : eps = (((10995116 : ℝ) * (2 : ℝ) ^ (-40 : ℤ) : ℝ) : EReal) := by
  unfold eps
  simp [Ideal.ofBits, Ideal.ieee, -EReal.coe_mul]

theorem eps_real_pos : (0 : ℝ) < (10995116 : ℝ) * (2 : ℝ) ^ (-40 : ℤ) := by positivity

/-- The word 0x2B8CBCCC is 9223372 · 2⁻⁶³, a positive real. -/
theorem tiny_eq : tiny = (((9223372 : ℝ) * (2 : ℝ) ^ (-63 : ℤ) : ℝ) : EReal) := by
  unfold tiny
  simp [Ideal.ofBits, Ideal.ieee, -EReal.coe_mul]

theorem tiny_real_pos : (0 : ℝ) < (9223372 : ℝ) * (2 : ℝ) ^ (-63 : ℤ) := by positivity

end Cert.Spec

end
-- ==== Proof.Reference.IdealB.lean ====
/-
  The reference's statistics, normalisation, rectifier and final division read at an index over
  extended reals, and each layer's four stages as the formulas of the specification: the guard of
  the variance holds (the count is 50000 − 0 > 0), so the variance is the mean of the squared
  deviations; every initial value of a sum is the zero word, dropped.
-/
import proofs.«176586_j29291676959176_1_alg».proof.Proof.Reference.IdealA
import proofs.«176586_j29291676959176_1_alg».proof.Proof.Reference.Words

noncomputable section

namespace Cert.ReferenceIdeal.RefRun

open Cert.ReferenceIdeal Cert.ReferenceIdeal.Gen Idealize.ShloMosaic Idealize.ShloMosaic.ValueIdx

/-! ## The statistics, the normalisation, the rectifier, the final division -/

theorem hostRsqrt_apply {s : Shape} {φ : FTy} (a : FVec Ideal s φ) (i : s.Idx) : Host.rsqrt a i = Ideal.rsqrt (a i) := rfl
theorem hostSqrt_apply {s : Shape} {φ : FTy} (a : FVec Ideal s φ) (i : s.Idx) : Host.sqrt a i = Ideal.sqrt (a i) := rfl

/-- The mean over the nodes of feature `j`. -/
theorem mean_apply (x : (⟨S50000x128, .f32⟩ : BufTy).Contents (Elt Ideal)) (j : Fin 128) : mean x (ix1 j) = Cert.Spec.colMean (curry x) j := by
  unfold mean Cert.Spec.colMean Cert.Spec.count
  rw [hostDivf_apply, colSum_apply, broadcastInDim_scalar_apply, constant_apply]
  rfl

/-- The count the variance divides by is the node count: 50000 minus the integer zero converted. -/
theorem varCount_apply (i : S_.Idx) : varCount (F := Ideal) i = Cert.Spec.count := by
  unfold varCount Cert.Spec.count
  rw [subf_apply, constant_apply, sitofp_apply]
  show Ideal.ofBits .f32 0x47435000#32 - (((((0#32 : BitVec 32)).toInt : ℝ)) : EReal) = _
  simp

/-- The deviation of node `r`'s feature `j` from the feature's mean. -/
theorem deviations_apply (x : (⟨S50000x128, .f32⟩ : BufTy).Contents (Elt Ideal)) (r : Fin 50000) (j : Fin 128) :
    deviations x (ix2 r j) = x (ix2 r j) - Cert.Spec.colMean (curry x) j := by
  unfold deviations
  rw [subf_apply]
  refine congrArg (x (ix2 r j) - ·) ?_
  refine (broadcastInDim_apply _ _ _ (ix2 r j) (ix2 (0 : Fin 1) j) fun a => ?_).trans ?_
  · match a with
    | ⟨0, _⟩ => rfl
    | ⟨1, _⟩ => rfl
  rw [hostDivf_apply, broadcastInDim_scalar_apply, constant_apply]
  unfold Cert.Spec.colMean Cert.Spec.count
  refine congrArg (Ideal.div · (Ideal.ofBits .f32 0x47435000#32)) ?_
  refine (broadcastInDim_apply _ _ _ (ix2 (0 : Fin 1) j) (ix1 j) fun a => ?_).trans (colSum_apply x j)
  match a with
  | ⟨0, _⟩ => rfl

/-- The guard of the variance holds: the count is positive. -/
theorem guard_eq : Ideal.cmp .ogt Cert.Spec.count 0 = 1#1 := by
  unfold Ideal.cmp
  simp [Cert.Spec.count_pos]

/-- The variance over the nodes of feature `j`: the guard holds, so it is the mean of the squared deviations. -/
theorem var_apply (x : (⟨S50000x128, .f32⟩ : BufTy).Contents (Elt Ideal)) (j : Fin 128) : var x (ix1 j) = Cert.Spec.varDev (curry x) j := by
  unfold var
  rw [select_apply, broadcastInDim_scalar_apply, cmpf_apply, varCount_apply, constant_apply, Ideal.ofBits_zero_f32,
    Ideal.cmpf_def, guard_eq, select_one, hostDivf_apply, broadcastInDim_scalar_apply, varCount_apply]
  unfold Cert.Spec.varDev
  refine congrArg (Ideal.div · Cert.Spec.count) ?_
  rw [colSum_apply]
  refine Finset.sum_congr rfl fun r _ => ?_
  rw [mulf_apply, deviations_apply]
  rfl

/-- Normalisation followed by the rectifier, as a matrix of extended reals: the factors in the source's order,
    (scale · deviation) · reciprocal root, plus the shift. -/
theorem curry_relu_bnorm (x : (⟨S50000x128, .f32⟩ : BufTy).Contents (Elt Ideal)) (γ β : (⟨S128, .f32⟩ : BufTy).Contents (Elt Ideal)) :
    curry (relu (bnorm x γ β))
      = Cert.Spec.bnRelu (curry x) (Cert.Spec.colMean (curry x)) (Cert.Spec.varDev (curry x)) (fun j => γ (ix1 j)) (fun j => β (ix1 j)) := by
  funext r j
  show relu (bnorm x γ β) (ix2 r j) = _
  unfold relu bnorm zeros Cert.Spec.bnRelu
  rw [maximumf_apply, broadcastInDim_scalar_apply, constant_apply, Ideal.ofBits_zero_f32, addf_apply, mulf_apply, mulf_apply,
    subf_apply, rows_apply, rows_apply, rows_apply, rows_apply, hostRsqrt_apply, addf_apply, mean_apply, var_apply,
    broadcastInDim_scalar_apply, constant_apply]
  rfl

/-- Every row divided by the larger of its norm and the floor, as a matrix of extended reals. -/
theorem curry_l2normalize (x : (⟨S50000x128, .f32⟩ : BufTy).Contents (Elt Ideal)) : curry (l2normalize x) = Cert.Spec.rowNormalize (curry x) := by
  funext r j
  show l2normalize x (ix2 r j) = _
  unfold l2normalize Cert.Spec.rowNormalize
  rw [hostDivf_apply]
  refine congrArg (Ideal.div (x (ix2 r j))) ?_
  refine (broadcastInDim_apply _ _ _ (ix2 r j) (ix2 r (0 : Fin 1)) fun a => ?_).trans ?_
  · match a with
    | ⟨0, _⟩ => rfl
    | ⟨1, _⟩ => rfl
  rw [maximumf_apply, hostSqrt_apply, broadcastInDim_scalar_apply, constant_apply]
  unfold Cert.Spec.tiny
  refine congrArg (fun t => max (Ideal.sqrt t) (Ideal.ofBits .f32 0x2B8CBCCC#32)) ?_
  refine (broadcastInDim_apply _ _ _ (ix2 r (0 : Fin 1)) (ix1 r) fun a => ?_).trans ?_
  · match a with
    | ⟨0, _⟩ => rfl
  rw [hostReduceAdd_apply, Ideal.hostReduceAdd_single reducesTo_S50000x128_S50000_d1 (by decide), constant_apply,
    Ideal.ofBits_zero_f32, zero_add]
  refine Finset.sum_congr rfl fun k _ => ?_
  rw [mulf_apply]
  exact congrArg₂ (· * ·)
    (congrArg x (funext fun a => Fin.ext (by match a with | ⟨0, _⟩ => rfl | ⟨1, _⟩ => rfl)))
    (congrArg x (funext fun a => Fin.ext (by match a with | ⟨0, _⟩ => rfl | ⟨1, _⟩ => rfl)))

/-! ## The layers -/

/-- A linear map whose matrix and bias are slices of the argument arrays. -/
theorem curry_linear_slices (x : (⟨S50000x128, .f32⟩ : BufTy).Contents (Elt Ideal)) (offW : Fin S3x128x128.rank → Nat) (hW : S3x128x128.Slices offW S1x128x128)
    (W : (⟨S3x128x128, .f32⟩ : BufTy).Contents (Elt Ideal)) (offb : Fin S3x128.rank → Nat) (hb : S3x128.Slices offb S1x128) (b : (⟨S3x128, .f32⟩ : BufTy).Contents (Elt Ideal)) (L : Fin 3)
    (w0 : offW 0 = L.val) (w1 : offW 1 = 0) (w2 : offW 2 = 0) (b0 : offb 0 = L.val) (b1 : offb 1 = 0) :
    curry (linear x (mat3 offW hW W) (row3 offb hb b))
      = Cert.Spec.lin (curry x) (fun k j => W (ix3 L k j)) (fun j => b (ix2 L j)) := by
  have eW : (fun k j => mat3 offW hW W (ix2 k j)) = fun k j => W (ix3 L k j) :=
    funext fun k => funext fun j => mat3_apply offW hW W L w0 w1 w2 k j
  have eb : (fun j => row3 offb hb b (ix1 j)) = fun j => b (ix2 L j) :=
    funext fun j => row3_apply offb hb b L b0 b1 j
  rw [curry_linear, eW, eb]

/-- Normalisation and rectifier with scale and shift rows of 3 × 128 parameter arrays. -/
theorem curry_relu_bnorm_row3 (x : (⟨S50000x128, .f32⟩ : BufTy).Contents (Elt Ideal)) (off : Fin S3x128.rank → Nat) (hs : S3x128.Slices off S1x128) (g b : (⟨S3x128, .f32⟩ : BufTy).Contents (Elt Ideal)) (L : Fin 3)
    (h0 : off 0 = L.val) (h1 : off 1 = 0) :
    curry (relu (bnorm x (row3 off hs g) (row3 off hs b)))
      = Cert.Spec.bnRelu (curry x) (Cert.Spec.colMean (curry x)) (Cert.Spec.varDev (curry x)) (fun j => g (ix2 L j)) (fun j => b (ix2 L j)) := by
  have eg : (fun j => row3 off hs g (ix1 j)) = fun j => g (ix2 L j) := funext fun j => row3_apply off hs g L h0 h1 j
  have eb : (fun j => row3 off hs b (ix1 j)) = fun j => b (ix2 L j) := funext fun j => row3_apply off hs b L h0 h1 j
  rw [curry_relu_bnorm, eg, eb]

/-- Normalisation and rectifier with scale and shift rows of 2 × 128 parameter arrays. -/
theorem curry_relu_bnorm_row2 (x : (⟨S50000x128, .f32⟩ : BufTy).Contents (Elt Ideal)) (off : Fin S2x128.rank → Nat) (hs : S2x128.Slices off S1x128) (g b : (⟨S2x128, .f32⟩ : BufTy).Contents (Elt Ideal)) (L : Fin 2)
    (h0 : off 0 = L.val) (h1 : off 1 = 0) :
    curry (relu (bnorm x (row2 off hs g) (row2 off hs b)))
      = Cert.Spec.bnRelu (curry x) (Cert.Spec.colMean (curry x)) (Cert.Spec.varDev (curry x)) (fun j => g (ix2 L j)) (fun j => b (ix2 L j)) := by
  have eg : (fun j => row2 off hs g (ix1 j)) = fun j => g (ix2 L j) := funext fun j => row2_apply off hs g L h0 h1 j
  have eb : (fun j => row2 off hs b (ix1 j)) = fun j => b (ix2 L j) := funext fun j => row2_apply off hs b L h0 h1 j
  rw [curry_relu_bnorm, eg, eb]

section Layers

variable (a0 : (⟨S50000x128, .f32⟩ : BufTy).Contents (Elt Ideal)) (a1 : (⟨S2x800000, .i32⟩ : BufTy).Contents (Elt Ideal)) (a2 : (⟨S3x128x128, .f32⟩ : BufTy).Contents (Elt Ideal)) (a3 a4 a5 : (⟨S3x128, .f32⟩ : BufTy).Contents (Elt Ideal))
  (a6 : (⟨S3x128x128, .f32⟩ : BufTy).Contents (Elt Ideal)) (a7 : (⟨S3x128, .f32⟩ : BufTy).Contents (Elt Ideal)) (a8 a9 : (⟨S2x128, .f32⟩ : BufTy).Contents (Elt Ideal))

theorem curry_pre0 : curry (pre0 a0 a1 a2 a3)
    = Cert.Spec.lin (curry (selfPlusAgg a0 (srcFlat a1) (dstFlat a1))) (fun k j => a2 (ix3 (0 : Fin 3) k j)) (fun j => a3 (ix2 (0 : Fin 3) j)) := by
  unfold pre0
  exact curry_linear_slices _ _ _ a2 _ _ a3 0 rfl rfl rfl rfl rfl

theorem curry_mid0 : curry (mid0 a0 a1 a2 a3 a4 a5)
    = Cert.Spec.bnRelu (curry (pre0 a0 a1 a2 a3)) (Cert.Spec.colMean (curry (pre0 a0 a1 a2 a3))) (Cert.Spec.varDev (curry (pre0 a0 a1 a2 a3)))
        (fun j => a4 (ix2 (0 : Fin 3) j)) (fun j => a5 (ix2 (0 : Fin 3) j)) := by
  unfold mid0
  exact curry_relu_bnorm_row3 _ _ _ a4 a5 0 rfl rfl

theorem curry_out0 : curry (out0 a0 a1 a2 a3 a4 a5 a6 a7)
    = Cert.Spec.lin (curry (mid0 a0 a1 a2 a3 a4 a5)) (fun k j => a6 (ix3 (0 : Fin 3) k j)) (fun j => a7 (ix2 (0 : Fin 3) j)) := by
  unfold out0
  exact curry_linear_slices _ _ _ a6 _ _ a7 0 rfl rfl rfl rfl rfl

theorem curry_hid1 : curry (hid1 a0 a1 a2 a3 a4 a5 a6 a7 a8 a9)
    = Cert.Spec.bnRelu (curry (out0 a0 a1 a2 a3 a4 a5 a6 a7)) (Cert.Spec.colMean (curry (out0 a0 a1 a2 a3 a4 a5 a6 a7))) (Cert.Spec.varDev (curry (out0 a0 a1 a2 a3 a4 a5 a6 a7)))
        (fun j => a8 (ix2 (0 : Fin 2) j)) (fun j => a9 (ix2 (0 : Fin 2) j)) := by
  unfold hid1
  exact curry_relu_bnorm_row2 _ _ _ a8 a9 0 rfl rfl

theorem curry_pre1 : curry (pre1 a0 a1 a2 a3 a4 a5 a6 a7 a8 a9)
    = Cert.Spec.lin (curry (selfPlusAgg (hid1 a0 a1 a2 a3 a4 a5 a6 a7 a8 a9) (srcFlat a1) (dstFlat a1))) (fun k j => a2 (ix3 (1 : Fin 3) k j)) (fun j => a3 (ix2 (1 : Fin 3) j)) := by
  unfold pre1
  exact curry_linear_slices _ _ _ a2 _ _ a3 1 rfl rfl rfl rfl rfl

theorem curry_mid1 : curry (mid1 a0 a1 a2 a3 a4 a5 a6 a7 a8 a9)
    = Cert.Spec.bnRelu (curry (pre1 a0 a1 a2 a3 a4 a5 a6 a7 a8 a9)) (Cert.Spec.colMean (curry (pre1 a0 a1 a2 a3 a4 a5 a6 a7 a8 a9))) (Cert.Spec.varDev (curry (pre1 a0 a1 a2 a3 a4 a5 a6 a7 a8 a9)))
        (fun j => a4 (ix2 (1 : Fin 3) j)) (fun j => a5 (ix2 (1 : Fin 3) j)) := by
  unfold mid1
  exact curry_relu_bnorm_row3 _ _ _ a4 a5 1 rfl rfl

theorem curry_out1 : curry (out1 a0 a1 a2 a3 a4 a5 a6 a7 a8 a9)
    = Cert.Spec.lin (curry (mid1 a0 a1 a2 a3 a4 a5 a6 a7 a8 a9)) (fun k j => a6 (ix3 (1 : Fin 3) k j)) (fun j => a7 (ix2 (1 : Fin 3) j)) := by
  unfold out1
  exact curry_linear_slices _ _ _ a6 _ _ a7 1 rfl rfl rfl rfl rfl

theorem curry_hid2 : curry (hid2 a0 a1 a2 a3 a4 a5 a6 a7 a8 a9)
    = Cert.Spec.bnRelu (curry (out1 a0 a1 a2 a3 a4 a5 a6 a7 a8 a9)) (Cert.Spec.colMean (curry (out1 a0 a1 a2 a3 a4 a5 a6 a7 a8 a9))) (Cert.Spec.varDev (curry (out1 a0 a1 a2 a3 a4 a5 a6 a7 a8 a9)))
        (fun j => a8 (ix2 (1 : Fin 2) j)) (fun j => a9 (ix2 (1 : Fin 2) j)) := by
  unfold hid2
  exact curry_relu_bnorm_row2 _ _ _ a8 a9 1 rfl rfl

theorem curry_pre2 : curry (pre2 a0 a1 a2 a3 a4 a5 a6 a7 a8 a9)
    = Cert.Spec.lin (curry (selfPlusAgg (hid2 a0 a1 a2 a3 a4 a5 a6 a7 a8 a9) (srcFlat a1) (dstFlat a1))) (fun k j => a2 (ix3 (2 : Fin 3) k j)) (fun j => a3 (ix2 (2 : Fin 3) j)) := by
  unfold pre2
  exact curry_linear_slices _ _ _ a2 _ _ a3 2 rfl rfl rfl rfl rfl

theorem curry_mid2 : curry (mid2 a0 a1 a2 a3 a4 a5 a6 a7 a8 a9)
    = Cert.Spec.bnRelu (curry (pre2 a0 a1 a2 a3 a4 a5 a6 a7 a8 a9)) (Cert.Spec.colMean (curry (pre2 a0 a1 a2 a3 a4 a5 a6 a7 a8 a9))) (Cert.Spec.varDev (curry (pre2 a0 a1 a2 a3 a4 a5 a6 a7 a8 a9)))
        (fun j => a4 (ix2 (2 : Fin 3) j)) (fun j => a5 (ix2 (2 : Fin 3) j)) := by
  unfold mid2
  exact curry_relu_bnorm_row3 _ _ _ a4 a5 2 rfl rfl

theorem curry_out2 : curry (out2 a0 a1 a2 a3 a4 a5 a6 a7 a8 a9)
    = Cert.Spec.lin (curry (mid2 a0 a1 a2 a3 a4 a5 a6 a7 a8 a9)) (fun k j => a6 (ix3 (2 : Fin 3) k j)) (fun j => a7 (ix2 (2 : Fin 3) j)) := by
  unfold out2
  exact curry_linear_slices _ _ _ a6 _ _ a7 2 rfl rfl rfl rfl rfl

theorem curry_result : curry (result a0 a1 a2 a3 a4 a5 a6 a7 a8 a9)
    = Cert.Spec.rowNormalize (curry (out2 a0 a1 a2 a3 a4 a5 a6 a7 a8 a9)) := by
  unfold result
  exact curry_l2normalize _

end Layers

end Cert.ReferenceIdeal.RefRun

end
-- ==== Proof.Reference.Realness.lean ====
/-
  Real-valued arrays stay real through the network's steps — a linear layer, the column means and
  variances, normalisation with the rectifier (the variance is not negative and the epsilon is
  positive), the division by the row norm (the floor is positive) — and for a real array the two
  spellings of the variance are equal.
-/
import proofs.«176586_j29291676959176_1_alg».proof.Proof.Spec
import proofs.«176586_j29291676959176_1_alg».proof.Proof.LibBnStats
import proofs.«176586_j29291676959176_1_alg».proof.Proof.Reference.Words

noncomputable section

namespace Cert.Spec

open Idealize.ShloMosaic BnStats

/-- Every entry of a matrix is a real number. -/
def Real2 {m n : ℕ} (A : Mat m n) : Prop := ∀ r j, IsReal (A r j)
/-- Every entry of a vector is a real number. -/
def Real1 {n : ℕ} (v : Fin n → EReal) : Prop := ∀ j, IsReal (v j)

theorem count_isReal : IsReal count := ⟨50000, count_eq⟩
theorem eps_isReal : IsReal eps := ⟨_, eps_eq⟩
theorem tiny_isReal : IsReal tiny := ⟨_, tiny_eq⟩

variable {X Y : Mat 50000 128} {W : Mat 128 128} {b γ β : Fin 128 → EReal}

/-- A linear layer of real arrays is real. -/
theorem Real2.lin (hX : Real2 X) (hW : Real2 W) (hb : Real1 b) : Real2 (lin X W b) :=
  fun r j => (IsReal.sum _ fun k _ => (hX r k).mul (hW k j)).add (hb j)

/-- The column means of a real array are real. -/
theorem Real2.colMean (hY : Real2 Y) : Real1 (colMean Y) := fun j => by
  unfold Spec.colMean
  rw [count_eq]
  exact (IsReal.sum _ fun r _ => hY r j).div_coe count_ne_zero

/-- The column variances of a real array, as means of squared deviations, are real. -/
theorem Real2.varDev (hY : Real2 Y) : Real1 (varDev Y) := fun j => by
  unfold Spec.varDev
  rw [count_eq]
  exact (IsReal.sum _ fun r _ => ((hY r j).sub (hY.colMean j)).mul ((hY r j).sub (hY.colMean j))).div_coe count_ne_zero

/-- The column variances of a real array, as means of squares minus squared means, are real. -/
theorem Real2.varSq (hY : Real2 Y) : Real1 (varSq Y) := fun j => by
  unfold Spec.varSq
  rw [count_eq]
  exact ((IsReal.sum _ fun r _ => (hY r j).mul (hY r j)).div_coe count_ne_zero).sub ((hY.colMean j).mul (hY.colMean j))

/-- The variance of a real column is a real number that is not negative. -/
theorem varDev_nonneg (hY : Real2 Y) (j : Fin 128) : ∃ v : ℝ, 0 ≤ v ∧ varDev Y j = (v : EReal) := by
  obtain ⟨μ, hμ⟩ := hY.colMean j
  choose l hl using hY
  refine ⟨(∑ r, (l r j - μ) * (l r j - μ)) * (1 / 50000),
    var_dev_nonneg (fun r => l r j) μ 50000 (by norm_num), ?_⟩
  unfold Spec.varDev
  rw [hμ, count_eq, Ideal.div_coe count_ne_zero]
  simp only [hl, ← EReal.coe_sub, ← EReal.coe_mul, coe_finset_sum]

/-- Normalisation by a real array's own statistics, with real scale and shift, then the rectifier: real. The variance is
    not negative and the epsilon is positive, so the reciprocal square root is of a positive real. -/
theorem Real2.bnRelu (hY : Real2 Y) (hγ : Real1 γ) (hβ : Real1 β) :
    Real2 (bnRelu Y (Spec.colMean Y) (Spec.varDev Y) γ β) := fun r j => by
  obtain ⟨v, hv0, hv⟩ := varDev_nonneg hY j
  have hr : IsReal (Ideal.rsqrt (Spec.varDev Y j + eps)) := by
    rw [hv, eps_eq, ← EReal.coe_add]
    exact IsReal.rsqrt_pos (add_pos_of_nonneg_of_pos hv0 eps_real_pos)
  exact ((((hγ j).mul ((hY r j).sub (hY.colMean j))).mul hr).add (hβ j)).max IsReal.zero

/-- The larger of two reals, taken among the extended reals, is their larger. -/
theorem coe_max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- Dividing every row of a real array by the larger of its norm and the positive floor: real. -/
theorem Real2.rowNormalize (hX : Real2 X) : Real2 (rowNormalize X) := fun r j => by
  choose l hl using hX
  have hs : (∑ k, X r k * X r k) = (((∑ k, l r k * l r k : ℝ)) : EReal) := by
    simp only [hl, ← EReal.coe_mul, coe_finset_sum]
  have h0 : (0 : ℝ) ≤ ∑ k, l r k * l r k := Finset.sum_nonneg fun k _ => mul_self_nonneg _
  unfold Spec.rowNormalize
  rw [hs, Ideal.sqrt_coe, if_neg (not_lt.mpr h0), tiny_eq, coe_max_coe, hl]
  exact (IsReal.coe _).div_coe (ne_of_gt (lt_of_lt_of_le tiny_real_pos (le_max_right _ _)))

/-- THE LAW: for a real array the two spellings of the variance agree — the mean of the squared deviations is the mean of
    the squares minus the squared mean. -/
theorem varDev_eq_varSq (hY : Real2 Y) : varDev Y = varSq Y := by
  funext j
  unfold Spec.varDev Spec.varSq Spec.colMean
  rw [count_eq]
  exact var_eq (fun r => Y r j) (fun r => hY r j) 50000 (by simp) count_ne_zero

end Cert.Spec

end
-- ==== Proof.Reference.AggReal.lean ====
/-
  Realness through the aggregation and down the layers: a node array of real entries keeps real
  entries when each node adds the sum of its in-neighbours' rows (a gathered element is an element
  of the array, and a scatter-add from zero is a finite sum of gathered elements); hence, when the
  nine float argument arrays have real entries, every stage of the reference is a real array.
-/
import proofs.«176586_j29291676959176_1_alg».proof.Proof.Reference.IdealB
import proofs.«176586_j29291676959176_1_alg».proof.Proof.Reference.Realness

noncomputable section

namespace Cert.ReferenceIdeal.RefRun

open Cert.ReferenceIdeal Cert.ReferenceIdeal.Gen Idealize.ShloMosaic Idealize.ShloMosaic.ValueIdx BnStats Cert.Spec

/-- A node array is a real matrix exactly when each of its entries is real. -/
theorem real2_curry_iff (h : (⟨S50000x128, .f32⟩ : BufTy).Contents (Elt Ideal)) : Real2 (curry h) ↔ ∀ i, IsReal (h i) :=
  ⟨fun H i => by rw [eq_ix2 i]; exact H (i 0) (i 1), fun H r j => H (ix2 r j)⟩

/-- The host's scatter-add over extended reals, at an element: the operand's element plus the sum of the updates that
    land on it. -/
theorem scatterAdd_apply {s si su : Shape} {φ : FTy} {w : Nat} (d : ScatterDims s si su) (x : FVec Ideal s φ) (idx : IVec si w)
    (upd : FVec Ideal su φ) (i : s.Idx) :
    Host.scatterAdd d x idx upd i = x i + ∑ j ∈ Finset.univ.filter (fun j => d.resultIdx? j idx = some i), upd j := rfl

/-- A gathered element is an element of the operand. -/
theorem gather_apply {s si t : Shape} {α : Type} {w : Nat} (d : GatherDims s si t) (x : s.Idx → α) (idx : IVec si w) (j : t.Idx) :
    Host.gather d x idx j = x (d.operandIdx j idx) := rfl

/-- Adding to each node the sum of its in-neighbours' rows keeps the entries real. -/
theorem real_selfPlusAgg (h : (⟨S50000x128, .f32⟩ : BufTy).Contents (Elt Ideal)) (s d : (⟨S800000, .i32⟩ : BufTy).Contents (Elt Ideal)) (hh : ∀ i, IsReal (h i)) :
    ∀ i, IsReal (selfPlusAgg h s d i) := by
  intro i
  unfold selfPlusAgg agg
  rw [addf_apply, scatterAdd_apply]
  refine (hh i).add (IsReal.add ?_ (IsReal.sum _ fun j _ => ?_))
  · unfold zeros
    rw [broadcastInDim_scalar_apply, constant_apply, Ideal.ofBits_zero_f32]
    exact IsReal.zero
  · rw [gather_apply]
    exact hh _

theorem real2_selfPlusAgg (h : (⟨S50000x128, .f32⟩ : BufTy).Contents (Elt Ideal)) (s d : (⟨S800000, .i32⟩ : BufTy).Contents (Elt Ideal)) (hh : Real2 (curry h)) :
    Real2 (curry (selfPlusAgg h s d)) :=
  (real2_curry_iff _).2 (real_selfPlusAgg h s d ((real2_curry_iff h).1 hh))

/-- The nine float argument arrays have real entries. -/
structure ArgsReal (a0 : (⟨S50000x128, .f32⟩ : BufTy).Contents (Elt Ideal)) (a2 : (⟨S3x128x128, .f32⟩ : BufTy).Contents (Elt Ideal)) (a3 a4 a5 : (⟨S3x128, .f32⟩ : BufTy).Contents (Elt Ideal)) (a6 : (⟨S3x128x128, .f32⟩ : BufTy).Contents (Elt Ideal)) (a7 : (⟨S3x128, .f32⟩ : BufTy).Contents (Elt Ideal)) (a8 a9 : (⟨S2x128, .f32⟩ : BufTy).Contents (Elt Ideal)) : Prop where
  r0 : ∀ i, IsReal (a0 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)

section Chain

variable {a0 : (⟨S50000x128, .f32⟩ : BufTy).Contents (Elt Ideal)} (a1 : (⟨S2x800000, .i32⟩ : BufTy).Contents (Elt Ideal)) {a2 : (⟨S3x128x128, .f32⟩ : BufTy).Contents (Elt Ideal)} {a3 a4 a5 : (⟨S3x128, .f32⟩ : BufTy).Contents (Elt Ideal)}
  {a6 : (⟨S3x128x128, .f32⟩ : BufTy).Contents (Elt Ideal)} {a7 : (⟨S3x128, .f32⟩ : BufTy).Contents (Elt Ideal)} {a8 a9 : (⟨S2x128, .f32⟩ : BufTy).Contents (Elt Ideal)} (H : ArgsReal a0 a2 a3 a4 a5 a6 a7 a8 a9)
include H

theorem real_pre0 : Real2 (curry (pre0 a0 a1 a2 a3)) := by
  rw [curry_pre0]
  exact Real2.lin (real2_selfPlusAgg a0 _ _ ((real2_curry_iff a0).2 H.r0)) (fun _ _ => H.r2 _) (fun _ => H.r3 _)
theorem real_mid0 : Real2 (curry (mid0 a0 a1 a2 a3 a4 a5)) := by
  rw [curry_mid0]
  exact Real2.bnRelu (real_pre0 a1 H) (fun _ => H.r4 _) (fun _ => H.r5 _)
theorem real_out0 : Real2 (curry (out0 a0 a1 a2 a3 a4 a5 a6 a7)) := by
  rw [curry_out0]
  exact Real2.lin (real_mid0 a1 H) (fun _ _ => H.r6 _) (fun _ => H.r7 _)
theorem real_hid1 : Real2 (curry (hid1 a0 a1 a2 a3 a4 a5 a6 a7 a8 a9)) := by
  rw [curry_hid1]
  exact Real2.bnRelu (real_out0 a1 H) (fun _ => H.r8 _) (fun _ => H.r9 _)
theorem real_pre1 : Real2 (curry (pre1 a0 a1 a2 a3 a4 a5 a6 a7 a8 a9)) := by
  rw [curry_pre1]
  exact Real2.lin (real2_selfPlusAgg _ _ _ (real_hid1 a1 H)) (fun _ _ => H.r2 _) (fun _ => H.r3 _)
theorem real_mid1 : Real2 (curry (mid1 a0 a1 a2 a3 a4 a5 a6 a7 a8 a9)) := by
  rw [curry_mid1]
  exact Real2.bnRelu (real_pre1 a1 H) (fun _ => H.r4 _) (fun _ => H.r5 _)
theorem real_out1 : Real2 (curry (out1 a0 a1 a2 a3 a4 a5 a6 a7 a8 a9)) := by
  rw [curry_out1]
  exact Real2.lin (real_mid1 a1 H) (fun _ _ => H.r6 _) (fun _ => H.r7 _)
theorem real_hid2 : Real2 (curry (hid2 a0 a1 a2 a3 a4 a5 a6 a7 a8 a9)) := by
  rw [curry_hid2]
  exact Real2.bnRelu (real_out1 a1 H) (fun _ => H.r8 _) (fun _ => H.r9 _)
theorem real_pre2 : Real2 (curry (pre2 a0 a1 a2 a3 a4 a5 a6 a7 a8 a9)) := by
  rw [curry_pre2]
  exact Real2.lin (real2_selfPlusAgg _ _ _ (real_hid2 a1 H)) (fun _ _ => H.r2 _) (fun _ => H.r3 _)
theorem real_mid2 : Real2 (curry (mid2 a0 a1 a2 a3 a4 a5 a6 a7 a8 a9)) := by
  rw [curry_mid2]
  exact Real2.bnRelu (real_pre2 a1 H) (fun _ => H.r4 _) (fun _ => H.r5 _)
theorem real_out2 : Real2 (curry (out2 a0 a1 a2 a3 a4 a5 a6 a7 a8 a9)) := by
  rw [curry_out2]
  exact Real2.lin (real_mid2 a1 H) (fun _ _ => H.r6 _) (fun _ => H.r7 _)

theorem real_result : Real2 (curry (result a0 a1 a2 a3 a4 a5 a6 a7 a8 a9)) := by
  rw [curry_result]
  exact Real2.rowNormalize (real_out2 a1 H)

end Chain

end Cert.ReferenceIdeal.RefRun

end
-- ==== Proof.KernelIdeal.Bridge.lean ====
/-
  The kernel program's boundary contents, region by region and stretch by stretch, are the reference's composed
  terms: each linear region's rows are the reference's linear map (the same sums, tiled differently); the column
  sums and column sums of squares give the reference's mean, and the reference's variance because the two spellings
  of the variance agree on real entries; each normalisation region is then the reference's normalisation followed by
  the rectifier; and the last region is the reference's row normalisation.  Realness of every intermediate array
  follows from the finite inputs.
-/
import proofs.«176586_j29291676959176_1_alg».proof.Proof.KernelIdeal.HostRead
import proofs.«176586_j29291676959176_1_alg».proof.Proof.KernelIdeal.LinearStatsValue
import proofs.«176586_j29291676959176_1_alg».proof.Proof.KernelIdeal.NormalizeValue
import proofs.«176586_j29291676959176_1_alg».proof.Proof.KernelIdeal.LastLinearValue
import proofs.«176586_j29291676959176_1_alg».proof.Proof.KernelIdeal.RowNormalizeValue
import proofs.«176586_j29291676959176_1_alg».proof.Proof.Reference.IdealB
import proofs.«176586_j29291676959176_1_alg».proof.Proof.Reference.Realness
import proofs.«176586_j29291676959176_1_alg».proof.Proof.Reference.AggReal

set_option maxRecDepth 16384

noncomputable section

namespace Cert.KernelIdeal.Bridge

open Cert.KernelIdeal Cert.KernelIdeal.Gen Cert.KernelIdeal.Run Cert.KernelIdeal.Shapes Cert.KernelIdeal.HostRead
open Cert.KernelIdeal.LinearStatsValue Cert.KernelIdeal.NormalizeValue
open Idealize.ShloMosaic Idealize.ShloMosaic.TcCoe Idealize.ShloMosaic.ValueIdx Idealize.SL.Sem
open Cert.ReferenceIdeal.RefRun
open Cert.Spec (Real2 Real1)

variable (m : (ℓ : Loc nD τ sig) → Buf (Elt Ideal) ℓ) (ρ : Dev nD → PrngReg) (c : Dev nD)

/-! ## The ten arguments as plain arrays -/

abbrev arg0 : (⟨Cert.ReferenceIdeal.S50000x128, .f32⟩ : BufTy).Contents (Elt Ideal) := m ((c : Thread nD τ).loc main_arg0)
abbrev arg1 : (⟨Cert.ReferenceIdeal.S2x800000, .i32⟩ : BufTy).Contents (Elt Ideal) := m ((c : Thread nD τ).loc main_arg1)
abbrev arg2 : (⟨Cert.ReferenceIdeal.S3x128x128, .f32⟩ : BufTy).Contents (Elt Ideal) := m ((c : Thread nD τ).loc main_arg2)
abbrev arg3 : (⟨Cert.ReferenceIdeal.S3x128, .f32⟩ : BufTy).Contents (Elt Ideal) := m ((c : Thread nD τ).loc main_arg3)
abbrev arg4 : (⟨Cert.ReferenceIdeal.S3x128, .f32⟩ : BufTy).Contents (Elt Ideal) := m ((c : Thread nD τ).loc main_arg4)
abbrev arg5 : (⟨Cert.ReferenceIdeal.S3x128, .f32⟩ : BufTy).Contents (Elt Ideal) := m ((c : Thread nD τ).loc main_arg5)
abbrev arg6 : (⟨Cert.ReferenceIdeal.S3x128x128, .f32⟩ : BufTy).Contents (Elt Ideal) := m ((c : Thread nD τ).loc main_arg6)
abbrev arg7 : (⟨Cert.ReferenceIdeal.S3x128, .f32⟩ : BufTy).Contents (Elt Ideal) := m ((c : Thread nD τ).loc main_arg7)
abbrev arg8 : (⟨Cert.ReferenceIdeal.S2x128, .f32⟩ : BufTy).Contents (Elt Ideal) := m ((c : Thread nD τ).loc main_arg8)
abbrev arg9 : (⟨Cert.ReferenceIdeal.S2x128, .f32⟩ : BufTy).Contents (Elt Ideal) := m ((c : Thread nD τ).loc main_arg9)

/-- Every float argument has only real entries. -/
abbrev Reals : Prop := ArgsReal (arg0 m c) (arg2 m c) (arg3 m c) (arg4 m c) (arg5 m c) (arg6 m c) (arg7 m c) (arg8 m c) (arg9 m c)

theorem lin_congr {X X' : Cert.Spec.Mat 50000 128} {W W' : Cert.Spec.Mat 128 128} {b b' : Fin 128 → EReal}
    (hX : X = X') (hW : W = W') (hb : b = b') : Cert.Spec.lin X W b = Cert.Spec.lin X' W' b' := by subst hX hW hb; rfl
theorem bn_congr {Y Y' : Cert.Spec.Mat 50000 128} {μ μ' v v' γ γ' β β' : Fin 128 → EReal}
    (hY : Y = Y') (hμ : μ = μ') (hv : v = v') (hγ : γ = γ') (hβ : β = β') :
    Cert.Spec.bnRelu Y μ v γ β = Cert.Spec.bnRelu Y' μ' v' γ' β' := by subst hY hμ hv hγ hβ; rfl

/-- The row-plus-neighbours input of a layer's first linear map, entry by entry. -/
theorem curry_self_plus (h : (⟨Cert.ReferenceIdeal.S50000x128, .f32⟩ : BufTy).Contents (Elt Ideal)) (s d : (⟨Cert.ReferenceIdeal.S800000, .i32⟩ : BufTy).Contents (Elt Ideal)) :
    (fun r k => h (ix2 r k) + agg h s d (ix2 r k)) = Cert.ReferenceIdeal.RefRun.curry (selfPlusAgg h s d) := by
  funext r k
  simp only [Cert.ReferenceIdeal.RefRun.curry, selfPlusAgg, addf, Ideal.addf_def]

/-! ## Layer 0 -/

/-- The first linear region's rows are the reference's first linear map of the layer's input plus its neighbour sum. -/
theorem Y_0 (H : Reals m c) : Y0 (V1 m ρ) c = Cert.ReferenceIdeal.RefRun.curry (pre0 (arg0 m c) (arg1 m c) (arg2 m c) (arg3 m c)) := by
  refine Eq.trans ?_ (curry_pre0 (arg0 m c) (arg1 m c) (arg2 m c) (arg3 m c)).symm
  unfold Y0
  refine lin_congr ?_ ?_ ?_
  · have e0 : (arr0_0 (V1 m ρ) c : S50000x128.Idx → EReal) = (arg0 m c) := (((StableHlo.after_of_writes_sub hostOps0 _ hostOps0_writes (by decide : main_arg0 ∉ hostOps0_W)).trans <| rfl))
    have e1 : (arr0_1 (V1 m ρ) c : S50000x128.Idx → EReal) = agg ((arg0 m c)) (srcFlat (arg1 m c)) (dstFlat (arg1 m c)) := agg_0 m ρ c
    rw [e0, e1]
    exact curry_self_plus _ _ _
  · have e2 : (arr0_2 (V1 m ρ) c : S128x128.Idx → EReal) = mat3 ![0, 0, 0] Cert.ReferenceIdeal.Facts₀.slices_S3x128x128_S1x128x128_0_0_0 (arg2 m c) :=
      (w1_0 m ρ c).trans (by rw [arg2_at0 m ρ c])
    rw [e2]
    funext k j
    exact mat3_apply ![0, 0, 0] _ (arg2 m c) (0 : Fin 3) rfl rfl rfl k j
  · have e3 : (arr0_3 (V1 m ρ) c : S1x128.Idx → EReal) = shapeCast S1x128 (row3 ![0, 0] Cert.ReferenceIdeal.Facts₀.slices_S3x128_S1x128_0_0 (arg3 m c)) Cert.KernelIdeal.Facts₀.shapeCasts_S128_S1x128 :=
      (b1_0 m ρ c).trans (by rw [arg3_at0 m ρ c])
    rw [e3, row_reshape]
    funext j
    exact row3_apply ![0, 0] _ (arg3 m c) (0 : Fin 3) rfl rfl j

theorem pre_0 (H : Reals m c) : (W2 m ρ c (Proc.devRef .tc main_v30_0) : S50000x128.Idx → EReal) = pre0 (arg0 m c) (arg1 m c) (arg2 m c) (arg3 m c) := by
  apply eq_of_curry_eq
  rw [show (W2 m ρ c (Proc.devRef .tc main_v30_0) : S50000x128.Idx → EReal) = (LinearStats1.dat (F := Ideal) (V1 m ρ) c).arrAt 4 cfg0.N from W2_arr m ρ c 4,
    rows_eq0 (V1 m ρ) c]
  exact Y_0 m ρ c H

theorem sum_0 (H : Reals m c) : row (W2 m ρ c (Proc.devRef .tc main_v30_1) : S1x128.Idx → EReal) = fun j => ∑ r, Cert.ReferenceIdeal.RefRun.curry (pre0 (arg0 m c) (arg1 m c) (arg2 m c) (arg3 m c)) r j := by
  rw [show (W2 m ρ c (Proc.devRef .tc main_v30_1) : S1x128.Idx → EReal) = (LinearStats1.dat (F := Ideal) (V1 m ρ) c).arrAt 5 cfg0.N from W2_arr m ρ c 5,
    sums_eq0 (V1 m ρ) c, Y_0 m ρ c H]

theorem sq_0 (H : Reals m c) : row (W2 m ρ c (Proc.devRef .tc main_v30_2) : S1x128.Idx → EReal) = fun j => ∑ r, Cert.ReferenceIdeal.RefRun.curry (pre0 (arg0 m c) (arg1 m c) (arg2 m c) (arg3 m c)) r j * Cert.ReferenceIdeal.RefRun.curry (pre0 (arg0 m c) (arg1 m c) (arg2 m c) (arg3 m c)) r j := by
  rw [show (W2 m ρ c (Proc.devRef .tc main_v30_2) : S1x128.Idx → EReal) = (LinearStats1.dat (F := Ideal) (V1 m ρ) c).arrAt 6 cfg0.N from W2_arr m ρ c 6,
    squares_eq0 (V1 m ρ) c, Y_0 m ρ c H]

theorem mean'_0 (H : Reals m c) : row (W3 m ρ c (Proc.devRef .tc main_v32) : S1x128.Idx → EReal) = Cert.Spec.colMean (Cert.ReferenceIdeal.RefRun.curry (pre0 (arg0 m c) (arg1 m c) (arg2 m c) (arg3 m c))) := by
  rw [mean_0 m ρ c, row_div_count, sum_0 m ρ c H]
  rfl

/-- The program's variance is the reference's: the two spellings agree on real entries. -/
theorem var'_0 (H : Reals m c) : row (W3 m ρ c (Proc.devRef .tc main_v36) : S1x128.Idx → EReal) = Cert.Spec.varDev (Cert.ReferenceIdeal.RefRun.curry (pre0 (arg0 m c) (arg1 m c) (arg2 m c) (arg3 m c))) := by
  rw [var_0 m ρ c, row_var, sum_0 m ρ c H, sq_0 m ρ c H]
  exact (Cert.Spec.varDev_eq_varSq (real_pre0 (arg1 m c) H)).symm

theorem mid_0 (H : Reals m c) : (W4 m ρ c (Proc.devRef .tc main_v37) : S50000x128.Idx → EReal) = mid0 (arg0 m c) (arg1 m c) (arg2 m c) (arg3 m c) (arg4 m c) (arg5 m c) := by
  apply eq_of_curry_eq
  rw [show (W4 m ρ c (Proc.devRef .tc main_v37) : S50000x128.Idx → EReal) = (Normalize1.dat (F := Ideal) (V3 m ρ) c).arrAt 5 cfg1.N from W4_arr m ρ c 5,
    out_eq1 (V3 m ρ) c]
  refine Eq.trans ?_ (curry_mid0 (arg0 m c) (arg1 m c) (arg2 m c) (arg3 m c) (arg4 m c) (arg5 m c)).symm
  refine bn_congr ?_ ?_ ?_ ?_ ?_
  · have e : (V3 m ρ c (Pipeline.arrRef spec1 0) : S50000x128.Idx → EReal) = pre0 (arg0 m c) (arg1 m c) (arg2 m c) (arg3 m c) := (((StableHlo.after_of_writes_sub hostOps1 _ hostOps1_writes (by decide : main_v30_0 ∉ hostOps1_W)).trans <| rfl)).trans (pre_0 m ρ c H)
    rw [e]; rfl
  · exact mean'_0 m ρ c H
  · exact var'_0 m ρ c H
  · have e : (V3 m ρ c (Pipeline.arrRef spec1 3) : S1x128.Idx → EReal) = shapeCast S1x128 (row3 ![0, 0] Cert.ReferenceIdeal.Facts₀.slices_S3x128_S1x128_0_0 (arg4 m c)) Cert.KernelIdeal.Facts₀.shapeCasts_S128_S1x128 :=
      (((StableHlo.after_of_writes_sub hostOps1 _ hostOps1_writes (by decide : main_v21 ∉ hostOps1_W)).trans <|
  (W2_of_ne m ρ c main_v21 (by decide)).trans <| rfl)).trans ((g_0 m ρ c).trans (by rw [arg4_at0 m ρ c]))
    rw [e, row_reshape]
    funext j
    exact row3_apply ![0, 0] _ (arg4 m c) (0 : Fin 3) rfl rfl j
  · have e : (V3 m ρ c (Pipeline.arrRef spec1 4) : S1x128.Idx → EReal) = shapeCast S1x128 (row3 ![0, 0] Cert.ReferenceIdeal.Facts₀.slices_S3x128_S1x128_0_0 (arg5 m c)) Cert.KernelIdeal.Facts₀.shapeCasts_S128_S1x128 :=
      (((StableHlo.after_of_writes_sub hostOps1 _ hostOps1_writes (by decide : main_v24 ∉ hostOps1_W)).trans <|
  (W2_of_ne m ρ c main_v24 (by decide)).trans <| rfl)).trans ((be_0 m ρ c).trans (by rw [arg5_at0 m ρ c]))
    rw [e, row_reshape]
    funext j
    exact row3_apply ![0, 0] _ (arg5 m c) (0 : Fin 3) rfl rfl j

theorem O_0 (H : Reals m c) : Y2 (V4 m ρ) c = Cert.ReferenceIdeal.RefRun.curry (out0 (arg0 m c) (arg1 m c) (arg2 m c) (arg3 m c) (arg4 m c) (arg5 m c) (arg6 m c) (arg7 m c)) := by
  refine Eq.trans ?_ (curry_out0 (arg0 m c) (arg1 m c) (arg2 m c) (arg3 m c) (arg4 m c) (arg5 m c) (arg6 m c) (arg7 m c)).symm
  unfold Y2
  refine lin_congr ?_ ?_ ?_
  · have e0 : (arr2_0 (V4 m ρ) c : S50000x128.Idx → EReal) = mid0 (arg0 m c) (arg1 m c) (arg2 m c) (arg3 m c) (arg4 m c) (arg5 m c) := mid_0 m ρ c H
    rw [e0]; rfl
  · have e1 : (arr2_1 (V4 m ρ) c : S128x128.Idx → EReal) = mat3 ![0, 0, 0] Cert.ReferenceIdeal.Facts₀.slices_S3x128x128_S1x128x128_0_0_0 (arg6 m c) :=
      (((W4_of_ne m ρ c main_v26 (by decide)).trans <|
  (StableHlo.after_of_writes_sub hostOps1 _ hostOps1_writes (by decide : main_v26 ∉ hostOps1_W)).trans <|
  (W2_of_ne m ρ c main_v26 (by decide)).trans <| rfl)).trans ((w2_0 m ρ c).trans (by rw [arg6_at0 m ρ c]))
    rw [e1]
    funext k j
    exact mat3_apply ![0, 0, 0] _ (arg6 m c) (0 : Fin 3) rfl rfl rfl k j
  · have e2 : (arr2_2 (V4 m ρ) c : S1x128.Idx → EReal) = shapeCast S1x128 (row3 ![0, 0] Cert.ReferenceIdeal.Facts₀.slices_S3x128_S1x128_0_0 (arg7 m c)) Cert.KernelIdeal.Facts₀.shapeCasts_S128_S1x128 :=
      (((W4_of_ne m ρ c main_v29 (by decide)).trans <|
  (StableHlo.after_of_writes_sub hostOps1 _ hostOps1_writes (by decide : main_v29 ∉ hostOps1_W)).trans <|
  (W2_of_ne m ρ c main_v29 (by decide)).trans <| rfl)).trans ((b2_0 m ρ c).trans (by rw [arg7_at0 m ρ c]))
    rw [e2, row_reshape]
    funext j
    exact row3_apply ![0, 0] _ (arg7 m c) (0 : Fin 3) rfl rfl j

theorem out_0 (H : Reals m c) : (W5 m ρ c (Proc.devRef .tc main_v38_0) : S50000x128.Idx → EReal) = out0 (arg0 m c) (arg1 m c) (arg2 m c) (arg3 m c) (arg4 m c) (arg5 m c) (arg6 m c) (arg7 m c) := by
  apply eq_of_curry_eq
  rw [show (W5 m ρ c (Proc.devRef .tc main_v38_0) : S50000x128.Idx → EReal) = (LinearStats2.dat (F := Ideal) (V4 m ρ) c).arrAt 3 cfg2.N from W5_arr m ρ c 3,
    rows_eq2 (V4 m ρ) c]
  exact O_0 m ρ c H

theorem sum2_0 (H : Reals m c) : row (W5 m ρ c (Proc.devRef .tc main_v38_1) : S1x128.Idx → EReal) = fun j => ∑ r, Cert.ReferenceIdeal.RefRun.curry (out0 (arg0 m c) (arg1 m c) (arg2 m c) (arg3 m c) (arg4 m c) (arg5 m c) (arg6 m c) (arg7 m c)) r j := by
  rw [show (W5 m ρ c (Proc.devRef .tc main_v38_1) : S1x128.Idx → EReal) = (LinearStats2.dat (F := Ideal) (V4 m ρ) c).arrAt 4 cfg2.N from W5_arr m ρ c 4,
    sums_eq2 (V4 m ρ) c, O_0 m ρ c H]

theorem sq2_0 (H : Reals m c) : row (W5 m ρ c (Proc.devRef .tc main_v38_2) : S1x128.Idx → EReal) = fun j => ∑ r, Cert.ReferenceIdeal.RefRun.curry (out0 (arg0 m c) (arg1 m c) (arg2 m c) (arg3 m c) (arg4 m c) (arg5 m c) (arg6 m c) (arg7 m c)) r j * Cert.ReferenceIdeal.RefRun.curry (out0 (arg0 m c) (arg1 m c) (arg2 m c) (arg3 m c) (arg4 m c) (arg5 m c) (arg6 m c) (arg7 m c)) r j := by
  rw [show (W5 m ρ c (Proc.devRef .tc main_v38_2) : S1x128.Idx → EReal) = (LinearStats2.dat (F := Ideal) (V4 m ρ) c).arrAt 5 cfg2.N from W5_arr m ρ c 5,
    squares_eq2 (V4 m ρ) c, O_0 m ρ c H]

theorem mean2'_0 (H : Reals m c) : row (W6 m ρ c (Proc.devRef .tc main_v40) : S1x128.Idx → EReal) = Cert.Spec.colMean (Cert.ReferenceIdeal.RefRun.curry (out0 (arg0 m c) (arg1 m c) (arg2 m c) (arg3 m c) (arg4 m c) (arg5 m c) (arg6 m c) (arg7 m c))) := by
  rw [mean2_0 m ρ c, row_div_count, sum2_0 m ρ c H]
  rfl

theorem var2'_0 (H : Reals m c) : row (W6 m ρ c (Proc.devRef .tc main_v44) : S1x128.Idx → EReal) = Cert.Spec.varDev (Cert.ReferenceIdeal.RefRun.curry (out0 (arg0 m c) (arg1 m c) (arg2 m c) (arg3 m c) (arg4 m c) (arg5 m c) (arg6 m c) (arg7 m c))) := by
  rw [var2_0 m ρ c, row_var, sum2_0 m ρ c H, sq2_0 m ρ c H]
  exact (Cert.Spec.varDev_eq_varSq (real_out0 (arg1 m c) H)).symm

theorem hid_1 (H : Reals m c) : (W7 m ρ c (Proc.devRef .tc main_v51) : S50000x128.Idx → EReal) = hid1 (arg0 m c) (arg1 m c) (arg2 m c) (arg3 m c) (arg4 m c) (arg5 m c) (arg6 m c) (arg7 m c) (arg8 m c) (arg9 m c) := by
  apply eq_of_curry_eq
  rw [show (W7 m ρ c (Proc.devRef .tc main_v51) : S50000x128.Idx → EReal) = (Normalize2.dat (F := Ideal) (V6 m ρ) c).arrAt 5 cfg3.N from W7_arr m ρ c 5,
    out_eq3 (V6 m ρ) c]
  refine Eq.trans ?_ (curry_hid1 (arg0 m c) (arg1 m c) (arg2 m c) (arg3 m c) (arg4 m c) (arg5 m c) (arg6 m c) (arg7 m c) (arg8 m c) (arg9 m c)).symm
  refine bn_congr ?_ ?_ ?_ ?_ ?_
  · have e : (V6 m ρ c (Pipeline.arrRef spec3 0) : S50000x128.Idx → EReal) = out0 (arg0 m c) (arg1 m c) (arg2 m c) (arg3 m c) (arg4 m c) (arg5 m c) (arg6 m c) (arg7 m c) := (((StableHlo.after_of_writes_sub hostOps3 _ hostOps3_writes (by decide : main_v38_0 ∉ hostOps3_W)).trans <| rfl)).trans (out_0 m ρ c H)
    rw [e]; rfl
  · exact mean2'_0 m ρ c H
  · exact var2'_0 m ρ c H
  · have e : (V6 m ρ c (Pipeline.arrRef spec3 3) : S1x128.Idx → EReal) = shapeCast S1x128 (row2 ![0, 0] Cert.ReferenceIdeal.Facts₀.slices_S2x128_S1x128_0_0 (arg8 m c)) Cert.KernelIdeal.Facts₀.shapeCasts_S128_S1x128 :=
      (g2_0 m ρ c).trans (by rw [arg8_at5 m ρ c])
    rw [e, row_reshape]
    funext j
    exact row2_apply ![0, 0] _ (arg8 m c) (0 : Fin 2) rfl rfl j
  · have e : (V6 m ρ c (Pipeline.arrRef spec3 4) : S1x128.Idx → EReal) = shapeCast S1x128 (row2 ![0, 0] Cert.ReferenceIdeal.Facts₀.slices_S2x128_S1x128_0_0 (arg9 m c)) Cert.KernelIdeal.Facts₀.shapeCasts_S128_S1x128 :=
      (be2_0 m ρ c).trans (by rw [arg9_at5 m ρ c])
    rw [e, row_reshape]
    funext j
    exact row2_apply ![0, 0] _ (arg9 m c) (0 : Fin 2) rfl rfl j

/-! ## Layer 1 -/

/-- The first linear region's rows are the reference's first linear map of the layer's input plus its neighbour sum. -/
theorem Y_1 (H : Reals m c) : Y4 (V8 m ρ) c = Cert.ReferenceIdeal.RefRun.curry (pre1 (arg0 m c) (arg1 m c) (arg2 m c) (arg3 m c) (arg4 m c) (arg5 m c) (arg6 m c) (arg7 m c) (arg8 m c) (arg9 m c)) := by
  refine Eq.trans ?_ (curry_pre1 (arg0 m c) (arg1 m c) (arg2 m c) (arg3 m c) (arg4 m c) (arg5 m c) (arg6 m c) (arg7 m c) (arg8 m c) (arg9 m c)).symm
  unfold Y4
  refine lin_congr ?_ ?_ ?_
  · have e0 : (arr4_0 (V8 m ρ) c : S50000x128.Idx → EReal) = hid1 (arg0 m c) (arg1 m c) (arg2 m c) (arg3 m c) (arg4 m c) (arg5 m c) (arg6 m c) (arg7 m c) (arg8 m c) (arg9 m c) := ((((StableHlo.after_of_writes_sub hostOps4 _ hostOps4_writes (by decide : main_v51 ∉ hostOps4_W)).trans <| rfl)).trans (hid_1 m ρ c H))
    have e1 : (arr4_1 (V8 m ρ) c : S50000x128.Idx → EReal) = agg (hid1 (arg0 m c) (arg1 m c) (arg2 m c) (arg3 m c) (arg4 m c) (arg5 m c) (arg6 m c) (arg7 m c) (arg8 m c) (arg9 m c)) (srcFlat (arg1 m c)) (dstFlat (arg1 m c)) := (agg_1 m ρ c).trans (by rw [hid_1 m ρ c H, src_at7 m ρ c, dst_at7 m ρ c])
    rw [e0, e1]
    exact curry_self_plus _ _ _
  · have e2 : (arr4_2 (V8 m ρ) c : S128x128.Idx → EReal) = mat3 ![1, 0, 0] Cert.ReferenceIdeal.Facts₀.slices_S3x128x128_S1x128x128_1_0_0 (arg2 m c) :=
      (w1_1 m ρ c).trans (by rw [arg2_at7 m ρ c])
    rw [e2]
    funext k j
    exact mat3_apply ![1, 0, 0] _ (arg2 m c) (1 : Fin 3) rfl rfl rfl k j
  · have e3 : (arr4_3 (V8 m ρ) c : S1x128.Idx → EReal) = shapeCast S1x128 (row3 ![1, 0] Cert.ReferenceIdeal.Facts₀.slices_S3x128_S1x128_1_0 (arg3 m c)) Cert.KernelIdeal.Facts₀.shapeCasts_S128_S1x128 :=
      (b1_1 m ρ c).trans (by rw [arg3_at7 m ρ c])
    rw [e3, row_reshape]
    funext j
    exact row3_apply ![1, 0] _ (arg3 m c) (1 : Fin 3) rfl rfl j

theorem pre_1 (H : Reals m c) : (W9 m ρ c (Proc.devRef .tc main_v78_0) : S50000x128.Idx → EReal) = pre1 (arg0 m c) (arg1 m c) (arg2 m c) (arg3 m c) (arg4 m c) (arg5 m c) (arg6 m c) (arg7 m c) (arg8 m c) (arg9 m c) := by
  apply eq_of_curry_eq
  rw [show (W9 m ρ c (Proc.devRef .tc main_v78_0) : S50000x128.Idx → EReal) = (LinearStats3.dat (F := Ideal) (V8 m ρ) c).arrAt 4 cfg4.N from W9_arr m ρ c 4,
    rows_eq4 (V8 m ρ) c]
  exact Y_1 m ρ c H

theorem sum_1 (H : Reals m c) : row (W9 m ρ c (Proc.devRef .tc main_v78_1) : S1x128.Idx → EReal) = fun j => ∑ r, Cert.ReferenceIdeal.RefRun.curry (pre1 (arg0 m c) (arg1 m c) (arg2 m c) (arg3 m c) (arg4 m c) (arg5 m c) (arg6 m c) (arg7 m c) (arg8 m c) (arg9 m c)) r j := by
  rw [show (W9 m ρ c (Proc.devRef .tc main_v78_1) : S1x128.Idx → EReal) = (LinearStats3.dat (F := Ideal) (V8 m ρ) c).arrAt 5 cfg4.N from W9_arr m ρ c 5,
    sums_eq4 (V8 m ρ) c, Y_1 m ρ c H]

theorem sq_1 (H : Reals m c) : row (W9 m ρ c (Proc.devRef .tc main_v78_2) : S1x128.Idx → EReal) = fun j => ∑ r, Cert.ReferenceIdeal.RefRun.curry (pre1 (arg0 m c) (arg1 m c) (arg2 m c) (arg3 m c) (arg4 m c) (arg5 m c) (arg6 m c) (arg7 m c) (arg8 m c) (arg9 m c)) r j * Cert.ReferenceIdeal.RefRun.curry (pre1 (arg0 m c) (arg1 m c) (arg2 m c) (arg3 m c) (arg4 m c) (arg5 m c) (arg6 m c) (arg7 m c) (arg8 m c) (arg9 m c)) r j := by
  rw [show (W9 m ρ c (Proc.devRef .tc main_v78_2) : S1x128.Idx → EReal) = (LinearStats3.dat (F := Ideal) (V8 m ρ) c).arrAt 6 cfg4.N from W9_arr m ρ c 6,
    squares_eq4 (V8 m ρ) c, Y_1 m ρ c H]

theorem mean'_1 (H : Reals m c) : row (W10 m ρ c (Proc.devRef .tc main_v80) : S1x128.Idx → EReal) = Cert.Spec.colMean (Cert.ReferenceIdeal.RefRun.curry (pre1 (arg0 m c) (arg1 m c) (arg2 m c) (arg3 m c) (arg4 m c) (arg5 m c) (arg6 m c) (arg7 m c) (arg8 m c) (arg9 m c))) := by
  rw [mean_1 m ρ c, row_div_count, sum_1 m ρ c H]
  rfl

/-- The program's variance is the reference's: the two spellings agree on real entries. -/
theorem var'_1 (H : Reals m c) : row (W10 m ρ c (Proc.devRef .tc main_v84) : S1x128.Idx → EReal) = Cert.Spec.varDev (Cert.ReferenceIdeal.RefRun.curry (pre1 (arg0 m c) (arg1 m c) (arg2 m c) (arg3 m c) (arg4 m c) (arg5 m c) (arg6 m c) (arg7 m c) (arg8 m c) (arg9 m c))) := by
  rw [var_1 m ρ c, row_var, sum_1 m ρ c H, sq_1 m ρ c H]
  exact (Cert.Spec.varDev_eq_varSq (real_pre1 (arg1 m c) H)).symm

theorem mid_1 (H : Reals m c) : (W11 m ρ c (Proc.devRef .tc main_v85) : S50000x128.Idx → EReal) = mid1 (arg0 m c) (arg1 m c) (arg2 m c) (arg3 m c) (arg4 m c) (arg5 m c) (arg6 m c) (arg7 m c) (arg8 m c) (arg9 m c) := by
  apply eq_of_curry_eq
  rw [show (W11 m ρ c (Proc.devRef .tc main_v85) : S50000x128.Idx → EReal) = (Normalize3.dat (F := Ideal) (V10 m ρ) c).arrAt 5 cfg5.N from W11_arr m ρ c 5,
    out_eq5 (V10 m ρ) c]
  refine Eq.trans ?_ (curry_mid1 (arg0 m c) (arg1 m c) (arg2 m c) (arg3 m c) (arg4 m c) (arg5 m c) (arg6 m c) (arg7 m c) (arg8 m c) (arg9 m c)).symm
  refine bn_congr ?_ ?_ ?_ ?_ ?_
  · have e : (V10 m ρ c (Pipeline.arrRef spec5 0) : S50000x128.Idx → EReal) = pre1 (arg0 m c) (arg1 m c) (arg2 m c) (arg3 m c) (arg4 m c) (arg5 m c) (arg6 m c) (arg7 m c) (arg8 m c) (arg9 m c) := (((StableHlo.after_of_writes_sub hostOps5 _ hostOps5_writes (by decide : main_v78_0 ∉ hostOps5_W)).trans <| rfl)).trans (pre_1 m ρ c H)
    rw [e]; rfl
  · exact mean'_1 m ρ c H
  · exact var'_1 m ρ c H
  · have e : (V10 m ρ c (Pipeline.arrRef spec5 3) : S1x128.Idx → EReal) = shapeCast S1x128 (row3 ![1, 0] Cert.ReferenceIdeal.Facts₀.slices_S3x128_S1x128_1_0 (arg4 m c)) Cert.KernelIdeal.Facts₀.shapeCasts_S128_S1x128 :=
      (((StableHlo.after_of_writes_sub hostOps5 _ hostOps5_writes (by decide : main_v69 ∉ hostOps5_W)).trans <|
  (W9_of_ne m ρ c main_v69 (by decide)).trans <| rfl)).trans ((g_1 m ρ c).trans (by rw [arg4_at7 m ρ c]))
    rw [e, row_reshape]
    funext j
    exact row3_apply ![1, 0] _ (arg4 m c) (1 : Fin 3) rfl rfl j
  · have e : (V10 m ρ c (Pipeline.arrRef spec5 4) : S1x128.Idx → EReal) = shapeCast S1x128 (row3 ![1, 0] Cert.ReferenceIdeal.Facts₀.slices_S3x128_S1x128_1_0 (arg5 m c)) Cert.KernelIdeal.Facts₀.shapeCasts_S128_S1x128 :=
      (((StableHlo.after_of_writes_sub hostOps5 _ hostOps5_writes (by decide : main_v72 ∉ hostOps5_W)).trans <|
  (W9_of_ne m ρ c main_v72 (by decide)).trans <| rfl)).trans ((be_1 m ρ c).trans (by rw [arg5_at7 m ρ c]))
    rw [e, row_reshape]
    funext j
    exact row3_apply ![1, 0] _ (arg5 m c) (1 : Fin 3) rfl rfl j

theorem O_1 (H : Reals m c) : Y6 (V11 m ρ) c = Cert.ReferenceIdeal.RefRun.curry (out1 (arg0 m c) (arg1 m c) (arg2 m c) (arg3 m c) (arg4 m c) (arg5 m c) (arg6 m c) (arg7 m c) (arg8 m c) (arg9 m c)) := by
  refine Eq.trans ?_ (curry_out1 (arg0 m c) (arg1 m c) (arg2 m c) (arg3 m c) (arg4 m c) (arg5 m c) (arg6 m c) (arg7 m c) (arg8 m c) (arg9 m c)).symm
  unfold Y6
  refine lin_congr ?_ ?_ ?_
  · have e0 : (arr6_0 (V11 m ρ) c : S50000x128.Idx → EReal) = mid1 (arg0 m c) (arg1 m c) (arg2 m c) (arg3 m c) (arg4 m c) (arg5 m c) (arg6 m c) (arg7 m c) (arg8 m c) (arg9 m c) := mid_1 m ρ c H
    rw [e0]; rfl
  · have e1 : (arr6_1 (V11 m ρ) c : S128x128.Idx → EReal) = mat3 ![1, 0, 0] Cert.ReferenceIdeal.Facts₀.slices_S3x128x128_S1x128x128_1_0_0 (arg6 m c) :=
      (((W11_of_ne m ρ c main_v74 (by decide)).trans <|
  (StableHlo.after_of_writes_sub hostOps5 _ hostOps5_writes (by decide : main_v74 ∉ hostOps5_W)).trans <|
  (W9_of_ne m ρ c main_v74 (by decide)).trans <| rfl)).trans ((w2_1 m ρ c).trans (by rw [arg6_at7 m ρ c]))
    rw [e1]
    funext k j
    exact mat3_apply ![1, 0, 0] _ (arg6 m c) (1 : Fin 3) rfl rfl rfl k j
  · have e2 : (arr6_2 (V11 m ρ) c : S1x128.Idx → EReal) = shapeCast S1x128 (row3 ![1, 0] Cert.ReferenceIdeal.Facts₀.slices_S3x128_S1x128_1_0 (arg7 m c)) Cert.KernelIdeal.Facts₀.shapeCasts_S128_S1x128 :=
      (((W11_of_ne m ρ c main_v77 (by decide)).trans <|
  (StableHlo.after_of_writes_sub hostOps5 _ hostOps5_writes (by decide : main_v77 ∉ hostOps5_W)).trans <|
  (W9_of_ne m ρ c main_v77 (by decide)).trans <| rfl)).trans ((b2_1 m ρ c).trans (by rw [arg7_at7 m ρ c]))
    rw [e2, row_reshape]
    funext j
    exact row3_apply ![1, 0] _ (arg7 m c) (1 : Fin 3) rfl rfl j

theorem out_1 (H : Reals m c) : (W12 m ρ c (Proc.devRef .tc main_v86_0) : S50000x128.Idx → EReal) = out1 (arg0 m c) (arg1 m c) (arg2 m c) (arg3 m c) (arg4 m c) (arg5 m c) (arg6 m c) (arg7 m c) (arg8 m c) (arg9 m c) := by
  apply eq_of_curry_eq
  rw [show (W12 m ρ c (Proc.devRef .tc main_v86_0) : S50000x128.Idx → EReal) = (LinearStats4.dat (F := Ideal) (V11 m ρ) c).arrAt 3 cfg6.N from W12_arr m ρ c 3,
    rows_eq6 (V11 m ρ) c]
  exact O_1 m ρ c H

theorem sum2_1 (H : Reals m c) : row (W12 m ρ c (Proc.devRef .tc main_v86_1) : S1x128.Idx → EReal) = fun j => ∑ r, Cert.ReferenceIdeal.RefRun.curry (out1 (arg0 m c) (arg1 m c) (arg2 m c) (arg3 m c) (arg4 m c) (arg5 m c) (arg6 m c) (arg7 m c) (arg8 m c) (arg9 m c)) r j := by
  rw [show (W12 m ρ c (Proc.devRef .tc main_v86_1) : S1x128.Idx → EReal) = (LinearStats4.dat (F := Ideal) (V11 m ρ) c).arrAt 4 cfg6.N from W12_arr m ρ c 4,
    sums_eq6 (V11 m ρ) c, O_1 m ρ c H]

theorem sq2_1 (H : Reals m c) : row (W12 m ρ c (Proc.devRef .tc main_v86_2) : S1x128.Idx → EReal) = fun j => ∑ r, Cert.ReferenceIdeal.RefRun.curry (out1 (arg0 m c) (arg1 m c) (arg2 m c) (arg3 m c) (arg4 m c) (arg5 m c) (arg6 m c) (arg7 m c) (arg8 m c) (arg9 m c)) r j * Cert.ReferenceIdeal.RefRun.curry (out1 (arg0 m c) (arg1 m c) (arg2 m c) (arg3 m c) (arg4 m c) (arg5 m c) (arg6 m c) (arg7 m c) (arg8 m c) (arg9 m c)) r j := by
  rw [show (W12 m ρ c (Proc.devRef .tc main_v86_2) : S1x128.Idx → EReal) = (LinearStats4.dat (F := Ideal) (V11 m ρ) c).arrAt 5 cfg6.N from W12_arr m ρ c 5,
    squares_eq6 (V11 m ρ) c, O_1 m ρ c H]

theorem mean2'_1 (H : Reals m c) : row (W13 m ρ c (Proc.devRef .tc main_v88) : S1x128.Idx → EReal) = Cert.Spec.colMean (Cert.ReferenceIdeal.RefRun.curry (out1 (arg0 m c) (arg1 m c) (arg2 m c) (arg3 m c) (arg4 m c) (arg5 m c) (arg6 m c) (arg7 m c) (arg8 m c) (arg9 m c))) := by
  rw [mean2_1 m ρ c, row_div_count, sum2_1 m ρ c H]
  rfl

theorem var2'_1 (H : Reals m c) : row (W13 m ρ c (Proc.devRef .tc main_v92) : S1x128.Idx → EReal) = Cert.Spec.varDev (Cert.ReferenceIdeal.RefRun.curry (out1 (arg0 m c) (arg1 m c) (arg2 m c) (arg3 m c) (arg4 m c) (arg5 m c) (arg6 m c) (arg7 m c) (arg8 m c) (arg9 m c))) := by
  rw [var2_1 m ρ c, row_var, sum2_1 m ρ c H, sq2_1 m ρ c H]
  exact (Cert.Spec.varDev_eq_varSq (real_out1 (arg1 m c) H)).symm

theorem hid_2 (H : Reals m c) : (W14 m ρ c (Proc.devRef .tc main_v99) : S50000x128.Idx → EReal) = hid2 (arg0 m c) (arg1 m c) (arg2 m c) (arg3 m c) (arg4 m c) (arg5 m c) (arg6 m c) (arg7 m c) (arg8 m c) (arg9 m c) := by
  apply eq_of_curry_eq
  rw [show (W14 m ρ c (Proc.devRef .tc main_v99) : S50000x128.Idx → EReal) = (Normalize4.dat (F := Ideal) (V13 m ρ) c).arrAt 5 cfg7.N from W14_arr m ρ c 5,
    out_eq7 (V13 m ρ) c]
  refine Eq.trans ?_ (curry_hid2 (arg0 m c) (arg1 m c) (arg2 m c) (arg3 m c) (arg4 m c) (arg5 m c) (arg6 m c) (arg7 m c) (arg8 m c) (arg9 m c)).symm
  refine bn_congr ?_ ?_ ?_ ?_ ?_
  · have e : (V13 m ρ c (Pipeline.arrRef spec7 0) : S50000x128.Idx → EReal) = out1 (arg0 m c) (arg1 m c) (arg2 m c) (arg3 m c) (arg4 m c) (arg5 m c) (arg6 m c) (arg7 m c) (arg8 m c) (arg9 m c) := (((StableHlo.after_of_writes_sub hostOps7 _ hostOps7_writes (by decide : main_v86_0 ∉ hostOps7_W)).trans <| rfl)).trans (out_1 m ρ c H)
    rw [e]; rfl
  · exact mean2'_1 m ρ c H
  · exact var2'_1 m ρ c H
  · have e : (V13 m ρ c (Pipeline.arrRef spec7 3) : S1x128.Idx → EReal) = shapeCast S1x128 (row2 ![1, 0] Cert.ReferenceIdeal.Facts₀.slices_S2x128_S1x128_1_0 (arg8 m c)) Cert.KernelIdeal.Facts₀.shapeCasts_S128_S1x128 :=
      (g2_1 m ρ c).trans (by rw [arg8_at12 m ρ c])
    rw [e, row_reshape]
    funext j
    exact row2_apply ![1, 0] _ (arg8 m c) (1 : Fin 2) rfl rfl j
  · have e : (V13 m ρ c (Pipeline.arrRef spec7 4) : S1x128.Idx → EReal) = shapeCast S1x128 (row2 ![1, 0] Cert.ReferenceIdeal.Facts₀.slices_S2x128_S1x128_1_0 (arg9 m c)) Cert.KernelIdeal.Facts₀.shapeCasts_S128_S1x128 :=
      (be2_1 m ρ c).trans (by rw [arg9_at12 m ρ c])
    rw [e, row_reshape]
    funext j
    exact row2_apply ![1, 0] _ (arg9 m c) (1 : Fin 2) rfl rfl j

/-! ## Layer 2 -/

/-- The first linear region's rows are the reference's first linear map of the layer's input plus its neighbour sum. -/
theorem Y_2 (H : Reals m c) : Y8 (V15 m ρ) c = Cert.ReferenceIdeal.RefRun.curry (pre2 (arg0 m c) (arg1 m c) (arg2 m c) (arg3 m c) (arg4 m c) (arg5 m c) (arg6 m c) (arg7 m c) (arg8 m c) (arg9 m c)) := by
  refine Eq.trans ?_ (curry_pre2 (arg0 m c) (arg1 m c) (arg2 m c) (arg3 m c) (arg4 m c) (arg5 m c) (arg6 m c) (arg7 m c) (arg8 m c) (arg9 m c)).symm
  unfold Y8
  refine lin_congr ?_ ?_ ?_
  · have e0 : (arr8_0 (V15 m ρ) c : S50000x128.Idx → EReal) = hid2 (arg0 m c) (arg1 m c) (arg2 m c) (arg3 m c) (arg4 m c) (arg5 m c) (arg6 m c) (arg7 m c) (arg8 m c) (arg9 m c) := ((((StableHlo.after_of_writes_sub hostOps8 _ hostOps8_writes (by decide : main_v99 ∉ hostOps8_W)).trans <| rfl)).trans (hid_2 m ρ c H))
    have e1 : (arr8_1 (V15 m ρ) c : S50000x128.Idx → EReal) = agg (hid2 (arg0 m c) (arg1 m c) (arg2 m c) (arg3 m c) (arg4 m c) (arg5 m c) (arg6 m c) (arg7 m c) (arg8 m c) (arg9 m c)) (srcFlat (arg1 m c)) (dstFlat (arg1 m c)) := (agg_2 m ρ c).trans (by rw [hid_2 m ρ c H, src_at14 m ρ c, dst_at14 m ρ c])
    rw [e0, e1]
    exact curry_self_plus _ _ _
  · have e2 : (arr8_2 (V15 m ρ) c : S128x128.Idx → EReal) = mat3 ![2, 0, 0] Cert.ReferenceIdeal.Facts₀.slices_S3x128x128_S1x128x128_2_0_0 (arg2 m c) :=
      (w1_2 m ρ c).trans (by rw [arg2_at14 m ρ c])
    rw [e2]
    funext k j
    exact mat3_apply ![2, 0, 0] _ (arg2 m c) (2 : Fin 3) rfl rfl rfl k j
  · have e3 : (arr8_3 (V15 m ρ) c : S1x128.Idx → EReal) = shapeCast S1x128 (row3 ![2, 0] Cert.ReferenceIdeal.Facts₀.slices_S3x128_S1x128_2_0 (arg3 m c)) Cert.KernelIdeal.Facts₀.shapeCasts_S128_S1x128 :=
      (b1_2 m ρ c).trans (by rw [arg3_at14 m ρ c])
    rw [e3, row_reshape]
    funext j
    exact row3_apply ![2, 0] _ (arg3 m c) (2 : Fin 3) rfl rfl j

theorem pre_2 (H : Reals m c) : (W16 m ρ c (Proc.devRef .tc main_v126_0) : S50000x128.Idx → EReal) = pre2 (arg0 m c) (arg1 m c) (arg2 m c) (arg3 m c) (arg4 m c) (arg5 m c) (arg6 m c) (arg7 m c) (arg8 m c) (arg9 m c) := by
  apply eq_of_curry_eq
  rw [show (W16 m ρ c (Proc.devRef .tc main_v126_0) : S50000x128.Idx → EReal) = (LinearStats5.dat (F := Ideal) (V15 m ρ) c).arrAt 4 cfg8.N from W16_arr m ρ c 4,
    rows_eq8 (V15 m ρ) c]
  exact Y_2 m ρ c H

theorem sum_2 (H : Reals m c) : row (W16 m ρ c (Proc.devRef .tc main_v126_1) : S1x128.Idx → EReal) = fun j => ∑ r, Cert.ReferenceIdeal.RefRun.curry (pre2 (arg0 m c) (arg1 m c) (arg2 m c) (arg3 m c) (arg4 m c) (arg5 m c) (arg6 m c) (arg7 m c) (arg8 m c) (arg9 m c)) r j := by
  rw [show (W16 m ρ c (Proc.devRef .tc main_v126_1) : S1x128.Idx → EReal) = (LinearStats5.dat (F := Ideal) (V15 m ρ) c).arrAt 5 cfg8.N from W16_arr m ρ c 5,
    sums_eq8 (V15 m ρ) c, Y_2 m ρ c H]

theorem sq_2 (H : Reals m c) : row (W16 m ρ c (Proc.devRef .tc main_v126_2) : S1x128.Idx → EReal) = fun j => ∑ r, Cert.ReferenceIdeal.RefRun.curry (pre2 (arg0 m c) (arg1 m c) (arg2 m c) (arg3 m c) (arg4 m c) (arg5 m c) (arg6 m c) (arg7 m c) (arg8 m c) (arg9 m c)) r j * Cert.ReferenceIdeal.RefRun.curry (pre2 (arg0 m c) (arg1 m c) (arg2 m c) (arg3 m c) (arg4 m c) (arg5 m c) (arg6 m c) (arg7 m c) (arg8 m c) (arg9 m c)) r j := by
  rw [show (W16 m ρ c (Proc.devRef .tc main_v126_2) : S1x128.Idx → EReal) = (LinearStats5.dat (F := Ideal) (V15 m ρ) c).arrAt 6 cfg8.N from W16_arr m ρ c 6,
    squares_eq8 (V15 m ρ) c, Y_2 m ρ c H]

theorem mean'_2 (H : Reals m c) : row (W17 m ρ c (Proc.devRef .tc main_v128) : S1x128.Idx → EReal) = Cert.Spec.colMean (Cert.ReferenceIdeal.RefRun.curry (pre2 (arg0 m c) (arg1 m c) (arg2 m c) (arg3 m c) (arg4 m c) (arg5 m c) (arg6 m c) (arg7 m c) (arg8 m c) (arg9 m c))) := by
  rw [mean_2 m ρ c, row_div_count, sum_2 m ρ c H]
  rfl

/-- The program's variance is the reference's: the two spellings agree on real entries. -/
theorem var'_2 (H : Reals m c) : row (W17 m ρ c (Proc.devRef .tc main_v132) : S1x128.Idx → EReal) = Cert.Spec.varDev (Cert.ReferenceIdeal.RefRun.curry (pre2 (arg0 m c) (arg1 m c) (arg2 m c) (arg3 m c) (arg4 m c) (arg5 m c) (arg6 m c) (arg7 m c) (arg8 m c) (arg9 m c))) := by
  rw [var_2 m ρ c, row_var, sum_2 m ρ c H, sq_2 m ρ c H]
  exact (Cert.Spec.varDev_eq_varSq (real_pre2 (arg1 m c) H)).symm

theorem mid_2 (H : Reals m c) : (W18 m ρ c (Proc.devRef .tc main_v133) : S50000x128.Idx → EReal) = mid2 (arg0 m c) (arg1 m c) (arg2 m c) (arg3 m c) (arg4 m c) (arg5 m c) (arg6 m c) (arg7 m c) (arg8 m c) (arg9 m c) := by
  apply eq_of_curry_eq
  rw [show (W18 m ρ c (Proc.devRef .tc main_v133) : S50000x128.Idx → EReal) = (Normalize5.dat (F := Ideal) (V17 m ρ) c).arrAt 5 cfg9.N from W18_arr m ρ c 5,
    out_eq9 (V17 m ρ) c]
  refine Eq.trans ?_ (curry_mid2 (arg0 m c) (arg1 m c) (arg2 m c) (arg3 m c) (arg4 m c) (arg5 m c) (arg6 m c) (arg7 m c) (arg8 m c) (arg9 m c)).symm
  refine bn_congr ?_ ?_ ?_ ?_ ?_
  · have e : (V17 m ρ c (Pipeline.arrRef spec9 0) : S50000x128.Idx → EReal) = pre2 (arg0 m c) (arg1 m c) (arg2 m c) (arg3 m c) (arg4 m c) (arg5 m c) (arg6 m c) (arg7 m c) (arg8 m c) (arg9 m c) := (((StableHlo.after_of_writes_sub hostOps9 _ hostOps9_writes (by decide : main_v126_0 ∉ hostOps9_W)).trans <| rfl)).trans (pre_2 m ρ c H)
    rw [e]; rfl
  · exact mean'_2 m ρ c H
  · exact var'_2 m ρ c H
  · have e : (V17 m ρ c (Pipeline.arrRef spec9 3) : S1x128.Idx → EReal) = shapeCast S1x128 (row3 ![2, 0] Cert.ReferenceIdeal.Facts₀.slices_S3x128_S1x128_2_0 (arg4 m c)) Cert.KernelIdeal.Facts₀.shapeCasts_S128_S1x128 :=
      (((StableHlo.after_of_writes_sub hostOps9 _ hostOps9_writes (by decide : main_v117 ∉ hostOps9_W)).trans <|
  (W16_of_ne m ρ c main_v117 (by decide)).trans <| rfl)).trans ((g_2 m ρ c).trans (by rw [arg4_at14 m ρ c]))
    rw [e, row_reshape]
    funext j
    exact row3_apply ![2, 0] _ (arg4 m c) (2 : Fin 3) rfl rfl j
  · have e : (V17 m ρ c (Pipeline.arrRef spec9 4) : S1x128.Idx → EReal) = shapeCast S1x128 (row3 ![2, 0] Cert.ReferenceIdeal.Facts₀.slices_S3x128_S1x128_2_0 (arg5 m c)) Cert.KernelIdeal.Facts₀.shapeCasts_S128_S1x128 :=
      (((StableHlo.after_of_writes_sub hostOps9 _ hostOps9_writes (by decide : main_v120 ∉ hostOps9_W)).trans <|
  (W16_of_ne m ρ c main_v120 (by decide)).trans <| rfl)).trans ((be_2 m ρ c).trans (by rw [arg5_at14 m ρ c]))
    rw [e, row_reshape]
    funext j
    exact row3_apply ![2, 0] _ (arg5 m c) (2 : Fin 3) rfl rfl j

theorem out_2 (H : Reals m c) : (W19 m ρ c (Proc.devRef .tc main_v134) : S50000x128.Idx → EReal) = out2 (arg0 m c) (arg1 m c) (arg2 m c) (arg3 m c) (arg4 m c) (arg5 m c) (arg6 m c) (arg7 m c) (arg8 m c) (arg9 m c) := by
  apply eq_of_curry_eq
  rw [show (W19 m ρ c (Proc.devRef .tc main_v134) : S50000x128.Idx → EReal) = (LastLinear.dat (F := Ideal) (V18 m ρ) c).arrAt 3 cfg10.N from W19_arr m ρ c 3,
    LastLinearValue.out_eq (V18 m ρ) c]
  refine Eq.trans ?_ (curry_out2 (arg0 m c) (arg1 m c) (arg2 m c) (arg3 m c) (arg4 m c) (arg5 m c) (arg6 m c) (arg7 m c) (arg8 m c) (arg9 m c)).symm
  refine lin_congr ?_ ?_ ?_
  · have e0 : (V18 m ρ c (Pipeline.arrRef spec10 0) : S50000x128.Idx → EReal) = mid2 (arg0 m c) (arg1 m c) (arg2 m c) (arg3 m c) (arg4 m c) (arg5 m c) (arg6 m c) (arg7 m c) (arg8 m c) (arg9 m c) := mid_2 m ρ c H
    rw [e0]; rfl
  · have e1 : (V18 m ρ c (Pipeline.arrRef spec10 1) : S128x128.Idx → EReal) = mat3 ![2, 0, 0] Cert.ReferenceIdeal.Facts₀.slices_S3x128x128_S1x128x128_2_0_0 (arg6 m c) :=
      (((W18_of_ne m ρ c main_v122 (by decide)).trans <|
  (StableHlo.after_of_writes_sub hostOps9 _ hostOps9_writes (by decide : main_v122 ∉ hostOps9_W)).trans <|
  (W16_of_ne m ρ c main_v122 (by decide)).trans <| rfl)).trans ((w2_2 m ρ c).trans (by rw [arg6_at14 m ρ c]))
    rw [e1]
    funext k j
    exact mat3_apply ![2, 0, 0] _ (arg6 m c) (2 : Fin 3) rfl rfl rfl k j
  · have e2 : (V18 m ρ c (Pipeline.arrRef spec10 2) : S1x128.Idx → EReal) = shapeCast S1x128 (row3 ![2, 0] Cert.ReferenceIdeal.Facts₀.slices_S3x128_S1x128_2_0 (arg7 m c)) Cert.KernelIdeal.Facts₀.shapeCasts_S128_S1x128 :=
      (((W18_of_ne m ρ c main_v125 (by decide)).trans <|
  (StableHlo.after_of_writes_sub hostOps9 _ hostOps9_writes (by decide : main_v125 ∉ hostOps9_W)).trans <|
  (W16_of_ne m ρ c main_v125 (by decide)).trans <| rfl)).trans ((b2_2 m ρ c).trans (by rw [arg7_at14 m ρ c]))
    rw [e2, row_reshape]
    funext j
    exact row3_apply ![2, 0] _ (arg7 m c) (2 : Fin 3) rfl rfl j

/-- The kernel program's result is the reference's composed term of the ten arguments, for real entries. -/
theorem result_eq (m : (ℓ : Loc nD τ sig) → Buf (Elt Ideal) ℓ) (ρ : Dev nD → PrngReg) (c : Dev nD) (H : Reals m c) :
    (W20 m ρ c (Proc.devRef .tc main_v135) : S50000x128.Idx → EReal) = result (arg0 m c) (arg1 m c) (arg2 m c) (arg3 m c) (arg4 m c) (arg5 m c) (arg6 m c) (arg7 m c) (arg8 m c) (arg9 m c) := by
  apply eq_of_curry_eq
  rw [show (W20 m ρ c (Proc.devRef .tc main_v135) : S50000x128.Idx → EReal) = (RowNormalize.dat (F := Ideal) (V19 m ρ) c).arrAt 1 cfg11.N from W20_arr m ρ c 1,
    RowNormalizeValue.out_eq (V19 m ρ) c]
  refine Eq.trans ?_ (curry_result (arg0 m c) (arg1 m c) (arg2 m c) (arg3 m c) (arg4 m c) (arg5 m c) (arg6 m c) (arg7 m c) (arg8 m c) (arg9 m c)).symm
  have e : (V19 m ρ c (Pipeline.arrRef spec11 0) : S50000x128.Idx → EReal) = out2 (arg0 m c) (arg1 m c) (arg2 m c) (arg3 m c) (arg4 m c) (arg5 m c) (arg6 m c) (arg7 m c) (arg8 m c) (arg9 m c) := out_2 m ρ c H
  rw [e]; rfl

end Cert.KernelIdeal.Bridge

end
-- ==== Proof.Reference.PreReal.lean ====
/-
  From the precondition to real entries. The precondition is the conjunction, over the nine float
  argument arrays, of "every |x| is below the infinity word"; each conjunct is a reduction by
  `and` that came out one, so every comparison in it came out one; and an extended real whose
  absolute value is below +∞ is a real number.
-/
import proofs.«176586_j29291676959176_1_alg».proof.Pre_finite_inputs
import proofs.«176586_j29291676959176_1_alg».proof.Proof.LibBnStats
import Idealize.ShloMosaic.Lib.ReduceAll
import Idealize.ShloMosaic.Lib.ValueIdx
import Idealize.ShloMosaic.PureOps.Ideal.Laws

noncomputable section

namespace Cert.Pre_finite_inputs.Real

open Cert.Pre_finite_inputs Idealize.ShloMosaic Idealize.ShloMosaic.ValueIdx BnStats

/-- The word 0x7F800000 is +∞. -/
theorem ofBits_inf : Ideal.ofBits .f32 0x7F800000#32 = ⊤ := by simp [Ideal.ofBits, Ideal.ieee]

/-- An extended real whose absolute value compares below the infinity word is a real number. -/
theorem isReal_of_abs_lt_inf (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact ⟨r, rfl⟩
  | top => simp at h

instance : Subsingleton S_.Idx := ⟨fun a b => funext fun d => d.elim0⟩

/-- Both words of a conjunction that is one are one. -/
theorem andi_one {x y : IVec S_ 1} {i : S_.Idx} (h : andi x y i = 1#1) : x i = 1#1 ∧ y i = 1#1 :=
  IntOp.andi_eq_one.1 h

/-- One conjunct: all the comparisons of an array's absolute values with the infinity word came out one, so every
    entry of the array is real. -/
theorem entries_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) :
    ∀ i, IsReal (a i) := fun i =>
  isReal_of_abs_lt_inf (a i) (Host.reduce_andi_all _ _ hr hu ix0 h i)

variable [Facts]

/-- Where the precondition holds, every entry of the nine float argument arrays is a real number. -/
theorem entries_real_of_fn (a0 : FVec Ideal S50000x128 .f32) (a1 : IVec S2x800000 32) (a2 : FVec Ideal S3x128x128 .f32)
    (a3 a4 a5 : FVec Ideal S3x128 .f32) (a6 : FVec Ideal S3x128x128 .f32) (a7 : FVec Ideal S3x128 .f32)
    (a8 a9 : FVec Ideal S2x128 .f32)
    (h : fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ix0
  dsimp only [fn, fn_part1, fn_part2] at h0
  obtain ⟨h8, e9⟩ := andi_one h0
  obtain ⟨h7, e8⟩ := andi_one h8
  obtain ⟨h6, e7⟩ := andi_one h7
  obtain ⟨h5, e6⟩ := andi_one h6
  obtain ⟨h4, e5⟩ := andi_one h5
  obtain ⟨h3, e4⟩ := andi_one h4
  obtain ⟨h2, e3⟩ := andi_one h3
  obtain ⟨e0, e2⟩ := andi_one h2
  exact ⟨entries_real a0 _ _ _ e0, entries_real a2 _ _ _ e2, entries_real a3 _ _ _ e3, entries_real a4 _ _ _ e4,
    entries_real a5 _ _ _ e5, entries_real a6 _ _ _ e6, entries_real a7 _ _ _ e7, entries_real a8 _ _ _ e8,
    entries_real a9 _ _ _ e9⟩

end Cert.Pre_finite_inputs.Real

end
-- ==== Proof.Reference.PreArgs.lean ====
/-
  The precondition, stated of the reference's memory, gives real entries in its nine float
  argument arrays; so every stage of the reference, from such a memory, is a real array.
-/
import proofs.«176586_j29291676959176_1_alg».proof.Defs
import proofs.«176586_j29291676959176_1_alg».proof.Proof.Gen.Pre_finite_inputs
import proofs.«176586_j29291676959176_1_alg».proof.Proof.Reference.PreReal
import proofs.«176586_j29291676959176_1_alg».proof.Proof.Reference.AggReal

noncomputable section

namespace Cert.ReferenceIdeal.RefRun

open Cert.ReferenceIdeal Idealize.ShloMosaic Idealize.SL.Sem BnStats

/-- Where the precondition's function is one on ten arrays, the nine float ones have real entries. -/
theorem argsReal_of_fn [Cert.Pre_finite_inputs.Facts] (a0 : (⟨S50000x128, .f32⟩ : BufTy).Contents (Elt Ideal)) (a1 : (⟨S2x800000, .i32⟩ : BufTy).Contents (Elt Ideal))
    (a2 : (⟨S3x128x128, .f32⟩ : BufTy).Contents (Elt Ideal)) (a3 a4 a5 : (⟨S3x128, .f32⟩ : BufTy).Contents (Elt Ideal)) (a6 : (⟨S3x128x128, .f32⟩ : BufTy).Contents (Elt Ideal)) (a7 : (⟨S3x128, .f32⟩ : BufTy).Contents (Elt Ideal)) (a8 a9 : (⟨S2x128, .f32⟩ : BufTy).Contents (Elt Ideal))
    (h : Cert.Pre_finite_inputs.fn (F := Ideal) a0 a1 a2 a3 a4 a5 a6 a7 a8 a9 = fun _ => 1#1) :
    ArgsReal a0 a2 a3 a4 a5 a6 a7 a8 a9 := by
  obtain ⟨r0, r2, r3, r4, r5, r6, r7, r8, r9⟩ :=
    Cert.Pre_finite_inputs.Real.entries_real_of_fn a0 a1 a2 a3 a4 a5 a6 a7 a8 a9 h
  exact ⟨r0, r2, r3, r4, r5, r6, r7, r8, r9⟩

/-- From a memory of which the precondition holds, on every device. -/
theorem argsReal_of_pre [Cert.ReferenceIdeal.Facts] [Cert.Pre_finite_inputs.Facts]
    (m : (ℓ : Loc nD τ sig) → Buf (Elt Ideal) ℓ) (h : Cert.Pre_ReferenceIdeal m) (c : Dev nD) :
    ArgsReal (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) :=
  argsReal_of_fn _ (m ((c.tc : Thread nD τ).loc main_arg1)) _ _ _ _ _ _ _ _ (h c)

end Cert.ReferenceIdeal.RefRun

end
-- ==== Proof.Algebraic.lean ====
/-
  The two idealized programs end with equal results. The kernel program's result buffer ends at
  the last boundary's contents and its arguments end as launched; the reference's result is the
  composed network of its ten argument arrays, which the two memories share; and where the nine
  float arrays have real entries — which the precondition gives — the kernel's last boundary holds
  that same network of the arguments.
-/
import proofs.«176586_j29291676959176_1_alg».proof.Defs
import proofs.«176586_j29291676959176_1_alg».proof.Proof.Gen.Pre_finite_inputs
import proofs.«176586_j29291676959176_1_alg».proof.Proof.KernelIdeal.Run
import proofs.«176586_j29291676959176_1_alg».proof.Proof.Reference.Run
import proofs.«176586_j29291676959176_1_alg».proof.Proof.Reference.PreArgs
import proofs.«176586_j29291676959176_1_alg».proof.Proof.LibBnStats

noncomputable section

namespace Cert.Proof.Algebraic

open Idealize.ShloMosaic Idealize.SL.Sem Cert.ReferenceIdeal.RefRun

/-- From a memory of the kernel program of which the precondition holds, the nine float argument arrays have real
    entries, on every device. -/
theorem kernel_reals (m : (ℓ : Loc Cert.KernelIdeal.nD Cert.KernelIdeal.τ Cert.KernelIdeal.sig) → Buf (Elt Ideal) ℓ) (h : Cert.Pre_KernelIdeal m) (c : Dev Cert.KernelIdeal.nD) :
    ArgsReal (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) :=
  argsReal_of_fn _ (m ((c.tc : Thread Cert.KernelIdeal.nD Cert.KernelIdeal.τ).loc Cert.KernelIdeal.main_arg1)) _ _ _ _ _ _ _ _ (h c)

/-- The algebraic claim, from the one equation between the kernel program's last boundary at its result buffer and the
    reference's network of the arguments, for real argument arrays. -/
theorem algebraic_of
    (hb : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      ArgsReal (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) →
      (Cert.KernelIdeal.Run.W20 m ρ c (Proc.devRef .tc Cert.KernelIdeal.main_v135) : Cert.KernelIdeal.S50000x128.Idx → EReal)
        = result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))) :
    Cert.algebraic_KernelIdeal_ReferenceIdeal := by
  intro m g m' g' hpre hagree
  refine ⟨fun c => Cert.KernelIdeal.Run.W20 m g c (Proc.devRef .tc Cert.KernelIdeal.main_v135), ?_, ?_⟩
  · exact (θ_run (Cert.KernelIdeal.defs (F := Ideal)) _ _).mono
      (fun r h c => ⟨h c _ (Cert.KernelIdeal.Run.mem_uc Cert.KernelIdeal.main_v135 (by decide)),
        (h c _ (Cert.KernelIdeal.Run.mem_uc Cert.KernelIdeal.main_arg0 (by decide))).trans (Cert.KernelIdeal.Run.kept_arg0 m g c),
        (h c _ (Cert.KernelIdeal.Run.mem_uc Cert.KernelIdeal.main_arg1 (by decide))).trans (Cert.KernelIdeal.Run.kept_arg1 m g c),
        (h c _ (Cert.KernelIdeal.Run.mem_uc Cert.KernelIdeal.main_arg2 (by decide))).trans (Cert.KernelIdeal.Run.kept_arg2 m g c),
        (h c _ (Cert.KernelIdeal.Run.mem_uc Cert.KernelIdeal.main_arg3 (by decide))).trans (Cert.KernelIdeal.Run.kept_arg3 m g c),
        (h c _ (Cert.KernelIdeal.Run.mem_uc Cert.KernelIdeal.main_arg4 (by decide))).trans (Cert.KernelIdeal.Run.kept_arg4 m g c),
        (h c _ (Cert.KernelIdeal.Run.mem_uc Cert.KernelIdeal.main_arg5 (by decide))).trans (Cert.KernelIdeal.Run.kept_arg5 m g c),
        (h c _ (Cert.KernelIdeal.Run.mem_uc Cert.KernelIdeal.main_arg6 (by decide))).trans (Cert.KernelIdeal.Run.kept_arg6 m g c),
        (h c _ (Cert.KernelIdeal.Run.mem_uc Cert.KernelIdeal.main_arg7 (by decide))).trans (Cert.KernelIdeal.Run.kept_arg7 m g c),
        (h c _ (Cert.KernelIdeal.Run.mem_uc Cert.KernelIdeal.main_arg8 (by decide))).trans (Cert.KernelIdeal.Run.kept_arg8 m g c),
        (h c _ (Cert.KernelIdeal.Run.mem_uc Cert.KernelIdeal.main_arg9 (by decide))).trans (Cert.KernelIdeal.Run.kept_arg9 m g c)⟩)
      (Cert.KernelIdeal.Run.run (F := Ideal) m g)
  · exact (θ_run (Cert.ReferenceIdeal.defs (F := Ideal)) _ _).mono
      (fun r h c => ⟨by
          obtain ⟨a0, a1, a2, a3, a4, a5, a6, a7, a8, a9⟩ := hagree c
          rw [(h c).1, a0, a1, a2, a3, a4, a5, a6, a7, a8, a9]
          exact (hb m g c (kernel_reals m hpre c)).symm,
        (h c).2⟩)
      (run (F := Ideal) m' g')

end Cert.Proof.Algebraic

end
-- ==== Proof.lean ====
/-
  The claim: both printed kernel programs run to the end, fault nowhere and leave their arguments unchanged (each
  as a chain of host stretches and kernel regions); the reference program likewise (a chain of host operations);
  the idealization rewrote nothing; and at the ideal instance the kernel's result equals the reference's, for
  finite inputs.
-/
import proofs.«176586_j29291676959176_1_alg».proof.Defs
import proofs.«176586_j29291676959176_1_alg».proof.Proof.Gen.Kernel
import proofs.«176586_j29291676959176_1_alg».proof.Proof.Gen.KernelIdeal
import proofs.«176586_j29291676959176_1_alg».proof.Proof.Gen.ReferenceIdeal
import proofs.«176586_j29291676959176_1_alg».proof.Proof.Gen.Pre_finite_inputs
import proofs.«176586_j29291676959176_1_alg».proof.Proof.Kernel.Run
import proofs.«176586_j29291676959176_1_alg».proof.Proof.KernelIdeal.Run
import proofs.«176586_j29291676959176_1_alg».proof.Proof.Reference.Frame
import proofs.«176586_j29291676959176_1_alg».proof.Proof.KernelIdeal.Bridge
import proofs.«176586_j29291676959176_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Run.frame (F := Bits) m ρ,
  fun m ρ _ => Cert.KernelIdeal.Run.frame (F := Ideal) m ρ,
  Cert.ReferenceIdeal.RefRun.frame,
  trivial,
  Cert.Proof.Algebraic.algebraic_of Cert.KernelIdeal.Bridge.result_eq⟩

end Cert.Proof

end
